-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x320000 : Shape := ⟨2, ![2, 320000]⟩
abbrev S320000 : Shape := ⟨1, ![320000]⟩
abbrev S256x512 : Shape := ⟨2, ![256, 512]⟩
abbrev S512 : Shape := ⟨1, ![512]⟩
abbrev S512x768 : Shape := ⟨2, ![512, 768]⟩
abbrev S768 : Shape := ⟨1, ![768]⟩
abbrev S768x8 : Shape := ⟨2, ![768, 8]⟩
abbrev S8 : Shape := ⟨1, ![8]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S320000 : S_.BroadcastsInDim S320000 (![] : Fin 0 → Fin S320000.rank)
  reducesTo_S320000_S_d0 : S320000.ReducesTo [0] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x768 : S_.BroadcastsInDim S512x768 (![] : Fin 0 → Fin S512x768.rank)
  reducesTo_S512x768_S_d0_1 : S512x768.ReducesTo [0, 1] S_
  bcast_S_S768 : S_.BroadcastsInDim S768 (![] : Fin 0 → Fin S768.rank)
  reducesTo_S768_S_d0 : S768.ReducesTo [0] S_
  bcast_S_S768x8 : S_.BroadcastsInDim S768x8 (![] : Fin 0 → Fin S768x8.rank)
  reducesTo_S768x8_S_d0_1 : S768x8.ReducesTo [0, 1] S_
  bcast_S_S8 : S_.BroadcastsInDim S8 (![] : Fin 0 → Fin S8.rank)
  reducesTo_S8_S_d0 : S8.ReducesTo [0] S_
  bcast_S_S2x320000 : S_.BroadcastsInDim S2x320000 (![] : Fin 0 → Fin S2x320000.rank)
  reducesTo_S2x320000_S_d0_1 : S2x320000.ReducesTo [0, 1] S_

variable [Facts]

def fn_part2 {F : FTy → Type} [FloatOps F] (main_arg1 : IVec S2x320000 32) (main_arg8 : FVec F S8 .f32) (main_v33 : IVec S_ 1) : IVec S_ 1 :=
  let main_v34 : FVec F S8 .f32 := Host.absf main_arg8
  let main_cst_12 : FVec F S_ .f32 := constant S_ .f32 0x7F800000#32
  let main_v35 : FVec F S8 .f32 := broadcastInDim S8 ![] bcast_S_S8 main_cst_12
  let main_v36 : IVec S8 1 := cmpf .olt main_v34 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v33 main_v37
  let main_c_14 : IVec S_ 32 := constantI S_ 32 0#32
  let main_v39 : IVec S2x320000 32 := broadcastInDim S2x320000 ![] bcast_S_S2x320000 main_c_14
  let main_v40 : IVec S2x320000 1 := cmpi .sge main_arg1 main_v39
  let main_c_15 : IVec S_ 32 := constantI S_ 32 10000#32
  let main_v41 : IVec S2x320000 32 := broadcastInDim S2x320000 ![] bcast_S_S2x320000 main_c_15
  let main_v42 : IVec S2x320000 1 := cmpi .slt main_arg1 main_v41
  let main_v43 : IVec S2x320000 1 := andi main_v40 main_v42
  let main_c_16 : IVec S_ 1 := constantI S_ 1 1#1
  let main_v44 : IVec S_ 1 := (fun x v => Host.reduce IntOp.andi x v reducesTo_S2x320000_S_d0_1 h_S_) main_v43 main_c_16
  let main_v45 : IVec S_ 1 := andi main_v38 main_v44
  main_v45

def fn_part1 {F : FTy → Type} [FloatOps F] (main_arg1 : IVec S2x320000 32) (main_arg5 : FVec F S512x768 .f32) (main_arg6 : FVec F S768 .f32) (main_arg7 : FVec F S768x8 .f32) (main_arg8 : FVec F S8 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x768 .f32 := Host.absf main_arg5
  let main_cst_6 : FVec F S_ .f32 := constant S_ .f32 0x7F800000#32
  let main_v20 : FVec F S512x768 .f32 := broadcastInDim S512x768 ![] bcast_S_S512x768 main_cst_6
  let main_v21 : IVec S512x768 1 := cmpf .olt main_v19 main_v20
  let main_c_7 : IVec S_ 1 := constantI S_ 1 1#1
  let main_v22 : IVec S_ 1 := (fun x v => Host.reduce IntOp.andi x v reducesTo_S512x768_S_d0_1 h_S_) main_v21 main_c_7
  let main_v23 : IVec S_ 1 := andi main_v18 main_v22
  let main_v24 : FVec F S768 .f32 := Host.absf main_arg6
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  let main_v29 : FVec F S768x8 .f32 := Host.absf main_arg7
  let main_cst_10 : FVec F S_ .f32 := constant S_ .f32 0x7F800000#32
  let main_v30 : FVec F S768x8 .f32 := broadcastInDim S768x8 ![] bcast_S_S768x8 main_cst_10
  let main_v31 : IVec S768x8 1 := cmpf .olt main_v29 main_v30
  let main_c_11 : IVec S_ 1 := constantI S_ 1 1#1
  let main_v32 : IVec S_ 1 := (fun x v => Host.reduce IntOp.andi x v reducesTo_S768x8_S_d0_1 h_S_) main_v31 main_c_11
  let main_v33 : IVec S_ 1 := andi main_v28 main_v32
  fn_part2 (F := F) main_arg1 main_arg8 main_v33

def fn {F : FTy → Type} [FloatOps F] (main_arg0 : FVec F S10000x256 .f32) (main_arg1 : IVec S2x320000 32) (main_arg2 : FVec F S320000 .f32) (main_arg3 : FVec F S256x512 .f32) (main_arg4 : FVec F S512 .f32) (main_arg5 : FVec F S512x768 .f32) (main_arg6 : FVec F S768 .f32) (main_arg7 : FVec F S768x8 .f32) (main_arg8 : FVec F S8 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S320000 .f32 := Host.absf main_arg2
  let main_cst_0 : FVec F S_ .f32 := constant S_ .f32 0x7F800000#32
  let main_v5 : FVec F S320000 .f32 := broadcastInDim S320000 ![] bcast_S_S320000 main_cst_0
  let main_v6 : IVec S320000 1 := cmpf .olt main_v4 main_v5
  let main_c_1 : IVec S_ 1 := constantI S_ 1 1#1
  let main_v7 : IVec S_ 1 := (fun x v => Host.reduce IntOp.andi x v reducesTo_S320000_S_d0 h_S_) main_v6 main_c_1
  let main_v8 : IVec S_ 1 := andi main_v3 main_v7
  let main_v9 : FVec F S256x512 .f32 := Host.absf main_arg3
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg1 main_arg5 main_arg6 main_arg7 main_arg8 main_v13 main_v16
-- ==== Kernel.lean ====
abbrev S10000x256 : Shape := ⟨2, ![10000, 256]⟩
abbrev S2x320000 : Shape := ⟨2, ![2, 320000]⟩
abbrev S320000 : Shape := ⟨1, ![320000]⟩
abbrev S256x512 : Shape := ⟨2, ![256, 512]⟩
abbrev S512 : Shape := ⟨1, ![512]⟩
abbrev S512x768 : Shape := ⟨2, ![512, 768]⟩
abbrev S768 : Shape := ⟨1, ![768]⟩
abbrev S768x8 : Shape := ⟨2, ![768, 8]⟩
abbrev S8 : Shape := ⟨1, ![8]⟩
abbrev S1x320000 : Shape := ⟨2, ![1, 320000]⟩
abbrev S10000 : Shape := ⟨1, ![10000]⟩
abbrev S330000 : Shape := ⟨1, ![330000]⟩
abbrev S_ : Shape := ⟨0, ![]⟩
abbrev S330000x1 : Shape := ⟨2, ![330000, 1]⟩
abbrev S10240x10240 : Shape := ⟨2, ![10240, 10240]⟩
abbrev S330000x2 : Shape := ⟨2, ![330000, 2]⟩
abbrev S10240x256 : Shape := ⟨2, ![10240, 256]⟩
abbrev S768x128 : Shape := ⟨2, ![768, 128]⟩
abbrev S1x512 : Shape := ⟨2, ![1, 512]⟩
abbrev S1x768 : Shape := ⟨2, ![1, 768]⟩
abbrev S128 : Shape := ⟨1, ![128]⟩
abbrev S1x128 : Shape := ⟨2, ![1, 128]⟩
abbrev S10240x512 : Shape := ⟨2, ![10240, 512]⟩
abbrev S1024x2048 : Shape := ⟨2, ![1024, 2048]⟩
abbrev S2048x256 : Shape := ⟨2, ![2048, 256]⟩
abbrev S1024x512 : Shape := ⟨2, ![1024, 512]⟩
abbrev S1024x256 : Shape := ⟨2, ![1024, 256]⟩
abbrev S10240x768 : Shape := ⟨2, ![10240, 768]⟩
abbrev S2048x512 : Shape := ⟨2, ![2048, 512]⟩
abbrev S1024x768 : Shape := ⟨2, ![1024, 768]⟩
abbrev S10240x128 : Shape := ⟨2, ![10240, 128]⟩
abbrev S1024x128 : Shape := ⟨2, ![1024, 128]⟩
abbrev S2048x128 : Shape := ⟨2, ![2048, 128]⟩
abbrev S10000x8 : Shape := ⟨2, ![10000, 8]⟩

abbrev nBuf : Space → Nat
  | .hbm => 95
  | .vmem => 33
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S320000, .f32⟩
  | .hbm, ⟨3, _⟩ => ⟨S256x512, .f32⟩
  | .hbm, ⟨4, _⟩ => ⟨S512, .f32⟩
  | .hbm, ⟨5, _⟩ => ⟨S512x768, .f32⟩
  | .hbm, ⟨6, _⟩ => ⟨S768, .f32⟩
  | .hbm, ⟨7, _⟩ => ⟨S768x8, .f32⟩
  | .hbm, ⟨8, _⟩ => ⟨S8, .f32⟩
  | .hbm, ⟨9, _⟩ => ⟨S1x320000, .i32⟩
  | .hbm, ⟨10, _⟩ => ⟨S320000, .i32⟩
  | .hbm, ⟨11, _⟩ => ⟨S1x320000, .i32⟩
  | .hbm, ⟨12, _⟩ => ⟨S320000, .i32⟩
  | .hbm, ⟨13, _⟩ => ⟨S10000, .i32⟩
  | .hbm, ⟨14, _⟩ => ⟨S330000, .i32⟩
  | .hbm, ⟨15, _⟩ => ⟨S330000, .i32⟩
  | .hbm, ⟨16, _⟩ => ⟨S_, .f32⟩
  | .hbm, ⟨17, _⟩ => ⟨S10000, .f32⟩
  | .hbm, ⟨18, _⟩ => ⟨S330000, .f32⟩
  | .hbm, ⟨19, _⟩ => ⟨S_, .f32⟩
  | .hbm, ⟨20, _⟩ => ⟨S10000, .f32⟩
  | .hbm, ⟨21, _⟩ => ⟨S330000x1, .i32⟩
  | .hbm, ⟨22, _⟩ => ⟨S10000, .f32⟩
  | .hbm, ⟨23, _⟩ => ⟨S_, .f32⟩
  | .hbm, ⟨24, _⟩ => ⟨S10000, .f32⟩
  | .hbm, ⟨25, _⟩ => ⟨S10000, .i1⟩
  | .hbm, ⟨26, _⟩ => ⟨S10000, .f32⟩
  | .hbm, ⟨27, _⟩ => ⟨S_, .f32⟩
  | .hbm, ⟨28, _⟩ => ⟨S_, .f32⟩
  | .hbm, ⟨29, _⟩ => ⟨S10000, .f32⟩
  | .hbm, ⟨30, _⟩ => ⟨S10000, .f32⟩
  | .hbm, ⟨31, _⟩ => ⟨S_, .i32⟩
  | .hbm, ⟨32, _⟩ => ⟨S330000, .i32⟩
  | .hbm, ⟨33, _⟩ => ⟨S330000, .i1⟩
  | .hbm, ⟨34, _⟩ => ⟨S_, .i32⟩
  | .hbm, ⟨35, _⟩ => ⟨S330000, .i32⟩
  | .hbm, ⟨36, _⟩ => ⟨S330000, .i32⟩
  | .hbm, ⟨37, _⟩ => ⟨S330000, .i32⟩
  | .hbm, ⟨38, _⟩ => ⟨S330000x1, .i32⟩
  | .hbm, ⟨39, _⟩ => ⟨S330000, .f32⟩
  | .hbm, ⟨40, _⟩ => ⟨S330000, .f32⟩
  | .hbm, ⟨41, _⟩ => ⟨S_, .i32⟩
  | .hbm, ⟨42, _⟩ => ⟨S330000, .i32⟩
  | .hbm, ⟨43, _⟩ => ⟨S330000, .i1⟩
  | .hbm, ⟨44, _⟩ => ⟨S_, .i32⟩
  | .hbm, ⟨45, _⟩ => ⟨S330000, .i32⟩
  | .hbm, ⟨46, _⟩ => ⟨S330000, .i32⟩
  | .hbm, ⟨47, _⟩ => ⟨S330000, .i32⟩
  | .hbm, ⟨48, _⟩ => ⟨S330000x1, .i32⟩
  | .hbm, ⟨49, _⟩ => ⟨S330000, .f32⟩
  | .hbm, ⟨50, _⟩ => ⟨S330000, .f32⟩
  | .hbm, ⟨51, _⟩ => ⟨S_, .f32⟩
  | .hbm, ⟨52, _⟩ => ⟨S10240x10240, .f32⟩
  | .hbm, ⟨53, _⟩ => ⟨S_, .i32⟩
  | .hbm, ⟨54, _⟩ => ⟨S330000, .i32⟩
  | .hbm, ⟨55, _⟩ => ⟨S330000, .i1⟩
  | .hbm, ⟨56, _⟩ => ⟨S_, .i32⟩
  | .hbm, ⟨57, _⟩ => ⟨S330000, .i32⟩
  | .hbm, ⟨58, _⟩ => ⟨S330000, .i32⟩
  | .hbm, ⟨59, _⟩ => ⟨S330000, .i32⟩
  | .hbm, ⟨60, _⟩ => ⟨S_, .i32⟩
  | .hbm, ⟨61, _⟩ => ⟨S330000, .i32⟩
  | .hbm, ⟨62, _⟩ => ⟨S330000, .i1⟩
  | .hbm, ⟨63, _⟩ => ⟨S_, .i32⟩
  | .hbm, ⟨64, _⟩ => ⟨S330000, .i32⟩
  | .hbm, ⟨65, _⟩ => ⟨S330000, .i32⟩
  | .hbm, ⟨66, _⟩ => ⟨S330000, .i32⟩
  | .hbm, ⟨67, _⟩ => ⟨S330000x1, .i32⟩
  | .hbm, ⟨68, _⟩ => ⟨S330000x1, .i32⟩
  | .hbm, ⟨69, _⟩ => ⟨S330000x2, .i32⟩
  | .hbm, ⟨70, _⟩ => ⟨S10240x10240, .f32⟩
  | .hbm, ⟨71, _⟩ => ⟨S10240x10240, .bf16⟩
  | .hbm, ⟨72, _⟩ => ⟨S_, .i32⟩
  | .hbm, ⟨73, _⟩ => ⟨S_, .f32⟩
  | .hbm, ⟨74, _⟩ => ⟨S10240x256, .f32⟩
  | .hbm, ⟨75, _⟩ => ⟨S10240x256, .bf16⟩
  | .hbm, ⟨76, _⟩ => ⟨S256x512, .bf16⟩
  | .hbm, ⟨77, _⟩ => ⟨S512x768, .bf16⟩
  | .hbm, ⟨78, _⟩ => ⟨S_, .i32⟩
  | .hbm, ⟨79, _⟩ => ⟨S_, .f32⟩
  | .hbm, ⟨80, _⟩ => ⟨S768x128, .f32⟩
  | .hbm, ⟨81, _⟩ => ⟨S768x128, .bf16⟩
  | .hbm, ⟨82, _⟩ => ⟨S1x512, .f32⟩
  | .hbm, ⟨83, _⟩ => ⟨S1x768, .f32⟩
  | .hbm, ⟨84, _⟩ => ⟨S_, .i32⟩
  | .hbm, ⟨85, _⟩ => ⟨S_, .f32⟩
  | .hbm, ⟨86, _⟩ => ⟨S128, .f32⟩
  | .hbm, ⟨87, _⟩ => ⟨S1x128, .f32⟩
  | .hbm, ⟨88, _⟩ => ⟨S10240x512, .bf16⟩
  | .hbm, ⟨89, _⟩ => ⟨S10240x768, .bf16⟩
  | .hbm, ⟨90, _⟩ => ⟨S_, .f32⟩
  | .hbm, ⟨91, _⟩ => ⟨S1x128, .f32⟩
  | .hbm, ⟨92, _⟩ => ⟨S10240x128, .bf16⟩
  | .hbm, ⟨93, _⟩ => ⟨S10240x128, .f32⟩
  | .hbm, ⟨94, _⟩ => ⟨S10000x8, .f32⟩
  | .local _ .vmem, ⟨0, _⟩ => ⟨S1024x2048, .bf16⟩
  | .local _ .vmem, ⟨1, _⟩ => ⟨S1024x2048, .bf16⟩
  | .local _ .vmem, ⟨2, _⟩ => ⟨S2048x256, .bf16⟩
  | .local _ .vmem, ⟨3, _⟩ => ⟨S2048x256, .bf16⟩
  | .local _ .vmem, ⟨4, _⟩ => ⟨S256x512, .bf16⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | .local _ .vmem, ⟨8, _⟩ => ⟨S1024x256, .f32⟩
  | .local _ .vmem, ⟨9, _⟩ => ⟨S1024x2048, .bf16⟩
  | .local _ .vmem, ⟨10, _⟩ => ⟨S1024x2048, .bf16⟩
  | .local _ .vmem, ⟨11, _⟩ => ⟨S2048x512, .bf16⟩
  | .local _ .vmem, ⟨12, _⟩ => ⟨S2048x512, .bf16⟩
  | .local _ .vmem, ⟨13, _⟩ => ⟨S512x768, .bf16⟩
  | .local _ .vmem, ⟨14, _⟩ => ⟨S1x768, .f32⟩
  | .local _ .vmem, ⟨15, _⟩ => ⟨S1024x768, .bf16⟩
  | .local _ .vmem, ⟨16, _⟩ => ⟨S1024x768, .bf16⟩
  | .local _ .vmem, ⟨17, _⟩ => ⟨S1024x512, .f32⟩
  | .local _ .vmem, ⟨18, _⟩ => ⟨S1024x768, .bf16⟩
  | .local _ .vmem, ⟨19, _⟩ => ⟨S1024x768, .bf16⟩
  | .local _ .vmem, ⟨20, _⟩ => ⟨S768x128, .bf16⟩
  | .local _ .vmem, ⟨21, _⟩ => ⟨S1x128, .f32⟩
  | .local _ .vmem, ⟨22, _⟩ => ⟨S1024x128, .bf16⟩
  | .local _ .vmem, ⟨23, _⟩ => ⟨S1024x128, .bf16⟩
  | .local _ .vmem, ⟨24, _⟩ => ⟨S1024x128, .f32⟩
  | .local _ .vmem, ⟨25, _⟩ => ⟨S1024x2048, .bf16⟩
  | .local _ .vmem, ⟨26, _⟩ => ⟨S1024x2048, .bf16⟩
  | .local _ .vmem, ⟨27, _⟩ => ⟨S2048x128, .bf16⟩
  | .local _ .vmem, ⟨28, _⟩ => ⟨S2048x128, .bf16⟩
  | .local _ .vmem, ⟨29, _⟩ => ⟨S1x128, .f32⟩
  | .local _ .vmem, ⟨30, _⟩ => ⟨S1024x128, .f32⟩
  | .local _ .vmem, ⟨31, _⟩ => ⟨S1024x128, .f32⟩
  | .local _ .vmem, ⟨32, _⟩ => ⟨S1024x128, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_9 : Ref sig .tc := ⟨.hbm, 60, rfl⟩
abbrev main_v38 : Ref sig .tc := ⟨.hbm, 61, rfl⟩
abbrev main_v39 : Ref sig .tc := ⟨.hbm, 62, rfl⟩
abbrev main_c_10 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_11 : Ref sig .tc := ⟨.hbm, 72, rfl⟩
abbrev main_call1_v0 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_12 : Ref sig .tc := ⟨.hbm, 78, rfl⟩
abbrev main_call2_v0 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_13 : Ref sig .tc := ⟨.hbm, 84, rfl⟩
abbrev main_call3_v0 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_14 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc2_scratch0 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg3_1 : Ref sig .tc := ⟨.vmem, 31, rfl⟩
abbrev cc3_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem3_1 : DmaSem sig := 28

abbrev nD : Nat := 1
abbrev τ : Topo := Topo.v7x

variable {F : FTy → Type} [FloatOps F]

abbrev grid0 : Pipeline.Grid := ⟨2, ![10, 5], ![false, false]⟩

def k0_cond2 (i : grid0.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![10, 5], ![false, false]⟩

def k1_cond2 (i : grid1.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S512x768 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x768 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![10, 1], ![false, false]⟩

def k2_cond2 (i : grid2.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x768 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S768x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1024x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![10, 5], ![false, false]⟩

def k3_cond2 (i : grid3.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S1024x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  concatenates_S320000_S10000_S330000_d0 : Shape.Concatenates [S320000, S10000] S330000 0
  bcast_S_S10000 : S_.BroadcastsInDim S10000 (![] : Fin 0 → Fin S10000.rank)
  bcast_S330000_S330000x1_0 : S330000.BroadcastsInDim S330000x1 (![0] : Fin 1 → Fin S330000x1.rank)
  bcast_S_S330000 : S_.BroadcastsInDim S330000 (![] : Fin 0 → Fin S330000.rank)
  bcast_S_S10240x10240 : S_.BroadcastsInDim S10240x10240 (![] : Fin 0 → Fin S10240x10240.rank)
  concatenates_S330000x1_S330000x1_S330000x2_d1 : Shape.Concatenates [S330000x1, S330000x1] S330000x2 1
  bitsLt_bf16_f32 : FTy.bits .bf16 < FTy.bits .f32
  pads_S10000x256_S10240x256_02400_000 : S10000x256.Pads (![0, 0] : Fin 2 → Nat) ![240, 0] ![0, 0] S10240x256
  h_S_ : 0 < S_.numel
  pads_S768x8_S768x128_000_01200 : S768x8.Pads (![0, 0] : Fin 2 → Nat) ![0, 120] ![0, 0] S768x128
  shapeCasts_S512_S1x512 : S512.ShapeCasts S1x512
  shapeCasts_S768_S1x768 : S768.ShapeCasts S1x768
  pads_S8_S128_01200 : S8.Pads (![0] : Fin 1 → Nat) ![120] ![0] S128
  shapeCasts_S128_S1x128 : S128.ShapeCasts S1x128
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  packedbf16_S1024x512_S1024x512_0_0 : (Rect.unit (s := S1024x512) ![0, 0] S1024x512.size inb_S1024x512_S1024x512_0_0).PackedRows (EltTy.packing .bf16)
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  inb_S1024x768_S1024x768_0_0 : ∀ a, (![0, 0] : Fin 2 → Nat) a + S1024x768.size a ≤ S1024x768.size a
  h_S1024x768 : 0 < S1024x768.numel
  packedbf16_S1024x768_S1024x768_0_0 : (Rect.unit (s := S1024x768) ![0, 0] S1024x768.size inb_S1024x768_S1024x768_0_0).PackedRows (EltTy.packing .bf16)
  bcast_S_S1x128 : S_.BroadcastsInDim S1x128 (![] : Fin 0 → Fin S1x128.rank)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  shapeCasts_S1024x768_S1024x768 : S1024x768.ShapeCasts S1024x768
  inb_S768x128_S768x128_0_0 : ∀ a, (![0, 0] : Fin 2 → Nat) a + S768x128.size a ≤ S768x128.size a
  h_S768x128 : 0 < S768x128.numel
  shapeCasts_S768x128_S768x128 : S768x128.ShapeCasts S768x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  packedbf16_S1024x128_S1024x128_0_0 : (Rect.unit (s := S1024x128) ![0, 0] S1024x128.size inb_S1024x128_S1024x128_0_0).PackedRows (EltTy.packing .bf16)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  slices_S10240x128_S10000x8_0_0 : S10240x128.Slices ![0, 0] S10000x8
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  scatter_S10240x10240_S330000x2_S330000_n_01_01_1_wf : ScatterDims.WF S10240x10240 S330000x2 S330000 [] [0, 1] [0, 1] 1
  dot_S1024x2048_S2048x256_S1024x256_1_0_0_1_n_n_wf : DotDims.WF S1024x2048 S2048x256 S1024x256 [1] [0] [0] [1] [] []
  dot_S1024x256_S256x512_S1024x512_1_0_0_1_n_n_wf : DotDims.WF S1024x256 S256x512 S1024x512 [1] [0] [0] [1] [] []
  dot_S1024x2048_S2048x512_S1024x512_1_0_0_1_n_n_wf : DotDims.WF S1024x2048 S2048x512 S1024x512 [1] [0] [0] [1] [] []
  dot_S1024x512_S512x768_S1024x768_1_0_0_1_n_n_wf : DotDims.WF S1024x512 S512x768 S1024x768 [1] [0] [0] [1] [] []
  dot_S1024x768_S768x128_S1024x128_1_0_0_1_n_n_wf : DotDims.WF S1024x768 S768x128 S1024x128 [1] [0] [0] [1] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S10240x10240.size a
  hwx0_0 : ∀ i : grid0.Coords, EltTy.bits .bf16 = 32 ∨ (Rect.block (s := S10240x10240) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S10240x256.size a
  hwx0_1 : ∀ i : grid0.Coords, EltTy.bits .bf16 = 32 ∨ (Rect.block (s := S10240x256) S2048x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .bf16 = 32 ∨ (Rect.block (s := S256x512) S256x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S10240x512.size a
  hwx0_4 : ∀ i : grid0.Coords, EltTy.bits .bf16 = 32 ∨ (Rect.block (s := S10240x512) S1024x512.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S10240x10240.size a
  hwx1_0 : ∀ i : grid1.Coords, EltTy.bits .bf16 = 32 ∨ (Rect.block (s := S10240x10240) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S10240x512.size a
  hwx1_1 : ∀ i : grid1.Coords, EltTy.bits .bf16 = 32 ∨ (Rect.block (s := S10240x512) S2048x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x768.size a ≤ S512x768.size a
  hwx1_2 : ∀ i : grid1.Coords, EltTy.bits .bf16 = 32 ∨ (Rect.block (s := S512x768) S512x768.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x768.size a ≤ S1x768.size a
  hwx1_3 : ∀ i : grid1.Coords, EltTy.bits .f32 = 32 ∨ (Rect.block (s := S1x768) S1x768.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x768.size a ≤ S10240x768.size a
  hwx1_4 : ∀ i : grid1.Coords, EltTy.bits .bf16 = 32 ∨ (Rect.block (s := S10240x768) S1024x768.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x768.size a ≤ S10240x768.size a
  hwx2_0 : ∀ i : grid2.Coords, EltTy.bits .bf16 = 32 ∨ (Rect.block (s := S10240x768) S1024x768.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S768x128.size a ≤ S768x128.size a
  hwx2_1 : ∀ i : grid2.Coords, EltTy.bits .bf16 = 32 ∨ (Rect.block (s := S768x128) S768x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x128.size a ≤ S10240x128.size a
  hwx2_3 : ∀ i : grid2.Coords, EltTy.bits .bf16 = 32 ∨ (Rect.block (s := S10240x128) S1024x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x2048.size a ≤ S10240x10240.size a
  hwx3_0 : ∀ i : grid3.Coords, EltTy.bits .bf16 = 32 ∨ (Rect.block (s := S10240x10240) S1024x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x128.size a ≤ S10240x128.size a
  hwx3_1 : ∀ i : grid3.Coords, EltTy.bits .bf16 = 32 ∨ (Rect.block (s := S10240x128) S2048x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x128.size a ≤ S10240x128.size a
  hwx3_3 : ∀ i : grid3.Coords, EltTy.bits .f32 = 32 ∨ (Rect.block (s := S10240x128) S1024x128.size (cc3_transform_3 i) (hinb3_3 i)).WholeWords (EltTy.packing .f32)

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def scatter_S10240x10240_S330000x2_S330000_n_01_01_1 : ScatterDims S10240x10240 S330000x2 S330000 where
  updateWindowDims := []
  insertedWindowDims := [0, 1]
  scatterDimsToOperandDims := [0, 1]
  indexVectorDim := 1
  wf := scatter_S10240x10240_S330000x2_S330000_n_01_01_1_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf
def dot_S1024x512_S512x768_S1024x768_1_0_0_1_n_n : DotDims S1024x512 S512x768 S1024x768 where
  lhsContracting := [1]
  rhsContracting := [0]
  lhsNonContracting := [0]
  rhsNonContracting := [1]
  lhsBatch := []
  rhsBatch := []
  wf := dot_S1024x512_S512x768_S1024x768_1_0_0_1_n_n_wf
def dot_S1024x768_S768x128_S1024x128_1_0_0_1_n_n : DotDims S1024x768 S768x128 S1024x128 where
  lhsContracting := [1]
  rhsContracting := [0]
  lhsNonContracting := [0]
  rhsNonContracting := [1]
  lhsBatch := []
  rhsBatch := []
  wf := dot_S1024x768_S768x128_S1024x128_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_v47) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v49) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v50) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v54) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v58) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v47) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v58) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v51) S512x768.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55) S1x768.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v59) S1024x768.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v59) S1024x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S768x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S1024x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v47) S1024x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S2048x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v57) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v62) S1024x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S10000x256 : Shape := ⟨2, ![10000, 256]⟩
abbrev S2x320000 : Shape := ⟨2, ![2, 320000]⟩
abbrev S320000 : Shape := ⟨1, ![320000]⟩
abbrev S256x512 : Shape := ⟨2, ![256, 512]⟩
abbrev S512 : Shape := ⟨1, ![512]⟩
abbrev S512x768 : Shape := ⟨2, ![512, 768]⟩
abbrev S768 : Shape := ⟨1, ![768]⟩
abbrev S768x8 : Shape := ⟨2, ![768, 8]⟩
abbrev S8 : Shape := ⟨1, ![8]⟩
abbrev S1x320000 : Shape := ⟨2, ![1, 320000]⟩
abbrev S10000 : Shape := ⟨1, ![10000]⟩
abbrev S330000 : Shape := ⟨1, ![330000]⟩
abbrev S_ : Shape := ⟨0, ![]⟩
abbrev S330000x1 : Shape := ⟨2, ![330000, 1]⟩
abbrev S10000x512 : Shape := ⟨2, ![10000, 512]⟩
abbrev S330000x512 : Shape := ⟨2, ![330000, 512]⟩
abbrev S1x512 : Shape := ⟨2, ![1, 512]⟩
abbrev S10000x768 : Shape := ⟨2, ![10000, 768]⟩
abbrev S330000x768 : Shape := ⟨2, ![330000, 768]⟩
abbrev S1x768 : Shape := ⟨2, ![1, 768]⟩
abbrev S10000x8 : Shape := ⟨2, ![10000, 8]⟩
abbrev S330000x8 : Shape := ⟨2, ![330000, 8]⟩
abbrev S1x8 : Shape := ⟨2, ![1, 8]⟩

abbrev nBuf : Space → Nat
  | .hbm => 201
  | .vmem => 0
  | .smem => 0
  | _ => 0

abbrev hbmTy0_0 (i : Nat) : BufTy := match i % 128 with
  | 0 => ⟨S10000x256, .f32⟩
  | 1 => ⟨S2x320000, .i32⟩
  | 2 => ⟨S320000, .f32⟩
  | 3 => ⟨S256x512, .f32⟩
  | 4 => ⟨S512, .f32⟩
  | 5 => ⟨S512x768, .f32⟩
  | 6 => ⟨S768, .f32⟩
  | 7 => ⟨S768x8, .f32⟩
  | 8 => ⟨S8, .f32⟩
  | 9 => ⟨S1x320000, .i32⟩
  | 10 => ⟨S320000, .i32⟩
  | 11 => ⟨S1x320000, .i32⟩
  | 12 => ⟨S320000, .i32⟩
  | 13 => ⟨S10000, .i32⟩
  | 14 => ⟨S330000, .i32⟩
  | 15 => ⟨S330000, .i32⟩
  | 16 => ⟨S_, .f32⟩
  | 17 => ⟨S10000, .f32⟩
  | 18 => ⟨S330000, .f32⟩
  | 19 => ⟨S_, .f32⟩
  | 20 => ⟨S10000, .f32⟩
  | 21 => ⟨S330000x1, .i32⟩
  | 22 => ⟨S10000, .f32⟩
  | 23 => ⟨S_, .f32⟩
  | 24 => ⟨S10000, .f32⟩
  | 25 => ⟨S10000, .i1⟩
  | 26 => ⟨S10000, .f32⟩
  | 27 => ⟨S_, .f32⟩
  | 28 => ⟨S_, .f32⟩
  | 29 => ⟨S10000, .f32⟩
  | 30 => ⟨S10000, .f32⟩
  | 31 => ⟨S_, .i32⟩
  | 32 => ⟨S330000, .i32⟩
  | 33 => ⟨S330000, .i1⟩
  | 34 => ⟨S_, .i32⟩
  | 35 => ⟨S330000, .i32⟩
  | 36 => ⟨S330000, .i32⟩
  | 37 => ⟨S330000, .i32⟩
  | 38 => ⟨S330000x1, .i32⟩
  | 39 => ⟨S330000, .f32⟩
  | 40 => ⟨S330000, .f32⟩
  | 41 => ⟨S_, .i32⟩
  | 42 => ⟨S330000, .i32⟩
  | 43 => ⟨S330000, .i1⟩
  | 44 => ⟨S_, .i32⟩
  | 45 => ⟨S330000, .i32⟩
  | 46 => ⟨S330000, .i32⟩
  | 47 => ⟨S330000, .i32⟩
  | 48 => ⟨S330000x1, .i32⟩
  | 49 => ⟨S330000, .f32⟩
  | 50 => ⟨S330000, .f32⟩
  | 51 => ⟨S10000x512, .f32⟩
  | 52 => ⟨S330000x1, .f32⟩
  | 53 => ⟨S_, .i32⟩
  | 54 => ⟨S330000, .i32⟩
  | 55 => ⟨S330000, .i1⟩
  | 56 => ⟨S_, .i32⟩
  | 57 => ⟨S330000, .i32⟩
  | 58 => ⟨S330000, .i32⟩
  | 59 => ⟨S330000, .i32⟩
  | 60 => ⟨S330000x1, .i32⟩
  | 61 => ⟨S330000x512, .f32⟩
  | 62 => ⟨S330000x512, .f32⟩
  | 63 => ⟨S330000x512, .f32⟩
  | 64 => ⟨S_, .f32⟩
  | 65 => ⟨S10000x512, .f32⟩
  | 66 => ⟨S330000x1, .i32⟩
  | 67 => ⟨S10000x512, .f32⟩
  | 68 => ⟨S1x512, .f32⟩
  | 69 => ⟨S10000x512, .f32⟩
  | 70 => ⟨S10000x512, .f32⟩
  | 71 => ⟨S_, .f32⟩
  | 72 => ⟨S10000x512, .f32⟩
  | 73 => ⟨S10000x512, .f32⟩
  | 74 => ⟨S1x320000, .i32⟩
  | 75 => ⟨S320000, .i32⟩
  | 76 => ⟨S1x320000, .i32⟩
  | 77 => ⟨S320000, .i32⟩
  | 78 => ⟨S10000, .i32⟩
  | 79 => ⟨S330000, .i32⟩
  | 80 => ⟨S330000, .i32⟩
  | 81 => ⟨S_, .f32⟩
  | 82 => ⟨S10000, .f32⟩
  | 83 => ⟨S330000, .f32⟩
  | 84 => ⟨S_, .f32⟩
  | 85 => ⟨S10000, .f32⟩
  | 86 => ⟨S330000x1, .i32⟩
  | 87 => ⟨S10000, .f32⟩
  | 88 => ⟨S_, .f32⟩
  | 89 => ⟨S10000, .f32⟩
  | 90 => ⟨S10000, .i1⟩
  | 91 => ⟨S10000, .f32⟩
  | 92 => ⟨S_, .f32⟩
  | 93 => ⟨S_, .f32⟩
  | 94 => ⟨S10000, .f32⟩
  | 95 => ⟨S10000, .f32⟩
  | 96 => ⟨S_, .i32⟩
  | 97 => ⟨S330000, .i32⟩
  | 98 => ⟨S330000, .i1⟩
  | 99 => ⟨S_, .i32⟩
  | 100 => ⟨S330000, .i32⟩
  | 101 => ⟨S330000, .i32⟩
  | 102 => ⟨S330000, .i32⟩
  | 103 => ⟨S330000x1, .i32⟩
  | 104 => ⟨S330000, .f32⟩
  | 105 => ⟨S330000, .f32⟩
  | 106 => ⟨S_, .i32⟩
  | 107 => ⟨S330000, .i32⟩
  | 108 => ⟨S330000, .i1⟩
  | 109 => ⟨S_, .i32⟩
  | 110 => ⟨S330000, .i32⟩
  | 111 => ⟨S330000, .i32⟩
  | 112 => ⟨S330000, .i32⟩
  | 113 => ⟨S330000x1, .i32⟩
  | 114 => ⟨S330000, .f32⟩
  | 115 => ⟨S330000, .f32⟩
  | 116 => ⟨S10000x768, .f32⟩
  | 117 => ⟨S330000x1, .f32⟩
  | 118 => ⟨S_, .i32⟩
  | 119 => ⟨S330000, .i32⟩
  | 120 => ⟨S330000, .i1⟩
  | 121 => ⟨S_, .i32⟩
  | 122 => ⟨S330000, .i32⟩
  | 123 => ⟨S330000, .i32⟩
  | 124 => ⟨S330000, .i32⟩
  | 125 => ⟨S330000x1, .i32⟩
  | 126 => ⟨S330000x768, .f32⟩
  | 127 => ⟨S330000x768, .f32⟩
  | _ => ⟨S10000x256, .f32⟩

abbrev hbmTy0_1 (i : Nat) : BufTy := match i % 128 with
  | 0 => ⟨S330000x768, .f32⟩
  | 1 => ⟨S_, .f32⟩
  | 2 => ⟨S10000x768, .f32⟩
  | 3 => ⟨S330000x1, .i32⟩
  | 4 => ⟨S10000x768, .f32⟩
  | 5 => ⟨S1x768, .f32⟩
  | 6 => ⟨S10000x768, .f32⟩
  | 7 => ⟨S10000x768, .f32⟩
  | 8 => ⟨S_, .f32⟩
  | 9 => ⟨S10000x768, .f32⟩
  | 10 => ⟨S10000x768, .f32⟩
  | 11 => ⟨S1x320000, .i32⟩
  | 12 => ⟨S320000, .i32⟩
  | 13 => ⟨S1x320000, .i32⟩
  | 14 => ⟨S320000, .i32⟩
  | 15 => ⟨S10000, .i32⟩
  | 16 => ⟨S330000, .i32⟩
  | 17 => ⟨S330000, .i32⟩
  | 18 => ⟨S_, .f32⟩
  | 19 => ⟨S10000, .f32⟩
  | 20 => ⟨S330000, .f32⟩
  | 21 => ⟨S_, .f32⟩
  | 22 => ⟨S10000, .f32⟩
  | 23 => ⟨S330000x1, .i32⟩
  | 24 => ⟨S10000, .f32⟩
  | 25 => ⟨S_, .f32⟩
  | 26 => ⟨S10000, .f32⟩
  | 27 => ⟨S10000, .i1⟩
  | 28 => ⟨S10000, .f32⟩
  | 29 => ⟨S_, .f32⟩
  | 30 => ⟨S_, .f32⟩
  | 31 => ⟨S10000, .f32⟩
  | 32 => ⟨S10000, .f32⟩
  | 33 => ⟨S_, .i32⟩
  | 34 => ⟨S330000, .i32⟩
  | 35 => ⟨S330000, .i1⟩
  | 36 => ⟨S_, .i32⟩
  | 37 => ⟨S330000, .i32⟩
  | 38 => ⟨S330000, .i32⟩
  | 39 => ⟨S330000, .i32⟩
  | 40 => ⟨S330000x1, .i32⟩
  | 41 => ⟨S330000, .f32⟩
  | 42 => ⟨S330000, .f32⟩
  | 43 => ⟨S_, .i32⟩
  | 44 => ⟨S330000, .i32⟩
  | 45 => ⟨S330000, .i1⟩
  | 46 => ⟨S_, .i32⟩
  | 47 => ⟨S330000, .i32⟩
  | 48 => ⟨S330000, .i32⟩
  | 49 => ⟨S330000, .i32⟩
  | 50 => ⟨S330000x1, .i32⟩
  | 51 => ⟨S330000, .f32⟩
  | 52 => ⟨S330000, .f32⟩
  | 53 => ⟨S10000x8, .f32⟩
  | 54 => ⟨S330000x1, .f32⟩
  | 55 => ⟨S_, .i32⟩
  | 56 => ⟨S330000, .i32⟩
  | 57 => ⟨S330000, .i1⟩
  | 58 => ⟨S_, .i32⟩
  | 59 => ⟨S330000, .i32⟩
  | 60 => ⟨S330000, .i32⟩
  | 61 => ⟨S330000, .i32⟩
  | 62 => ⟨S330000x1, .i32⟩
  | 63 => ⟨S330000x8, .f32⟩
  | 64 => ⟨S330000x8, .f32⟩
  | 65 => ⟨S330000x8, .f32⟩
  | 66 => ⟨S_, .f32⟩
  | 67 => ⟨S10000x8, .f32⟩
  | 68 => ⟨S330000x1, .i32⟩
  | 69 => ⟨S10000x8, .f32⟩
  | 70 => ⟨S1x8, .f32⟩
  | 71 => ⟨S10000x8, .f32⟩
  | 72 => ⟨S10000x8, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_9 : Ref sig .tc := ⟨.hbm, 81, rfl⟩
abbrev main_v57 : Ref sig .tc := ⟨.hbm, 82, rfl⟩
abbrev main_v58 : Ref sig .tc := ⟨.hbm, 83, rfl⟩
abbrev main_cst_10 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_11 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_12 : Ref sig .tc := ⟨.hbm, 92, rfl⟩
abbrev main_call2_v0 : Ref sig .tc := ⟨.hbm, 93, rfl⟩
abbrev main_call2_v1 : Ref sig .tc := ⟨.hbm, 94, rfl⟩
abbrev main_v65 : Ref sig .tc := ⟨.hbm, 95, rfl⟩
abbrev main_c_13 : Ref sig .tc := ⟨.hbm, 96, rfl⟩
abbrev main_v66 : Ref sig .tc := ⟨.hbm, 97, rfl⟩
abbrev main_v67 : Ref sig .tc := ⟨.hbm, 98, rfl⟩
abbrev main_c_14 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_c_15 : Ref sig .tc := ⟨.hbm, 106, rfl⟩
abbrev main_v74 : Ref sig .tc := ⟨.hbm, 107, rfl⟩
abbrev main_v75 : Ref sig .tc := ⟨.hbm, 108, rfl⟩
abbrev main_c_16 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_c_17 : Ref sig .tc := ⟨.hbm, 118, rfl⟩
abbrev main_v84 : Ref sig .tc := ⟨.hbm, 119, rfl⟩
abbrev main_v85 : Ref sig .tc := ⟨.hbm, 120, rfl⟩
abbrev main_c_18 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_19 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_call3_cst : Ref sig .tc := ⟨.hbm, 136, rfl⟩
abbrev main_call3_v0 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_20 : Ref sig .tc := ⟨.hbm, 146, rfl⟩
abbrev main_v107 : Ref sig .tc := ⟨.hbm, 147, rfl⟩
abbrev main_v108 : Ref sig .tc := ⟨.hbm, 148, rfl⟩
abbrev main_cst_21 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_cst_22 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_cst_23 : Ref sig .tc := ⟨.hbm, 157, rfl⟩
abbrev main_call4_v0 : Ref sig .tc := ⟨.hbm, 158, rfl⟩
abbrev main_call4_v1 : Ref sig .tc := ⟨.hbm, 159, rfl⟩
abbrev main_v115 : Ref sig .tc := ⟨.hbm, 160, rfl⟩
abbrev main_c_24 : Ref sig .tc := ⟨.hbm, 161, rfl⟩
abbrev main_v116 : Ref sig .tc := ⟨.hbm, 162, rfl⟩
abbrev main_v117 : Ref sig .tc := ⟨.hbm, 163, rfl⟩
abbrev main_c_25 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_c_26 : Ref sig .tc := ⟨.hbm, 171, rfl⟩
abbrev main_v124 : Ref sig .tc := ⟨.hbm, 172, rfl⟩
abbrev main_v125 : Ref sig .tc := ⟨.hbm, 173, rfl⟩
abbrev main_c_27 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_c_28 : Ref sig .tc := ⟨.hbm, 183, rfl⟩
abbrev main_v134 : Ref sig .tc := ⟨.hbm, 184, rfl⟩
abbrev main_v135 : Ref sig .tc := ⟨.hbm, 185, rfl⟩
abbrev main_c_29 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_cst_30 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  concatenates_S320000_S10000_S330000_d0 : Shape.Concatenates [S320000, S10000] S330000 0
  bcast_S_S10000 : S_.BroadcastsInDim S10000 (![] : Fin 0 → Fin S10000.rank)
  bcast_S330000_S330000x1_0 : S330000.BroadcastsInDim S330000x1 (![0] : Fin 1 → Fin S330000x1.rank)
  bcast_S_S330000 : S_.BroadcastsInDim S330000 (![] : Fin 0 → Fin S330000.rank)
  bcast_S330000x1_S330000x512_0_1 : S330000x1.BroadcastsInDim S330000x512 (![0, 1] : Fin 2 → Fin S330000x512.rank)
  bcast_S_S10000x512 : S_.BroadcastsInDim S10000x512 (![] : Fin 0 → Fin S10000x512.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S330000x1_S330000x768_0_1 : S330000x1.BroadcastsInDim S330000x768 (![0, 1] : Fin 2 → Fin S330000x768.rank)
  bcast_S_S10000x768 : S_.BroadcastsInDim S10000x768 (![] : Fin 0 → Fin S10000x768.rank)
  bcast_S768_S1x768_1 : S768.BroadcastsInDim S1x768 (![1] : Fin 1 → Fin S1x768.rank)
  bcast_S1x768_S10000x768_0_1 : S1x768.BroadcastsInDim S10000x768 (![0, 1] : Fin 2 → Fin S10000x768.rank)
  bcast_S330000x1_S330000x8_0_1 : S330000x1.BroadcastsInDim S330000x8 (![0, 1] : Fin 2 → Fin S330000x8.rank)
  bcast_S_S10000x8 : S_.BroadcastsInDim S10000x8 (![] : Fin 0 → Fin S10000x8.rank)
  bcast_S8_S1x8_1 : S8.BroadcastsInDim S1x8 (![1] : Fin 1 → Fin S1x8.rank)
  bcast_S1x8_S10000x8_0_1 : S1x8.BroadcastsInDim S10000x8 (![0, 1] : Fin 2 → Fin S10000x8.rank)
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  dot_S10000x256_S256x512_S10000x512_1_0_0_1_n_n_wf : DotDims.WF S10000x256 S256x512 S10000x512 [1] [0] [0] [1] [] []
  gather_S10000x512_S330000x1_S330000x512_1_0_n_n_0_1_1512_wf : GatherDims.WF S10000x512 S330000x1 S330000x512 [1] [0] [] [0] [] 1 ![1, 512]
  scatter_S10000x512_S330000x1_S330000x512_1_0_0_1_wf : ScatterDims.WF S10000x512 S330000x1 S330000x512 [1] [0] [0] 1
  dot_S10000x512_S512x768_S10000x768_1_0_0_1_n_n_wf : DotDims.WF S10000x512 S512x768 S10000x768 [1] [0] [0] [1] [] []
  gather_S10000x768_S330000x1_S330000x768_1_0_n_n_0_1_1768_wf : GatherDims.WF S10000x768 S330000x1 S330000x768 [1] [0] [] [0] [] 1 ![1, 768]
  scatter_S10000x768_S330000x1_S330000x768_1_0_0_1_wf : ScatterDims.WF S10000x768 S330000x1 S330000x768 [1] [0] [0] 1
  dot_S10000x768_S768x8_S10000x8_1_0_0_1_n_n_wf : DotDims.WF S10000x768 S768x8 S10000x8 [1] [0] [0] [1] [] []
  gather_S10000x8_S330000x1_S330000x8_1_0_n_n_0_1_18_wf : GatherDims.WF S10000x8 S330000x1 S330000x8 [1] [0] [] [0] [] 1 ![1, 8]
  scatter_S10000x8_S330000x1_S330000x8_1_0_0_1_wf : ScatterDims.WF S10000x8 S330000x1 S330000x8 [1] [0] [0] 1

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def dot_S10000x256_S256x512_S10000x512_1_0_0_1_n_n : DotDims S10000x256 S256x512 S10000x512 where
  lhsContracting := [1]
  rhsContracting := [0]
  lhsNonContracting := [0]
  rhsNonContracting := [1]
  lhsBatch := []
  rhsBatch := []
  wf := dot_S10000x256_S256x512_S10000x512_1_0_0_1_n_n_wf
def gather_S10000x512_S330000x1_S330000x512_1_0_n_n_0_1_1512 : GatherDims S10000x512 S330000x1 S330000x512 where
  offsetDims := [1]
  collapsedSliceDims := [0]
  operandBatchingDims := []
  startIndicesBatchingDims := []
  startIndexMap := [0]
  indexVectorDim := 1
  sliceSizes := ![1, 512]
  wf := gather_S10000x512_S330000x1_S330000x512_1_0_n_n_0_1_1512_wf
def scatter_S10000x512_S330000x1_S330000x512_1_0_0_1 : ScatterDims S10000x512 S330000x1 S330000x512 where
  updateWindowDims := [1]
  insertedWindowDims := [0]
  scatterDimsToOperandDims := [0]
  indexVectorDim := 1
  wf := scatter_S10000x512_S330000x1_S330000x512_1_0_0_1_wf
def dot_S10000x512_S512x768_S10000x768_1_0_0_1_n_n : DotDims S10000x512 S512x768 S10000x768 where
  lhsContracting := [1]
  rhsContracting := [0]
  lhsNonContracting := [0]
  rhsNonContracting := [1]
  lhsBatch := []
  rhsBatch := []
  wf := dot_S10000x512_S512x768_S10000x768_1_0_0_1_n_n_wf
def gather_S10000x768_S330000x1_S330000x768_1_0_n_n_0_1_1768 : GatherDims S10000x768 S330000x1 S330000x768 where
  offsetDims := [1]
  collapsedSliceDims := [0]
  operandBatchingDims := []
  startIndicesBatchingDims := []
  startIndexMap := [0]
  indexVectorDim := 1
  sliceSizes := ![1, 768]
  wf := gather_S10000x768_S330000x1_S330000x768_1_0_n_n_0_1_1768_wf
def scatter_S10000x768_S330000x1_S330000x768_1_0_0_1 : ScatterDims S10000x768 S330000x1 S330000x768 where
  updateWindowDims := [1]
  insertedWindowDims := [0]
  scatterDimsToOperandDims := [0]
  indexVectorDim := 1
  wf := scatter_S10000x768_S330000x1_S330000x768_1_0_0_1_wf
def dot_S10000x768_S768x8_S10000x8_1_0_0_1_n_n : DotDims S10000x768 S768x8 S10000x8 where
  lhsContracting := [1]
  rhsContracting := [0]
  lhsNonContracting := [0]
  rhsNonContracting := [1]
  lhsBatch := []
  rhsBatch := []
  wf := dot_S10000x768_S768x8_S10000x8_1_0_0_1_n_n_wf
def gather_S10000x8_S330000x1_S330000x8_1_0_n_n_0_1_18 : GatherDims S10000x8 S330000x1 S330000x8 where
  offsetDims := [1]
  collapsedSliceDims := [0]
  operandBatchingDims := []
  startIndicesBatchingDims := []
  startIndexMap := [0]
  indexVectorDim := 1
  sliceSizes := ![1, 8]
  wf := gather_S10000x8_S330000x1_S330000x8_1_0_n_n_0_1_18_wf
def scatter_S10000x8_S330000x1_S330000x8_1_0_0_1 : ScatterDims S10000x8 S330000x1 S330000x8 where
  updateWindowDims := [1]
  insertedWindowDims := [0]
  scatterDimsToOperandDims := [0]
  indexVectorDim := 1
  wf := scatter_S10000x8_S330000x1_S330000x8_1_0_0_1_wf

class Facts : Prop extends Facts₀ where

variable [Facts]
-- ==== Proof.K.R0Runs.lean ====
import proofs.«179401_j66675072303277_2_alg».proof.Proof.Gen.Kernel.Launch
import proofs.«179401_j66675072303277_2_alg».proof.Proof.Gen.Kernel.Skeleton
import proofs.«179401_j66675072303277_2_alg».proof.Proof.Gen.Kernel.Points
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the conditions of its two branches, where its output is idle, and the body run case by case

The body resets the accumulator at the first step of the second grid axis, adds one product of blocks at every step, and at the last
step computes the output block from the accumulator, the weights and the bias row. -/

/-- The first step along the second grid axis. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 5 = 0 :=
  (by decide +kernel : ∀ t : Fin grid0.N, cond0_0 (grid0.coords t) ↔ t.val % 5 = 0)
/-- The last step along the second grid axis. -/
abbrev cond0_1 (i : grid0.Coords) : Prop := k0_cond2 i = 1#1
theorem hcond0_1 : ∀ t : Fin cfg0.N, cond0_1 (grid0.coords t) ↔ t.val % 5 = 4 :=
  (by decide +kernel : ∀ t : Fin grid0.N, cond0_1 (grid0.coords t) ↔ t.val % 5 = 4)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last step the output window is idle and not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-- The staging memrefs the body is called with at point `t`, and the accumulator. -/
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x512 .bf16 := win0_4.stage (cfg0.slots t 4)
abbrev hs0_4 (t : Fin cfg0.N) : (ms0_4 t).IsWhole := hstage0_4 ((cfg0.slots t 4).cast nbuf0_4)
abbrev scM0 : Memref sig .tc .vmem S1024x256 .f32 := Memref.whole cc0_scratch0
abbrev VS0 : View sig .tc .vmem S1024x256 .f32 := (scM0).view
abbrev VO0 : View sig .tc .vmem S1024x512 .bf16 := (Memref.whole cc0_stg4_0 : Memref sig .tc .vmem S1024x512 .bf16).view

/-- The other scoped buffers of the program, unopened: what the invariant carries beside the accumulator and the generator register. -/
abbrev RestB0 (c : Dev nD) : sProp 𝕄 :=
  Pipeline.scopedRestBut (Ix := Unit) (Name := ℕ) (U := UR sig nD τ) (Lvl := ℕ) (Val := Elt F) spec0 c [cc0_scratch0]

/-- The class invariant, with the accumulator split off as a whole memref at some contents. -/
theorem PhiA0_eq (c : Dev nD) :
    (Pipeline.ΦA spec0 c : sProp 𝕄) = iprop(((∃ d, owns (c : Thread nD τ) scM0 fullShare d) ∗ RestB0 c) ∗ ∃ r, prngReg c r) := by
  unfold Pipeline.ΦA; rw [scopedRest0_split]; simp only [scM0, owns_whole]; try rfl

/-! ## The body, case by case -/

set_option maxHeartbeats 1000000 in
/-- FIRST STEP (not the last): the accumulator, found at anything, is reset and one product added; the output's buffer is handed back untouched. -/
noncomputable def kernelRun0_A (c : Dev nD) (i : grid0.Coords) (arg2 : Memref sig .tc .vmem S1024x2048 .bf16) (harg2 : arg2.IsWhole) (arg3 : Memref sig .tc .vmem S2048x256 .bf16) (harg3 : arg3.IsWhole) (arg4 : Memref sig .tc .vmem S256x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x256 .f32) (harg7 : arg7.IsWhole) (hc0 : cond0_0 i) (hc1 : ¬cond0_1 i)
    (x0 : Vec F S1024x2048 .bf16) (x1 : Vec F S2048x256 .bf16) (x2 : Vec F S256x512 .bf16) (x3 : Vec F S1x512 .f32) :
    { LS : List (View.Piece (Elt F) S1024x256 .f32) //
      ∀ (xi : Vec F S1024x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc0_kernel i arg2 harg2 arg3 harg3 arg4 harg4 arg5 harg5 arg6 harg6 arg7 harg7) K } := by
  refine ⟨?_, fun xi E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

set_option maxHeartbeats 1000000 in
/-- AN INNER STEP: one product is added to the accumulator found at `xs`; the output's buffer is handed back untouched. -/
noncomputable def kernelRun0_B (c : Dev nD) (i : grid0.Coords) (arg2 : Memref sig .tc .vmem S1024x2048 .bf16) (harg2 : arg2.IsWhole) (arg3 : Memref sig .tc .vmem S2048x256 .bf16) (harg3 : arg3.IsWhole) (arg4 : Memref sig .tc .vmem S256x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x256 .f32) (harg7 : arg7.IsWhole) (hc0 : ¬cond0_0 i) (hc1 : ¬cond0_1 i)
    (x0 : Vec F S1024x2048 .bf16) (x1 : Vec F S2048x256 .bf16) (x2 : Vec F S256x512 .bf16) (x3 : Vec F S1x512 .f32) (xs : Vec F S1024x256 .f32) :
    { LS : List (View.Piece (Elt F) S1024x256 .f32) //
      ∀ (xi : Vec F S1024x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc0_kernel i arg2 harg2 arg3 harg3 arg4 harg4 arg5 harg5 arg6 harg6 arg7 harg7) K } := by
  refine ⟨?_, fun xi E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

set_option maxHeartbeats 1000000 in
/-- THE LAST STEP (not the first): one product is added to the accumulator found at `xs`, and the output block is computed from it and stored whole. -/
noncomputable def kernelRun0_C (c : Dev nD) (i : grid0.Coords) (arg2 : Memref sig .tc .vmem S1024x2048 .bf16) (harg2 : arg2.IsWhole) (arg3 : Memref sig .tc .vmem S2048x256 .bf16) (harg3 : arg3.IsWhole) (arg4 : Memref sig .tc .vmem S256x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x256 .f32) (harg7 : arg7.IsWhole) (hc0 : ¬cond0_0 i) (hc1 : cond0_1 i)
    (x0 : Vec F S1024x2048 .bf16) (x1 : Vec F S2048x256 .bf16) (x2 : Vec F S256x512 .bf16) (x3 : Vec F S1x512 .f32) (xs : Vec F S1024x256 .f32) :
    Σ' (LO : List (View.Piece (Elt F) S1024x512 .bf16)), { LS : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc0_kernel i arg2 harg2 arg3 harg3 arg4 harg4 arg5 harg5 arg6 harg6 arg7 harg7) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.Kernel.Hand

end
-- ==== Proof.K.R0.lean ====
import proofs.«179401_j66675072303277_2_alg».proof.Proof.K.R0Runs
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: what each point leaves, the proof data, the body obligation

All stated at the contents `V` the region finds in the program's buffers when it is entered. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves: its stores read back -/

/-- The accumulator's stores at the first step cover it. -/
theorem scover0_A {c : Dev nD} {i : grid0.Coords} {arg2 : Memref sig .tc .vmem S1024x2048 .bf16} {harg2 : arg2.IsWhole} {arg3 : Memref sig .tc .vmem S2048x256 .bf16} {harg3 : arg3.IsWhole} {arg4 : Memref sig .tc .vmem S256x512 .bf16} {harg4 : arg4.IsWhole} {arg5 : Memref sig .tc .vmem S1x512 .f32} {harg5 : arg5.IsWhole} {arg6 : Memref sig .tc .vmem S1024x512 .bf16} {harg6 : arg6.IsWhole} {arg7 : Memref sig .tc .vmem S1024x256 .f32} {harg7 : arg7.IsWhole} {hc0 : cond0_0 i} {hc1 : ¬cond0_1 i} {x0 : Vec F S1024x2048 .bf16} {x1 : Vec F S2048x256 .bf16} {x2 : Vec F S256x512 .bf16} {x3 : Vec F S1x512 .f32} (y : S1024x256.Idx) :
    ∃ pc ∈ (kernelRun0_A c i arg2 harg2 arg3 harg3 arg4 harg4 arg5 harg5 arg6 harg6 arg7 harg7 hc0 hc1 x0 x1 x2 x3).1, y ∈ pc.1.set :=
  View.cover_of_tiledL (kernelRun0_A c i arg2 harg2 arg3 harg3 arg4 harg4 arg5 harg5 arg6 harg6 arg7 harg7 hc0 hc1 x0 x1 x2 x3).1 S1024x256.size (by sl_kernel_rfl) y
/-- What the first step leaves in the accumulator. -/
def sout0_A (c : Dev nD) (i : grid0.Coords) (arg2 : Memref sig .tc .vmem S1024x2048 .bf16) (harg2 : arg2.IsWhole) (arg3 : Memref sig .tc .vmem S2048x256 .bf16) (harg3 : arg3.IsWhole) (arg4 : Memref sig .tc .vmem S256x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x256 .f32) (harg7 : arg7.IsWhole) (hc0 : cond0_0 i) (hc1 : ¬cond0_1 i) (x0 : Vec F S1024x2048 .bf16) (x1 : Vec F S2048x256 .bf16) (x2 : Vec F S256x512 .bf16) (x3 : Vec F S1x512 .f32) : Vec F S1024x256 .f32 :=
  VS0.read (Elt F) (VS0.writes (Elt F) VS0.junk (kernelRun0_A c i arg2 harg2 arg3 harg3 arg4 harg4 arg5 harg5 arg6 harg6 arg7 harg7 hc0 hc1 x0 x1 x2 x3).1)

theorem scover0_B {c : Dev nD} {i : grid0.Coords} {arg2 : Memref sig .tc .vmem S1024x2048 .bf16} {harg2 : arg2.IsWhole} {arg3 : Memref sig .tc .vmem S2048x256 .bf16} {harg3 : arg3.IsWhole} {arg4 : Memref sig .tc .vmem S256x512 .bf16} {harg4 : arg4.IsWhole} {arg5 : Memref sig .tc .vmem S1x512 .f32} {harg5 : arg5.IsWhole} {arg6 : Memref sig .tc .vmem S1024x512 .bf16} {harg6 : arg6.IsWhole} {arg7 : Memref sig .tc .vmem S1024x256 .f32} {harg7 : arg7.IsWhole} {hc0 : ¬cond0_0 i} {hc1 : ¬cond0_1 i} {x0 : Vec F S1024x2048 .bf16} {x1 : Vec F S2048x256 .bf16} {x2 : Vec F S256x512 .bf16} {x3 : Vec F S1x512 .f32} {xs : Vec F S1024x256 .f32} (y : S1024x256.Idx) :
    ∃ pc ∈ (kernelRun0_B c i arg2 harg2 arg3 harg3 arg4 harg4 arg5 harg5 arg6 harg6 arg7 harg7 hc0 hc1 x0 x1 x2 x3 xs).1, y ∈ pc.1.set :=
  View.cover_of_tiledL (kernelRun0_B c i arg2 harg2 arg3 harg3 arg4 harg4 arg5 harg5 arg6 harg6 arg7 harg7 hc0 hc1 x0 x1 x2 x3 xs).1 S1024x256.size (by sl_kernel_rfl) y
/-- What an inner step leaves in the accumulator, found at `xs`. -/
def sout0_B (c : Dev nD) (i : grid0.Coords) (arg2 : Memref sig .tc .vmem S1024x2048 .bf16) (harg2 : arg2.IsWhole) (arg3 : Memref sig .tc .vmem S2048x256 .bf16) (harg3 : arg3.IsWhole) (arg4 : Memref sig .tc .vmem S256x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x256 .f32) (harg7 : arg7.IsWhole) (hc0 : ¬cond0_0 i) (hc1 : ¬cond0_1 i) (x0 : Vec F S1024x2048 .bf16) (x1 : Vec F S2048x256 .bf16) (x2 : Vec F S256x512 .bf16) (x3 : Vec F S1x512 .f32) (xs : Vec F S1024x256 .f32) : Vec F S1024x256 .f32 :=
  VS0.read (Elt F) (VS0.writes (Elt F) VS0.junk (kernelRun0_B c i arg2 harg2 arg3 harg3 arg4 harg4 arg5 harg5 arg6 harg6 arg7 harg7 hc0 hc1 x0 x1 x2 x3 xs).1)

theorem scover0_C {c : Dev nD} {i : grid0.Coords} {arg2 : Memref sig .tc .vmem S1024x2048 .bf16} {harg2 : arg2.IsWhole} {arg3 : Memref sig .tc .vmem S2048x256 .bf16} {harg3 : arg3.IsWhole} {arg4 : Memref sig .tc .vmem S256x512 .bf16} {harg4 : arg4.IsWhole} {arg5 : Memref sig .tc .vmem S1x512 .f32} {harg5 : arg5.IsWhole} {arg6 : Memref sig .tc .vmem S1024x512 .bf16} {harg6 : arg6.IsWhole} {arg7 : Memref sig .tc .vmem S1024x256 .f32} {harg7 : arg7.IsWhole} {hc0 : ¬cond0_0 i} {hc1 : cond0_1 i} {x0 : Vec F S1024x2048 .bf16} {x1 : Vec F S2048x256 .bf16} {x2 : Vec F S256x512 .bf16} {x3 : Vec F S1x512 .f32} {xs : Vec F S1024x256 .f32} (y : S1024x256.Idx) :
    ∃ pc ∈ (kernelRun0_C c i arg2 harg2 arg3 harg3 arg4 harg4 arg5 harg5 arg6 harg6 arg7 harg7 hc0 hc1 x0 x1 x2 x3 xs).2.1, y ∈ pc.1.set :=
  View.cover_of_tiledL (kernelRun0_C c i arg2 harg2 arg3 harg3 arg4 harg4 arg5 harg5 arg6 harg6 arg7 harg7 hc0 hc1 x0 x1 x2 x3 xs).2.1 S1024x256.size (by sl_kernel_rfl) y
/-- What the last step leaves in the accumulator, found at `xs`. -/
def sout0_C (c : Dev nD) (i : grid0.Coords) (arg2 : Memref sig .tc .vmem S1024x2048 .bf16) (harg2 : arg2.IsWhole) (arg3 : Memref sig .tc .vmem S2048x256 .bf16) (harg3 : arg3.IsWhole) (arg4 : Memref sig .tc .vmem S256x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x256 .f32) (harg7 : arg7.IsWhole) (hc0 : ¬cond0_0 i) (hc1 : cond0_1 i) (x0 : Vec F S1024x2048 .bf16) (x1 : Vec F S2048x256 .bf16) (x2 : Vec F S256x512 .bf16) (x3 : Vec F S1x512 .f32) (xs : Vec F S1024x256 .f32) : Vec F S1024x256 .f32 :=
  VS0.read (Elt F) (VS0.writes (Elt F) VS0.junk (kernelRun0_C c i arg2 harg2 arg3 harg3 arg4 harg4 arg5 harg5 arg6 harg6 arg7 harg7 hc0 hc1 x0 x1 x2 x3 xs).2.1)
theorem cover0_C {c : Dev nD} {i : grid0.Coords} {arg2 : Memref sig .tc .vmem S1024x2048 .bf16} {harg2 : arg2.IsWhole} {arg3 : Memref sig .tc .vmem S2048x256 .bf16} {harg3 : arg3.IsWhole} {arg4 : Memref sig .tc .vmem S256x512 .bf16} {harg4 : arg4.IsWhole} {arg5 : Memref sig .tc .vmem S1x512 .f32} {harg5 : arg5.IsWhole} {arg6 : Memref sig .tc .vmem S1024x512 .bf16} {harg6 : arg6.IsWhole} {arg7 : Memref sig .tc .vmem S1024x256 .f32} {harg7 : arg7.IsWhole} {hc0 : ¬cond0_0 i} {hc1 : cond0_1 i} {x0 : Vec F S1024x2048 .bf16} {x1 : Vec F S2048x256 .bf16} {x2 : Vec F S256x512 .bf16} {x3 : Vec F S1x512 .f32} {xs : Vec F S1024x256 .f32} (y : S1024x512.Idx) :
    ∃ pc ∈ (kernelRun0_C c i arg2 harg2 arg3 harg3 arg4 harg4 arg5 harg5 arg6 harg6 arg7 harg7 hc0 hc1 x0 x1 x2 x3 xs).1, y ∈ pc.1.set :=
  View.cover_of_tiledL (kernelRun0_C c i arg2 harg2 arg3 harg3 arg4 harg4 arg5 harg5 arg6 harg6 arg7 harg7 hc0 hc1 x0 x1 x2 x3 xs).1 S1024x512.size (by sl_kernel_rfl) y
/-- What the last step leaves in the output's staging buffer. -/
def out0_C (c : Dev nD) (i : grid0.Coords) (arg2 : Memref sig .tc .vmem S1024x2048 .bf16) (harg2 : arg2.IsWhole) (arg3 : Memref sig .tc .vmem S2048x256 .bf16) (harg3 : arg3.IsWhole) (arg4 : Memref sig .tc .vmem S256x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x256 .f32) (harg7 : arg7.IsWhole) (hc0 : ¬cond0_0 i) (hc1 : cond0_1 i) (x0 : Vec F S1024x2048 .bf16) (x1 : Vec F S2048x256 .bf16) (x2 : Vec F S256x512 .bf16) (x3 : Vec F S1x512 .f32) (xs : Vec F S1024x256 .f32) : Vec F S1024x512 .bf16 :=
  VO0.read (Elt F) (VO0.writes (Elt F) VO0.junk (kernelRun0_C c i arg2 harg2 arg3 harg3 arg4 harg4 arg5 harg5 arg6 harg6 arg7 harg7 hc0 hc1 x0 x1 x2 x3 xs).1)
/-- A placeholder for the output's buffer where the window is idle (nothing consults it there). -/
def outIdle0 : Vec F S1024x512 .bf16 := VO0.read (Elt F) VO0.junk

/-! ## What the output's buffer and the accumulator hold after each point -/

/-- After the body at position `n`: the output's staging buffer (meaningful at the last steps only) and the accumulator, by recursion on the point:
    a first step starts afresh, the other steps continue from what the point before left in the accumulator. -/
def outsAt0 (c : Dev nD) : (n : ℕ) → n < cfg0.N → Vec F S1024x512 .bf16 × Vec F S1024x256 .f32
  | 0, hn => (outIdle0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 5 = 0 then
      if h1 : (n + 1) % 5 = 4 then
        False.elim (by omega)
      else
        (outIdle0, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 5 = 4 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (outIdle0, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

theorem outsAt0_A (c : Dev nD) (t : Fin cfg0.N) (h0 : t.val % 5 = 0) (h1 : ¬t.val % 5 = 4) :
    outsAt0 V c t.val t.isLt = (outIdle0, sout0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 5 = 0) (h1 : ¬t.val % 5 = 4) :
    outsAt0 V c t.val t.isLt = (outIdle0, sout0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 5 = 0) (h1 : t.val % 5 = 4) :
    outsAt0 V c t.val t.isLt = (out0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's (the accumulator at anything); afterwards the accumulator
    at what the point before left in it, beside the other scoped buffers and the generator register. -/
def PhiS0 (c : Dev nD) : (n : ℕ) → n ≤ cfg0.N → sProp 𝕄
  | 0, _ => Pipeline.ΦA spec0 c
  | n + 1, hn => iprop((owns (c : Thread nD τ) scM0 fullShare ((outsAt0 V c n hn).2) ∗ RestB0 c) ∗ ∃ r, prngReg c r)

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0 fullShare ((outsAt0 V c n hn).2) ∗ RestB0 c) ∗ ∃ r, prngReg c r) := rfl
theorem PhiS0_pos (c : Dev nD) (n : ℕ) (h : n ≤ cfg0.N) (hz : n ≠ 0) :
    PhiS0 V c n h = iprop((owns (c : Thread nD τ) scM0 fullShare ((outsAt0 V c (n - 1) (by omega)).2) ∗ RestB0 c) ∗ ∃ r, prngReg c r) := by
  cases n with
  | zero => exact absurd rfl hz
  | succ n => rfl

/-! ## The proof data -/

/-- Region 0's proof data on core `c`: the arrays as the region finds them; after the body each input's buffer at its block and the output's
    at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- An input's buffer is handed back at its block. -/
theorem leaves0_0 (c : Dev nD) (t : Fin cfg0.N) : (dat0 V c).leavesExact 0 t = owns (c : Thread nD τ) (ms0_0 t) fullShare (iblk0 V c 0 t) := by
  rw [show (dat0 V c).leavesExact 0 t = owns (c : Thread nD τ) (ms0_0 t) fullShare ((dat0 V c).after 0 t) from by
    unfold Dat.leavesExact; rw [liveAt0_0 t], after0_0]
theorem leaves0_1 (c : Dev nD) (t : Fin cfg0.N) : (dat0 V c).leavesExact 1 t = owns (c : Thread nD τ) (ms0_1 t) fullShare (iblk0 V c 1 t) := by
  rw [show (dat0 V c).leavesExact 1 t = owns (c : Thread nD τ) (ms0_1 t) fullShare ((dat0 V c).after 1 t) from by
    unfold Dat.leavesExact; rw [liveAt0_1 t], after0_1]
theorem leaves0_2 (c : Dev nD) (t : Fin cfg0.N) : (dat0 V c).leavesExact 2 t = owns (c : Thread nD τ) (ms0_2 t) fullShare (iblk0 V c 2 t) := by
  rw [show (dat0 V c).leavesExact 2 t = owns (c : Thread nD τ) (ms0_2 t) fullShare ((dat0 V c).after 2 t) from by
    unfold Dat.leavesExact; rw [liveAt0_2 t], after0_2]
theorem leaves0_3 (c : Dev nD) (t : Fin cfg0.N) : (dat0 V c).leavesExact 3 t = owns (c : Thread nD τ) (ms0_3 t) fullShare (iblk0 V c 3 t) := by
  rw [show (dat0 V c).leavesExact 3 t = owns (c : Thread nD τ) (ms0_3 t) fullShare ((dat0 V c).after 3 t) from by
    unfold Dat.leavesExact; rw [liveAt0_3 t], after0_3]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: the inputs' memrefs hold their blocks; the closed forms of the two conditions say which case the point is in; the invariant hands the body the
    accumulator at what the point before left (at anything at the very first point) and takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3]
  have hN : t.val < 50 := lt_of_lt_of_eq t.isLt (show cfg0.N = 50 from N_0)
  by_cases h0 : t.val % 5 = 0
  · by_cases h1 : t.val % 5 = 4
    · exfalso; omega
    · rw [Dat.leavesExact_idle (dat0 V c) 4 t (idleAt0_4 t (fun h => h1 ((hcond0_1 t).mp h))) (noFlush0_4 t (fun h => h1 ((hcond0_1 t).mp h)))]
      rw [outsAt0_A V c t h0 h1]
      unfold sout0_A; (try dsimp only)
      by_cases hz : t.val = 0
      · rw [PhiS0_castSucc V c t, PhiS0_zero V c _ _ hz, PhiA0_eq]
        iintro ⟨⟨⟨HS, HB⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2 _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, ⟨%es, HS⟩⟩
        isplitl [HS HB Hg]
        · isplitl [HS HB]
          · isplitl [HS]
            · unfold owns; iexists _; isplitr
              swap; · iexact HS
              ipureintro; exact View.read_writes_of_cover _ _ _ _ _ scover0_A
            iexact HB
          iexact Hg
        isplitl [Ho]; · iexact Ho
        isplitl [H0]; · iexact H0
        isplitl [H1]; · iexact H1
        isplitl [H2]; · iexact H2
        isplitl [H3]; · iexact H3
        iexists _; iexact H4
      · rw [PhiS0_castSucc V c t, PhiS0_pos V c _ _ hz]
        iintro ⟨⟨⟨HS, HB⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2 _ Set.univ _)
        isplitl [H0]; · iexact H0
        isplitl [H1]; · iexact H1
        isplitl [H2]; · iexact H2
        isplitl [H3]; · iexact H3
        isplitl [H4]; · iexact H4
        isplitl [HS]; · iexists _; iexact HS
        iintro ⟨H0, H1, H2, H3, H4, ⟨%es, HS⟩⟩
        isplitl [HS HB Hg]
        · isplitl [HS HB]
          · isplitl [HS]
            · unfold owns; iexists _; isplitr
              swap; · iexact HS
              ipureintro; exact View.read_writes_of_cover _ _ _ _ _ scover0_A
            iexact HB
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun h => h0 (by rw [h])
    by_cases h1 : t.val % 5 = 4
    · rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold out0_C sout0_C; (try dsimp only)
      rw [PhiS0_castSucc V c t, PhiS0_pos V c _ _ hz]
      iintro ⟨⟨⟨HS, HB⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS HB Hg]
      · isplitl [HS HB]
        · isplitl [HS]
          · unfold owns; iexists _; isplitr
            swap; · iexact HS
            ipureintro; exact View.read_writes_of_cover _ _ _ _ _ scover0_C
          iexact HB
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ cover0_C
    · rw [Dat.leavesExact_idle (dat0 V c) 4 t (idleAt0_4 t (fun h => h1 ((hcond0_1 t).mp h))) (noFlush0_4 t (fun h => h1 ((hcond0_1 t).mp h)))]
      rw [outsAt0_B V c t h0 h1]
      unfold sout0_B; (try dsimp only)
      rw [PhiS0_castSucc V c t, PhiS0_pos V c _ _ hz]
      iintro ⟨⟨⟨HS, HB⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HB Hg]
      · isplitl [HS HB]
        · isplitl [HS]
          · unfold owns; iexists _; isplitr
            swap; · iexact HS
            ipureintro; exact View.read_writes_of_cover _ _ _ _ _ scover0_B
          iexact HB
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is handed is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 50 := N_0; omega), PhiA0_eq]
  iintro ⟨⟨HS, HB⟩, Hg⟩
  isplitr [Hg]
  · isplitl [HS]
    · iexists _; iexact HS
    iexact HB
  iexact Hg

end Cert.Kernel.Hand

end
-- ==== Proof.K.R1Runs.lean ====
import proofs.«179401_j66675072303277_2_alg».proof.Proof.Gen.Kernel.Launch
import proofs.«179401_j66675072303277_2_alg».proof.Proof.Gen.Kernel.Skeleton
import proofs.«179401_j66675072303277_2_alg».proof.Proof.Gen.Kernel.Points
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the conditions of its two branches, where its output is idle, and the body run case by case

The body resets the accumulator at the first step of the second grid axis, adds one product of blocks at every step, and at the last
step computes the output block from the accumulator, the weights and the bias row. -/

/-- The first step along the second grid axis. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 5 = 0 :=
  (by decide +kernel : ∀ t : Fin grid1.N, cond1_0 (grid1.coords t) ↔ t.val % 5 = 0)
/-- The last step along the second grid axis. -/
abbrev cond1_1 (i : grid1.Coords) : Prop := k1_cond2 i = 1#1
theorem hcond1_1 : ∀ t : Fin cfg1.N, cond1_1 (grid1.coords t) ↔ t.val % 5 = 4 :=
  (by decide +kernel : ∀ t : Fin grid1.N, cond1_1 (grid1.coords t) ↔ t.val % 5 = 4)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last step the output window is idle and not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-- The staging memrefs the body is called with at point `t`, and the accumulator. -/
abbrev ms1_0 (t : Fin cfg1.N) : Memref sig .tc .vmem S1024x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x768 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x768 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x768 .bf16 := win1_4.stage (cfg1.slots t 4)
abbrev hs1_4 (t : Fin cfg1.N) : (ms1_4 t).IsWhole := hstage1_4 ((cfg1.slots t 4).cast nbuf1_4)
abbrev scM1 : Memref sig .tc .vmem S1024x512 .f32 := Memref.whole cc1_scratch0
abbrev VS1 : View sig .tc .vmem S1024x512 .f32 := (scM1).view
abbrev VO1 : View sig .tc .vmem S1024x768 .bf16 := (Memref.whole cc1_stg4_0 : Memref sig .tc .vmem S1024x768 .bf16).view

/-- The other scoped buffers of the program, unopened: what the invariant carries beside the accumulator and the generator register. -/
abbrev RestB1 (c : Dev nD) : sProp 𝕄 :=
  Pipeline.scopedRestBut (Ix := Unit) (Name := ℕ) (U := UR sig nD τ) (Lvl := ℕ) (Val := Elt F) spec1 c [cc1_scratch0]

/-- The class invariant, with the accumulator split off as a whole memref at some contents. -/
theorem PhiA1_eq (c : Dev nD) :
    (Pipeline.ΦA spec1 c : sProp 𝕄) = iprop(((∃ d, owns (c : Thread nD τ) scM1 fullShare d) ∗ RestB1 c) ∗ ∃ r, prngReg c r) := by
  unfold Pipeline.ΦA; rw [scopedRest1_split]; simp only [scM1, owns_whole]; try rfl

/-! ## The body, case by case -/

set_option maxHeartbeats 1000000 in
/-- FIRST STEP (not the last): the accumulator, found at anything, is reset and one product added; the output's buffer is handed back untouched. -/
noncomputable def kernelRun1_A (c : Dev nD) (i : grid1.Coords) (arg2 : Memref sig .tc .vmem S1024x2048 .bf16) (harg2 : arg2.IsWhole) (arg3 : Memref sig .tc .vmem S2048x512 .bf16) (harg3 : arg3.IsWhole) (arg4 : Memref sig .tc .vmem S512x768 .bf16) (harg4 : arg4.IsWhole) (arg5 : Memref sig .tc .vmem S1x768 .f32) (harg5 : arg5.IsWhole) (arg6 : Memref sig .tc .vmem S1024x768 .bf16) (harg6 : arg6.IsWhole) (arg7 : Memref sig .tc .vmem S1024x512 .f32) (harg7 : arg7.IsWhole) (hc0 : cond1_0 i) (hc1 : ¬cond1_1 i)
    (x0 : Vec F S1024x2048 .bf16) (x1 : Vec F S2048x512 .bf16) (x2 : Vec F S512x768 .bf16) (x3 : Vec F S1x768 .f32) :
    { LS : List (View.Piece (Elt F) S1024x512 .f32) //
      ∀ (xi : Vec F S1024x768 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc1_kernel i arg2 harg2 arg3 harg3 arg4 harg4 arg5 harg5 arg6 harg6 arg7 harg7) K } := by
  refine ⟨?_, fun xi E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

set_option maxHeartbeats 1000000 in
/-- AN INNER STEP: one product is added to the accumulator found at `xs`; the output's buffer is handed back untouched. -/
noncomputable def kernelRun1_B (c : Dev nD) (i : grid1.Coords) (arg2 : Memref sig .tc .vmem S1024x2048 .bf16) (harg2 : arg2.IsWhole) (arg3 : Memref sig .tc .vmem S2048x512 .bf16) (harg3 : arg3.IsWhole) (arg4 : Memref sig .tc .vmem S512x768 .bf16) (harg4 : arg4.IsWhole) (arg5 : Memref sig .tc .vmem S1x768 .f32) (harg5 : arg5.IsWhole) (arg6 : Memref sig .tc .vmem S1024x768 .bf16) (harg6 : arg6.IsWhole) (arg7 : Memref sig .tc .vmem S1024x512 .f32) (harg7 : arg7.IsWhole) (hc0 : ¬cond1_0 i) (hc1 : ¬cond1_1 i)
    (x0 : Vec F S1024x2048 .bf16) (x1 : Vec F S2048x512 .bf16) (x2 : Vec F S512x768 .bf16) (x3 : Vec F S1x768 .f32) (xs : Vec F S1024x512 .f32) :
    { LS : List (View.Piece (Elt F) S1024x512 .f32) //
      ∀ (xi : Vec F S1024x768 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc1_kernel i arg2 harg2 arg3 harg3 arg4 harg4 arg5 harg5 arg6 harg6 arg7 harg7) K } := by
  refine ⟨?_, fun xi E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

set_option maxHeartbeats 1000000 in
/-- THE LAST STEP (not the first): one product is added to the accumulator found at `xs`, and the output block is computed from it and stored whole. -/
noncomputable def kernelRun1_C (c : Dev nD) (i : grid1.Coords) (arg2 : Memref sig .tc .vmem S1024x2048 .bf16) (harg2 : arg2.IsWhole) (arg3 : Memref sig .tc .vmem S2048x512 .bf16) (harg3 : arg3.IsWhole) (arg4 : Memref sig .tc .vmem S512x768 .bf16) (harg4 : arg4.IsWhole) (arg5 : Memref sig .tc .vmem S1x768 .f32) (harg5 : arg5.IsWhole) (arg6 : Memref sig .tc .vmem S1024x768 .bf16) (harg6 : arg6.IsWhole) (arg7 : Memref sig .tc .vmem S1024x512 .f32) (harg7 : arg7.IsWhole) (hc0 : ¬cond1_0 i) (hc1 : cond1_1 i)
    (x0 : Vec F S1024x2048 .bf16) (x1 : Vec F S2048x512 .bf16) (x2 : Vec F S512x768 .bf16) (x3 : Vec F S1x768 .f32) (xs : Vec F S1024x512 .f32) :
    Σ' (LO : List (View.Piece (Elt F) S1024x768 .bf16)), { LS : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc1_kernel i arg2 harg2 arg3 harg3 arg4 harg4 arg5 harg5 arg6 harg6 arg7 harg7) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.Kernel.Hand

end
-- ==== Proof.K.R1.lean ====
import proofs.«179401_j66675072303277_2_alg».proof.Proof.K.R1Runs
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: what each point leaves, the proof data, the body obligation

All stated at the contents `V` the region finds in the program's buffers when it is entered. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves: its stores read back -/

/-- The accumulator's stores at the first step cover it. -/
theorem scover1_A {c : Dev nD} {i : grid1.Coords} {arg2 : Memref sig .tc .vmem S1024x2048 .bf16} {harg2 : arg2.IsWhole} {arg3 : Memref sig .tc .vmem S2048x512 .bf16} {harg3 : arg3.IsWhole} {arg4 : Memref sig .tc .vmem S512x768 .bf16} {harg4 : arg4.IsWhole} {arg5 : Memref sig .tc .vmem S1x768 .f32} {harg5 : arg5.IsWhole} {arg6 : Memref sig .tc .vmem S1024x768 .bf16} {harg6 : arg6.IsWhole} {arg7 : Memref sig .tc .vmem S1024x512 .f32} {harg7 : arg7.IsWhole} {hc0 : cond1_0 i} {hc1 : ¬cond1_1 i} {x0 : Vec F S1024x2048 .bf16} {x1 : Vec F S2048x512 .bf16} {x2 : Vec F S512x768 .bf16} {x3 : Vec F S1x768 .f32} (y : S1024x512.Idx) :
    ∃ pc ∈ (kernelRun1_A c i arg2 harg2 arg3 harg3 arg4 harg4 arg5 harg5 arg6 harg6 arg7 harg7 hc0 hc1 x0 x1 x2 x3).1, y ∈ pc.1.set :=
  View.cover_of_tiledL (kernelRun1_A c i arg2 harg2 arg3 harg3 arg4 harg4 arg5 harg5 arg6 harg6 arg7 harg7 hc0 hc1 x0 x1 x2 x3).1 S1024x512.size (by sl_kernel_rfl) y
/-- What the first step leaves in the accumulator. -/
def sout1_A (c : Dev nD) (i : grid1.Coords) (arg2 : Memref sig .tc .vmem S1024x2048 .bf16) (harg2 : arg2.IsWhole) (arg3 : Memref sig .tc .vmem S2048x512 .bf16) (harg3 : arg3.IsWhole) (arg4 : Memref sig .tc .vmem S512x768 .bf16) (harg4 : arg4.IsWhole) (arg5 : Memref sig .tc .vmem S1x768 .f32) (harg5 : arg5.IsWhole) (arg6 : Memref sig .tc .vmem S1024x768 .bf16) (harg6 : arg6.IsWhole) (arg7 : Memref sig .tc .vmem S1024x512 .f32) (harg7 : arg7.IsWhole) (hc0 : cond1_0 i) (hc1 : ¬cond1_1 i) (x0 : Vec F S1024x2048 .bf16) (x1 : Vec F S2048x512 .bf16) (x2 : Vec F S512x768 .bf16) (x3 : Vec F S1x768 .f32) : Vec F S1024x512 .f32 :=
  VS1.read (Elt F) (VS1.writes (Elt F) VS1.junk (kernelRun1_A c i arg2 harg2 arg3 harg3 arg4 harg4 arg5 harg5 arg6 harg6 arg7 harg7 hc0 hc1 x0 x1 x2 x3).1)

theorem scover1_B {c : Dev nD} {i : grid1.Coords} {arg2 : Memref sig .tc .vmem S1024x2048 .bf16} {harg2 : arg2.IsWhole} {arg3 : Memref sig .tc .vmem S2048x512 .bf16} {harg3 : arg3.IsWhole} {arg4 : Memref sig .tc .vmem S512x768 .bf16} {harg4 : arg4.IsWhole} {arg5 : Memref sig .tc .vmem S1x768 .f32} {harg5 : arg5.IsWhole} {arg6 : Memref sig .tc .vmem S1024x768 .bf16} {harg6 : arg6.IsWhole} {arg7 : Memref sig .tc .vmem S1024x512 .f32} {harg7 : arg7.IsWhole} {hc0 : ¬cond1_0 i} {hc1 : ¬cond1_1 i} {x0 : Vec F S1024x2048 .bf16} {x1 : Vec F S2048x512 .bf16} {x2 : Vec F S512x768 .bf16} {x3 : Vec F S1x768 .f32} {xs : Vec F S1024x512 .f32} (y : S1024x512.Idx) :
    ∃ pc ∈ (kernelRun1_B c i arg2 harg2 arg3 harg3 arg4 harg4 arg5 harg5 arg6 harg6 arg7 harg7 hc0 hc1 x0 x1 x2 x3 xs).1, y ∈ pc.1.set :=
  View.cover_of_tiledL (kernelRun1_B c i arg2 harg2 arg3 harg3 arg4 harg4 arg5 harg5 arg6 harg6 arg7 harg7 hc0 hc1 x0 x1 x2 x3 xs).1 S1024x512.size (by sl_kernel_rfl) y
/-- What an inner step leaves in the accumulator, found at `xs`. -/
def sout1_B (c : Dev nD) (i : grid1.Coords) (arg2 : Memref sig .tc .vmem S1024x2048 .bf16) (harg2 : arg2.IsWhole) (arg3 : Memref sig .tc .vmem S2048x512 .bf16) (harg3 : arg3.IsWhole) (arg4 : Memref sig .tc .vmem S512x768 .bf16) (harg4 : arg4.IsWhole) (arg5 : Memref sig .tc .vmem S1x768 .f32) (harg5 : arg5.IsWhole) (arg6 : Memref sig .tc .vmem S1024x768 .bf16) (harg6 : arg6.IsWhole) (arg7 : Memref sig .tc .vmem S1024x512 .f32) (harg7 : arg7.IsWhole) (hc0 : ¬cond1_0 i) (hc1 : ¬cond1_1 i) (x0 : Vec F S1024x2048 .bf16) (x1 : Vec F S2048x512 .bf16) (x2 : Vec F S512x768 .bf16) (x3 : Vec F S1x768 .f32) (xs : Vec F S1024x512 .f32) : Vec F S1024x512 .f32 :=
  VS1.read (Elt F) (VS1.writes (Elt F) VS1.junk (kernelRun1_B c i arg2 harg2 arg3 harg3 arg4 harg4 arg5 harg5 arg6 harg6 arg7 harg7 hc0 hc1 x0 x1 x2 x3 xs).1)

theorem scover1_C {c : Dev nD} {i : grid1.Coords} {arg2 : Memref sig .tc .vmem S1024x2048 .bf16} {harg2 : arg2.IsWhole} {arg3 : Memref sig .tc .vmem S2048x512 .bf16} {harg3 : arg3.IsWhole} {arg4 : Memref sig .tc .vmem S512x768 .bf16} {harg4 : arg4.IsWhole} {arg5 : Memref sig .tc .vmem S1x768 .f32} {harg5 : arg5.IsWhole} {arg6 : Memref sig .tc .vmem S1024x768 .bf16} {harg6 : arg6.IsWhole} {arg7 : Memref sig .tc .vmem S1024x512 .f32} {harg7 : arg7.IsWhole} {hc0 : ¬cond1_0 i} {hc1 : cond1_1 i} {x0 : Vec F S1024x2048 .bf16} {x1 : Vec F S2048x512 .bf16} {x2 : Vec F S512x768 .bf16} {x3 : Vec F S1x768 .f32} {xs : Vec F S1024x512 .f32} (y : S1024x512.Idx) :
    ∃ pc ∈ (kernelRun1_C c i arg2 harg2 arg3 harg3 arg4 harg4 arg5 harg5 arg6 harg6 arg7 harg7 hc0 hc1 x0 x1 x2 x3 xs).2.1, y ∈ pc.1.set :=
  View.cover_of_tiledL (kernelRun1_C c i arg2 harg2 arg3 harg3 arg4 harg4 arg5 harg5 arg6 harg6 arg7 harg7 hc0 hc1 x0 x1 x2 x3 xs).2.1 S1024x512.size (by sl_kernel_rfl) y
/-- What the last step leaves in the accumulator, found at `xs`. -/
def sout1_C (c : Dev nD) (i : grid1.Coords) (arg2 : Memref sig .tc .vmem S1024x2048 .bf16) (harg2 : arg2.IsWhole) (arg3 : Memref sig .tc .vmem S2048x512 .bf16) (harg3 : arg3.IsWhole) (arg4 : Memref sig .tc .vmem S512x768 .bf16) (harg4 : arg4.IsWhole) (arg5 : Memref sig .tc .vmem S1x768 .f32) (harg5 : arg5.IsWhole) (arg6 : Memref sig .tc .vmem S1024x768 .bf16) (harg6 : arg6.IsWhole) (arg7 : Memref sig .tc .vmem S1024x512 .f32) (harg7 : arg7.IsWhole) (hc0 : ¬cond1_0 i) (hc1 : cond1_1 i) (x0 : Vec F S1024x2048 .bf16) (x1 : Vec F S2048x512 .bf16) (x2 : Vec F S512x768 .bf16) (x3 : Vec F S1x768 .f32) (xs : Vec F S1024x512 .f32) : Vec F S1024x512 .f32 :=
  VS1.read (Elt F) (VS1.writes (Elt F) VS1.junk (kernelRun1_C c i arg2 harg2 arg3 harg3 arg4 harg4 arg5 harg5 arg6 harg6 arg7 harg7 hc0 hc1 x0 x1 x2 x3 xs).2.1)
theorem cover1_C {c : Dev nD} {i : grid1.Coords} {arg2 : Memref sig .tc .vmem S1024x2048 .bf16} {harg2 : arg2.IsWhole} {arg3 : Memref sig .tc .vmem S2048x512 .bf16} {harg3 : arg3.IsWhole} {arg4 : Memref sig .tc .vmem S512x768 .bf16} {harg4 : arg4.IsWhole} {arg5 : Memref sig .tc .vmem S1x768 .f32} {harg5 : arg5.IsWhole} {arg6 : Memref sig .tc .vmem S1024x768 .bf16} {harg6 : arg6.IsWhole} {arg7 : Memref sig .tc .vmem S1024x512 .f32} {harg7 : arg7.IsWhole} {hc0 : ¬cond1_0 i} {hc1 : cond1_1 i} {x0 : Vec F S1024x2048 .bf16} {x1 : Vec F S2048x512 .bf16} {x2 : Vec F S512x768 .bf16} {x3 : Vec F S1x768 .f32} {xs : Vec F S1024x512 .f32} (y : S1024x768.Idx) :
    ∃ pc ∈ (kernelRun1_C c i arg2 harg2 arg3 harg3 arg4 harg4 arg5 harg5 arg6 harg6 arg7 harg7 hc0 hc1 x0 x1 x2 x3 xs).1, y ∈ pc.1.set :=
  View.cover_of_tiledL (kernelRun1_C c i arg2 harg2 arg3 harg3 arg4 harg4 arg5 harg5 arg6 harg6 arg7 harg7 hc0 hc1 x0 x1 x2 x3 xs).1 S1024x768.size (by sl_kernel_rfl) y
/-- What the last step leaves in the output's staging buffer. -/
def out1_C (c : Dev nD) (i : grid1.Coords) (arg2 : Memref sig .tc .vmem S1024x2048 .bf16) (harg2 : arg2.IsWhole) (arg3 : Memref sig .tc .vmem S2048x512 .bf16) (harg3 : arg3.IsWhole) (arg4 : Memref sig .tc .vmem S512x768 .bf16) (harg4 : arg4.IsWhole) (arg5 : Memref sig .tc .vmem S1x768 .f32) (harg5 : arg5.IsWhole) (arg6 : Memref sig .tc .vmem S1024x768 .bf16) (harg6 : arg6.IsWhole) (arg7 : Memref sig .tc .vmem S1024x512 .f32) (harg7 : arg7.IsWhole) (hc0 : ¬cond1_0 i) (hc1 : cond1_1 i) (x0 : Vec F S1024x2048 .bf16) (x1 : Vec F S2048x512 .bf16) (x2 : Vec F S512x768 .bf16) (x3 : Vec F S1x768 .f32) (xs : Vec F S1024x512 .f32) : Vec F S1024x768 .bf16 :=
  VO1.read (Elt F) (VO1.writes (Elt F) VO1.junk (kernelRun1_C c i arg2 harg2 arg3 harg3 arg4 harg4 arg5 harg5 arg6 harg6 arg7 harg7 hc0 hc1 x0 x1 x2 x3 xs).1)
/-- A placeholder for the output's buffer where the window is idle (nothing consults it there). -/
def outIdle1 : Vec F S1024x768 .bf16 := VO1.read (Elt F) VO1.junk

/-! ## What the output's buffer and the accumulator hold after each point -/

/-- After the body at position `n`: the output's staging buffer (meaningful at the last steps only) and the accumulator, by recursion on the point:
    a first step starts afresh, the other steps continue from what the point before left in the accumulator. -/
def outsAt1 (c : Dev nD) : (n : ℕ) → n < cfg1.N → Vec F S1024x768 .bf16 × Vec F S1024x512 .f32
  | 0, hn => (outIdle1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 5 = 0 then
      if h1 : (n + 1) % 5 = 4 then
        False.elim (by omega)
      else
        (outIdle1, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 5 = 4 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (outIdle1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_A (c : Dev nD) (t : Fin cfg1.N) (h0 : t.val % 5 = 0) (h1 : ¬t.val % 5 = 4) :
    outsAt1 V c t.val t.isLt = (outIdle1, sout1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 5 = 0) (h1 : ¬t.val % 5 = 4) :
    outsAt1 V c t.val t.isLt = (outIdle1, sout1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 5 = 0) (h1 : t.val % 5 = 4) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's (the accumulator at anything); afterwards the accumulator
    at what the point before left in it, beside the other scoped buffers and the generator register. -/
def PhiS1 (c : Dev nD) : (n : ℕ) → n ≤ cfg1.N → sProp 𝕄
  | 0, _ => Pipeline.ΦA spec1 c
  | n + 1, hn => iprop((owns (c : Thread nD τ) scM1 fullShare ((outsAt1 V c n hn).2) ∗ RestB1 c) ∗ ∃ r, prngReg c r)

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scM1 fullShare ((outsAt1 V c n hn).2) ∗ RestB1 c) ∗ ∃ r, prngReg c r) := rfl
theorem PhiS1_pos (c : Dev nD) (n : ℕ) (h : n ≤ cfg1.N) (hz : n ≠ 0) :
    PhiS1 V c n h = iprop((owns (c : Thread nD τ) scM1 fullShare ((outsAt1 V c (n - 1) (by omega)).2) ∗ RestB1 c) ∗ ∃ r, prngReg c r) := by
  cases n with
  | zero => exact absurd rfl hz
  | succ n => rfl

/-! ## The proof data -/

/-- Region 1's proof data on core `c`: the arrays as the region finds them; after the body each input's buffer at its block and the output's
    at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- An input's buffer is handed back at its block. -/
theorem leaves1_0 (c : Dev nD) (t : Fin cfg1.N) : (dat1 V c).leavesExact 0 t = owns (c : Thread nD τ) (ms1_0 t) fullShare (iblk1 V c 0 t) := by
  rw [show (dat1 V c).leavesExact 0 t = owns (c : Thread nD τ) (ms1_0 t) fullShare ((dat1 V c).after 0 t) from by
    unfold Dat.leavesExact; rw [liveAt1_0 t], after1_0]
theorem leaves1_1 (c : Dev nD) (t : Fin cfg1.N) : (dat1 V c).leavesExact 1 t = owns (c : Thread nD τ) (ms1_1 t) fullShare (iblk1 V c 1 t) := by
  rw [show (dat1 V c).leavesExact 1 t = owns (c : Thread nD τ) (ms1_1 t) fullShare ((dat1 V c).after 1 t) from by
    unfold Dat.leavesExact; rw [liveAt1_1 t], after1_1]
theorem leaves1_2 (c : Dev nD) (t : Fin cfg1.N) : (dat1 V c).leavesExact 2 t = owns (c : Thread nD τ) (ms1_2 t) fullShare (iblk1 V c 2 t) := by
  rw [show (dat1 V c).leavesExact 2 t = owns (c : Thread nD τ) (ms1_2 t) fullShare ((dat1 V c).after 2 t) from by
    unfold Dat.leavesExact; rw [liveAt1_2 t], after1_2]
theorem leaves1_3 (c : Dev nD) (t : Fin cfg1.N) : (dat1 V c).leavesExact 3 t = owns (c : Thread nD τ) (ms1_3 t) fullShare (iblk1 V c 3 t) := by
  rw [show (dat1 V c).leavesExact 3 t = owns (c : Thread nD τ) (ms1_3 t) fullShare ((dat1 V c).after 3 t) from by
    unfold Dat.leavesExact; rw [liveAt1_3 t], after1_3]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the closed forms of the two conditions say which case the point is in; the invariant hands the body the
    accumulator at what the point before left (at anything at the very first point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3]
  have hN : t.val < 50 := lt_of_lt_of_eq t.isLt (show cfg1.N = 50 from N_1)
  by_cases h0 : t.val % 5 = 0
  · by_cases h1 : t.val % 5 = 4
    · exfalso; omega
    · rw [Dat.leavesExact_idle (dat1 V c) 4 t (idleAt1_4 t (fun h => h1 ((hcond1_1 t).mp h))) (noFlush1_4 t (fun h => h1 ((hcond1_1 t).mp h)))]
      rw [outsAt1_A V c t h0 h1]
      unfold sout1_A; (try dsimp only)
      by_cases hz : t.val = 0
      · rw [PhiS1_castSucc V c t, PhiS1_zero V c _ _ hz, PhiA1_eq]
        iintro ⟨⟨⟨HS, HB⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2 _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, ⟨%es, HS⟩⟩
        isplitl [HS HB Hg]
        · isplitl [HS HB]
          · isplitl [HS]
            · unfold owns; iexists _; isplitr
              swap; · iexact HS
              ipureintro; exact View.read_writes_of_cover _ _ _ _ _ scover1_A
            iexact HB
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨HS, HB⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2 _ Set.univ _)
        isplitl [H0]; · iexact H0
        isplitl [H1]; · iexact H1
        isplitl [H2]; · iexact H2
        isplitl [H3]; · iexact H3
        isplitl [H4]; · iexact H4
        isplitl [HS]; · iexists _; iexact HS
        iintro ⟨H0, H1, H2, H3, H4, ⟨%es, HS⟩⟩
        isplitl [HS HB Hg]
        · isplitl [HS HB]
          · isplitl [HS]
            · unfold owns; iexists _; isplitr
              swap; · iexact HS
              ipureintro; exact View.read_writes_of_cover _ _ _ _ _ scover1_A
            iexact HB
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun h => h0 (by rw [h])
    by_cases h1 : t.val % 5 = 4
    · rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold out1_C sout1_C; (try dsimp only)
      rw [PhiS1_castSucc V c t, PhiS1_pos V c _ _ hz]
      iintro ⟨⟨⟨HS, HB⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS HB Hg]
      · isplitl [HS HB]
        · isplitl [HS]
          · unfold owns; iexists _; isplitr
            swap; · iexact HS
            ipureintro; exact View.read_writes_of_cover _ _ _ _ _ scover1_C
          iexact HB
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ cover1_C
    · rw [Dat.leavesExact_idle (dat1 V c) 4 t (idleAt1_4 t (fun h => h1 ((hcond1_1 t).mp h))) (noFlush1_4 t (fun h => h1 ((hcond1_1 t).mp h)))]
      rw [outsAt1_B V c t h0 h1]
      unfold sout1_B; (try dsimp only)
      rw [PhiS1_castSucc V c t, PhiS1_pos V c _ _ hz]
      iintro ⟨⟨⟨HS, HB⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HB Hg]
      · isplitl [HS HB]
        · isplitl [HS]
          · unfold owns; iexists _; isplitr
            swap; · iexact HS
            ipureintro; exact View.read_writes_of_cover _ _ _ _ _ scover1_B
          iexact HB
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 50 := N_1; omega), PhiA1_eq]
  iintro ⟨⟨HS, HB⟩, Hg⟩
  isplitr [Hg]
  · isplitl [HS]
    · iexists _; iexact HS
    iexact HB
  iexact Hg

end Cert.Kernel.Hand

end
-- ==== Proof.K.R2Runs.lean ====
import proofs.«179401_j66675072303277_2_alg».proof.Proof.Gen.Kernel.Launch
import proofs.«179401_j66675072303277_2_alg».proof.Proof.Gen.Kernel.Skeleton
import proofs.«179401_j66675072303277_2_alg».proof.Proof.Gen.Kernel.Points
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: the conditions of its two branches, where its output is idle, and the body run case by case

The body resets the accumulator at the first step of the second grid axis, adds one product of blocks at every step, and at the last
step computes the output block from the accumulator and the bias row. -/

/-- The first step along the second grid axis. -/
abbrev cond2_0 (i : grid2.Coords) : Prop := (Scalar.cmpi .ne (Scalar.extui (Scalar.cmpi .eq (BitVec.ofNat 32 (i 1).val) 0#32)) 0#32) = 1#1
/-- The last step along the second grid axis. -/
abbrev cond2_1 (i : grid2.Coords) : Prop := k2_cond2 i = 1#1
theorem hcond2_0 : ∀ t : Fin cfg2.N, cond2_0 (grid2.coords t) := by decide +kernel
theorem hcond2_1 : ∀ t : Fin cfg2.N, cond2_1 (grid2.coords t) := by decide +kernel

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel

/-- The staging memrefs the body is called with at point `t`, and the accumulator. -/
abbrev ms2_0 (t : Fin cfg2.N) : Memref sig .tc .vmem S1024x768 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S768x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x128 .bf16 := win2_3.stage (cfg2.slots t 3)
abbrev hs2_3 (t : Fin cfg2.N) : (ms2_3 t).IsWhole := hstage2_3 ((cfg2.slots t 3).cast nbuf2_3)
abbrev scM2 : Memref sig .tc .vmem S1024x128 .f32 := Memref.whole cc2_scratch0
abbrev VS2 : View sig .tc .vmem S1024x128 .f32 := (scM2).view
abbrev VO2 : View sig .tc .vmem S1024x128 .bf16 := (Memref.whole cc2_stg3_0 : Memref sig .tc .vmem S1024x128 .bf16).view

/-- The other scoped buffers of the program, unopened: what the invariant carries beside the accumulator and the generator register. -/
abbrev RestB2 (c : Dev nD) : sProp 𝕄 :=
  Pipeline.scopedRestBut (Ix := Unit) (Name := ℕ) (U := UR sig nD τ) (Lvl := ℕ) (Val := Elt F) spec2 c [cc2_scratch0]

/-- The class invariant, with the accumulator split off as a whole memref at some contents. -/
theorem PhiA2_eq (c : Dev nD) :
    (Pipeline.ΦA spec2 c : sProp 𝕄) = iprop(((∃ d, owns (c : Thread nD τ) scM2 fullShare d) ∗ RestB2 c) ∗ ∃ r, prngReg c r) := by
  unfold Pipeline.ΦA; rw [scopedRest2_split]; simp only [scM2, owns_whole]; try rfl

/-! ## The body, case by case -/

set_option maxHeartbeats 1000000 in
/-- THE ONE STEP (first and last at once): the accumulator, found at anything, is reset, the product added, and the output block computed from it and stored whole. -/
noncomputable def kernelRun2_D (c : Dev nD) (i : grid2.Coords) (arg2 : Memref sig .tc .vmem S1024x768 .bf16) (harg2 : arg2.IsWhole) (arg3 : Memref sig .tc .vmem S768x128 .bf16) (harg3 : arg3.IsWhole) (arg4 : Memref sig .tc .vmem S1x128 .f32) (harg4 : arg4.IsWhole) (arg5 : Memref sig .tc .vmem S1024x128 .bf16) (harg5 : arg5.IsWhole) (arg6 : Memref sig .tc .vmem S1024x128 .f32) (harg6 : arg6.IsWhole) (hc0 : cond2_0 i) (hc1 : cond2_1 i)
    (x0 : Vec F S1024x768 .bf16) (x1 : Vec F S768x128 .bf16) (x2 : Vec F S1x128 .f32) :
    Σ' (LO : List (View.Piece (Elt F) S1024x128 .bf16)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc2_kernel i arg2 harg2 arg3 harg3 arg4 harg4 arg5 harg5 arg6 harg6) K } := by
  refine ⟨?_, ?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%dO, %fo, -, HO⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]; · iexists _; iexact HO
    iexists _; iexact HS

end Cert.Kernel.Hand

end
-- ==== Proof.K.R2.lean ====
import proofs.«179401_j66675072303277_2_alg».proof.Proof.K.R2Runs
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: what each point leaves, the proof data, the body obligation

All stated at the contents `V` the region finds in the program's buffers when it is entered. -/

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves: its stores read back -/
theorem scover2_D {c : Dev nD} {i : grid2.Coords} {arg2 : Memref sig .tc .vmem S1024x768 .bf16} {harg2 : arg2.IsWhole} {arg3 : Memref sig .tc .vmem S768x128 .bf16} {harg3 : arg3.IsWhole} {arg4 : Memref sig .tc .vmem S1x128 .f32} {harg4 : arg4.IsWhole} {arg5 : Memref sig .tc .vmem S1024x128 .bf16} {harg5 : arg5.IsWhole} {arg6 : Memref sig .tc .vmem S1024x128 .f32} {harg6 : arg6.IsWhole} {hc0 : cond2_0 i} {hc1 : cond2_1 i} {x0 : Vec F S1024x768 .bf16} {x1 : Vec F S768x128 .bf16} {x2 : Vec F S1x128 .f32} (y : S1024x128.Idx) :
    ∃ pc ∈ (kernelRun2_D c i arg2 harg2 arg3 harg3 arg4 harg4 arg5 harg5 arg6 harg6 hc0 hc1 x0 x1 x2).2.1, y ∈ pc.1.set :=
  View.cover_of_tiledL (kernelRun2_D c i arg2 harg2 arg3 harg3 arg4 harg4 arg5 harg5 arg6 harg6 hc0 hc1 x0 x1 x2).2.1 S1024x128.size (by sl_kernel_rfl) y
def sout2_D (c : Dev nD) (i : grid2.Coords) (arg2 : Memref sig .tc .vmem S1024x768 .bf16) (harg2 : arg2.IsWhole) (arg3 : Memref sig .tc .vmem S768x128 .bf16) (harg3 : arg3.IsWhole) (arg4 : Memref sig .tc .vmem S1x128 .f32) (harg4 : arg4.IsWhole) (arg5 : Memref sig .tc .vmem S1024x128 .bf16) (harg5 : arg5.IsWhole) (arg6 : Memref sig .tc .vmem S1024x128 .f32) (harg6 : arg6.IsWhole) (hc0 : cond2_0 i) (hc1 : cond2_1 i) (x0 : Vec F S1024x768 .bf16) (x1 : Vec F S768x128 .bf16) (x2 : Vec F S1x128 .f32) : Vec F S1024x128 .f32 :=
  VS2.read (Elt F) (VS2.writes (Elt F) VS2.junk (kernelRun2_D c i arg2 harg2 arg3 harg3 arg4 harg4 arg5 harg5 arg6 harg6 hc0 hc1 x0 x1 x2).2.1)
theorem cover2_D {c : Dev nD} {i : grid2.Coords} {arg2 : Memref sig .tc .vmem S1024x768 .bf16} {harg2 : arg2.IsWhole} {arg3 : Memref sig .tc .vmem S768x128 .bf16} {harg3 : arg3.IsWhole} {arg4 : Memref sig .tc .vmem S1x128 .f32} {harg4 : arg4.IsWhole} {arg5 : Memref sig .tc .vmem S1024x128 .bf16} {harg5 : arg5.IsWhole} {arg6 : Memref sig .tc .vmem S1024x128 .f32} {harg6 : arg6.IsWhole} {hc0 : cond2_0 i} {hc1 : cond2_1 i} {x0 : Vec F S1024x768 .bf16} {x1 : Vec F S768x128 .bf16} {x2 : Vec F S1x128 .f32} (y : S1024x128.Idx) :
    ∃ pc ∈ (kernelRun2_D c i arg2 harg2 arg3 harg3 arg4 harg4 arg5 harg5 arg6 harg6 hc0 hc1 x0 x1 x2).1, y ∈ pc.1.set :=
  View.cover_of_tiledL (kernelRun2_D c i arg2 harg2 arg3 harg3 arg4 harg4 arg5 harg5 arg6 harg6 hc0 hc1 x0 x1 x2).1 S1024x128.size (by sl_kernel_rfl) y
def out2_D (c : Dev nD) (i : grid2.Coords) (arg2 : Memref sig .tc .vmem S1024x768 .bf16) (harg2 : arg2.IsWhole) (arg3 : Memref sig .tc .vmem S768x128 .bf16) (harg3 : arg3.IsWhole) (arg4 : Memref sig .tc .vmem S1x128 .f32) (harg4 : arg4.IsWhole) (arg5 : Memref sig .tc .vmem S1024x128 .bf16) (harg5 : arg5.IsWhole) (arg6 : Memref sig .tc .vmem S1024x128 .f32) (harg6 : arg6.IsWhole) (hc0 : cond2_0 i) (hc1 : cond2_1 i) (x0 : Vec F S1024x768 .bf16) (x1 : Vec F S768x128 .bf16) (x2 : Vec F S1x128 .f32) : Vec F S1024x128 .bf16 :=
  VO2.read (Elt F) (VO2.writes (Elt F) VO2.junk (kernelRun2_D c i arg2 harg2 arg3 harg3 arg4 harg4 arg5 harg5 arg6 harg6 hc0 hc1 x0 x1 x2).1)

/-! ## What the output's buffer and the accumulator hold after each point -/

/-- After the body at position `n`: the output's staging buffer and the accumulator (every point is a first and last step at once). -/
def outsAt2 (c : Dev nD) (n : ℕ) (hn : n < cfg2.N) : Vec F S1024x128 .bf16 × Vec F S1024x128 .f32 :=
  (out2_D c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) (ms2_3 ⟨n, hn⟩) (hs2_3 ⟨n, hn⟩) scM2 (Memref.isWhole_whole _) (hcond2_0 ⟨n, hn⟩) (hcond2_1 ⟨n, hn⟩) (iblk2 V c 0 ⟨n, hn⟩) (iblk2 V c 1 ⟨n, hn⟩) (iblk2 V c 2 ⟨n, hn⟩),
   sout2_D c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) (ms2_3 ⟨n, hn⟩) (hs2_3 ⟨n, hn⟩) scM2 (Memref.isWhole_whole _) (hcond2_0 ⟨n, hn⟩) (hcond2_1 ⟨n, hn⟩) (iblk2 V c 0 ⟨n, hn⟩) (iblk2 V c 1 ⟨n, hn⟩) (iblk2 V c 2 ⟨n, hn⟩))

/-- The region's invariant before position `n`: before the first point the class's (the accumulator at anything); afterwards the accumulator
    at what the point before left in it, beside the other scoped buffers and the generator register. -/
def PhiS2 (c : Dev nD) : (n : ℕ) → n ≤ cfg2.N → sProp 𝕄
  | 0, _ => Pipeline.ΦA spec2 c
  | n + 1, hn => iprop((owns (c : Thread nD τ) scM2 fullShare ((outsAt2 V c n hn).2) ∗ RestB2 c) ∗ ∃ r, prngReg c r)

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop((owns (c : Thread nD τ) scM2 fullShare ((outsAt2 V c n hn).2) ∗ RestB2 c) ∗ ∃ r, prngReg c r) := rfl
theorem PhiS2_pos (c : Dev nD) (n : ℕ) (h : n ≤ cfg2.N) (hz : n ≠ 0) :
    PhiS2 V c n h = iprop((owns (c : Thread nD τ) scM2 fullShare ((outsAt2 V c (n - 1) (by omega)).2) ∗ RestB2 c) ∗ ∃ r, prngReg c r) := by
  cases n with
  | zero => exact absurd rfl hz
  | succ n => rfl

/-! ## The proof data -/

/-- Region 2's proof data on core `c`: the arrays as the region finds them; after the body each input's buffer at its block and the output's
    at `outsAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- An input's buffer is handed back at its block. -/
theorem leaves2_0 (c : Dev nD) (t : Fin cfg2.N) : (dat2 V c).leavesExact 0 t = owns (c : Thread nD τ) (ms2_0 t) fullShare (iblk2 V c 0 t) := by
  rw [show (dat2 V c).leavesExact 0 t = owns (c : Thread nD τ) (ms2_0 t) fullShare ((dat2 V c).after 0 t) from by
    unfold Dat.leavesExact; rw [liveAt2_0 t], after2_0]
theorem leaves2_1 (c : Dev nD) (t : Fin cfg2.N) : (dat2 V c).leavesExact 1 t = owns (c : Thread nD τ) (ms2_1 t) fullShare (iblk2 V c 1 t) := by
  rw [show (dat2 V c).leavesExact 1 t = owns (c : Thread nD τ) (ms2_1 t) fullShare ((dat2 V c).after 1 t) from by
    unfold Dat.leavesExact; rw [liveAt2_1 t], after2_1]
theorem leaves2_2 (c : Dev nD) (t : Fin cfg2.N) : (dat2 V c).leavesExact 2 t = owns (c : Thread nD τ) (ms2_2 t) fullShare (iblk2 V c 2 t) := by
  rw [show (dat2 V c).leavesExact 2 t = owns (c : Thread nD τ) (ms2_2 t) fullShare ((dat2 V c).after 2 t) from by
    unfold Dat.leavesExact; rw [liveAt2_2 t], after2_2]

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' memrefs hold their blocks; the closed forms of the two conditions say which case the point is in; the invariant hands the body the
    accumulator at what the point before left (at anything at the very first point) and takes it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2]
  rw [show (dat2 V c).leavesExact 3 t = owns (c : Thread nD τ) (ms2_3 t) fullShare ((dat2 V c).after 3 t) from by
    unfold Dat.leavesExact; rw [liveAt2_3 t], after2_3]
  unfold outsAt2 out2_D sout2_D; (try dsimp only)
  by_cases hz : t.val = 0
  · rw [PhiS2_castSucc V c t, PhiS2_zero V c _ _ hz, PhiA2_eq]
    iintro ⟨⟨⟨HS, HB⟩, Hg⟩, Ho, ⟨%d0, H0⟩, ⟨%d1, H1⟩, ⟨%d2, H2⟩, ⟨%dO, HO⟩⟩
    iapply ((kernelRun2_D c (grid2.coords t) _ _ _ _ _ _ _ _ _ _ (hcond2_0 t) (hcond2_1 t) (iblk2 V c 0 t) (iblk2 V c 1 t) (iblk2 V c 2 t)).2.2 Set.univ _)
    isplitl [H0]; · iexact H0
    isplitl [H1]; · iexact H1
    isplitl [H2]; · iexact H2
    isplitl [HO]; · iexists _; iexact HO
    isplitl [HS]; · iexact HS
    iintro ⟨H0, H1, H2, ⟨%eO, HO⟩, ⟨%es, HS⟩⟩
    isplitl [HS HB Hg]
    · isplitl [HS HB]
      · isplitl [HS]
        · unfold owns; iexists _; isplitr
          swap; · iexact HS
          ipureintro; exact View.read_writes_of_cover _ _ _ _ _ scover2_D
        iexact HB
      iexact Hg
    isplitl [Ho]; · iexact Ho
    isplitl [H0]; · iexact H0
    isplitl [H1]; · iexact H1
    isplitl [H2]; · iexact H2
    unfold owns; iexists _; isplitr
    swap; · iexact HO
    ipureintro; exact View.read_writes_of_cover _ _ _ _ _ cover2_D
  · rw [PhiS2_castSucc V c t, PhiS2_pos V c _ _ hz]
    iintro ⟨⟨⟨HS, HB⟩, Hg⟩, Ho, ⟨%d0, H0⟩, ⟨%d1, H1⟩, ⟨%d2, H2⟩, ⟨%dO, HO⟩⟩
    iapply ((kernelRun2_D c (grid2.coords t) _ _ _ _ _ _ _ _ _ _ (hcond2_0 t) (hcond2_1 t) (iblk2 V c 0 t) (iblk2 V c 1 t) (iblk2 V c 2 t)).2.2 Set.univ _)
    isplitl [H0]; · iexact H0
    isplitl [H1]; · iexact H1
    isplitl [H2]; · iexact H2
    isplitl [HO]; · iexists _; iexact HO
    isplitl [HS]; · iexists _; iexact HS
    iintro ⟨H0, H1, H2, ⟨%eO, HO⟩, ⟨%es, HS⟩⟩
    isplitl [HS HB Hg]
    · isplitl [HS HB]
      · isplitl [HS]
        · unfold owns; iexists _; isplitr
          swap; · iexact HS
          ipureintro; exact View.read_writes_of_cover _ _ _ _ _ scover2_D
        iexact HB
      iexact Hg
    isplitl [Ho]; · iexact Ho
    isplitl [H0]; · iexact H0
    isplitl [H1]; · iexact H1
    isplitl [H2]; · iexact H2
    unfold owns; iexists _; isplitr
    swap; · iexact HO
    ipureintro; exact View.read_writes_of_cover _ _ _ _ _ cover2_D

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is handed is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the accumulator's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 10 := N_2; omega), PhiA2_eq]
  iintro ⟨⟨HS, HB⟩, Hg⟩
  isplitr [Hg]
  · isplitl [HS]
    · iexists _; iexact HS
    iexact HB
  iexact Hg

end Cert.Kernel.Hand

end
-- ==== Proof.K.R3Runs.lean ====
import proofs.«179401_j66675072303277_2_alg».proof.Proof.Gen.Kernel.Launch
import proofs.«179401_j66675072303277_2_alg».proof.Proof.Gen.Kernel.Skeleton
import proofs.«179401_j66675072303277_2_alg».proof.Proof.Gen.Kernel.Points
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: the conditions of its two branches, where its output is idle, and the body run case by case

The body resets the accumulator at the first step of the second grid axis, adds one product of blocks at every step, and at the last
step computes the output block from the accumulator and the bias row. -/

/-- The first step along the second grid axis. -/
abbrev cond3_0 (i : grid3.Coords) : Prop := (Scalar.cmpi .ne (Scalar.extui (Scalar.cmpi .eq (BitVec.ofNat 32 (i 1).val) 0#32)) 0#32) = 1#1
/-- The last step along the second grid axis. -/
abbrev cond3_1 (i : grid3.Coords) : Prop := k3_cond2 i = 1#1
theorem hcond3_0 : ∀ t : Fin cfg3.N, cond3_0 (grid3.coords t) ↔ t.val % 5 = 0 :=
  (by decide +kernel : ∀ t : Fin grid3.N, cond3_0 (grid3.coords t) ↔ t.val % 5 = 0)
theorem hcond3_1 : ∀ t : Fin cfg3.N, cond3_1 (grid3.coords t) ↔ t.val % 5 = 4 :=
  (by decide +kernel : ∀ t : Fin grid3.N, cond3_1 (grid3.coords t) ↔ t.val % 5 = 4)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Away from the last step the output window is idle and not written back. -/
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
theorem liveAt3_3 : ∀ t : Fin cfg3.N, cond3_1 (grid3.coords t) → cfg3.idle 3 (grid3.coords t) = false := by decide +kernel

/-- The staging memrefs the body is called with at point `t`, and the accumulator. -/
abbrev ms3_0 (t : Fin cfg3.N) : Memref sig .tc .vmem S1024x2048 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x128 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x128 .f32 := win3_3.stage (cfg3.slots t 3)
abbrev hs3_3 (t : Fin cfg3.N) : (ms3_3 t).IsWhole := hstage3_3 ((cfg3.slots t 3).cast nbuf3_3)
abbrev scM3 : Memref sig .tc .vmem S1024x128 .f32 := Memref.whole cc3_scratch0
abbrev VS3 : View sig .tc .vmem S1024x128 .f32 := (scM3).view
abbrev VO3 : View sig .tc .vmem S1024x128 .f32 := (Memref.whole cc3_stg3_0 : Memref sig .tc .vmem S1024x128 .f32).view

/-- The other scoped buffers of the program, unopened: what the invariant carries beside the accumulator and the generator register. -/
abbrev RestB3 (c : Dev nD) : sProp 𝕄 :=
  Pipeline.scopedRestBut (Ix := Unit) (Name := ℕ) (U := UR sig nD τ) (Lvl := ℕ) (Val := Elt F) spec3 c [cc3_scratch0]

/-- The class invariant, with the accumulator split off as a whole memref at some contents. -/
theorem PhiA3_eq (c : Dev nD) :
    (Pipeline.ΦA spec3 c : sProp 𝕄) = iprop(((∃ d, owns (c : Thread nD τ) scM3 fullShare d) ∗ RestB3 c) ∗ ∃ r, prngReg c r) := by
  unfold Pipeline.ΦA; rw [scopedRest3_split]; simp only [scM3, owns_whole]; try rfl

/-! ## The body, case by case -/

set_option maxHeartbeats 1000000 in
/-- FIRST STEP (not the last): the accumulator, found at anything, is reset and one product added; the output's buffer is handed back untouched. -/
noncomputable def kernelRun3_A (c : Dev nD) (i : grid3.Coords) (arg2 : Memref sig .tc .vmem S1024x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : cond3_0 i) (hc1 : ¬cond3_1 i)
    (x0 : Vec F S1024x2048 .bf16) (x1 : Vec F S2048x128 .bf16) (x2 : Vec F S1x128 .f32) :
    { LS : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc3_kernel i arg2 harg2 arg3 harg3 arg4 harg4 arg5 harg5 arg6 harg6) K } := by
  refine ⟨?_, fun xi E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%fo, %hfo, HO⟩, ⟨%ds, %fs, -, HS⟩, Hk⟩
    obtain rfl := harg2.eq_unread hf0; obtain rfl := harg3.eq_unread hf1; obtain rfl := harg4.eq_unread hf2; obtain rfl := harg5.eq_unread hfo
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS

set_option maxHeartbeats 1000000 in
/-- AN INNER STEP: one product is added to the accumulator found at `xs`; the output's buffer is handed back untouched. -/
noncomputable def kernelRun3_B (c : Dev nD) (i : grid3.Coords) (arg2 : Memref sig .tc .vmem S1024x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : ¬cond3_1 i)
    (x0 : Vec F S1024x2048 .bf16) (x1 : Vec F S2048x128 .bf16) (x2 : Vec F S1x128 .f32) (xs : Vec F S1024x128 .f32) :
    { LS : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi ∗ owns (c : Thread nD τ) arg6 fullShare xs
            ∗ (iprop(owns (c : Thread nD τ) arg2 fullShare x0 ∗ owns (c : Thread nD τ) arg3 fullShare x1 ∗ owns (c : Thread nD τ) arg4 fullShare x2
                ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc3_kernel i arg2 harg2 arg3 harg3 arg4 harg4 arg5 harg5 arg6 harg6) K } := by
  refine ⟨?_, fun xi E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%fo, %hfo, HO⟩, ⟨%fs, %hfs, HS⟩, Hk⟩
    obtain rfl := harg2.eq_unread hf0; obtain rfl := harg3.eq_unread hf1; obtain rfl := harg4.eq_unread hf2; obtain rfl := harg5.eq_unread hfo; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS

set_option maxHeartbeats 1000000 in
/-- THE LAST STEP (not the first): one product is added to the accumulator found at `xs`, and the output block is computed from it and stored whole. -/
noncomputable def kernelRun3_C (c : Dev nD) (i : grid3.Coords) (arg2 : Memref sig .tc .vmem S1024x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : cond3_1 i)
    (x0 : Vec F S1024x2048 .bf16) (x1 : Vec F S2048x128 .bf16) (x2 : Vec F S1x128 .f32) (xs : Vec F S1024x128 .f32) :
    Σ' (LO : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc3_kernel i arg2 harg2 arg3 harg3 arg4 harg4 arg5 harg5 arg6 harg6) K } := by
  refine ⟨?_, ?_, fun E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%dO, %fo, -, HO⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]; · iexists _; iexact HO
    iexists _; iexact HS

end Cert.Kernel.Hand

end
-- ==== Proof.K.R3.lean ====
import proofs.«179401_j66675072303277_2_alg».proof.Proof.K.R3Runs
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: what each point leaves, the proof data, the body obligation

All stated at the contents `V` the region finds in the program's buffers when it is entered. -/

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## What each case leaves: its stores read back -/
theorem scover3_A {c : Dev nD} {i : grid3.Coords} {arg2 : Memref sig .tc .vmem S1024x2048 .bf16} {harg2 : arg2.IsWhole} {arg3 : Memref sig .tc .vmem S2048x128 .bf16} {harg3 : arg3.IsWhole} {arg4 : Memref sig .tc .vmem S1x128 .f32} {harg4 : arg4.IsWhole} {arg5 : Memref sig .tc .vmem S1024x128 .f32} {harg5 : arg5.IsWhole} {arg6 : Memref sig .tc .vmem S1024x128 .f32} {harg6 : arg6.IsWhole} {hc0 : cond3_0 i} {hc1 : ¬cond3_1 i} {x0 : Vec F S1024x2048 .bf16} {x1 : Vec F S2048x128 .bf16} {x2 : Vec F S1x128 .f32} (y : S1024x128.Idx) :
    ∃ pc ∈ (kernelRun3_A c i arg2 harg2 arg3 harg3 arg4 harg4 arg5 harg5 arg6 harg6 hc0 hc1 x0 x1 x2).1, y ∈ pc.1.set :=
  View.cover_of_tiledL (kernelRun3_A c i arg2 harg2 arg3 harg3 arg4 harg4 arg5 harg5 arg6 harg6 hc0 hc1 x0 x1 x2).1 S1024x128.size (by sl_kernel_rfl) y
def sout3_A (c : Dev nD) (i : grid3.Coords) (arg2 : Memref sig .tc .vmem S1024x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : cond3_0 i) (hc1 : ¬cond3_1 i) (x0 : Vec F S1024x2048 .bf16) (x1 : Vec F S2048x128 .bf16) (x2 : Vec F S1x128 .f32) : Vec F S1024x128 .f32 :=
  VS3.read (Elt F) (VS3.writes (Elt F) VS3.junk (kernelRun3_A c i arg2 harg2 arg3 harg3 arg4 harg4 arg5 harg5 arg6 harg6 hc0 hc1 x0 x1 x2).1)
theorem scover3_B {c : Dev nD} {i : grid3.Coords} {arg2 : Memref sig .tc .vmem S1024x2048 .bf16} {harg2 : arg2.IsWhole} {arg3 : Memref sig .tc .vmem S2048x128 .bf16} {harg3 : arg3.IsWhole} {arg4 : Memref sig .tc .vmem S1x128 .f32} {harg4 : arg4.IsWhole} {arg5 : Memref sig .tc .vmem S1024x128 .f32} {harg5 : arg5.IsWhole} {arg6 : Memref sig .tc .vmem S1024x128 .f32} {harg6 : arg6.IsWhole} {hc0 : ¬cond3_0 i} {hc1 : ¬cond3_1 i} {x0 : Vec F S1024x2048 .bf16} {x1 : Vec F S2048x128 .bf16} {x2 : Vec F S1x128 .f32} {xs : Vec F S1024x128 .f32} (y : S1024x128.Idx) :
    ∃ pc ∈ (kernelRun3_B c i arg2 harg2 arg3 harg3 arg4 harg4 arg5 harg5 arg6 harg6 hc0 hc1 x0 x1 x2 xs).1, y ∈ pc.1.set :=
  View.cover_of_tiledL (kernelRun3_B c i arg2 harg2 arg3 harg3 arg4 harg4 arg5 harg5 arg6 harg6 hc0 hc1 x0 x1 x2 xs).1 S1024x128.size (by sl_kernel_rfl) y
def sout3_B (c : Dev nD) (i : grid3.Coords) (arg2 : Memref sig .tc .vmem S1024x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : ¬cond3_1 i) (x0 : Vec F S1024x2048 .bf16) (x1 : Vec F S2048x128 .bf16) (x2 : Vec F S1x128 .f32) (xs : Vec F S1024x128 .f32) : Vec F S1024x128 .f32 :=
  VS3.read (Elt F) (VS3.writes (Elt F) VS3.junk (kernelRun3_B c i arg2 harg2 arg3 harg3 arg4 harg4 arg5 harg5 arg6 harg6 hc0 hc1 x0 x1 x2 xs).1)
theorem scover3_C {c : Dev nD} {i : grid3.Coords} {arg2 : Memref sig .tc .vmem S1024x2048 .bf16} {harg2 : arg2.IsWhole} {arg3 : Memref sig .tc .vmem S2048x128 .bf16} {harg3 : arg3.IsWhole} {arg4 : Memref sig .tc .vmem S1x128 .f32} {harg4 : arg4.IsWhole} {arg5 : Memref sig .tc .vmem S1024x128 .f32} {harg5 : arg5.IsWhole} {arg6 : Memref sig .tc .vmem S1024x128 .f32} {harg6 : arg6.IsWhole} {hc0 : ¬cond3_0 i} {hc1 : cond3_1 i} {x0 : Vec F S1024x2048 .bf16} {x1 : Vec F S2048x128 .bf16} {x2 : Vec F S1x128 .f32} {xs : Vec F S1024x128 .f32} (y : S1024x128.Idx) :
    ∃ pc ∈ (kernelRun3_C c i arg2 harg2 arg3 harg3 arg4 harg4 arg5 harg5 arg6 harg6 hc0 hc1 x0 x1 x2 xs).2.1, y ∈ pc.1.set :=
  View.cover_of_tiledL (kernelRun3_C c i arg2 harg2 arg3 harg3 arg4 harg4 arg5 harg5 arg6 harg6 hc0 hc1 x0 x1 x2 xs).2.1 S1024x128.size (by sl_kernel_rfl) y
def sout3_C (c : Dev nD) (i : grid3.Coords) (arg2 : Memref sig .tc .vmem S1024x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : cond3_1 i) (x0 : Vec F S1024x2048 .bf16) (x1 : Vec F S2048x128 .bf16) (x2 : Vec F S1x128 .f32) (xs : Vec F S1024x128 .f32) : Vec F S1024x128 .f32 :=
  VS3.read (Elt F) (VS3.writes (Elt F) VS3.junk (kernelRun3_C c i arg2 harg2 arg3 harg3 arg4 harg4 arg5 harg5 arg6 harg6 hc0 hc1 x0 x1 x2 xs).2.1)
theorem cover3_C {c : Dev nD} {i : grid3.Coords} {arg2 : Memref sig .tc .vmem S1024x2048 .bf16} {harg2 : arg2.IsWhole} {arg3 : Memref sig .tc .vmem S2048x128 .bf16} {harg3 : arg3.IsWhole} {arg4 : Memref sig .tc .vmem S1x128 .f32} {harg4 : arg4.IsWhole} {arg5 : Memref sig .tc .vmem S1024x128 .f32} {harg5 : arg5.IsWhole} {arg6 : Memref sig .tc .vmem S1024x128 .f32} {harg6 : arg6.IsWhole} {hc0 : ¬cond3_0 i} {hc1 : cond3_1 i} {x0 : Vec F S1024x2048 .bf16} {x1 : Vec F S2048x128 .bf16} {x2 : Vec F S1x128 .f32} {xs : Vec F S1024x128 .f32} (y : S1024x128.Idx) :
    ∃ pc ∈ (kernelRun3_C c i arg2 harg2 arg3 harg3 arg4 harg4 arg5 harg5 arg6 harg6 hc0 hc1 x0 x1 x2 xs).1, y ∈ pc.1.set :=
  View.cover_of_tiledL (kernelRun3_C c i arg2 harg2 arg3 harg3 arg4 harg4 arg5 harg5 arg6 harg6 hc0 hc1 x0 x1 x2 xs).1 S1024x128.size (by sl_kernel_rfl) y
def out3_C (c : Dev nD) (i : grid3.Coords) (arg2 : Memref sig .tc .vmem S1024x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : cond3_1 i) (x0 : Vec F S1024x2048 .bf16) (x1 : Vec F S2048x128 .bf16) (x2 : Vec F S1x128 .f32) (xs : Vec F S1024x128 .f32) : Vec F S1024x128 .f32 :=
  VO3.read (Elt F) (VO3.writes (Elt F) VO3.junk (kernelRun3_C c i arg2 harg2 arg3 harg3 arg4 harg4 arg5 harg5 arg6 harg6 hc0 hc1 x0 x1 x2 xs).1)
/-- A placeholder for the output's buffer where the window is idle (nothing consults it there). -/
def outIdle3 : Vec F S1024x128 .f32 := VO3.read (Elt F) VO3.junk

/-! ## What the output's buffer and the accumulator hold after each point -/

/-- After the body at position `n`: the output's staging buffer (meaningful at the last steps only) and the accumulator, by recursion on the point:
    a first step starts afresh, the other steps continue from what the point before left in the accumulator. -/
def outsAt3 (c : Dev nD) : (n : ℕ) → n < cfg3.N → Vec F S1024x128 .f32 × Vec F S1024x128 .f32
  | 0, hn => (outIdle3, sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 5 = 0 then
      if h1 : (n + 1) % 5 = 4 then
        False.elim (by omega)
      else
        (outIdle3, sout3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩))
    else
      if h1 : (n + 1) % 5 = 4 then
        (out3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2,
         sout3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        (outIdle3, sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2)

theorem outsAt3_A (c : Dev nD) (t : Fin cfg3.N) (h0 : t.val % 5 = 0) (h1 : ¬t.val % 5 = 4) :
    outsAt3 V c t.val t.isLt = (outIdle3, sout3_A c (grid3.coords t) (ms3_0 t) (hs3_0 t) (ms3_1 t) (hs3_1 t) (ms3_2 t) (hs3_2 t) (ms3_3 t) (hs3_3 t) scM3 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans ((dif_neg h1).trans rfl)

theorem outsAt3_B (c : Dev nD) (t : Fin cfg3.N) (h0 : ¬t.val % 5 = 0) (h1 : ¬t.val % 5 = 4) :
    outsAt3 V c t.val t.isLt = (outIdle3, sout3_B c (grid3.coords t) (ms3_0 t) (hs3_0 t) (ms3_1 t) (hs3_1 t) (ms3_2 t) (hs3_2 t) (ms3_3 t) (hs3_3 t) scM3 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 5 = 0) (h1 : t.val % 5 = 4) :
    outsAt3 V c t.val t.isLt = (out3_C c (grid3.coords t) (ms3_0 t) (hs3_0 t) (ms3_1 t) (hs3_1 t) (ms3_2 t) (hs3_2 t) (ms3_3 t) (hs3_3 t) scM3 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2,
      sout3_C c (grid3.coords t) (ms3_0 t) (hs3_0 t) (ms3_1 t) (hs3_1 t) (ms3_2 t) (hs3_2 t) (ms3_3 t) (hs3_3 t) scM3 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's (the accumulator at anything); afterwards the accumulator
    at what the point before left in it, beside the other scoped buffers and the generator register. -/
def PhiS3 (c : Dev nD) : (n : ℕ) → n ≤ cfg3.N → sProp 𝕄
  | 0, _ => Pipeline.ΦA spec3 c
  | n + 1, hn => iprop((owns (c : Thread nD τ) scM3 fullShare ((outsAt3 V c n hn).2) ∗ RestB3 c) ∗ ∃ r, prngReg c r)

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop((owns (c : Thread nD τ) scM3 fullShare ((outsAt3 V c n hn).2) ∗ RestB3 c) ∗ ∃ r, prngReg c r) := rfl
theorem PhiS3_pos (c : Dev nD) (n : ℕ) (h : n ≤ cfg3.N) (hz : n ≠ 0) :
    PhiS3 V c n h = iprop((owns (c : Thread nD τ) scM3 fullShare ((outsAt3 V c (n - 1) (by omega)).2) ∗ RestB3 c) ∗ ∃ r, prngReg c r) := by
  cases n with
  | zero => exact absurd rfl hz
  | succ n => rfl

/-! ## The proof data -/

/-- Region 3's proof data on core `c`: the arrays as the region finds them; after the body each input's buffer at its block and the output's
    at `outsAt3`; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- An input's buffer is handed back at its block. -/
theorem leaves3_0 (c : Dev nD) (t : Fin cfg3.N) : (dat3 V c).leavesExact 0 t = owns (c : Thread nD τ) (ms3_0 t) fullShare (iblk3 V c 0 t) := by
  rw [show (dat3 V c).leavesExact 0 t = owns (c : Thread nD τ) (ms3_0 t) fullShare ((dat3 V c).after 0 t) from by
    unfold Dat.leavesExact; rw [liveAt3_0 t], after3_0]
theorem leaves3_1 (c : Dev nD) (t : Fin cfg3.N) : (dat3 V c).leavesExact 1 t = owns (c : Thread nD τ) (ms3_1 t) fullShare (iblk3 V c 1 t) := by
  rw [show (dat3 V c).leavesExact 1 t = owns (c : Thread nD τ) (ms3_1 t) fullShare ((dat3 V c).after 1 t) from by
    unfold Dat.leavesExact; rw [liveAt3_1 t], after3_1]
theorem leaves3_2 (c : Dev nD) (t : Fin cfg3.N) : (dat3 V c).leavesExact 2 t = owns (c : Thread nD τ) (ms3_2 t) fullShare (iblk3 V c 2 t) := by
  rw [show (dat3 V c).leavesExact 2 t = owns (c : Thread nD τ) (ms3_2 t) fullShare ((dat3 V c).after 2 t) from by
    unfold Dat.leavesExact; rw [liveAt3_2 t], after3_2]

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the inputs' memrefs hold their blocks; the closed forms of the two conditions say which case the point is in; the invariant hands the body the
    accumulator at what the point before left (at anything at the very first point) and takes it back at this point's contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2]
  have hN : t.val < 50 := lt_of_lt_of_eq t.isLt (show cfg3.N = 50 from N_3)
  by_cases h0 : t.val % 5 = 0
  · by_cases h1 : t.val % 5 = 4
    · exfalso; omega
    · rw [Dat.leavesExact_idle (dat3 V c) 3 t (idleAt3_3 t (fun h => h1 ((hcond3_1 t).mp h))) (noFlush3_3 t (fun h => h1 ((hcond3_1 t).mp h)))]
      rw [outsAt3_A V c t h0 h1]
      unfold sout3_A; (try dsimp only)
      by_cases hz : t.val = 0
      · rw [PhiS3_castSucc V c t, PhiS3_zero V c _ _ hz, PhiA3_eq]
        iintro ⟨⟨⟨HS, HB⟩, Hg⟩, Ho, ⟨%d0, H0⟩, ⟨%d1, H1⟩, ⟨%d2, H2⟩, ⟨%dO, HO⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2 _ Set.univ _)
        isplitl [H0]; · iexact H0
        isplitl [H1]; · iexact H1
        isplitl [H2]; · iexact H2
        isplitl [HO]; · iexact HO
        isplitl [HS]; · iexact HS
        iintro ⟨H0, H1, H2, HO, ⟨%es, HS⟩⟩
        isplitl [HS HB Hg]
        · isplitl [HS HB]
          · isplitl [HS]
            · unfold owns; iexists _; isplitr
              swap; · iexact HS
              ipureintro; exact View.read_writes_of_cover _ _ _ _ _ scover3_A
            iexact HB
          iexact Hg
        isplitl [Ho]; · iexact Ho
        isplitl [H0]; · iexact H0
        isplitl [H1]; · iexact H1
        isplitl [H2]; · iexact H2
        iexists _; iexact HO
      · rw [PhiS3_castSucc V c t, PhiS3_pos V c _ _ hz]
        iintro ⟨⟨⟨HS, HB⟩, Hg⟩, Ho, ⟨%d0, H0⟩, ⟨%d1, H1⟩, ⟨%d2, H2⟩, ⟨%dO, HO⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2 _ Set.univ _)
        isplitl [H0]; · iexact H0
        isplitl [H1]; · iexact H1
        isplitl [H2]; · iexact H2
        isplitl [HO]; · iexact HO
        isplitl [HS]; · iexists _; iexact HS
        iintro ⟨H0, H1, H2, HO, ⟨%es, HS⟩⟩
        isplitl [HS HB Hg]
        · isplitl [HS HB]
          · isplitl [HS]
            · unfold owns; iexists _; isplitr
              swap; · iexact HS
              ipureintro; exact View.read_writes_of_cover _ _ _ _ _ scover3_A
            iexact HB
          iexact Hg
        isplitl [Ho]; · iexact Ho
        isplitl [H0]; · iexact H0
        isplitl [H1]; · iexact H1
        isplitl [H2]; · iexact H2
        iexists _; iexact HO
  · have hz : t.val ≠ 0 := fun h => h0 (by rw [h])
    by_cases h1 : t.val % 5 = 4
    · rw [show (dat3 V c).leavesExact 3 t = owns (c : Thread nD τ) (ms3_3 t) fullShare ((dat3 V c).after 3 t) from by
        unfold Dat.leavesExact; rw [liveAt3_3 t ((hcond3_1 t).mpr h1)], after3_3]
      rw [outsAt3_C V c t h0 h1]
      unfold out3_C sout3_C; (try dsimp only)
      rw [PhiS3_castSucc V c t, PhiS3_pos V c _ _ hz]
      iintro ⟨⟨⟨HS, HB⟩, Hg⟩, Ho, ⟨%d0, H0⟩, ⟨%d1, H1⟩, ⟨%d2, H2⟩, ⟨%dO, HO⟩⟩
      iapply ((kernelRun3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
      isplitl [H0]; · iexact H0
      isplitl [H1]; · iexact H1
      isplitl [H2]; · iexact H2
      isplitl [HO]; · iexists _; iexact HO
      isplitl [HS]; · iexact HS
      iintro ⟨H0, H1, H2, ⟨%eO, HO⟩, ⟨%es, HS⟩⟩
      isplitl [HS HB Hg]
      · isplitl [HS HB]
        · isplitl [HS]
          · unfold owns; iexists _; isplitr
            swap; · iexact HS
            ipureintro; exact View.read_writes_of_cover _ _ _ _ _ scover3_C
          iexact HB
        iexact Hg
      isplitl [Ho]; · iexact Ho
      isplitl [H0]; · iexact H0
      isplitl [H1]; · iexact H1
      isplitl [H2]; · iexact H2
      unfold owns; iexists _; isplitr
      swap; · iexact HO
      ipureintro; exact View.read_writes_of_cover _ _ _ _ _ cover3_C
    · rw [Dat.leavesExact_idle (dat3 V c) 3 t (idleAt3_3 t (fun h => h1 ((hcond3_1 t).mp h))) (noFlush3_3 t (fun h => h1 ((hcond3_1 t).mp h)))]
      rw [outsAt3_B V c t h0 h1]
      unfold sout3_B; (try dsimp only)
      rw [PhiS3_castSucc V c t, PhiS3_pos V c _ _ hz]
      iintro ⟨⟨⟨HS, HB⟩, Hg⟩, Ho, ⟨%d0, H0⟩, ⟨%d1, H1⟩, ⟨%d2, H2⟩, ⟨%dO, HO⟩⟩
      iapply ((kernelRun3_B c (grid3.coords t) _ _ _ _ _ _ _ _ _ _ (fun h => h0 ((hcond3_0 t).mp h)) (fun h => h1 ((hcond3_1 t).mp h)) (iblk3 V c 0 t) (iblk3 V c 1 t) (iblk3 V c 2 t) _).2 _ Set.univ _)
      isplitl [H0]; · iexact H0
      isplitl [H1]; · iexact H1
      isplitl [H2]; · iexact H2
      isplitl [HO]; · iexact HO
      isplitl [HS]; · iexact HS
      iintro ⟨H0, H1, H2, HO, ⟨%es, HS⟩⟩
      isplitl [HS HB Hg]
      · isplitl [HS HB]
        · isplitl [HS]
          · unfold owns; iexists _; isplitr
            swap; · iexact HS
            ipureintro; exact View.read_writes_of_cover _ _ _ _ _ scover3_B
          iexact HB
        iexact Hg
      isplitl [Ho]; · iexact Ho
      isplitl [H0]; · iexact H0
      isplitl [H1]; · iexact H1
      isplitl [H2]; · iexact H2
      iexists _; iexact HO

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the region is handed is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the class's back: the accumulator's contents are forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 50 := N_3; omega), PhiA3_eq]
  iintro ⟨⟨HS, HB⟩, Hg⟩
  isplitr [Hg]
  · isplitl [HS]
    · iexists _; iexact HS
    iexact HB
  iexact Hg

end Cert.Kernel.Hand

end
-- ==== Proof.K.Run.lean ====
import proofs.«179401_j66675072303277_2_alg».proof.Proof.K.R0
import proofs.«179401_j66675072303277_2_alg».proof.Proof.K.R1
import proofs.«179401_j66675072303277_2_alg».proof.Proof.K.R2
import proofs.«179401_j66675072303277_2_alg».proof.Proof.K.R3
import proofs.«179401_j66675072303277_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The run of the program over its four regions

## The buffers' contents at each boundary

Up to the first region the contents are the host stretches' fold from the launch memory (the generated `V0` … `V9`).
A region leaves every buffer as it found it but its output array, which holds the fold of the write-backs. -/

/-- What region 0 finds, read at the TensorCore's references. -/
abbrev E9 : (c : Dev nD) → (b : Ref sig .tc) → Buf (Elt F) ((c : Thread nD τ).loc b) := fun c b => V9 m c b
/-- After region 0: `main_v58` at what its write-backs leave. -/
def W10 (c : Dev nD) : Valuation τ sig (Elt F) :=
  Function.update (V9 m c) main_v58 ((dat0 (E9 m) c).arrAt 4 cfg0.N)
/-- What region 1 finds. -/
abbrev E10 : (c : Dev nD) → (b : Ref sig .tc) → Buf (Elt F) ((c : Thread nD τ).loc b) := fun c b => W10 m c b
/-- After region 1: `main_v59` at what its write-backs leave. -/
def W11 (c : Dev nD) : Valuation τ sig (Elt F) :=
  Function.update (W10 m c) main_v59 ((dat1 (E10 m) c).arrAt 4 cfg1.N)
/-- What region 1 leaves, read at the TensorCore's references. -/
abbrev E11 : (c : Dev nD) → (b : Ref sig .tc) → Buf (Elt F) ((c : Thread nD τ).loc b) := fun c b => W11 m c b
/-- After the stretch between regions 1 and 2. -/
abbrev W12 (c : Dev nD) : Valuation τ sig (Elt F) := StableHlo.after hostOps2 (W11 m c)
/-- What region 2 finds. -/
abbrev E12 : (c : Dev nD) → (b : Ref sig .tc) → Buf (Elt F) ((c : Thread nD τ).loc b) := fun c b => W12 m c b
/-- After region 2: `main_v61` at what its write-backs leave. -/
def W13 (c : Dev nD) : Valuation τ sig (Elt F) :=
  Function.update (W12 m c) main_v61 ((dat2 (E12 m) c).arrAt 3 cfg2.N)
/-- What region 3 finds. -/
abbrev E13 : (c : Dev nD) → (b : Ref sig .tc) → Buf (Elt F) ((c : Thread nD τ).loc b) := fun c b => W13 m c b
/-- After region 3: `main_v62` at what its write-backs leave. -/
def W14 (c : Dev nD) : Valuation τ sig (Elt F) :=
  Function.update (W13 m c) main_v62 ((dat3 (E13 m) c).arrAt 3 cfg3.N)
/-- What region 3 leaves, read at the TensorCore's references. -/
abbrev E14 : (c : Dev nD) → (b : Ref sig .tc) → Buf (Elt F) ((c : Thread nD τ).loc b) := fun c b => W14 m c b
/-- After the last stretch: the contents the program ends with. -/
abbrev W15 (c : Dev nD) : Valuation τ sig (Elt F) := StableHlo.after hostOps4 (W14 m c)

/-! ### What each item leaves unchanged, and what each region leaves in its output -/

theorem W10_of (c : Dev nD) (r : Ref sig .tc) (h : r ∉ ([main_v58] : List (Ref sig .tc))) : W10 m c r = V9 m c r := by
  simp only [W10, Function.update_of_ne (StableHlo.devRef_ne_of_ne (List.ne_of_not_mem_cons h) : (Proc.devRef .tc r : DevRef τ sig) ≠ Proc.devRef .tc main_v58)]
theorem W10_out (c : Dev nD) : W10 m c main_v58 = (dat0 (E9 m) c).arrAt 4 cfg0.N := by
  unfold W10; exact Function.update_self _ _ _
theorem W11_of (c : Dev nD) (r : Ref sig .tc) (h : r ∉ ([main_v59] : List (Ref sig .tc))) : W11 m c r = W10 m c r := by
  simp only [W11, Function.update_of_ne (StableHlo.devRef_ne_of_ne (List.ne_of_not_mem_cons h) : (Proc.devRef .tc r : DevRef τ sig) ≠ Proc.devRef .tc main_v59)]
theorem W11_out (c : Dev nD) : W11 m c main_v59 = (dat1 (E10 m) c).arrAt 4 cfg1.N := by
  unfold W11; exact Function.update_self _ _ _
theorem W12_of (c : Dev nD) (r : Ref sig .tc) (h : r ∉ hostOps2_W) : W12 m c r = W11 m c r :=
  StableHlo.after_of_writes_sub hostOps2 _ hostOps2_writes h
theorem W13_of (c : Dev nD) (r : Ref sig .tc) (h : r ∉ ([main_v61] : List (Ref sig .tc))) : W13 m c r = W12 m c r := by
  simp only [W13, Function.update_of_ne (StableHlo.devRef_ne_of_ne (List.ne_of_not_mem_cons h) : (Proc.devRef .tc r : DevRef τ sig) ≠ Proc.devRef .tc main_v61)]
theorem W13_out (c : Dev nD) : W13 m c main_v61 = (dat2 (E12 m) c).arrAt 3 cfg2.N := by
  unfold W13; exact Function.update_self _ _ _
theorem W14_of (c : Dev nD) (r : Ref sig .tc) (h : r ∉ ([main_v62] : List (Ref sig .tc))) : W14 m c r = W13 m c r := by
  simp only [W14, Function.update_of_ne (StableHlo.devRef_ne_of_ne (List.ne_of_not_mem_cons h) : (Proc.devRef .tc r : DevRef τ sig) ≠ Proc.devRef .tc main_v62)]
theorem W14_out (c : Dev nD) : W14 m c main_v62 = (dat3 (E13 m) c).arrAt 3 cfg3.N := by
  unfold W14; exact Function.update_self _ _ _
theorem W15_of (c : Dev nD) (r : Ref sig .tc) (h : r ∉ hostOps4_W) : W15 m c r = W14 m c r :=
  StableHlo.after_of_writes_sub hostOps4 _ hostOps4_writes h

/-! ### At a region's exit each of its arrays holds what the pipeline leaves, every other buffer what it held -/

theorem forall_fin5 {P : Fin 5 → Prop} (h0 : P 0) (h1 : P 1) (h2 : P 2) (h3 : P 3) (h4 : P 4) : ∀ w, P w
  | 0 => h0 | 1 => h1 | 2 => h2 | 3 => h3 | 4 => h4
  | ⟨_ + 5, h⟩ => absurd h (Nat.not_lt.2 (Nat.le_add_left _ _))
theorem forall_fin4 {P : Fin 4 → Prop} (h0 : P 0) (h1 : P 1) (h2 : P 2) (h3 : P 3) : ∀ w, P w
  | 0 => h0 | 1 => h1 | 2 => h2 | 3 => h3
  | ⟨_ + 4, h⟩ => absurd h (Nat.not_lt.2 (Nat.le_add_left _ _))

theorem hF0 (c : Dev nD) : ∀ w : Fin 5, (dat0 (E9 m) c).arrAt w cfg0.N = E10 m c (Pipeline.arrRef spec0 w) :=
  forall_fin5 (P := fun w => (dat0 (E9 m) c).arrAt w cfg0.N = E10 m c (Pipeline.arrRef spec0 w))
    (((dat0 (E9 m) c).arrAt_in 0 rfl _).trans ((A_eq0 (E9 m) c 0).trans (W10_of m c main_v47 (by decide)).symm))
    (((dat0 (E9 m) c).arrAt_in 1 rfl _).trans ((A_eq0 (E9 m) c 1).trans (W10_of m c main_v49 (by decide)).symm))
    (((dat0 (E9 m) c).arrAt_in 2 rfl _).trans ((A_eq0 (E9 m) c 2).trans (W10_of m c main_v50 (by decide)).symm))
    (((dat0 (E9 m) c).arrAt_in 3 rfl _).trans ((A_eq0 (E9 m) c 3).trans (W10_of m c main_v54 (by decide)).symm))
    (W10_out m c).symm
theorem hrest0 (c : Dev nD) : ∀ b, b ∉ Finset.univ.image (Pipeline.arrRef spec0) → E10 m c b = E9 m c b :=
  fun b hb => W10_of m c b fun h => hb (by
    rw [List.mem_singleton.mp h]; exact Finset.mem_image.mpr ⟨4, Finset.mem_univ _, rfl⟩)

theorem hF1 (c : Dev nD) : ∀ w : Fin 5, (dat1 (E10 m) c).arrAt w cfg1.N = E11 m c (Pipeline.arrRef spec1 w) :=
  forall_fin5 (P := fun w => (dat1 (E10 m) c).arrAt w cfg1.N = E11 m c (Pipeline.arrRef spec1 w))
    (((dat1 (E10 m) c).arrAt_in 0 rfl _).trans ((A_eq1 (E10 m) c 0).trans (W11_of m c main_v47 (by decide)).symm))
    (((dat1 (E10 m) c).arrAt_in 1 rfl _).trans ((A_eq1 (E10 m) c 1).trans (W11_of m c main_v58 (by decide)).symm))
    (((dat1 (E10 m) c).arrAt_in 2 rfl _).trans ((A_eq1 (E10 m) c 2).trans (W11_of m c main_v51 (by decide)).symm))
    (((dat1 (E10 m) c).arrAt_in 3 rfl _).trans ((A_eq1 (E10 m) c 3).trans (W11_of m c main_v55 (by decide)).symm))
    (W11_out m c).symm
theorem hrest1 (c : Dev nD) : ∀ b, b ∉ Finset.univ.image (Pipeline.arrRef spec1) → E11 m c b = E10 m c b :=
  fun b hb => W11_of m c b fun h => hb (by
    rw [List.mem_singleton.mp h]; exact Finset.mem_image.mpr ⟨4, Finset.mem_univ _, rfl⟩)

theorem hF2 (c : Dev nD) : ∀ w : Fin 4, (dat2 (E12 m) c).arrAt w cfg2.N = E13 m c (Pipeline.arrRef spec2 w) :=
  forall_fin4 (P := fun w => (dat2 (E12 m) c).arrAt w cfg2.N = E13 m c (Pipeline.arrRef spec2 w))
    (((dat2 (E12 m) c).arrAt_in 0 rfl _).trans ((A_eq2 (E12 m) c 0).trans (W13_of m c main_v59 (by decide)).symm))
    (((dat2 (E12 m) c).arrAt_in 1 rfl _).trans ((A_eq2 (E12 m) c 1).trans (W13_of m c main_v53 (by decide)).symm))
    (((dat2 (E12 m) c).arrAt_in 2 rfl _).trans ((A_eq2 (E12 m) c 2).trans (W13_of m c main_v60 (by decide)).symm))
    (W13_out m c).symm
theorem hrest2 (c : Dev nD) : ∀ b, b ∉ Finset.univ.image (Pipeline.arrRef spec2) → E13 m c b = E12 m c b :=
  fun b hb => W13_of m c b fun h => hb (by
    rw [List.mem_singleton.mp h]; exact Finset.mem_image.mpr ⟨3, Finset.mem_univ _, rfl⟩)

theorem hF3 (c : Dev nD) : ∀ w : Fin 4, (dat3 (E13 m) c).arrAt w cfg3.N = E14 m c (Pipeline.arrRef spec3 w) :=
  forall_fin4 (P := fun w => (dat3 (E13 m) c).arrAt w cfg3.N = E14 m c (Pipeline.arrRef spec3 w))
    (((dat3 (E13 m) c).arrAt_in 0 rfl _).trans ((A_eq3 (E13 m) c 0).trans (W14_of m c main_v47 (by decide)).symm))
    (((dat3 (E13 m) c).arrAt_in 1 rfl _).trans ((A_eq3 (E13 m) c 1).trans (W14_of m c main_v61 (by decide)).symm))
    (((dat3 (E13 m) c).arrAt_in 2 rfl _).trans ((A_eq3 (E13 m) c 2).trans (W14_of m c main_v57 (by decide)).symm))
    (W14_out m c).symm
theorem hrest3 (c : Dev nD) : ∀ b, b ∉ Finset.univ.image (Pipeline.arrRef spec3) → E14 m c b = E13 m c b :=
  fun b hb => W14_of m c b fun h => hb (by
    rw [List.mem_singleton.mp h]; exact Finset.mem_image.mpr ⟨3, Finset.mem_univ _, rfl⟩)

/-! ## The proof data family and the thread state -/

/-- Every region's proof data, each at the contents its region finds. -/
def pdats : (p : Fin 4) → (c : Dev nD) → Dat τ (Elt F) Unit ℕ (UR sig nD τ) ℕ (Pipeline.pin (pcfgs (F := F)) adm p) c
  | ⟨0, _⟩ => fun c => dat0 (E9 m) c
  | ⟨1, _⟩ => fun c => dat1 (E10 m) c
  | ⟨2, _⟩ => fun c => dat2 (E12 m) c
  | ⟨3, _⟩ => fun c => dat3 (E13 m) c
/-- No core owes another anything: no level is assigned. -/
abbrev Lv : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- What rides along ends owing nothing (the generator register is dropped). -/
theorem R_owes (c : Dev nD) : R (F := F) c ⊢ iprop(∃ W, owes (c : Thread nD τ) (0 : CellTallies nD τ sig Unit) W) := by
  iintro ⟨-, HO⟩
  iexact HO
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none Lv lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! ## The regions as segments -/

set_option backward.isDefEq.respectTransparency.types false in
/-- Region 0 over the thread state: entered from every unscoped buffer at `V9`, left at `W10`. Its arrays are split out
    of the unscoped buffers and put back at the exit contents; the generator register goes into the region's invariant
    and comes out; nothing is owed; the kernel has no semaphore of its own. -/
def reg0 : Pipeline.RegionSeg (pcfgs (F := F)) adm (pdats m) () defs₀ Variants.none Lv lv 0 where
  win := launch0.win.to₀
  block_pos := launch0.block_pos
  stage_whole := launch0.stage_whole
  K := PEmpty
  osem k := k.elim
  ho := Pipeline.OwnSemFacts.none _
  hbody c := (body_obligation0 (E9 m) c).loose
  hwaits := Pipeline.hwaits_of_owed_zero _ _ _ _ Lv lv 0 fun _ _ => rfl
  pre c := iprop(StableHlo.held (c : Thread nD τ) (Pipeline.ucRefs τ sig) (V9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec0 c (E9 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E9 m) c)
    unfold Pipeline.ΦA
    iintro ⟨Hp, -, Hr⟩
    isplitl [Hr]; · iexact Hr
    iexact Hp
  hout c := by
    rw [Pipeline.ownSems0_none]
    refine BIBase.Entails.trans (hout0 (E9 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E9 m c) (E10 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1, in the same way: entered at `W10`, left at `W11`. -/
def reg1 : Pipeline.RegionSeg (pcfgs (F := F)) adm (pdats m) () defs₀ Variants.none Lv lv 1 where
  win := launch1.win.to₀
  block_pos := launch1.block_pos
  stage_whole := launch1.stage_whole
  K := PEmpty
  osem k := k.elim
  ho := Pipeline.OwnSemFacts.none _
  hbody c := (body_obligation1 (E10 m) c).loose
  hwaits := Pipeline.hwaits_of_owed_zero _ _ _ _ Lv lv 1 fun _ _ => rfl
  pre c := iprop(StableHlo.held (c : Thread nD τ) (Pipeline.ucRefs τ sig) (W10 m c) ∗ R c)
  post c := iprop(StableHlo.held (c : Thread nD τ) (Pipeline.ucRefs τ sig) (W11 m c) ∗ R c)
  X c := iprop(∃ r, prngReg c r)
  Y c := iprop(∃ r, prngReg c r)
  Z c := Pipeline.unscopedRest (Ix := Unit) (Name := ℕ) (U := UR sig nD τ) (Lvl := ℕ) spec1 c (E10 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E10 m) c)
    unfold Pipeline.ΦA
    iintro ⟨Hp, -, Hr⟩
    isplitl [Hr]; · iexact Hr
    iexact Hp
  hout c := by
    rw [Pipeline.ownSems0_none]
    refine BIBase.Entails.trans (hout1 (E10 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E10 m c) (E11 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2, in the same way: entered at `W12`, left at `W13`. -/
def reg2 : Pipeline.RegionSeg (pcfgs (F := F)) adm (pdats m) () defs₀ Variants.none Lv lv 2 where
  win := launch2.win.to₀
  block_pos := launch2.block_pos
  stage_whole := launch2.stage_whole
  K := PEmpty
  osem k := k.elim
  ho := Pipeline.OwnSemFacts.none _
  hbody c := (body_obligation2 (E12 m) c).loose
  hwaits := Pipeline.hwaits_of_owed_zero _ _ _ _ Lv lv 2 fun _ _ => rfl
  pre c := iprop(StableHlo.held (c : Thread nD τ) (Pipeline.ucRefs τ sig) (W12 m c) ∗ R c)
  post c := iprop(StableHlo.held (c : Thread nD τ) (Pipeline.ucRefs τ sig) (W13 m c) ∗ R c)
  X c := iprop(∃ r, prngReg c r)
  Y c := iprop(∃ r, prngReg c r)
  Z c := Pipeline.unscopedRest (Ix := Unit) (Name := ℕ) (U := UR sig nD τ) (Lvl := ℕ) spec2 c (E12 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (E12 m) c)
    unfold Pipeline.ΦA
    iintro ⟨Hp, -, Hr⟩
    isplitl [Hr]; · iexact Hr
    iexact Hp
  hout c := by
    rw [Pipeline.ownSems0_none]
    refine BIBase.Entails.trans (hout2 (E12 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E12 m c) (E13 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3, in the same way: entered at `W13`, left at `W14`. -/
def reg3 : Pipeline.RegionSeg (pcfgs (F := F)) adm (pdats m) () defs₀ Variants.none Lv lv 3 where
  win := launch3.win.to₀
  block_pos := launch3.block_pos
  stage_whole := launch3.stage_whole
  K := PEmpty
  osem k := k.elim
  ho := Pipeline.OwnSemFacts.none _
  hbody c := (body_obligation3 (E13 m) c).loose
  hwaits := Pipeline.hwaits_of_owed_zero _ _ _ _ Lv lv 3 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec3 c (E13 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (E13 m) c)
    unfold Pipeline.ΦA
    iintro ⟨Hp, -, Hr⟩
    isplitl [Hr]; · iexact Hr
    iexact Hp
  hout c := by
    rw [Pipeline.ownSems0_none]
    refine BIBase.Entails.trans (hout3 (E13 m) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E13 m c) (E14 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's fifteen items in order: a host segment per stretch from its boundary's contents, a region per kernel call. -/
abbrev segs : List (Pipeline.Seg (pcfgs (F := F)) adm (pdats m) () defs₀ Variants.none Lv lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .host (hseg hostOps0_5 hostOps0_5_sub hostOps0_5_fresh (V5 m)),
    .host (hseg hostOps0_6 hostOps0_6_sub hostOps0_6_fresh (V6 m)),
    .host (hseg hostOps0_7 hostOps0_7_sub hostOps0_7_fresh (V7 m)),
    .host (hseg hostOps0_8 hostOps0_8_sub hostOps0_8_fresh (V8 m)),
    .region (reg0 m),
    .region (reg1 m),
    .host (hseg hostOps2 hostOps2_sub hostOps2_fresh (W11 m)),
    .region (reg2 m),
    .region (reg3 m),
    .host (hseg hostOps4 hostOps4_sub hostOps4_fresh (W14 m)) ]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of the program on the TensorCores terminates,
    nothing faulting, and every final memory holds each unscoped buffer at the last boundary's contents `W15`. -/
theorem run_main (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W15 m c b) :=
  Pipeline.θ_run_regions_kit (pcfgs (F := F)) adm (pdats m) () cellOf_inj emb₁ defs₀ Variants.none Lv lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          Prog.lift (.customCall (Pipeline.entry 1) ()),
          StableHlo.seq hostOps2,
          Prog.lift (.customCall (Pipeline.entry 2) ()),
          Prog.lift (.customCall (Pipeline.entry 3) ()),
          StableHlo.seq hostOps4 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (W15 m c))
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun c => sep_mono .rfl (R_owes c)⟩)
    (hinit := by
      refine Pipeline.initEach Lv lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m c b)
    (hfin := fun c s' => by
      iintro ⟨Hh, HSI⟩
      unfold StableHlo.held
      imodintro
      iapply (pointsTo_read_all (Pipeline.ucRefs τ sig) (fun b => (((c : Thread nD τ)).1, b)) (W15 m c) s')
      isplitl [Hh] <;> iassumption)
    (hQ := fun s h c => h c)

/-! ## The arguments end as launched, and the result

No host operation and no region writes an argument, so the fold at an argument's buffer walks back to the launch memory. -/

theorem W15_main_arg0 (c : Dev nD) : W15 m c main_arg0 = m ((c : Thread nD τ).loc main_arg0) :=
  (W15_of m c main_arg0 (by decide)).trans <| (W14_of m c main_arg0 (by decide)).trans <| (W13_of m c main_arg0 (by decide)).trans <| (W12_of m c main_arg0 (by decide)).trans <| (W11_of m c main_arg0 (by decide)).trans <| (W10_of m c main_arg0 (by decide)).trans <| (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans rfl
theorem W15_main_arg1 (c : Dev nD) : W15 m c main_arg1 = m ((c : Thread nD τ).loc main_arg1) :=
  (W15_of m c main_arg1 (by decide)).trans <| (W14_of m c main_arg1 (by decide)).trans <| (W13_of m c main_arg1 (by decide)).trans <| (W12_of m c main_arg1 (by decide)).trans <| (W11_of m c main_arg1 (by decide)).trans <| (W10_of m c main_arg1 (by decide)).trans <| (V9_of m c main_arg1 (by decide)).trans <| (V8_of m c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans rfl
theorem W15_main_arg2 (c : Dev nD) : W15 m c main_arg2 = m ((c : Thread nD τ).loc main_arg2) :=
  (W15_of m c main_arg2 (by decide)).trans <| (W14_of m c main_arg2 (by decide)).trans <| (W13_of m c main_arg2 (by decide)).trans <| (W12_of m c main_arg2 (by decide)).trans <| (W11_of m c main_arg2 (by decide)).trans <| (W10_of m c main_arg2 (by decide)).trans <| (V9_of m c main_arg2 (by decide)).trans <| (V8_of m c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans rfl
theorem W15_main_arg3 (c : Dev nD) : W15 m c main_arg3 = m ((c : Thread nD τ).loc main_arg3) :=
  (W15_of m c main_arg3 (by decide)).trans <| (W14_of m c main_arg3 (by decide)).trans <| (W13_of m c main_arg3 (by decide)).trans <| (W12_of m c main_arg3 (by decide)).trans <| (W11_of m c main_arg3 (by decide)).trans <| (W10_of m c main_arg3 (by decide)).trans <| (V9_of m c main_arg3 (by decide)).trans <| (V8_of m c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans rfl
theorem W15_main_arg4 (c : Dev nD) : W15 m c main_arg4 = m ((c : Thread nD τ).loc main_arg4) :=
  (W15_of m c main_arg4 (by decide)).trans <| (W14_of m c main_arg4 (by decide)).trans <| (W13_of m c main_arg4 (by decide)).trans <| (W12_of m c main_arg4 (by decide)).trans <| (W11_of m c main_arg4 (by decide)).trans <| (W10_of m c main_arg4 (by decide)).trans <| (V9_of m c main_arg4 (by decide)).trans <| (V8_of m c main_arg4 (by decide)).trans <| (V7_of m c main_arg4 (by decide)).trans <| (V6_of m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide)).trans rfl
theorem W15_main_arg5 (c : Dev nD) : W15 m c main_arg5 = m ((c : Thread nD τ).loc main_arg5) :=
  (W15_of m c main_arg5 (by decide)).trans <| (W14_of m c main_arg5 (by decide)).trans <| (W13_of m c main_arg5 (by decide)).trans <| (W12_of m c main_arg5 (by decide)).trans <| (W11_of m c main_arg5 (by decide)).trans <| (W10_of m c main_arg5 (by decide)).trans <| (V9_of m c main_arg5 (by decide)).trans <| (V8_of m c main_arg5 (by decide)).trans <| (V7_of m c main_arg5 (by decide)).trans <| (V6_of m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide)).trans rfl
theorem W15_main_arg6 (c : Dev nD) : W15 m c main_arg6 = m ((c : Thread nD τ).loc main_arg6) :=
  (W15_of m c main_arg6 (by decide)).trans <| (W14_of m c main_arg6 (by decide)).trans <| (W13_of m c main_arg6 (by decide)).trans <| (W12_of m c main_arg6 (by decide)).trans <| (W11_of m c main_arg6 (by decide)).trans <| (W10_of m c main_arg6 (by decide)).trans <| (V9_of m c main_arg6 (by decide)).trans <| (V8_of m c main_arg6 (by decide)).trans <| (V7_of m c main_arg6 (by decide)).trans <| (V6_of m c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide)).trans rfl
theorem W15_main_arg7 (c : Dev nD) : W15 m c main_arg7 = m ((c : Thread nD τ).loc main_arg7) :=
  (W15_of m c main_arg7 (by decide)).trans <| (W14_of m c main_arg7 (by decide)).trans <| (W13_of m c main_arg7 (by decide)).trans <| (W12_of m c main_arg7 (by decide)).trans <| (W11_of m c main_arg7 (by decide)).trans <| (W10_of m c main_arg7 (by decide)).trans <| (V9_of m c main_arg7 (by decide)).trans <| (V8_of m c main_arg7 (by decide)).trans <| (V7_of m c main_arg7 (by decide)).trans <| (V6_of m c main_arg7 (by decide)).trans <| (V5_of m c main_arg7 (by decide)).trans <| (V4_of m c main_arg7 (by decide)).trans <| (V3_of m c main_arg7 (by decide)).trans <| (V2_of m c main_arg7 (by decide)).trans <| (V1_of m c main_arg7 (by decide)).trans rfl
theorem W15_main_arg8 (c : Dev nD) : W15 m c main_arg8 = m ((c : Thread nD τ).loc main_arg8) :=
  (W15_of m c main_arg8 (by decide)).trans <| (W14_of m c main_arg8 (by decide)).trans <| (W13_of m c main_arg8 (by decide)).trans <| (W12_of m c main_arg8 (by decide)).trans <| (W11_of m c main_arg8 (by decide)).trans <| (W10_of m c main_arg8 (by decide)).trans <| (V9_of m c main_arg8 (by decide)).trans <| (V8_of m c main_arg8 (by decide)).trans <| (V7_of m c main_arg8 (by decide)).trans <| (V6_of m c main_arg8 (by decide)).trans <| (V5_of m c main_arg8 (by decide)).trans <| (V4_of m c main_arg8 (by decide)).trans <| (V3_of m c main_arg8 (by decide)).trans <| (V2_of m c main_arg8 (by decide)).trans <| (V1_of m c main_arg8 (by decide)).trans rfl

/-- The frame: the program runs and every argument array ends holding its launch contents. -/
theorem frame_hand (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W15_main_arg0 m c),
      (h c _ (mem_uc main_arg1 (by decide))).trans (W15_main_arg1 m c),
      (h c _ (mem_uc main_arg2 (by decide))).trans (W15_main_arg2 m c),
      (h c _ (mem_uc main_arg3 (by decide))).trans (W15_main_arg3 m c),
      (h c _ (mem_uc main_arg4 (by decide))).trans (W15_main_arg4 m c),
      (h c _ (mem_uc main_arg5 (by decide))).trans (W15_main_arg5 m c),
      (h c _ (mem_uc main_arg6 (by decide))).trans (W15_main_arg6 m c),
      (h c _ (mem_uc main_arg7 (by decide))).trans (W15_main_arg7 m c),
      (h c _ (mem_uc main_arg8 (by decide))).trans (W15_main_arg8 m c)⟩) (run_main m ρ)

/-- The result: the program runs, its result array ends at the last boundary's contents, and every argument array ends
    holding its launch contents. -/
theorem result_hand (ρ : Dev nD → PrngReg) : θ_run defs (onTc (τ := τ) (main (F := F))) ⟨m, fun _ => 0, ρ⟩ (fun r => ∀ c : Dev nD,
      r.2.mem ((c.tc : Thread nD τ).loc main_v63) = W15 m c main_v63
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c _ (mem_uc main_v63 (by decide)),
      (h c _ (mem_uc main_arg0 (by decide))).trans (W15_main_arg0 m c),
      (h c _ (mem_uc main_arg1 (by decide))).trans (W15_main_arg1 m c),
      (h c _ (mem_uc main_arg2 (by decide))).trans (W15_main_arg2 m c),
      (h c _ (mem_uc main_arg3 (by decide))).trans (W15_main_arg3 m c),
      (h c _ (mem_uc main_arg4 (by decide))).trans (W15_main_arg4 m c),
      (h c _ (mem_uc main_arg5 (by decide))).trans (W15_main_arg5 m c),
      (h c _ (mem_uc main_arg6 (by decide))).trans (W15_main_arg6 m c),
      (h c _ (mem_uc main_arg7 (by decide))).trans (W15_main_arg7 m c),
      (h c _ (mem_uc main_arg8 (by decide))).trans (W15_main_arg8 m c)⟩) (run_main m ρ)

end Cert.Kernel.Hand

end
-- ==== Proof.KI.R0Runs.lean ====
import proofs.«179401_j66675072303277_2_alg».proof.Proof.Gen.KernelIdeal.Launch
import proofs.«179401_j66675072303277_2_alg».proof.Proof.Gen.KernelIdeal.Skeleton
import proofs.«179401_j66675072303277_2_alg».proof.Proof.Gen.KernelIdeal.Points
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the conditions of its two branches, where its output is idle, and the body run case by case

The body resets the accumulator at the first step of the second grid axis, adds one product of blocks at every step, and at the last
step computes the output block from the accumulator, the weights and the bias row. -/

/-- The first step along the second grid axis. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 5 = 0 :=
  (by decide +kernel : ∀ t : Fin grid0.N, cond0_0 (grid0.coords t) ↔ t.val % 5 = 0)
/-- The last step along the second grid axis. -/
abbrev cond0_1 (i : grid0.Coords) : Prop := k0_cond2 i = 1#1
theorem hcond0_1 : ∀ t : Fin cfg0.N, cond0_1 (grid0.coords t) ↔ t.val % 5 = 4 :=
  (by decide +kernel : ∀ t : Fin grid0.N, cond0_1 (grid0.coords t) ↔ t.val % 5 = 4)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last step the output window is idle and not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-- The staging memrefs the body is called with at point `t`, and the accumulator. -/
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x512 .bf16 := win0_4.stage (cfg0.slots t 4)
abbrev hs0_4 (t : Fin cfg0.N) : (ms0_4 t).IsWhole := hstage0_4 ((cfg0.slots t 4).cast nbuf0_4)
abbrev scM0 : Memref sig .tc .vmem S1024x256 .f32 := Memref.whole cc0_scratch0
abbrev VS0 : View sig .tc .vmem S1024x256 .f32 := (scM0).view
abbrev VO0 : View sig .tc .vmem S1024x512 .bf16 := (Memref.whole cc0_stg4_0 : Memref sig .tc .vmem S1024x512 .bf16).view

/-- The other scoped buffers of the program, unopened: what the invariant carries beside the accumulator and the generator register. -/
abbrev RestB0 (c : Dev nD) : sProp 𝕄 :=
  Pipeline.scopedRestBut (Ix := Unit) (Name := ℕ) (U := UR sig nD τ) (Lvl := ℕ) (Val := Elt F) spec0 c [cc0_scratch0]

/-- The class invariant, with the accumulator split off as a whole memref at some contents. -/
theorem PhiA0_eq (c : Dev nD) :
    (Pipeline.ΦA spec0 c : sProp 𝕄) = iprop(((∃ d, owns (c : Thread nD τ) scM0 fullShare d) ∗ RestB0 c) ∗ ∃ r, prngReg c r) := by
  unfold Pipeline.ΦA; rw [scopedRest0_split]; simp only [scM0, owns_whole]; try rfl

/-! ## The body, case by case -/

set_option maxHeartbeats 1000000 in
/-- FIRST STEP (not the last): the accumulator, found at anything, is reset and one product added; the output's buffer is handed back untouched. -/
noncomputable def kernelRun0_A (c : Dev nD) (i : grid0.Coords) (arg2 : Memref sig .tc .vmem S1024x2048 .bf16) (harg2 : arg2.IsWhole) (arg3 : Memref sig .tc .vmem S2048x256 .bf16) (harg3 : arg3.IsWhole) (arg4 : Memref sig .tc .vmem S256x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x256 .f32) (harg7 : arg7.IsWhole) (hc0 : cond0_0 i) (hc1 : ¬cond0_1 i)
    (x0 : Vec F S1024x2048 .bf16) (x1 : Vec F S2048x256 .bf16) (x2 : Vec F S256x512 .bf16) (x3 : Vec F S1x512 .f32) :
    { LS : List (View.Piece (Elt F) S1024x256 .f32) //
      ∀ (xi : Vec F S1024x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc0_kernel i arg2 harg2 arg3 harg3 arg4 harg4 arg5 harg5 arg6 harg6 arg7 harg7) K } := by
  refine ⟨?_, fun xi E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

set_option maxHeartbeats 1000000 in
/-- AN INNER STEP: one product is added to the accumulator found at `xs`; the output's buffer is handed back untouched. -/
noncomputable def kernelRun0_B (c : Dev nD) (i : grid0.Coords) (arg2 : Memref sig .tc .vmem S1024x2048 .bf16) (harg2 : arg2.IsWhole) (arg3 : Memref sig .tc .vmem S2048x256 .bf16) (harg3 : arg3.IsWhole) (arg4 : Memref sig .tc .vmem S256x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x256 .f32) (harg7 : arg7.IsWhole) (hc0 : ¬cond0_0 i) (hc1 : ¬cond0_1 i)
    (x0 : Vec F S1024x2048 .bf16) (x1 : Vec F S2048x256 .bf16) (x2 : Vec F S256x512 .bf16) (x3 : Vec F S1x512 .f32) (xs : Vec F S1024x256 .f32) :
    { LS : List (View.Piece (Elt F) S1024x256 .f32) //
      ∀ (xi : Vec F S1024x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc0_kernel i arg2 harg2 arg3 harg3 arg4 harg4 arg5 harg5 arg6 harg6 arg7 harg7) K } := by
  refine ⟨?_, fun xi E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

set_option maxHeartbeats 1000000 in
/-- THE LAST STEP (not the first): one product is added to the accumulator found at `xs`, and the output block is computed from it and stored whole. -/
noncomputable def kernelRun0_C (c : Dev nD) (i : grid0.Coords) (arg2 : Memref sig .tc .vmem S1024x2048 .bf16) (harg2 : arg2.IsWhole) (arg3 : Memref sig .tc .vmem S2048x256 .bf16) (harg3 : arg3.IsWhole) (arg4 : Memref sig .tc .vmem S256x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x256 .f32) (harg7 : arg7.IsWhole) (hc0 : ¬cond0_0 i) (hc1 : cond0_1 i)
    (x0 : Vec F S1024x2048 .bf16) (x1 : Vec F S2048x256 .bf16) (x2 : Vec F S256x512 .bf16) (x3 : Vec F S1x512 .f32) (xs : Vec F S1024x256 .f32) :
    Σ' (LO : List (View.Piece (Elt F) S1024x512 .bf16)), { LS : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc0_kernel i arg2 harg2 arg3 harg3 arg4 harg4 arg5 harg5 arg6 harg6 arg7 harg7) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.KernelIdeal.Hand

end
-- ==== Proof.KI.R0.lean ====
import proofs.«179401_j66675072303277_2_alg».proof.Proof.KI.R0Runs
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: what each point leaves, the proof data, the body obligation

All stated at the contents `V` the region finds in the program's buffers when it is entered. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves: its stores read back -/

/-- The accumulator's stores at the first step cover it. -/
theorem scover0_A {c : Dev nD} {i : grid0.Coords} {arg2 : Memref sig .tc .vmem S1024x2048 .bf16} {harg2 : arg2.IsWhole} {arg3 : Memref sig .tc .vmem S2048x256 .bf16} {harg3 : arg3.IsWhole} {arg4 : Memref sig .tc .vmem S256x512 .bf16} {harg4 : arg4.IsWhole} {arg5 : Memref sig .tc .vmem S1x512 .f32} {harg5 : arg5.IsWhole} {arg6 : Memref sig .tc .vmem S1024x512 .bf16} {harg6 : arg6.IsWhole} {arg7 : Memref sig .tc .vmem S1024x256 .f32} {harg7 : arg7.IsWhole} {hc0 : cond0_0 i} {hc1 : ¬cond0_1 i} {x0 : Vec F S1024x2048 .bf16} {x1 : Vec F S2048x256 .bf16} {x2 : Vec F S256x512 .bf16} {x3 : Vec F S1x512 .f32} (y : S1024x256.Idx) :
    ∃ pc ∈ (kernelRun0_A c i arg2 harg2 arg3 harg3 arg4 harg4 arg5 harg5 arg6 harg6 arg7 harg7 hc0 hc1 x0 x1 x2 x3).1, y ∈ pc.1.set :=
  View.cover_of_tiledL (kernelRun0_A c i arg2 harg2 arg3 harg3 arg4 harg4 arg5 harg5 arg6 harg6 arg7 harg7 hc0 hc1 x0 x1 x2 x3).1 S1024x256.size (by sl_kernel_rfl) y
/-- What the first step leaves in the accumulator. -/
def sout0_A (c : Dev nD) (i : grid0.Coords) (arg2 : Memref sig .tc .vmem S1024x2048 .bf16) (harg2 : arg2.IsWhole) (arg3 : Memref sig .tc .vmem S2048x256 .bf16) (harg3 : arg3.IsWhole) (arg4 : Memref sig .tc .vmem S256x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x256 .f32) (harg7 : arg7.IsWhole) (hc0 : cond0_0 i) (hc1 : ¬cond0_1 i) (x0 : Vec F S1024x2048 .bf16) (x1 : Vec F S2048x256 .bf16) (x2 : Vec F S256x512 .bf16) (x3 : Vec F S1x512 .f32) : Vec F S1024x256 .f32 :=
  VS0.read (Elt F) (VS0.writes (Elt F) VS0.junk (kernelRun0_A c i arg2 harg2 arg3 harg3 arg4 harg4 arg5 harg5 arg6 harg6 arg7 harg7 hc0 hc1 x0 x1 x2 x3).1)

theorem scover0_B {c : Dev nD} {i : grid0.Coords} {arg2 : Memref sig .tc .vmem S1024x2048 .bf16} {harg2 : arg2.IsWhole} {arg3 : Memref sig .tc .vmem S2048x256 .bf16} {harg3 : arg3.IsWhole} {arg4 : Memref sig .tc .vmem S256x512 .bf16} {harg4 : arg4.IsWhole} {arg5 : Memref sig .tc .vmem S1x512 .f32} {harg5 : arg5.IsWhole} {arg6 : Memref sig .tc .vmem S1024x512 .bf16} {harg6 : arg6.IsWhole} {arg7 : Memref sig .tc .vmem S1024x256 .f32} {harg7 : arg7.IsWhole} {hc0 : ¬cond0_0 i} {hc1 : ¬cond0_1 i} {x0 : Vec F S1024x2048 .bf16} {x1 : Vec F S2048x256 .bf16} {x2 : Vec F S256x512 .bf16} {x3 : Vec F S1x512 .f32} {xs : Vec F S1024x256 .f32} (y : S1024x256.Idx) :
    ∃ pc ∈ (kernelRun0_B c i arg2 harg2 arg3 harg3 arg4 harg4 arg5 harg5 arg6 harg6 arg7 harg7 hc0 hc1 x0 x1 x2 x3 xs).1, y ∈ pc.1.set :=
  View.cover_of_tiledL (kernelRun0_B c i arg2 harg2 arg3 harg3 arg4 harg4 arg5 harg5 arg6 harg6 arg7 harg7 hc0 hc1 x0 x1 x2 x3 xs).1 S1024x256.size (by sl_kernel_rfl) y
/-- What an inner step leaves in the accumulator, found at `xs`. -/
def sout0_B (c : Dev nD) (i : grid0.Coords) (arg2 : Memref sig .tc .vmem S1024x2048 .bf16) (harg2 : arg2.IsWhole) (arg3 : Memref sig .tc .vmem S2048x256 .bf16) (harg3 : arg3.IsWhole) (arg4 : Memref sig .tc .vmem S256x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x256 .f32) (harg7 : arg7.IsWhole) (hc0 : ¬cond0_0 i) (hc1 : ¬cond0_1 i) (x0 : Vec F S1024x2048 .bf16) (x1 : Vec F S2048x256 .bf16) (x2 : Vec F S256x512 .bf16) (x3 : Vec F S1x512 .f32) (xs : Vec F S1024x256 .f32) : Vec F S1024x256 .f32 :=
  VS0.read (Elt F) (VS0.writes (Elt F) VS0.junk (kernelRun0_B c i arg2 harg2 arg3 harg3 arg4 harg4 arg5 harg5 arg6 harg6 arg7 harg7 hc0 hc1 x0 x1 x2 x3 xs).1)

theorem scover0_C {c : Dev nD} {i : grid0.Coords} {arg2 : Memref sig .tc .vmem S1024x2048 .bf16} {harg2 : arg2.IsWhole} {arg3 : Memref sig .tc .vmem S2048x256 .bf16} {harg3 : arg3.IsWhole} {arg4 : Memref sig .tc .vmem S256x512 .bf16} {harg4 : arg4.IsWhole} {arg5 : Memref sig .tc .vmem S1x512 .f32} {harg5 : arg5.IsWhole} {arg6 : Memref sig .tc .vmem S1024x512 .bf16} {harg6 : arg6.IsWhole} {arg7 : Memref sig .tc .vmem S1024x256 .f32} {harg7 : arg7.IsWhole} {hc0 : ¬cond0_0 i} {hc1 : cond0_1 i} {x0 : Vec F S1024x2048 .bf16} {x1 : Vec F S2048x256 .bf16} {x2 : Vec F S256x512 .bf16} {x3 : Vec F S1x512 .f32} {xs : Vec F S1024x256 .f32} (y : S1024x256.Idx) :
    ∃ pc ∈ (kernelRun0_C c i arg2 harg2 arg3 harg3 arg4 harg4 arg5 harg5 arg6 harg6 arg7 harg7 hc0 hc1 x0 x1 x2 x3 xs).2.1, y ∈ pc.1.set :=
  View.cover_of_tiledL (kernelRun0_C c i arg2 harg2 arg3 harg3 arg4 harg4 arg5 harg5 arg6 harg6 arg7 harg7 hc0 hc1 x0 x1 x2 x3 xs).2.1 S1024x256.size (by sl_kernel_rfl) y
/-- What the last step leaves in the accumulator, found at `xs`. -/
def sout0_C (c : Dev nD) (i : grid0.Coords) (arg2 : Memref sig .tc .vmem S1024x2048 .bf16) (harg2 : arg2.IsWhole) (arg3 : Memref sig .tc .vmem S2048x256 .bf16) (harg3 : arg3.IsWhole) (arg4 : Memref sig .tc .vmem S256x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x256 .f32) (harg7 : arg7.IsWhole) (hc0 : ¬cond0_0 i) (hc1 : cond0_1 i) (x0 : Vec F S1024x2048 .bf16) (x1 : Vec F S2048x256 .bf16) (x2 : Vec F S256x512 .bf16) (x3 : Vec F S1x512 .f32) (xs : Vec F S1024x256 .f32) : Vec F S1024x256 .f32 :=
  VS0.read (Elt F) (VS0.writes (Elt F) VS0.junk (kernelRun0_C c i arg2 harg2 arg3 harg3 arg4 harg4 arg5 harg5 arg6 harg6 arg7 harg7 hc0 hc1 x0 x1 x2 x3 xs).2.1)
theorem cover0_C {c : Dev nD} {i : grid0.Coords} {arg2 : Memref sig .tc .vmem S1024x2048 .bf16} {harg2 : arg2.IsWhole} {arg3 : Memref sig .tc .vmem S2048x256 .bf16} {harg3 : arg3.IsWhole} {arg4 : Memref sig .tc .vmem S256x512 .bf16} {harg4 : arg4.IsWhole} {arg5 : Memref sig .tc .vmem S1x512 .f32} {harg5 : arg5.IsWhole} {arg6 : Memref sig .tc .vmem S1024x512 .bf16} {harg6 : arg6.IsWhole} {arg7 : Memref sig .tc .vmem S1024x256 .f32} {harg7 : arg7.IsWhole} {hc0 : ¬cond0_0 i} {hc1 : cond0_1 i} {x0 : Vec F S1024x2048 .bf16} {x1 : Vec F S2048x256 .bf16} {x2 : Vec F S256x512 .bf16} {x3 : Vec F S1x512 .f32} {xs : Vec F S1024x256 .f32} (y : S1024x512.Idx) :
    ∃ pc ∈ (kernelRun0_C c i arg2 harg2 arg3 harg3 arg4 harg4 arg5 harg5 arg6 harg6 arg7 harg7 hc0 hc1 x0 x1 x2 x3 xs).1, y ∈ pc.1.set :=
  View.cover_of_tiledL (kernelRun0_C c i arg2 harg2 arg3 harg3 arg4 harg4 arg5 harg5 arg6 harg6 arg7 harg7 hc0 hc1 x0 x1 x2 x3 xs).1 S1024x512.size (by sl_kernel_rfl) y
/-- What the last step leaves in the output's staging buffer. -/
def out0_C (c : Dev nD) (i : grid0.Coords) (arg2 : Memref sig .tc .vmem S1024x2048 .bf16) (harg2 : arg2.IsWhole) (arg3 : Memref sig .tc .vmem S2048x256 .bf16) (harg3 : arg3.IsWhole) (arg4 : Memref sig .tc .vmem S256x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x256 .f32) (harg7 : arg7.IsWhole) (hc0 : ¬cond0_0 i) (hc1 : cond0_1 i) (x0 : Vec F S1024x2048 .bf16) (x1 : Vec F S2048x256 .bf16) (x2 : Vec F S256x512 .bf16) (x3 : Vec F S1x512 .f32) (xs : Vec F S1024x256 .f32) : Vec F S1024x512 .bf16 :=
  VO0.read (Elt F) (VO0.writes (Elt F) VO0.junk (kernelRun0_C c i arg2 harg2 arg3 harg3 arg4 harg4 arg5 harg5 arg6 harg6 arg7 harg7 hc0 hc1 x0 x1 x2 x3 xs).1)
/-- A placeholder for the output's buffer where the window is idle (nothing consults it there). -/
def outIdle0 : Vec F S1024x512 .bf16 := VO0.read (Elt F) VO0.junk

/-! ## What the output's buffer and the accumulator hold after each point -/

/-- After the body at position `n`: the output's staging buffer (meaningful at the last steps only) and the accumulator, by recursion on the point:
    a first step starts afresh, the other steps continue from what the point before left in the accumulator. -/
def outsAt0 (c : Dev nD) : (n : ℕ) → n < cfg0.N → Vec F S1024x512 .bf16 × Vec F S1024x256 .f32
  | 0, hn => (outIdle0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 5 = 0 then
      if h1 : (n + 1) % 5 = 4 then
        False.elim (by omega)
      else
        (outIdle0, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 5 = 4 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (outIdle0, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

theorem outsAt0_A (c : Dev nD) (t : Fin cfg0.N) (h0 : t.val % 5 = 0) (h1 : ¬t.val % 5 = 4) :
    outsAt0 V c t.val t.isLt = (outIdle0, sout0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 5 = 0) (h1 : ¬t.val % 5 = 4) :
    outsAt0 V c t.val t.isLt = (outIdle0, sout0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 5 = 0) (h1 : t.val % 5 = 4) :
    outsAt0 V c t.val t.isLt = (out0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's (the accumulator at anything); afterwards the accumulator
    at what the point before left in it, beside the other scoped buffers and the generator register. -/
def PhiS0 (c : Dev nD) : (n : ℕ) → n ≤ cfg0.N → sProp 𝕄
  | 0, _ => Pipeline.ΦA spec0 c
  | n + 1, hn => iprop((owns (c : Thread nD τ) scM0 fullShare ((outsAt0 V c n hn).2) ∗ RestB0 c) ∗ ∃ r, prngReg c r)

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0 fullShare ((outsAt0 V c n hn).2) ∗ RestB0 c) ∗ ∃ r, prngReg c r) := rfl
theorem PhiS0_pos (c : Dev nD) (n : ℕ) (h : n ≤ cfg0.N) (hz : n ≠ 0) :
    PhiS0 V c n h = iprop((owns (c : Thread nD τ) scM0 fullShare ((outsAt0 V c (n - 1) (by omega)).2) ∗ RestB0 c) ∗ ∃ r, prngReg c r) := by
  cases n with
  | zero => exact absurd rfl hz
  | succ n => rfl

/-! ## The proof data -/

/-- Region 0's proof data on core `c`: the arrays as the region finds them; after the body each input's buffer at its block and the output's
    at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- An input's buffer is handed back at its block. -/
theorem leaves0_0 (c : Dev nD) (t : Fin cfg0.N) : (dat0 V c).leavesExact 0 t = owns (c : Thread nD τ) (ms0_0 t) fullShare (iblk0 V c 0 t) := by
  rw [show (dat0 V c).leavesExact 0 t = owns (c : Thread nD τ) (ms0_0 t) fullShare ((dat0 V c).after 0 t) from by
    unfold Dat.leavesExact; rw [liveAt0_0 t], after0_0]
theorem leaves0_1 (c : Dev nD) (t : Fin cfg0.N) : (dat0 V c).leavesExact 1 t = owns (c : Thread nD τ) (ms0_1 t) fullShare (iblk0 V c 1 t) := by
  rw [show (dat0 V c).leavesExact 1 t = owns (c : Thread nD τ) (ms0_1 t) fullShare ((dat0 V c).after 1 t) from by
    unfold Dat.leavesExact; rw [liveAt0_1 t], after0_1]
theorem leaves0_2 (c : Dev nD) (t : Fin cfg0.N) : (dat0 V c).leavesExact 2 t = owns (c : Thread nD τ) (ms0_2 t) fullShare (iblk0 V c 2 t) := by
  rw [show (dat0 V c).leavesExact 2 t = owns (c : Thread nD τ) (ms0_2 t) fullShare ((dat0 V c).after 2 t) from by
    unfold Dat.leavesExact; rw [liveAt0_2 t], after0_2]
theorem leaves0_3 (c : Dev nD) (t : Fin cfg0.N) : (dat0 V c).leavesExact 3 t = owns (c : Thread nD τ) (ms0_3 t) fullShare (iblk0 V c 3 t) := by
  rw [show (dat0 V c).leavesExact 3 t = owns (c : Thread nD τ) (ms0_3 t) fullShare ((dat0 V c).after 3 t) from by
    unfold Dat.leavesExact; rw [liveAt0_3 t], after0_3]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: the inputs' memrefs hold their blocks; the closed forms of the two conditions say which case the point is in; the invariant hands the body the
    accumulator at what the point before left (at anything at the very first point) and takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3]
  have hN : t.val < 50 := lt_of_lt_of_eq t.isLt (show cfg0.N = 50 from N_0)
  by_cases h0 : t.val % 5 = 0
  · by_cases h1 : t.val % 5 = 4
    · exfalso; omega
    · rw [Dat.leavesExact_idle (dat0 V c) 4 t (idleAt0_4 t (fun h => h1 ((hcond0_1 t).mp h))) (noFlush0_4 t (fun h => h1 ((hcond0_1 t).mp h)))]
      rw [outsAt0_A V c t h0 h1]
      unfold sout0_A; (try dsimp only)
      by_cases hz : t.val = 0
      · rw [PhiS0_castSucc V c t, PhiS0_zero V c _ _ hz, PhiA0_eq]
        iintro ⟨⟨⟨HS, HB⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2 _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, ⟨%es, HS⟩⟩
        isplitl [HS HB Hg]
        · isplitl [HS HB]
          · isplitl [HS]
            · unfold owns; iexists _; isplitr
              swap; · iexact HS
              ipureintro; exact View.read_writes_of_cover _ _ _ _ _ scover0_A
            iexact HB
          iexact Hg
        isplitl [Ho]; · iexact Ho
        isplitl [H0]; · iexact H0
        isplitl [H1]; · iexact H1
        isplitl [H2]; · iexact H2
        isplitl [H3]; · iexact H3
        iexists _; iexact H4
      · rw [PhiS0_castSucc V c t, PhiS0_pos V c _ _ hz]
        iintro ⟨⟨⟨HS, HB⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2 _ Set.univ _)
        isplitl [H0]; · iexact H0
        isplitl [H1]; · iexact H1
        isplitl [H2]; · iexact H2
        isplitl [H3]; · iexact H3
        isplitl [H4]; · iexact H4
        isplitl [HS]; · iexists _; iexact HS
        iintro ⟨H0, H1, H2, H3, H4, ⟨%es, HS⟩⟩
        isplitl [HS HB Hg]
        · isplitl [HS HB]
          · isplitl [HS]
            · unfold owns; iexists _; isplitr
              swap; · iexact HS
              ipureintro; exact View.read_writes_of_cover _ _ _ _ _ scover0_A
            iexact HB
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun h => h0 (by rw [h])
    by_cases h1 : t.val % 5 = 4
    · rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold out0_C sout0_C; (try dsimp only)
      rw [PhiS0_castSucc V c t, PhiS0_pos V c _ _ hz]
      iintro ⟨⟨⟨HS, HB⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS HB Hg]
      · isplitl [HS HB]
        · isplitl [HS]
          · unfold owns; iexists _; isplitr
            swap; · iexact HS
            ipureintro; exact View.read_writes_of_cover _ _ _ _ _ scover0_C
          iexact HB
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ cover0_C
    · rw [Dat.leavesExact_idle (dat0 V c) 4 t (idleAt0_4 t (fun h => h1 ((hcond0_1 t).mp h))) (noFlush0_4 t (fun h => h1 ((hcond0_1 t).mp h)))]
      rw [outsAt0_B V c t h0 h1]
      unfold sout0_B; (try dsimp only)
      rw [PhiS0_castSucc V c t, PhiS0_pos V c _ _ hz]
      iintro ⟨⟨⟨HS, HB⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HB Hg]
      · isplitl [HS HB]
        · isplitl [HS]
          · unfold owns; iexists _; isplitr
            swap; · iexact HS
            ipureintro; exact View.read_writes_of_cover _ _ _ _ _ scover0_B
          iexact HB
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is handed is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 50 := N_0; omega), PhiA0_eq]
  iintro ⟨⟨HS, HB⟩, Hg⟩
  isplitr [Hg]
  · isplitl [HS]
    · iexists _; iexact HS
    iexact HB
  iexact Hg

end Cert.KernelIdeal.Hand

end
-- ==== Proof.KI.R1Runs.lean ====
import proofs.«179401_j66675072303277_2_alg».proof.Proof.Gen.KernelIdeal.Launch
import proofs.«179401_j66675072303277_2_alg».proof.Proof.Gen.KernelIdeal.Skeleton
import proofs.«179401_j66675072303277_2_alg».proof.Proof.Gen.KernelIdeal.Points
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the conditions of its two branches, where its output is idle, and the body run case by case

The body resets the accumulator at the first step of the second grid axis, adds one product of blocks at every step, and at the last
step computes the output block from the accumulator, the weights and the bias row. -/

/-- The first step along the second grid axis. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 5 = 0 :=
  (by decide +kernel : ∀ t : Fin grid1.N, cond1_0 (grid1.coords t) ↔ t.val % 5 = 0)
/-- The last step along the second grid axis. -/
abbrev cond1_1 (i : grid1.Coords) : Prop := k1_cond2 i = 1#1
theorem hcond1_1 : ∀ t : Fin cfg1.N, cond1_1 (grid1.coords t) ↔ t.val % 5 = 4 :=
  (by decide +kernel : ∀ t : Fin grid1.N, cond1_1 (grid1.coords t) ↔ t.val % 5 = 4)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last step the output window is idle and not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-- The staging memrefs the body is called with at point `t`, and the accumulator. -/
abbrev ms1_0 (t : Fin cfg1.N) : Memref sig .tc .vmem S1024x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x768 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x768 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x768 .bf16 := win1_4.stage (cfg1.slots t 4)
abbrev hs1_4 (t : Fin cfg1.N) : (ms1_4 t).IsWhole := hstage1_4 ((cfg1.slots t 4).cast nbuf1_4)
abbrev scM1 : Memref sig .tc .vmem S1024x512 .f32 := Memref.whole cc1_scratch0
abbrev VS1 : View sig .tc .vmem S1024x512 .f32 := (scM1).view
abbrev VO1 : View sig .tc .vmem S1024x768 .bf16 := (Memref.whole cc1_stg4_0 : Memref sig .tc .vmem S1024x768 .bf16).view

/-- The other scoped buffers of the program, unopened: what the invariant carries beside the accumulator and the generator register. -/
abbrev RestB1 (c : Dev nD) : sProp 𝕄 :=
  Pipeline.scopedRestBut (Ix := Unit) (Name := ℕ) (U := UR sig nD τ) (Lvl := ℕ) (Val := Elt F) spec1 c [cc1_scratch0]

/-- The class invariant, with the accumulator split off as a whole memref at some contents. -/
theorem PhiA1_eq (c : Dev nD) :
    (Pipeline.ΦA spec1 c : sProp 𝕄) = iprop(((∃ d, owns (c : Thread nD τ) scM1 fullShare d) ∗ RestB1 c) ∗ ∃ r, prngReg c r) := by
  unfold Pipeline.ΦA; rw [scopedRest1_split]; simp only [scM1, owns_whole]; try rfl

/-! ## The body, case by case -/

set_option maxHeartbeats 1000000 in
/-- FIRST STEP (not the last): the accumulator, found at anything, is reset and one product added; the output's buffer is handed back untouched. -/
noncomputable def kernelRun1_A (c : Dev nD) (i : grid1.Coords) (arg2 : Memref sig .tc .vmem S1024x2048 .bf16) (harg2 : arg2.IsWhole) (arg3 : Memref sig .tc .vmem S2048x512 .bf16) (harg3 : arg3.IsWhole) (arg4 : Memref sig .tc .vmem S512x768 .bf16) (harg4 : arg4.IsWhole) (arg5 : Memref sig .tc .vmem S1x768 .f32) (harg5 : arg5.IsWhole) (arg6 : Memref sig .tc .vmem S1024x768 .bf16) (harg6 : arg6.IsWhole) (arg7 : Memref sig .tc .vmem S1024x512 .f32) (harg7 : arg7.IsWhole) (hc0 : cond1_0 i) (hc1 : ¬cond1_1 i)
    (x0 : Vec F S1024x2048 .bf16) (x1 : Vec F S2048x512 .bf16) (x2 : Vec F S512x768 .bf16) (x3 : Vec F S1x768 .f32) :
    { LS : List (View.Piece (Elt F) S1024x512 .f32) //
      ∀ (xi : Vec F S1024x768 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc1_kernel i arg2 harg2 arg3 harg3 arg4 harg4 arg5 harg5 arg6 harg6 arg7 harg7) K } := by
  refine ⟨?_, fun xi E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

set_option maxHeartbeats 1000000 in
/-- AN INNER STEP: one product is added to the accumulator found at `xs`; the output's buffer is handed back untouched. -/
noncomputable def kernelRun1_B (c : Dev nD) (i : grid1.Coords) (arg2 : Memref sig .tc .vmem S1024x2048 .bf16) (harg2 : arg2.IsWhole) (arg3 : Memref sig .tc .vmem S2048x512 .bf16) (harg3 : arg3.IsWhole) (arg4 : Memref sig .tc .vmem S512x768 .bf16) (harg4 : arg4.IsWhole) (arg5 : Memref sig .tc .vmem S1x768 .f32) (harg5 : arg5.IsWhole) (arg6 : Memref sig .tc .vmem S1024x768 .bf16) (harg6 : arg6.IsWhole) (arg7 : Memref sig .tc .vmem S1024x512 .f32) (harg7 : arg7.IsWhole) (hc0 : ¬cond1_0 i) (hc1 : ¬cond1_1 i)
    (x0 : Vec F S1024x2048 .bf16) (x1 : Vec F S2048x512 .bf16) (x2 : Vec F S512x768 .bf16) (x3 : Vec F S1x768 .f32) (xs : Vec F S1024x512 .f32) :
    { LS : List (View.Piece (Elt F) S1024x512 .f32) //
      ∀ (xi : Vec F S1024x768 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc1_kernel i arg2 harg2 arg3 harg3 arg4 harg4 arg5 harg5 arg6 harg6 arg7 harg7) K } := by
  refine ⟨?_, fun xi E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

set_option maxHeartbeats 1000000 in
/-- THE LAST STEP (not the first): one product is added to the accumulator found at `xs`, and the output block is computed from it and stored whole. -/
noncomputable def kernelRun1_C (c : Dev nD) (i : grid1.Coords) (arg2 : Memref sig .tc .vmem S1024x2048 .bf16) (harg2 : arg2.IsWhole) (arg3 : Memref sig .tc .vmem S2048x512 .bf16) (harg3 : arg3.IsWhole) (arg4 : Memref sig .tc .vmem S512x768 .bf16) (harg4 : arg4.IsWhole) (arg5 : Memref sig .tc .vmem S1x768 .f32) (harg5 : arg5.IsWhole) (arg6 : Memref sig .tc .vmem S1024x768 .bf16) (harg6 : arg6.IsWhole) (arg7 : Memref sig .tc .vmem S1024x512 .f32) (harg7 : arg7.IsWhole) (hc0 : ¬cond1_0 i) (hc1 : cond1_1 i)
    (x0 : Vec F S1024x2048 .bf16) (x1 : Vec F S2048x512 .bf16) (x2 : Vec F S512x768 .bf16) (x3 : Vec F S1x768 .f32) (xs : Vec F S1024x512 .f32) :
    Σ' (LO : List (View.Piece (Elt F) S1024x768 .bf16)), { LS : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc1_kernel i arg2 harg2 arg3 harg3 arg4 harg4 arg5 harg5 arg6 harg6 arg7 harg7) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.KernelIdeal.Hand

end
-- ==== Proof.KI.R1.lean ====
import proofs.«179401_j66675072303277_2_alg».proof.Proof.KI.R1Runs
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: what each point leaves, the proof data, the body obligation

All stated at the contents `V` the region finds in the program's buffers when it is entered. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves: its stores read back -/

/-- The accumulator's stores at the first step cover it. -/
theorem scover1_A {c : Dev nD} {i : grid1.Coords} {arg2 : Memref sig .tc .vmem S1024x2048 .bf16} {harg2 : arg2.IsWhole} {arg3 : Memref sig .tc .vmem S2048x512 .bf16} {harg3 : arg3.IsWhole} {arg4 : Memref sig .tc .vmem S512x768 .bf16} {harg4 : arg4.IsWhole} {arg5 : Memref sig .tc .vmem S1x768 .f32} {harg5 : arg5.IsWhole} {arg6 : Memref sig .tc .vmem S1024x768 .bf16} {harg6 : arg6.IsWhole} {arg7 : Memref sig .tc .vmem S1024x512 .f32} {harg7 : arg7.IsWhole} {hc0 : cond1_0 i} {hc1 : ¬cond1_1 i} {x0 : Vec F S1024x2048 .bf16} {x1 : Vec F S2048x512 .bf16} {x2 : Vec F S512x768 .bf16} {x3 : Vec F S1x768 .f32} (y : S1024x512.Idx) :
    ∃ pc ∈ (kernelRun1_A c i arg2 harg2 arg3 harg3 arg4 harg4 arg5 harg5 arg6 harg6 arg7 harg7 hc0 hc1 x0 x1 x2 x3).1, y ∈ pc.1.set :=
  View.cover_of_tiledL (kernelRun1_A c i arg2 harg2 arg3 harg3 arg4 harg4 arg5 harg5 arg6 harg6 arg7 harg7 hc0 hc1 x0 x1 x2 x3).1 S1024x512.size (by sl_kernel_rfl) y
/-- What the first step leaves in the accumulator. -/
def sout1_A (c : Dev nD) (i : grid1.Coords) (arg2 : Memref sig .tc .vmem S1024x2048 .bf16) (harg2 : arg2.IsWhole) (arg3 : Memref sig .tc .vmem S2048x512 .bf16) (harg3 : arg3.IsWhole) (arg4 : Memref sig .tc .vmem S512x768 .bf16) (harg4 : arg4.IsWhole) (arg5 : Memref sig .tc .vmem S1x768 .f32) (harg5 : arg5.IsWhole) (arg6 : Memref sig .tc .vmem S1024x768 .bf16) (harg6 : arg6.IsWhole) (arg7 : Memref sig .tc .vmem S1024x512 .f32) (harg7 : arg7.IsWhole) (hc0 : cond1_0 i) (hc1 : ¬cond1_1 i) (x0 : Vec F S1024x2048 .bf16) (x1 : Vec F S2048x512 .bf16) (x2 : Vec F S512x768 .bf16) (x3 : Vec F S1x768 .f32) : Vec F S1024x512 .f32 :=
  VS1.read (Elt F) (VS1.writes (Elt F) VS1.junk (kernelRun1_A c i arg2 harg2 arg3 harg3 arg4 harg4 arg5 harg5 arg6 harg6 arg7 harg7 hc0 hc1 x0 x1 x2 x3).1)

theorem scover1_B {c : Dev nD} {i : grid1.Coords} {arg2 : Memref sig .tc .vmem S1024x2048 .bf16} {harg2 : arg2.IsWhole} {arg3 : Memref sig .tc .vmem S2048x512 .bf16} {harg3 : arg3.IsWhole} {arg4 : Memref sig .tc .vmem S512x768 .bf16} {harg4 : arg4.IsWhole} {arg5 : Memref sig .tc .vmem S1x768 .f32} {harg5 : arg5.IsWhole} {arg6 : Memref sig .tc .vmem S1024x768 .bf16} {harg6 : arg6.IsWhole} {arg7 : Memref sig .tc .vmem S1024x512 .f32} {harg7 : arg7.IsWhole} {hc0 : ¬cond1_0 i} {hc1 : ¬cond1_1 i} {x0 : Vec F S1024x2048 .bf16} {x1 : Vec F S2048x512 .bf16} {x2 : Vec F S512x768 .bf16} {x3 : Vec F S1x768 .f32} {xs : Vec F S1024x512 .f32} (y : S1024x512.Idx) :
    ∃ pc ∈ (kernelRun1_B c i arg2 harg2 arg3 harg3 arg4 harg4 arg5 harg5 arg6 harg6 arg7 harg7 hc0 hc1 x0 x1 x2 x3 xs).1, y ∈ pc.1.set :=
  View.cover_of_tiledL (kernelRun1_B c i arg2 harg2 arg3 harg3 arg4 harg4 arg5 harg5 arg6 harg6 arg7 harg7 hc0 hc1 x0 x1 x2 x3 xs).1 S1024x512.size (by sl_kernel_rfl) y
/-- What an inner step leaves in the accumulator, found at `xs`. -/
def sout1_B (c : Dev nD) (i : grid1.Coords) (arg2 : Memref sig .tc .vmem S1024x2048 .bf16) (harg2 : arg2.IsWhole) (arg3 : Memref sig .tc .vmem S2048x512 .bf16) (harg3 : arg3.IsWhole) (arg4 : Memref sig .tc .vmem S512x768 .bf16) (harg4 : arg4.IsWhole) (arg5 : Memref sig .tc .vmem S1x768 .f32) (harg5 : arg5.IsWhole) (arg6 : Memref sig .tc .vmem S1024x768 .bf16) (harg6 : arg6.IsWhole) (arg7 : Memref sig .tc .vmem S1024x512 .f32) (harg7 : arg7.IsWhole) (hc0 : ¬cond1_0 i) (hc1 : ¬cond1_1 i) (x0 : Vec F S1024x2048 .bf16) (x1 : Vec F S2048x512 .bf16) (x2 : Vec F S512x768 .bf16) (x3 : Vec F S1x768 .f32) (xs : Vec F S1024x512 .f32) : Vec F S1024x512 .f32 :=
  VS1.read (Elt F) (VS1.writes (Elt F) VS1.junk (kernelRun1_B c i arg2 harg2 arg3 harg3 arg4 harg4 arg5 harg5 arg6 harg6 arg7 harg7 hc0 hc1 x0 x1 x2 x3 xs).1)

theorem scover1_C {c : Dev nD} {i : grid1.Coords} {arg2 : Memref sig .tc .vmem S1024x2048 .bf16} {harg2 : arg2.IsWhole} {arg3 : Memref sig .tc .vmem S2048x512 .bf16} {harg3 : arg3.IsWhole} {arg4 : Memref sig .tc .vmem S512x768 .bf16} {harg4 : arg4.IsWhole} {arg5 : Memref sig .tc .vmem S1x768 .f32} {harg5 : arg5.IsWhole} {arg6 : Memref sig .tc .vmem S1024x768 .bf16} {harg6 : arg6.IsWhole} {arg7 : Memref sig .tc .vmem S1024x512 .f32} {harg7 : arg7.IsWhole} {hc0 : ¬cond1_0 i} {hc1 : cond1_1 i} {x0 : Vec F S1024x2048 .bf16} {x1 : Vec F S2048x512 .bf16} {x2 : Vec F S512x768 .bf16} {x3 : Vec F S1x768 .f32} {xs : Vec F S1024x512 .f32} (y : S1024x512.Idx) :
    ∃ pc ∈ (kernelRun1_C c i arg2 harg2 arg3 harg3 arg4 harg4 arg5 harg5 arg6 harg6 arg7 harg7 hc0 hc1 x0 x1 x2 x3 xs).2.1, y ∈ pc.1.set :=
  View.cover_of_tiledL (kernelRun1_C c i arg2 harg2 arg3 harg3 arg4 harg4 arg5 harg5 arg6 harg6 arg7 harg7 hc0 hc1 x0 x1 x2 x3 xs).2.1 S1024x512.size (by sl_kernel_rfl) y
/-- What the last step leaves in the accumulator, found at `xs`. -/
def sout1_C (c : Dev nD) (i : grid1.Coords) (arg2 : Memref sig .tc .vmem S1024x2048 .bf16) (harg2 : arg2.IsWhole) (arg3 : Memref sig .tc .vmem S2048x512 .bf16) (harg3 : arg3.IsWhole) (arg4 : Memref sig .tc .vmem S512x768 .bf16) (harg4 : arg4.IsWhole) (arg5 : Memref sig .tc .vmem S1x768 .f32) (harg5 : arg5.IsWhole) (arg6 : Memref sig .tc .vmem S1024x768 .bf16) (harg6 : arg6.IsWhole) (arg7 : Memref sig .tc .vmem S1024x512 .f32) (harg7 : arg7.IsWhole) (hc0 : ¬cond1_0 i) (hc1 : cond1_1 i) (x0 : Vec F S1024x2048 .bf16) (x1 : Vec F S2048x512 .bf16) (x2 : Vec F S512x768 .bf16) (x3 : Vec F S1x768 .f32) (xs : Vec F S1024x512 .f32) : Vec F S1024x512 .f32 :=
  VS1.read (Elt F) (VS1.writes (Elt F) VS1.junk (kernelRun1_C c i arg2 harg2 arg3 harg3 arg4 harg4 arg5 harg5 arg6 harg6 arg7 harg7 hc0 hc1 x0 x1 x2 x3 xs).2.1)
theorem cover1_C {c : Dev nD} {i : grid1.Coords} {arg2 : Memref sig .tc .vmem S1024x2048 .bf16} {harg2 : arg2.IsWhole} {arg3 : Memref sig .tc .vmem S2048x512 .bf16} {harg3 : arg3.IsWhole} {arg4 : Memref sig .tc .vmem S512x768 .bf16} {harg4 : arg4.IsWhole} {arg5 : Memref sig .tc .vmem S1x768 .f32} {harg5 : arg5.IsWhole} {arg6 : Memref sig .tc .vmem S1024x768 .bf16} {harg6 : arg6.IsWhole} {arg7 : Memref sig .tc .vmem S1024x512 .f32} {harg7 : arg7.IsWhole} {hc0 : ¬cond1_0 i} {hc1 : cond1_1 i} {x0 : Vec F S1024x2048 .bf16} {x1 : Vec F S2048x512 .bf16} {x2 : Vec F S512x768 .bf16} {x3 : Vec F S1x768 .f32} {xs : Vec F S1024x512 .f32} (y : S1024x768.Idx) :
    ∃ pc ∈ (kernelRun1_C c i arg2 harg2 arg3 harg3 arg4 harg4 arg5 harg5 arg6 harg6 arg7 harg7 hc0 hc1 x0 x1 x2 x3 xs).1, y ∈ pc.1.set :=
  View.cover_of_tiledL (kernelRun1_C c i arg2 harg2 arg3 harg3 arg4 harg4 arg5 harg5 arg6 harg6 arg7 harg7 hc0 hc1 x0 x1 x2 x3 xs).1 S1024x768.size (by sl_kernel_rfl) y
/-- What the last step leaves in the output's staging buffer. -/
def out1_C (c : Dev nD) (i : grid1.Coords) (arg2 : Memref sig .tc .vmem S1024x2048 .bf16) (harg2 : arg2.IsWhole) (arg3 : Memref sig .tc .vmem S2048x512 .bf16) (harg3 : arg3.IsWhole) (arg4 : Memref sig .tc .vmem S512x768 .bf16) (harg4 : arg4.IsWhole) (arg5 : Memref sig .tc .vmem S1x768 .f32) (harg5 : arg5.IsWhole) (arg6 : Memref sig .tc .vmem S1024x768 .bf16) (harg6 : arg6.IsWhole) (arg7 : Memref sig .tc .vmem S1024x512 .f32) (harg7 : arg7.IsWhole) (hc0 : ¬cond1_0 i) (hc1 : cond1_1 i) (x0 : Vec F S1024x2048 .bf16) (x1 : Vec F S2048x512 .bf16) (x2 : Vec F S512x768 .bf16) (x3 : Vec F S1x768 .f32) (xs : Vec F S1024x512 .f32) : Vec F S1024x768 .bf16 :=
  VO1.read (Elt F) (VO1.writes (Elt F) VO1.junk (kernelRun1_C c i arg2 harg2 arg3 harg3 arg4 harg4 arg5 harg5 arg6 harg6 arg7 harg7 hc0 hc1 x0 x1 x2 x3 xs).1)
/-- A placeholder for the output's buffer where the window is idle (nothing consults it there). -/
def outIdle1 : Vec F S1024x768 .bf16 := VO1.read (Elt F) VO1.junk

/-! ## What the output's buffer and the accumulator hold after each point -/

/-- After the body at position `n`: the output's staging buffer (meaningful at the last steps only) and the accumulator, by recursion on the point:
    a first step starts afresh, the other steps continue from what the point before left in the accumulator. -/
def outsAt1 (c : Dev nD) : (n : ℕ) → n < cfg1.N → Vec F S1024x768 .bf16 × Vec F S1024x512 .f32
  | 0, hn => (outIdle1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 5 = 0 then
      if h1 : (n + 1) % 5 = 4 then
        False.elim (by omega)
      else
        (outIdle1, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 5 = 4 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (outIdle1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_A (c : Dev nD) (t : Fin cfg1.N) (h0 : t.val % 5 = 0) (h1 : ¬t.val % 5 = 4) :
    outsAt1 V c t.val t.isLt = (outIdle1, sout1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 5 = 0) (h1 : ¬t.val % 5 = 4) :
    outsAt1 V c t.val t.isLt = (outIdle1, sout1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 5 = 0) (h1 : t.val % 5 = 4) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's (the accumulator at anything); afterwards the accumulator
    at what the point before left in it, beside the other scoped buffers and the generator register. -/
def PhiS1 (c : Dev nD) : (n : ℕ) → n ≤ cfg1.N → sProp 𝕄
  | 0, _ => Pipeline.ΦA spec1 c
  | n + 1, hn => iprop((owns (c : Thread nD τ) scM1 fullShare ((outsAt1 V c n hn).2) ∗ RestB1 c) ∗ ∃ r, prngReg c r)

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scM1 fullShare ((outsAt1 V c n hn).2) ∗ RestB1 c) ∗ ∃ r, prngReg c r) := rfl
theorem PhiS1_pos (c : Dev nD) (n : ℕ) (h : n ≤ cfg1.N) (hz : n ≠ 0) :
    PhiS1 V c n h = iprop((owns (c : Thread nD τ) scM1 fullShare ((outsAt1 V c (n - 1) (by omega)).2) ∗ RestB1 c) ∗ ∃ r, prngReg c r) := by
  cases n with
  | zero => exact absurd rfl hz
  | succ n => rfl

/-! ## The proof data -/

/-- Region 1's proof data on core `c`: the arrays as the region finds them; after the body each input's buffer at its block and the output's
    at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- An input's buffer is handed back at its block. -/
theorem leaves1_0 (c : Dev nD) (t : Fin cfg1.N) : (dat1 V c).leavesExact 0 t = owns (c : Thread nD τ) (ms1_0 t) fullShare (iblk1 V c 0 t) := by
  rw [show (dat1 V c).leavesExact 0 t = owns (c : Thread nD τ) (ms1_0 t) fullShare ((dat1 V c).after 0 t) from by
    unfold Dat.leavesExact; rw [liveAt1_0 t], after1_0]
theorem leaves1_1 (c : Dev nD) (t : Fin cfg1.N) : (dat1 V c).leavesExact 1 t = owns (c : Thread nD τ) (ms1_1 t) fullShare (iblk1 V c 1 t) := by
  rw [show (dat1 V c).leavesExact 1 t = owns (c : Thread nD τ) (ms1_1 t) fullShare ((dat1 V c).after 1 t) from by
    unfold Dat.leavesExact; rw [liveAt1_1 t], after1_1]
theorem leaves1_2 (c : Dev nD) (t : Fin cfg1.N) : (dat1 V c).leavesExact 2 t = owns (c : Thread nD τ) (ms1_2 t) fullShare (iblk1 V c 2 t) := by
  rw [show (dat1 V c).leavesExact 2 t = owns (c : Thread nD τ) (ms1_2 t) fullShare ((dat1 V c).after 2 t) from by
    unfold Dat.leavesExact; rw [liveAt1_2 t], after1_2]
theorem leaves1_3 (c : Dev nD) (t : Fin cfg1.N) : (dat1 V c).leavesExact 3 t = owns (c : Thread nD τ) (ms1_3 t) fullShare (iblk1 V c 3 t) := by
  rw [show (dat1 V c).leavesExact 3 t = owns (c : Thread nD τ) (ms1_3 t) fullShare ((dat1 V c).after 3 t) from by
    unfold Dat.leavesExact; rw [liveAt1_3 t], after1_3]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the closed forms of the two conditions say which case the point is in; the invariant hands the body the
    accumulator at what the point before left (at anything at the very first point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3]
  have hN : t.val < 50 := lt_of_lt_of_eq t.isLt (show cfg1.N = 50 from N_1)
  by_cases h0 : t.val % 5 = 0
  · by_cases h1 : t.val % 5 = 4
    · exfalso; omega
    · rw [Dat.leavesExact_idle (dat1 V c) 4 t (idleAt1_4 t (fun h => h1 ((hcond1_1 t).mp h))) (noFlush1_4 t (fun h => h1 ((hcond1_1 t).mp h)))]
      rw [outsAt1_A V c t h0 h1]
      unfold sout1_A; (try dsimp only)
      by_cases hz : t.val = 0
      · rw [PhiS1_castSucc V c t, PhiS1_zero V c _ _ hz, PhiA1_eq]
        iintro ⟨⟨⟨HS, HB⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2 _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, ⟨%es, HS⟩⟩
        isplitl [HS HB Hg]
        · isplitl [HS HB]
          · isplitl [HS]
            · unfold owns; iexists _; isplitr
              swap; · iexact HS
              ipureintro; exact View.read_writes_of_cover _ _ _ _ _ scover1_A
            iexact HB
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨HS, HB⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2 _ Set.univ _)
        isplitl [H0]; · iexact H0
        isplitl [H1]; · iexact H1
        isplitl [H2]; · iexact H2
        isplitl [H3]; · iexact H3
        isplitl [H4]; · iexact H4
        isplitl [HS]; · iexists _; iexact HS
        iintro ⟨H0, H1, H2, H3, H4, ⟨%es, HS⟩⟩
        isplitl [HS HB Hg]
        · isplitl [HS HB]
          · isplitl [HS]
            · unfold owns; iexists _; isplitr
              swap; · iexact HS
              ipureintro; exact View.read_writes_of_cover _ _ _ _ _ scover1_A
            iexact HB
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun h => h0 (by rw [h])
    by_cases h1 : t.val % 5 = 4
    · rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold out1_C sout1_C; (try dsimp only)
      rw [PhiS1_castSucc V c t, PhiS1_pos V c _ _ hz]
      iintro ⟨⟨⟨HS, HB⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS HB Hg]
      · isplitl [HS HB]
        · isplitl [HS]
          · unfold owns; iexists _; isplitr
            swap; · iexact HS
            ipureintro; exact View.read_writes_of_cover _ _ _ _ _ scover1_C
          iexact HB
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ cover1_C
    · rw [Dat.leavesExact_idle (dat1 V c) 4 t (idleAt1_4 t (fun h => h1 ((hcond1_1 t).mp h))) (noFlush1_4 t (fun h => h1 ((hcond1_1 t).mp h)))]
      rw [outsAt1_B V c t h0 h1]
      unfold sout1_B; (try dsimp only)
      rw [PhiS1_castSucc V c t, PhiS1_pos V c _ _ hz]
      iintro ⟨⟨⟨HS, HB⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HB Hg]
      · isplitl [HS HB]
        · isplitl [HS]
          · unfold owns; iexists _; isplitr
            swap; · iexact HS
            ipureintro; exact View.read_writes_of_cover _ _ _ _ _ scover1_B
          iexact HB
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 50 := N_1; omega), PhiA1_eq]
  iintro ⟨⟨HS, HB⟩, Hg⟩
  isplitr [Hg]
  · isplitl [HS]
    · iexists _; iexact HS
    iexact HB
  iexact Hg

end Cert.KernelIdeal.Hand

end
-- ==== Proof.KI.R2Runs.lean ====
import proofs.«179401_j66675072303277_2_alg».proof.Proof.Gen.KernelIdeal.Launch
import proofs.«179401_j66675072303277_2_alg».proof.Proof.Gen.KernelIdeal.Skeleton
import proofs.«179401_j66675072303277_2_alg».proof.Proof.Gen.KernelIdeal.Points
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: the conditions of its two branches, where its output is idle, and the body run case by case

The body resets the accumulator at the first step of the second grid axis, adds one product of blocks at every step, and at the last
step computes the output block from the accumulator and the bias row. -/

/-- The first step along the second grid axis. -/
abbrev cond2_0 (i : grid2.Coords) : Prop := (Scalar.cmpi .ne (Scalar.extui (Scalar.cmpi .eq (BitVec.ofNat 32 (i 1).val) 0#32)) 0#32) = 1#1
/-- The last step along the second grid axis. -/
abbrev cond2_1 (i : grid2.Coords) : Prop := k2_cond2 i = 1#1
theorem hcond2_0 : ∀ t : Fin cfg2.N, cond2_0 (grid2.coords t) := by decide +kernel
theorem hcond2_1 : ∀ t : Fin cfg2.N, cond2_1 (grid2.coords t) := by decide +kernel

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel

/-- The staging memrefs the body is called with at point `t`, and the accumulator. -/
abbrev ms2_0 (t : Fin cfg2.N) : Memref sig .tc .vmem S1024x768 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S768x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x128 .bf16 := win2_3.stage (cfg2.slots t 3)
abbrev hs2_3 (t : Fin cfg2.N) : (ms2_3 t).IsWhole := hstage2_3 ((cfg2.slots t 3).cast nbuf2_3)
abbrev scM2 : Memref sig .tc .vmem S1024x128 .f32 := Memref.whole cc2_scratch0
abbrev VS2 : View sig .tc .vmem S1024x128 .f32 := (scM2).view
abbrev VO2 : View sig .tc .vmem S1024x128 .bf16 := (Memref.whole cc2_stg3_0 : Memref sig .tc .vmem S1024x128 .bf16).view

/-- The other scoped buffers of the program, unopened: what the invariant carries beside the accumulator and the generator register. -/
abbrev RestB2 (c : Dev nD) : sProp 𝕄 :=
  Pipeline.scopedRestBut (Ix := Unit) (Name := ℕ) (U := UR sig nD τ) (Lvl := ℕ) (Val := Elt F) spec2 c [cc2_scratch0]

/-- The class invariant, with the accumulator split off as a whole memref at some contents. -/
theorem PhiA2_eq (c : Dev nD) :
    (Pipeline.ΦA spec2 c : sProp 𝕄) = iprop(((∃ d, owns (c : Thread nD τ) scM2 fullShare d) ∗ RestB2 c) ∗ ∃ r, prngReg c r) := by
  unfold Pipeline.ΦA; rw [scopedRest2_split]; simp only [scM2, owns_whole]; try rfl

/-! ## The body, case by case -/

set_option maxHeartbeats 1000000 in
/-- THE ONE STEP (first and last at once): the accumulator, found at anything, is reset, the product added, and the output block computed from it and stored whole. -/
noncomputable def kernelRun2_D (c : Dev nD) (i : grid2.Coords) (arg2 : Memref sig .tc .vmem S1024x768 .bf16) (harg2 : arg2.IsWhole) (arg3 : Memref sig .tc .vmem S768x128 .bf16) (harg3 : arg3.IsWhole) (arg4 : Memref sig .tc .vmem S1x128 .f32) (harg4 : arg4.IsWhole) (arg5 : Memref sig .tc .vmem S1024x128 .bf16) (harg5 : arg5.IsWhole) (arg6 : Memref sig .tc .vmem S1024x128 .f32) (harg6 : arg6.IsWhole) (hc0 : cond2_0 i) (hc1 : cond2_1 i)
    (x0 : Vec F S1024x768 .bf16) (x1 : Vec F S768x128 .bf16) (x2 : Vec F S1x128 .f32) :
    Σ' (LO : List (View.Piece (Elt F) S1024x128 .bf16)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc2_kernel i arg2 harg2 arg3 harg3 arg4 harg4 arg5 harg5 arg6 harg6) K } := by
  refine ⟨?_, ?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%dO, %fo, -, HO⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]; · iexists _; iexact HO
    iexists _; iexact HS

end Cert.KernelIdeal.Hand

end
-- ==== Proof.KI.R2.lean ====
import proofs.«179401_j66675072303277_2_alg».proof.Proof.KI.R2Runs
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: what each point leaves, the proof data, the body obligation

All stated at the contents `V` the region finds in the program's buffers when it is entered. -/

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves: its stores read back -/
theorem scover2_D {c : Dev nD} {i : grid2.Coords} {arg2 : Memref sig .tc .vmem S1024x768 .bf16} {harg2 : arg2.IsWhole} {arg3 : Memref sig .tc .vmem S768x128 .bf16} {harg3 : arg3.IsWhole} {arg4 : Memref sig .tc .vmem S1x128 .f32} {harg4 : arg4.IsWhole} {arg5 : Memref sig .tc .vmem S1024x128 .bf16} {harg5 : arg5.IsWhole} {arg6 : Memref sig .tc .vmem S1024x128 .f32} {harg6 : arg6.IsWhole} {hc0 : cond2_0 i} {hc1 : cond2_1 i} {x0 : Vec F S1024x768 .bf16} {x1 : Vec F S768x128 .bf16} {x2 : Vec F S1x128 .f32} (y : S1024x128.Idx) :
    ∃ pc ∈ (kernelRun2_D c i arg2 harg2 arg3 harg3 arg4 harg4 arg5 harg5 arg6 harg6 hc0 hc1 x0 x1 x2).2.1, y ∈ pc.1.set :=
  View.cover_of_tiledL (kernelRun2_D c i arg2 harg2 arg3 harg3 arg4 harg4 arg5 harg5 arg6 harg6 hc0 hc1 x0 x1 x2).2.1 S1024x128.size (by sl_kernel_rfl) y
def sout2_D (c : Dev nD) (i : grid2.Coords) (arg2 : Memref sig .tc .vmem S1024x768 .bf16) (harg2 : arg2.IsWhole) (arg3 : Memref sig .tc .vmem S768x128 .bf16) (harg3 : arg3.IsWhole) (arg4 : Memref sig .tc .vmem S1x128 .f32) (harg4 : arg4.IsWhole) (arg5 : Memref sig .tc .vmem S1024x128 .bf16) (harg5 : arg5.IsWhole) (arg6 : Memref sig .tc .vmem S1024x128 .f32) (harg6 : arg6.IsWhole) (hc0 : cond2_0 i) (hc1 : cond2_1 i) (x0 : Vec F S1024x768 .bf16) (x1 : Vec F S768x128 .bf16) (x2 : Vec F S1x128 .f32) : Vec F S1024x128 .f32 :=
  VS2.read (Elt F) (VS2.writes (Elt F) VS2.junk (kernelRun2_D c i arg2 harg2 arg3 harg3 arg4 harg4 arg5 harg5 arg6 harg6 hc0 hc1 x0 x1 x2).2.1)
theorem cover2_D {c : Dev nD} {i : grid2.Coords} {arg2 : Memref sig .tc .vmem S1024x768 .bf16} {harg2 : arg2.IsWhole} {arg3 : Memref sig .tc .vmem S768x128 .bf16} {harg3 : arg3.IsWhole} {arg4 : Memref sig .tc .vmem S1x128 .f32} {harg4 : arg4.IsWhole} {arg5 : Memref sig .tc .vmem S1024x128 .bf16} {harg5 : arg5.IsWhole} {arg6 : Memref sig .tc .vmem S1024x128 .f32} {harg6 : arg6.IsWhole} {hc0 : cond2_0 i} {hc1 : cond2_1 i} {x0 : Vec F S1024x768 .bf16} {x1 : Vec F S768x128 .bf16} {x2 : Vec F S1x128 .f32} (y : S1024x128.Idx) :
    ∃ pc ∈ (kernelRun2_D c i arg2 harg2 arg3 harg3 arg4 harg4 arg5 harg5 arg6 harg6 hc0 hc1 x0 x1 x2).1, y ∈ pc.1.set :=
  View.cover_of_tiledL (kernelRun2_D c i arg2 harg2 arg3 harg3 arg4 harg4 arg5 harg5 arg6 harg6 hc0 hc1 x0 x1 x2).1 S1024x128.size (by sl_kernel_rfl) y
def out2_D (c : Dev nD) (i : grid2.Coords) (arg2 : Memref sig .tc .vmem S1024x768 .bf16) (harg2 : arg2.IsWhole) (arg3 : Memref sig .tc .vmem S768x128 .bf16) (harg3 : arg3.IsWhole) (arg4 : Memref sig .tc .vmem S1x128 .f32) (harg4 : arg4.IsWhole) (arg5 : Memref sig .tc .vmem S1024x128 .bf16) (harg5 : arg5.IsWhole) (arg6 : Memref sig .tc .vmem S1024x128 .f32) (harg6 : arg6.IsWhole) (hc0 : cond2_0 i) (hc1 : cond2_1 i) (x0 : Vec F S1024x768 .bf16) (x1 : Vec F S768x128 .bf16) (x2 : Vec F S1x128 .f32) : Vec F S1024x128 .bf16 :=
  VO2.read (Elt F) (VO2.writes (Elt F) VO2.junk (kernelRun2_D c i arg2 harg2 arg3 harg3 arg4 harg4 arg5 harg5 arg6 harg6 hc0 hc1 x0 x1 x2).1)

/-! ## What the output's buffer and the accumulator hold after each point -/

/-- After the body at position `n`: the output's staging buffer and the accumulator (every point is a first and last step at once). -/
def outsAt2 (c : Dev nD) (n : ℕ) (hn : n < cfg2.N) : Vec F S1024x128 .bf16 × Vec F S1024x128 .f32 :=
  (out2_D c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) (ms2_3 ⟨n, hn⟩) (hs2_3 ⟨n, hn⟩) scM2 (Memref.isWhole_whole _) (hcond2_0 ⟨n, hn⟩) (hcond2_1 ⟨n, hn⟩) (iblk2 V c 0 ⟨n, hn⟩) (iblk2 V c 1 ⟨n, hn⟩) (iblk2 V c 2 ⟨n, hn⟩),
   sout2_D c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) (ms2_3 ⟨n, hn⟩) (hs2_3 ⟨n, hn⟩) scM2 (Memref.isWhole_whole _) (hcond2_0 ⟨n, hn⟩) (hcond2_1 ⟨n, hn⟩) (iblk2 V c 0 ⟨n, hn⟩) (iblk2 V c 1 ⟨n, hn⟩) (iblk2 V c 2 ⟨n, hn⟩))

/-- The region's invariant before position `n`: before the first point the class's (the accumulator at anything); afterwards the accumulator
    at what the point before left in it, beside the other scoped buffers and the generator register. -/
def PhiS2 (c : Dev nD) : (n : ℕ) → n ≤ cfg2.N → sProp 𝕄
  | 0, _ => Pipeline.ΦA spec2 c
  | n + 1, hn => iprop((owns (c : Thread nD τ) scM2 fullShare ((outsAt2 V c n hn).2) ∗ RestB2 c) ∗ ∃ r, prngReg c r)

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop((owns (c : Thread nD τ) scM2 fullShare ((outsAt2 V c n hn).2) ∗ RestB2 c) ∗ ∃ r, prngReg c r) := rfl
theorem PhiS2_pos (c : Dev nD) (n : ℕ) (h : n ≤ cfg2.N) (hz : n ≠ 0) :
    PhiS2 V c n h = iprop((owns (c : Thread nD τ) scM2 fullShare ((outsAt2 V c (n - 1) (by omega)).2) ∗ RestB2 c) ∗ ∃ r, prngReg c r) := by
  cases n with
  | zero => exact absurd rfl hz
  | succ n => rfl

/-! ## The proof data -/

/-- Region 2's proof data on core `c`: the arrays as the region finds them; after the body each input's buffer at its block and the output's
    at `outsAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- An input's buffer is handed back at its block. -/
theorem leaves2_0 (c : Dev nD) (t : Fin cfg2.N) : (dat2 V c).leavesExact 0 t = owns (c : Thread nD τ) (ms2_0 t) fullShare (iblk2 V c 0 t) := by
  rw [show (dat2 V c).leavesExact 0 t = owns (c : Thread nD τ) (ms2_0 t) fullShare ((dat2 V c).after 0 t) from by
    unfold Dat.leavesExact; rw [liveAt2_0 t], after2_0]
theorem leaves2_1 (c : Dev nD) (t : Fin cfg2.N) : (dat2 V c).leavesExact 1 t = owns (c : Thread nD τ) (ms2_1 t) fullShare (iblk2 V c 1 t) := by
  rw [show (dat2 V c).leavesExact 1 t = owns (c : Thread nD τ) (ms2_1 t) fullShare ((dat2 V c).after 1 t) from by
    unfold Dat.leavesExact; rw [liveAt2_1 t], after2_1]
theorem leaves2_2 (c : Dev nD) (t : Fin cfg2.N) : (dat2 V c).leavesExact 2 t = owns (c : Thread nD τ) (ms2_2 t) fullShare (iblk2 V c 2 t) := by
  rw [show (dat2 V c).leavesExact 2 t = owns (c : Thread nD τ) (ms2_2 t) fullShare ((dat2 V c).after 2 t) from by
    unfold Dat.leavesExact; rw [liveAt2_2 t], after2_2]

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' memrefs hold their blocks; the closed forms of the two conditions say which case the point is in; the invariant hands the body the
    accumulator at what the point before left (at anything at the very first point) and takes it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2]
  rw [show (dat2 V c).leavesExact 3 t = owns (c : Thread nD τ) (ms2_3 t) fullShare ((dat2 V c).after 3 t) from by
    unfold Dat.leavesExact; rw [liveAt2_3 t], after2_3]
  unfold outsAt2 out2_D sout2_D; (try dsimp only)
  by_cases hz : t.val = 0
  · rw [PhiS2_castSucc V c t, PhiS2_zero V c _ _ hz, PhiA2_eq]
    iintro ⟨⟨⟨HS, HB⟩, Hg⟩, Ho, ⟨%d0, H0⟩, ⟨%d1, H1⟩, ⟨%d2, H2⟩, ⟨%dO, HO⟩⟩
    iapply ((kernelRun2_D c (grid2.coords t) _ _ _ _ _ _ _ _ _ _ (hcond2_0 t) (hcond2_1 t) (iblk2 V c 0 t) (iblk2 V c 1 t) (iblk2 V c 2 t)).2.2 Set.univ _)
    isplitl [H0]; · iexact H0
    isplitl [H1]; · iexact H1
    isplitl [H2]; · iexact H2
    isplitl [HO]; · iexists _; iexact HO
    isplitl [HS]; · iexact HS
    iintro ⟨H0, H1, H2, ⟨%eO, HO⟩, ⟨%es, HS⟩⟩
    isplitl [HS HB Hg]
    · isplitl [HS HB]
      · isplitl [HS]
        · unfold owns; iexists _; isplitr
          swap; · iexact HS
          ipureintro; exact View.read_writes_of_cover _ _ _ _ _ scover2_D
        iexact HB
      iexact Hg
    isplitl [Ho]; · iexact Ho
    isplitl [H0]; · iexact H0
    isplitl [H1]; · iexact H1
    isplitl [H2]; · iexact H2
    unfold owns; iexists _; isplitr
    swap; · iexact HO
    ipureintro; exact View.read_writes_of_cover _ _ _ _ _ cover2_D
  · rw [PhiS2_castSucc V c t, PhiS2_pos V c _ _ hz]
    iintro ⟨⟨⟨HS, HB⟩, Hg⟩, Ho, ⟨%d0, H0⟩, ⟨%d1, H1⟩, ⟨%d2, H2⟩, ⟨%dO, HO⟩⟩
    iapply ((kernelRun2_D c (grid2.coords t) _ _ _ _ _ _ _ _ _ _ (hcond2_0 t) (hcond2_1 t) (iblk2 V c 0 t) (iblk2 V c 1 t) (iblk2 V c 2 t)).2.2 Set.univ _)
    isplitl [H0]; · iexact H0
    isplitl [H1]; · iexact H1
    isplitl [H2]; · iexact H2
    isplitl [HO]; · iexists _; iexact HO
    isplitl [HS]; · iexists _; iexact HS
    iintro ⟨H0, H1, H2, ⟨%eO, HO⟩, ⟨%es, HS⟩⟩
    isplitl [HS HB Hg]
    · isplitl [HS HB]
      · isplitl [HS]
        · unfold owns; iexists _; isplitr
          swap; · iexact HS
          ipureintro; exact View.read_writes_of_cover _ _ _ _ _ scover2_D
        iexact HB
      iexact Hg
    isplitl [Ho]; · iexact Ho
    isplitl [H0]; · iexact H0
    isplitl [H1]; · iexact H1
    isplitl [H2]; · iexact H2
    unfold owns; iexists _; isplitr
    swap; · iexact HO
    ipureintro; exact View.read_writes_of_cover _ _ _ _ _ cover2_D

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is handed is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the accumulator's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 10 := N_2; omega), PhiA2_eq]
  iintro ⟨⟨HS, HB⟩, Hg⟩
  isplitr [Hg]
  · isplitl [HS]
    · iexists _; iexact HS
    iexact HB
  iexact Hg

end Cert.KernelIdeal.Hand

end
-- ==== Proof.KI.R3Runs.lean ====
import proofs.«179401_j66675072303277_2_alg».proof.Proof.Gen.KernelIdeal.Launch
import proofs.«179401_j66675072303277_2_alg».proof.Proof.Gen.KernelIdeal.Skeleton
import proofs.«179401_j66675072303277_2_alg».proof.Proof.Gen.KernelIdeal.Points
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: the conditions of its two branches, where its output is idle, and the body run case by case

The body resets the accumulator at the first step of the second grid axis, adds one product of blocks at every step, and at the last
step computes the output block from the accumulator and the bias row. -/

/-- The first step along the second grid axis. -/
abbrev cond3_0 (i : grid3.Coords) : Prop := (Scalar.cmpi .ne (Scalar.extui (Scalar.cmpi .eq (BitVec.ofNat 32 (i 1).val) 0#32)) 0#32) = 1#1
/-- The last step along the second grid axis. -/
abbrev cond3_1 (i : grid3.Coords) : Prop := k3_cond2 i = 1#1
theorem hcond3_0 : ∀ t : Fin cfg3.N, cond3_0 (grid3.coords t) ↔ t.val % 5 = 0 :=
  (by decide +kernel : ∀ t : Fin grid3.N, cond3_0 (grid3.coords t) ↔ t.val % 5 = 0)
theorem hcond3_1 : ∀ t : Fin cfg3.N, cond3_1 (grid3.coords t) ↔ t.val % 5 = 4 :=
  (by decide +kernel : ∀ t : Fin grid3.N, cond3_1 (grid3.coords t) ↔ t.val % 5 = 4)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Away from the last step the output window is idle and not written back. -/
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
theorem liveAt3_3 : ∀ t : Fin cfg3.N, cond3_1 (grid3.coords t) → cfg3.idle 3 (grid3.coords t) = false := by decide +kernel

/-- The staging memrefs the body is called with at point `t`, and the accumulator. -/
abbrev ms3_0 (t : Fin cfg3.N) : Memref sig .tc .vmem S1024x2048 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x128 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x128 .f32 := win3_3.stage (cfg3.slots t 3)
abbrev hs3_3 (t : Fin cfg3.N) : (ms3_3 t).IsWhole := hstage3_3 ((cfg3.slots t 3).cast nbuf3_3)
abbrev scM3 : Memref sig .tc .vmem S1024x128 .f32 := Memref.whole cc3_scratch0
abbrev VS3 : View sig .tc .vmem S1024x128 .f32 := (scM3).view
abbrev VO3 : View sig .tc .vmem S1024x128 .f32 := (Memref.whole cc3_stg3_0 : Memref sig .tc .vmem S1024x128 .f32).view

/-- The other scoped buffers of the program, unopened: what the invariant carries beside the accumulator and the generator register. -/
abbrev RestB3 (c : Dev nD) : sProp 𝕄 :=
  Pipeline.scopedRestBut (Ix := Unit) (Name := ℕ) (U := UR sig nD τ) (Lvl := ℕ) (Val := Elt F) spec3 c [cc3_scratch0]

/-- The class invariant, with the accumulator split off as a whole memref at some contents. -/
theorem PhiA3_eq (c : Dev nD) :
    (Pipeline.ΦA spec3 c : sProp 𝕄) = iprop(((∃ d, owns (c : Thread nD τ) scM3 fullShare d) ∗ RestB3 c) ∗ ∃ r, prngReg c r) := by
  unfold Pipeline.ΦA; rw [scopedRest3_split]; simp only [scM3, owns_whole]; try rfl

/-! ## The body, case by case -/

set_option maxHeartbeats 1000000 in
/-- FIRST STEP (not the last): the accumulator, found at anything, is reset and one product added; the output's buffer is handed back untouched. -/
noncomputable def kernelRun3_A (c : Dev nD) (i : grid3.Coords) (arg2 : Memref sig .tc .vmem S1024x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : cond3_0 i) (hc1 : ¬cond3_1 i)
    (x0 : Vec F S1024x2048 .bf16) (x1 : Vec F S2048x128 .bf16) (x2 : Vec F S1x128 .f32) :
    { LS : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc3_kernel i arg2 harg2 arg3 harg3 arg4 harg4 arg5 harg5 arg6 harg6) K } := by
  refine ⟨?_, fun xi E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%fo, %hfo, HO⟩, ⟨%ds, %fs, -, HS⟩, Hk⟩
    obtain rfl := harg2.eq_unread hf0; obtain rfl := harg3.eq_unread hf1; obtain rfl := harg4.eq_unread hf2; obtain rfl := harg5.eq_unread hfo
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS

set_option maxHeartbeats 1000000 in
/-- AN INNER STEP: one product is added to the accumulator found at `xs`; the output's buffer is handed back untouched. -/
noncomputable def kernelRun3_B (c : Dev nD) (i : grid3.Coords) (arg2 : Memref sig .tc .vmem S1024x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : ¬cond3_1 i)
    (x0 : Vec F S1024x2048 .bf16) (x1 : Vec F S2048x128 .bf16) (x2 : Vec F S1x128 .f32) (xs : Vec F S1024x128 .f32) :
    { LS : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi ∗ owns (c : Thread nD τ) arg6 fullShare xs
            ∗ (iprop(owns (c : Thread nD τ) arg2 fullShare x0 ∗ owns (c : Thread nD τ) arg3 fullShare x1 ∗ owns (c : Thread nD τ) arg4 fullShare x2
                ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc3_kernel i arg2 harg2 arg3 harg3 arg4 harg4 arg5 harg5 arg6 harg6) K } := by
  refine ⟨?_, fun xi E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%fo, %hfo, HO⟩, ⟨%fs, %hfs, HS⟩, Hk⟩
    obtain rfl := harg2.eq_unread hf0; obtain rfl := harg3.eq_unread hf1; obtain rfl := harg4.eq_unread hf2; obtain rfl := harg5.eq_unread hfo; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS

set_option maxHeartbeats 1000000 in
/-- THE LAST STEP (not the first): one product is added to the accumulator found at `xs`, and the output block is computed from it and stored whole. -/
noncomputable def kernelRun3_C (c : Dev nD) (i : grid3.Coords) (arg2 : Memref sig .tc .vmem S1024x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : cond3_1 i)
    (x0 : Vec F S1024x2048 .bf16) (x1 : Vec F S2048x128 .bf16) (x2 : Vec F S1x128 .f32) (xs : Vec F S1024x128 .f32) :
    Σ' (LO : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc3_kernel i arg2 harg2 arg3 harg3 arg4 harg4 arg5 harg5 arg6 harg6) K } := by
  refine ⟨?_, ?_, fun E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%dO, %fo, -, HO⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]; · iexists _; iexact HO
    iexists _; iexact HS

end Cert.KernelIdeal.Hand

end
-- ==== Proof.KI.R3.lean ====
import proofs.«179401_j66675072303277_2_alg».proof.Proof.KI.R3Runs
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: what each point leaves, the proof data, the body obligation

All stated at the contents `V` the region finds in the program's buffers when it is entered. -/

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## What each case leaves: its stores read back -/
theorem scover3_A {c : Dev nD} {i : grid3.Coords} {arg2 : Memref sig .tc .vmem S1024x2048 .bf16} {harg2 : arg2.IsWhole} {arg3 : Memref sig .tc .vmem S2048x128 .bf16} {harg3 : arg3.IsWhole} {arg4 : Memref sig .tc .vmem S1x128 .f32} {harg4 : arg4.IsWhole} {arg5 : Memref sig .tc .vmem S1024x128 .f32} {harg5 : arg5.IsWhole} {arg6 : Memref sig .tc .vmem S1024x128 .f32} {harg6 : arg6.IsWhole} {hc0 : cond3_0 i} {hc1 : ¬cond3_1 i} {x0 : Vec F S1024x2048 .bf16} {x1 : Vec F S2048x128 .bf16} {x2 : Vec F S1x128 .f32} (y : S1024x128.Idx) :
    ∃ pc ∈ (kernelRun3_A c i arg2 harg2 arg3 harg3 arg4 harg4 arg5 harg5 arg6 harg6 hc0 hc1 x0 x1 x2).1, y ∈ pc.1.set :=
  View.cover_of_tiledL (kernelRun3_A c i arg2 harg2 arg3 harg3 arg4 harg4 arg5 harg5 arg6 harg6 hc0 hc1 x0 x1 x2).1 S1024x128.size (by sl_kernel_rfl) y
def sout3_A (c : Dev nD) (i : grid3.Coords) (arg2 : Memref sig .tc .vmem S1024x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : cond3_0 i) (hc1 : ¬cond3_1 i) (x0 : Vec F S1024x2048 .bf16) (x1 : Vec F S2048x128 .bf16) (x2 : Vec F S1x128 .f32) : Vec F S1024x128 .f32 :=
  VS3.read (Elt F) (VS3.writes (Elt F) VS3.junk (kernelRun3_A c i arg2 harg2 arg3 harg3 arg4 harg4 arg5 harg5 arg6 harg6 hc0 hc1 x0 x1 x2).1)
theorem scover3_B {c : Dev nD} {i : grid3.Coords} {arg2 : Memref sig .tc .vmem S1024x2048 .bf16} {harg2 : arg2.IsWhole} {arg3 : Memref sig .tc .vmem S2048x128 .bf16} {harg3 : arg3.IsWhole} {arg4 : Memref sig .tc .vmem S1x128 .f32} {harg4 : arg4.IsWhole} {arg5 : Memref sig .tc .vmem S1024x128 .f32} {harg5 : arg5.IsWhole} {arg6 : Memref sig .tc .vmem S1024x128 .f32} {harg6 : arg6.IsWhole} {hc0 : ¬cond3_0 i} {hc1 : ¬cond3_1 i} {x0 : Vec F S1024x2048 .bf16} {x1 : Vec F S2048x128 .bf16} {x2 : Vec F S1x128 .f32} {xs : Vec F S1024x128 .f32} (y : S1024x128.Idx) :
    ∃ pc ∈ (kernelRun3_B c i arg2 harg2 arg3 harg3 arg4 harg4 arg5 harg5 arg6 harg6 hc0 hc1 x0 x1 x2 xs).1, y ∈ pc.1.set :=
  View.cover_of_tiledL (kernelRun3_B c i arg2 harg2 arg3 harg3 arg4 harg4 arg5 harg5 arg6 harg6 hc0 hc1 x0 x1 x2 xs).1 S1024x128.size (by sl_kernel_rfl) y
def sout3_B (c : Dev nD) (i : grid3.Coords) (arg2 : Memref sig .tc .vmem S1024x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : ¬cond3_1 i) (x0 : Vec F S1024x2048 .bf16) (x1 : Vec F S2048x128 .bf16) (x2 : Vec F S1x128 .f32) (xs : Vec F S1024x128 .f32) : Vec F S1024x128 .f32 :=
  VS3.read (Elt F) (VS3.writes (Elt F) VS3.junk (kernelRun3_B c i arg2 harg2 arg3 harg3 arg4 harg4 arg5 harg5 arg6 harg6 hc0 hc1 x0 x1 x2 xs).1)
theorem scover3_C {c : Dev nD} {i : grid3.Coords} {arg2 : Memref sig .tc .vmem S1024x2048 .bf16} {harg2 : arg2.IsWhole} {arg3 : Memref sig .tc .vmem S2048x128 .bf16} {harg3 : arg3.IsWhole} {arg4 : Memref sig .tc .vmem S1x128 .f32} {harg4 : arg4.IsWhole} {arg5 : Memref sig .tc .vmem S1024x128 .f32} {harg5 : arg5.IsWhole} {arg6 : Memref sig .tc .vmem S1024x128 .f32} {harg6 : arg6.IsWhole} {hc0 : ¬cond3_0 i} {hc1 : cond3_1 i} {x0 : Vec F S1024x2048 .bf16} {x1 : Vec F S2048x128 .bf16} {x2 : Vec F S1x128 .f32} {xs : Vec F S1024x128 .f32} (y : S1024x128.Idx) :
    ∃ pc ∈ (kernelRun3_C c i arg2 harg2 arg3 harg3 arg4 harg4 arg5 harg5 arg6 harg6 hc0 hc1 x0 x1 x2 xs).2.1, y ∈ pc.1.set :=
  View.cover_of_tiledL (kernelRun3_C c i arg2 harg2 arg3 harg3 arg4 harg4 arg5 harg5 arg6 harg6 hc0 hc1 x0 x1 x2 xs).2.1 S1024x128.size (by sl_kernel_rfl) y
def sout3_C (c : Dev nD) (i : grid3.Coords) (arg2 : Memref sig .tc .vmem S1024x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : cond3_1 i) (x0 : Vec F S1024x2048 .bf16) (x1 : Vec F S2048x128 .bf16) (x2 : Vec F S1x128 .f32) (xs : Vec F S1024x128 .f32) : Vec F S1024x128 .f32 :=
  VS3.read (Elt F) (VS3.writes (Elt F) VS3.junk (kernelRun3_C c i arg2 harg2 arg3 harg3 arg4 harg4 arg5 harg5 arg6 harg6 hc0 hc1 x0 x1 x2 xs).2.1)
theorem cover3_C {c : Dev nD} {i : grid3.Coords} {arg2 : Memref sig .tc .vmem S1024x2048 .bf16} {harg2 : arg2.IsWhole} {arg3 : Memref sig .tc .vmem S2048x128 .bf16} {harg3 : arg3.IsWhole} {arg4 : Memref sig .tc .vmem S1x128 .f32} {harg4 : arg4.IsWhole} {arg5 : Memref sig .tc .vmem S1024x128 .f32} {harg5 : arg5.IsWhole} {arg6 : Memref sig .tc .vmem S1024x128 .f32} {harg6 : arg6.IsWhole} {hc0 : ¬cond3_0 i} {hc1 : cond3_1 i} {x0 : Vec F S1024x2048 .bf16} {x1 : Vec F S2048x128 .bf16} {x2 : Vec F S1x128 .f32} {xs : Vec F S1024x128 .f32} (y : S1024x128.Idx) :
    ∃ pc ∈ (kernelRun3_C c i arg2 harg2 arg3 harg3 arg4 harg4 arg5 harg5 arg6 harg6 hc0 hc1 x0 x1 x2 xs).1, y ∈ pc.1.set :=
  View.cover_of_tiledL (kernelRun3_C c i arg2 harg2 arg3 harg3 arg4 harg4 arg5 harg5 arg6 harg6 hc0 hc1 x0 x1 x2 xs).1 S1024x128.size (by sl_kernel_rfl) y
def out3_C (c : Dev nD) (i : grid3.Coords) (arg2 : Memref sig .tc .vmem S1024x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : cond3_1 i) (x0 : Vec F S1024x2048 .bf16) (x1 : Vec F S2048x128 .bf16) (x2 : Vec F S1x128 .f32) (xs : Vec F S1024x128 .f32) : Vec F S1024x128 .f32 :=
  VO3.read (Elt F) (VO3.writes (Elt F) VO3.junk (kernelRun3_C c i arg2 harg2 arg3 harg3 arg4 harg4 arg5 harg5 arg6 harg6 hc0 hc1 x0 x1 x2 xs).1)
/-- A placeholder for the output's buffer where the window is idle (nothing consults it there). -/
def outIdle3 : Vec F S1024x128 .f32 := VO3.read (Elt F) VO3.junk

/-! ## What the output's buffer and the accumulator hold after each point -/

/-- After the body at position `n`: the output's staging buffer (meaningful at the last steps only) and the accumulator, by recursion on the point:
    a first step starts afresh, the other steps continue from what the point before left in the accumulator. -/
def outsAt3 (c : Dev nD) : (n : ℕ) → n < cfg3.N → Vec F S1024x128 .f32 × Vec F S1024x128 .f32
  | 0, hn => (outIdle3, sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 5 = 0 then
      if h1 : (n + 1) % 5 = 4 then
        False.elim (by omega)
      else
        (outIdle3, sout3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩))
    else
      if h1 : (n + 1) % 5 = 4 then
        (out3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2,
         sout3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        (outIdle3, sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2)

theorem outsAt3_A (c : Dev nD) (t : Fin cfg3.N) (h0 : t.val % 5 = 0) (h1 : ¬t.val % 5 = 4) :
    outsAt3 V c t.val t.isLt = (outIdle3, sout3_A c (grid3.coords t) (ms3_0 t) (hs3_0 t) (ms3_1 t) (hs3_1 t) (ms3_2 t) (hs3_2 t) (ms3_3 t) (hs3_3 t) scM3 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans ((dif_neg h1).trans rfl)

theorem outsAt3_B (c : Dev nD) (t : Fin cfg3.N) (h0 : ¬t.val % 5 = 0) (h1 : ¬t.val % 5 = 4) :
    outsAt3 V c t.val t.isLt = (outIdle3, sout3_B c (grid3.coords t) (ms3_0 t) (hs3_0 t) (ms3_1 t) (hs3_1 t) (ms3_2 t) (hs3_2 t) (ms3_3 t) (hs3_3 t) scM3 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 5 = 0) (h1 : t.val % 5 = 4) :
    outsAt3 V c t.val t.isLt = (out3_C c (grid3.coords t) (ms3_0 t) (hs3_0 t) (ms3_1 t) (hs3_1 t) (ms3_2 t) (hs3_2 t) (ms3_3 t) (hs3_3 t) scM3 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2,
      sout3_C c (grid3.coords t) (ms3_0 t) (hs3_0 t) (ms3_1 t) (hs3_1 t) (ms3_2 t) (hs3_2 t) (ms3_3 t) (hs3_3 t) scM3 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's (the accumulator at anything); afterwards the accumulator
    at what the point before left in it, beside the other scoped buffers and the generator register. -/
def PhiS3 (c : Dev nD) : (n : ℕ) → n ≤ cfg3.N → sProp 𝕄
  | 0, _ => Pipeline.ΦA spec3 c
  | n + 1, hn => iprop((owns (c : Thread nD τ) scM3 fullShare ((outsAt3 V c n hn).2) ∗ RestB3 c) ∗ ∃ r, prngReg c r)

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop((owns (c : Thread nD τ) scM3 fullShare ((outsAt3 V c n hn).2) ∗ RestB3 c) ∗ ∃ r, prngReg c r) := rfl
theorem PhiS3_pos (c : Dev nD) (n : ℕ) (h : n ≤ cfg3.N) (hz : n ≠ 0) :
    PhiS3 V c n h = iprop((owns (c : Thread nD τ) scM3 fullShare ((outsAt3 V c (n - 1) (by omega)).2) ∗ RestB3 c) ∗ ∃ r, prngReg c r) := by
  cases n with
  | zero => exact absurd rfl hz
  | succ n => rfl

/-! ## The proof data -/

/-- Region 3's proof data on core `c`: the arrays as the region finds them; after the body each input's buffer at its block and the output's
    at `outsAt3`; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- An input's buffer is handed back at its block. -/
theorem leaves3_0 (c : Dev nD) (t : Fin cfg3.N) : (dat3 V c).leavesExact 0 t = owns (c : Thread nD τ) (ms3_0 t) fullShare (iblk3 V c 0 t) := by
  rw [show (dat3 V c).leavesExact 0 t = owns (c : Thread nD τ) (ms3_0 t) fullShare ((dat3 V c).after 0 t) from by
    unfold Dat.leavesExact; rw [liveAt3_0 t], after3_0]
theorem leaves3_1 (c : Dev nD) (t : Fin cfg3.N) : (dat3 V c).leavesExact 1 t = owns (c : Thread nD τ) (ms3_1 t) fullShare (iblk3 V c 1 t) := by
  rw [show (dat3 V c).leavesExact 1 t = owns (c : Thread nD τ) (ms3_1 t) fullShare ((dat3 V c).after 1 t) from by
    unfold Dat.leavesExact; rw [liveAt3_1 t], after3_1]
theorem leaves3_2 (c : Dev nD) (t : Fin cfg3.N) : (dat3 V c).leavesExact 2 t = owns (c : Thread nD τ) (ms3_2 t) fullShare (iblk3 V c 2 t) := by
  rw [show (dat3 V c).leavesExact 2 t = owns (c : Thread nD τ) (ms3_2 t) fullShare ((dat3 V c).after 2 t) from by
    unfold Dat.leavesExact; rw [liveAt3_2 t], after3_2]

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the inputs' memrefs hold their blocks; the closed forms of the two conditions say which case the point is in; the invariant hands the body the
    accumulator at what the point before left (at anything at the very first point) and takes it back at this point's contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2]
  have hN : t.val < 50 := lt_of_lt_of_eq t.isLt (show cfg3.N = 50 from N_3)
  by_cases h0 : t.val % 5 = 0
  · by_cases h1 : t.val % 5 = 4
    · exfalso; omega
    · rw [Dat.leavesExact_idle (dat3 V c) 3 t (idleAt3_3 t (fun h => h1 ((hcond3_1 t).mp h))) (noFlush3_3 t (fun h => h1 ((hcond3_1 t).mp h)))]
      rw [outsAt3_A V c t h0 h1]
      unfold sout3_A; (try dsimp only)
      by_cases hz : t.val = 0
      · rw [PhiS3_castSucc V c t, PhiS3_zero V c _ _ hz, PhiA3_eq]
        iintro ⟨⟨⟨HS, HB⟩, Hg⟩, Ho, ⟨%d0, H0⟩, ⟨%d1, H1⟩, ⟨%d2, H2⟩, ⟨%dO, HO⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2 _ Set.univ _)
        isplitl [H0]; · iexact H0
        isplitl [H1]; · iexact H1
        isplitl [H2]; · iexact H2
        isplitl [HO]; · iexact HO
        isplitl [HS]; · iexact HS
        iintro ⟨H0, H1, H2, HO, ⟨%es, HS⟩⟩
        isplitl [HS HB Hg]
        · isplitl [HS HB]
          · isplitl [HS]
            · unfold owns; iexists _; isplitr
              swap; · iexact HS
              ipureintro; exact View.read_writes_of_cover _ _ _ _ _ scover3_A
            iexact HB
          iexact Hg
        isplitl [Ho]; · iexact Ho
        isplitl [H0]; · iexact H0
        isplitl [H1]; · iexact H1
        isplitl [H2]; · iexact H2
        iexists _; iexact HO
      · rw [PhiS3_castSucc V c t, PhiS3_pos V c _ _ hz]
        iintro ⟨⟨⟨HS, HB⟩, Hg⟩, Ho, ⟨%d0, H0⟩, ⟨%d1, H1⟩, ⟨%d2, H2⟩, ⟨%dO, HO⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2 _ Set.univ _)
        isplitl [H0]; · iexact H0
        isplitl [H1]; · iexact H1
        isplitl [H2]; · iexact H2
        isplitl [HO]; · iexact HO
        isplitl [HS]; · iexists _; iexact HS
        iintro ⟨H0, H1, H2, HO, ⟨%es, HS⟩⟩
        isplitl [HS HB Hg]
        · isplitl [HS HB]
          · isplitl [HS]
            · unfold owns; iexists _; isplitr
              swap; · iexact HS
              ipureintro; exact View.read_writes_of_cover _ _ _ _ _ scover3_A
            iexact HB
          iexact Hg
        isplitl [Ho]; · iexact Ho
        isplitl [H0]; · iexact H0
        isplitl [H1]; · iexact H1
        isplitl [H2]; · iexact H2
        iexists _; iexact HO
  · have hz : t.val ≠ 0 := fun h => h0 (by rw [h])
    by_cases h1 : t.val % 5 = 4
    · rw [show (dat3 V c).leavesExact 3 t = owns (c : Thread nD τ) (ms3_3 t) fullShare ((dat3 V c).after 3 t) from by
        unfold Dat.leavesExact; rw [liveAt3_3 t ((hcond3_1 t).mpr h1)], after3_3]
      rw [outsAt3_C V c t h0 h1]
      unfold out3_C sout3_C; (try dsimp only)
      rw [PhiS3_castSucc V c t, PhiS3_pos V c _ _ hz]
      iintro ⟨⟨⟨HS, HB⟩, Hg⟩, Ho, ⟨%d0, H0⟩, ⟨%d1, H1⟩, ⟨%d2, H2⟩, ⟨%dO, HO⟩⟩
      iapply ((kernelRun3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
      isplitl [H0]; · iexact H0
      isplitl [H1]; · iexact H1
      isplitl [H2]; · iexact H2
      isplitl [HO]; · iexists _; iexact HO
      isplitl [HS]; · iexact HS
      iintro ⟨H0, H1, H2, ⟨%eO, HO⟩, ⟨%es, HS⟩⟩
      isplitl [HS HB Hg]
      · isplitl [HS HB]
        · isplitl [HS]
          · unfold owns; iexists _; isplitr
            swap; · iexact HS
            ipureintro; exact View.read_writes_of_cover _ _ _ _ _ scover3_C
          iexact HB
        iexact Hg
      isplitl [Ho]; · iexact Ho
      isplitl [H0]; · iexact H0
      isplitl [H1]; · iexact H1
      isplitl [H2]; · iexact H2
      unfold owns; iexists _; isplitr
      swap; · iexact HO
      ipureintro; exact View.read_writes_of_cover _ _ _ _ _ cover3_C
    · rw [Dat.leavesExact_idle (dat3 V c) 3 t (idleAt3_3 t (fun h => h1 ((hcond3_1 t).mp h))) (noFlush3_3 t (fun h => h1 ((hcond3_1 t).mp h)))]
      rw [outsAt3_B V c t h0 h1]
      unfold sout3_B; (try dsimp only)
      rw [PhiS3_castSucc V c t, PhiS3_pos V c _ _ hz]
      iintro ⟨⟨⟨HS, HB⟩, Hg⟩, Ho, ⟨%d0, H0⟩, ⟨%d1, H1⟩, ⟨%d2, H2⟩, ⟨%dO, HO⟩⟩
      iapply ((kernelRun3_B c (grid3.coords t) _ _ _ _ _ _ _ _ _ _ (fun h => h0 ((hcond3_0 t).mp h)) (fun h => h1 ((hcond3_1 t).mp h)) (iblk3 V c 0 t) (iblk3 V c 1 t) (iblk3 V c 2 t) _).2 _ Set.univ _)
      isplitl [H0]; · iexact H0
      isplitl [H1]; · iexact H1
      isplitl [H2]; · iexact H2
      isplitl [HO]; · iexact HO
      isplitl [HS]; · iexact HS
      iintro ⟨H0, H1, H2, HO, ⟨%es, HS⟩⟩
      isplitl [HS HB Hg]
      · isplitl [HS HB]
        · isplitl [HS]
          · unfold owns; iexists _; isplitr
            swap; · iexact HS
            ipureintro; exact View.read_writes_of_cover _ _ _ _ _ scover3_B
          iexact HB
        iexact Hg
      isplitl [Ho]; · iexact Ho
      isplitl [H0]; · iexact H0
      isplitl [H1]; · iexact H1
      isplitl [H2]; · iexact H2
      iexists _; iexact HO

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the region is handed is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the class's back: the accumulator's contents are forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 50 := N_3; omega), PhiA3_eq]
  iintro ⟨⟨HS, HB⟩, Hg⟩
  isplitr [Hg]
  · isplitl [HS]
    · iexists _; iexact HS
    iexact HB
  iexact Hg

end Cert.KernelIdeal.Hand

end
-- ==== Proof.KI.Run.lean ====
import proofs.«179401_j66675072303277_2_alg».proof.Proof.KI.R0
import proofs.«179401_j66675072303277_2_alg».proof.Proof.KI.R1
import proofs.«179401_j66675072303277_2_alg».proof.Proof.KI.R2
import proofs.«179401_j66675072303277_2_alg».proof.Proof.KI.R3
import proofs.«179401_j66675072303277_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The run of the program over its four regions

## The buffers' contents at each boundary

Up to the first region the contents are the host stretches' fold from the launch memory (the generated `V0` … `V9`).
A region leaves every buffer as it found it but its output array, which holds the fold of the write-backs. -/

/-- What region 0 finds, read at the TensorCore's references. -/
abbrev E9 : (c : Dev nD) → (b : Ref sig .tc) → Buf (Elt F) ((c : Thread nD τ).loc b) := fun c b => V9 m c b
/-- After region 0: `main_v58` at what its write-backs leave. -/
def W10 (c : Dev nD) : Valuation τ sig (Elt F) :=
  Function.update (V9 m c) main_v58 ((dat0 (E9 m) c).arrAt 4 cfg0.N)
/-- What region 1 finds. -/
abbrev E10 : (c : Dev nD) → (b : Ref sig .tc) → Buf (Elt F) ((c : Thread nD τ).loc b) := fun c b => W10 m c b
/-- After region 1: `main_v59` at what its write-backs leave. -/
def W11 (c : Dev nD) : Valuation τ sig (Elt F) :=
  Function.update (W10 m c) main_v59 ((dat1 (E10 m) c).arrAt 4 cfg1.N)
/-- What region 1 leaves, read at the TensorCore's references. -/
abbrev E11 : (c : Dev nD) → (b : Ref sig .tc) → Buf (Elt F) ((c : Thread nD τ).loc b) := fun c b => W11 m c b
/-- After the stretch between regions 1 and 2. -/
abbrev W12 (c : Dev nD) : Valuation τ sig (Elt F) := StableHlo.after hostOps2 (W11 m c)
/-- What region 2 finds. -/
abbrev E12 : (c : Dev nD) → (b : Ref sig .tc) → Buf (Elt F) ((c : Thread nD τ).loc b) := fun c b => W12 m c b
/-- After region 2: `main_v61` at what its write-backs leave. -/
def W13 (c : Dev nD) : Valuation τ sig (Elt F) :=
  Function.update (W12 m c) main_v61 ((dat2 (E12 m) c).arrAt 3 cfg2.N)
/-- What region 3 finds. -/
abbrev E13 : (c : Dev nD) → (b : Ref sig .tc) → Buf (Elt F) ((c : Thread nD τ).loc b) := fun c b => W13 m c b
/-- After region 3: `main_v62` at what its write-backs leave. -/
def W14 (c : Dev nD) : Valuation τ sig (Elt F) :=
  Function.update (W13 m c) main_v62 ((dat3 (E13 m) c).arrAt 3 cfg3.N)
/-- What region 3 leaves, read at the TensorCore's references. -/
abbrev E14 : (c : Dev nD) → (b : Ref sig .tc) → Buf (Elt F) ((c : Thread nD τ).loc b) := fun c b => W14 m c b
/-- After the last stretch: the contents the program ends with. -/
abbrev W15 (c : Dev nD) : Valuation τ sig (Elt F) := StableHlo.after hostOps4 (W14 m c)

/-! ### What each item leaves unchanged, and what each region leaves in its output -/

theorem W10_of (c : Dev nD) (r : Ref sig .tc) (h : r ∉ ([main_v58] : List (Ref sig .tc))) : W10 m c r = V9 m c r := by
  simp only [W10, Function.update_of_ne (StableHlo.devRef_ne_of_ne (List.ne_of_not_mem_cons h) : (Proc.devRef .tc r : DevRef τ sig) ≠ Proc.devRef .tc main_v58)]
theorem W10_out (c : Dev nD) : W10 m c main_v58 = (dat0 (E9 m) c).arrAt 4 cfg0.N := by
  unfold W10; exact Function.update_self _ _ _
theorem W11_of (c : Dev nD) (r : Ref sig .tc) (h : r ∉ ([main_v59] : List (Ref sig .tc))) : W11 m c r = W10 m c r := by
  simp only [W11, Function.update_of_ne (StableHlo.devRef_ne_of_ne (List.ne_of_not_mem_cons h) : (Proc.devRef .tc r : DevRef τ sig) ≠ Proc.devRef .tc main_v59)]
theorem W11_out (c : Dev nD) : W11 m c main_v59 = (dat1 (E10 m) c).arrAt 4 cfg1.N := by
  unfold W11; exact Function.update_self _ _ _
theorem W12_of (c : Dev nD) (r : Ref sig .tc) (h : r ∉ hostOps2_W) : W12 m c r = W11 m c r :=
  StableHlo.after_of_writes_sub hostOps2 _ hostOps2_writes h
theorem W13_of (c : Dev nD) (r : Ref sig .tc) (h : r ∉ ([main_v61] : List (Ref sig .tc))) : W13 m c r = W12 m c r := by
  simp only [W13, Function.update_of_ne (StableHlo.devRef_ne_of_ne (List.ne_of_not_mem_cons h) : (Proc.devRef .tc r : DevRef τ sig) ≠ Proc.devRef .tc main_v61)]
theorem W13_out (c : Dev nD) : W13 m c main_v61 = (dat2 (E12 m) c).arrAt 3 cfg2.N := by
  unfold W13; exact Function.update_self _ _ _
theorem W14_of (c : Dev nD) (r : Ref sig .tc) (h : r ∉ ([main_v62] : List (Ref sig .tc))) : W14 m c r = W13 m c r := by
  simp only [W14, Function.update_of_ne (StableHlo.devRef_ne_of_ne (List.ne_of_not_mem_cons h) : (Proc.devRef .tc r : DevRef τ sig) ≠ Proc.devRef .tc main_v62)]
theorem W14_out (c : Dev nD) : W14 m c main_v62 = (dat3 (E13 m) c).arrAt 3 cfg3.N := by
  unfold W14; exact Function.update_self _ _ _
theorem W15_of (c : Dev nD) (r : Ref sig .tc) (h : r ∉ hostOps4_W) : W15 m c r = W14 m c r :=
  StableHlo.after_of_writes_sub hostOps4 _ hostOps4_writes h

/-! ### At a region's exit each of its arrays holds what the pipeline leaves, every other buffer what it held -/

theorem forall_fin5 {P : Fin 5 → Prop} (h0 : P 0) (h1 : P 1) (h2 : P 2) (h3 : P 3) (h4 : P 4) : ∀ w, P w
  | 0 => h0 | 1 => h1 | 2 => h2 | 3 => h3 | 4 => h4
  | ⟨_ + 5, h⟩ => absurd h (Nat.not_lt.2 (Nat.le_add_left _ _))
theorem forall_fin4 {P : Fin 4 → Prop} (h0 : P 0) (h1 : P 1) (h2 : P 2) (h3 : P 3) : ∀ w, P w
  | 0 => h0 | 1 => h1 | 2 => h2 | 3 => h3
  | ⟨_ + 4, h⟩ => absurd h (Nat.not_lt.2 (Nat.le_add_left _ _))

theorem hF0 (c : Dev nD) : ∀ w : Fin 5, (dat0 (E9 m) c).arrAt w cfg0.N = E10 m c (Pipeline.arrRef spec0 w) :=
  forall_fin5 (P := fun w => (dat0 (E9 m) c).arrAt w cfg0.N = E10 m c (Pipeline.arrRef spec0 w))
    (((dat0 (E9 m) c).arrAt_in 0 rfl _).trans ((A_eq0 (E9 m) c 0).trans (W10_of m c main_v47 (by decide)).symm))
    (((dat0 (E9 m) c).arrAt_in 1 rfl _).trans ((A_eq0 (E9 m) c 1).trans (W10_of m c main_v49 (by decide)).symm))
    (((dat0 (E9 m) c).arrAt_in 2 rfl _).trans ((A_eq0 (E9 m) c 2).trans (W10_of m c main_v50 (by decide)).symm))
    (((dat0 (E9 m) c).arrAt_in 3 rfl _).trans ((A_eq0 (E9 m) c 3).trans (W10_of m c main_v54 (by decide)).symm))
    (W10_out m c).symm
theorem hrest0 (c : Dev nD) : ∀ b, b ∉ Finset.univ.image (Pipeline.arrRef spec0) → E10 m c b = E9 m c b :=
  fun b hb => W10_of m c b fun h => hb (by
    rw [List.mem_singleton.mp h]; exact Finset.mem_image.mpr ⟨4, Finset.mem_univ _, rfl⟩)

theorem hF1 (c : Dev nD) : ∀ w : Fin 5, (dat1 (E10 m) c).arrAt w cfg1.N = E11 m c (Pipeline.arrRef spec1 w) :=
  forall_fin5 (P := fun w => (dat1 (E10 m) c).arrAt w cfg1.N = E11 m c (Pipeline.arrRef spec1 w))
    (((dat1 (E10 m) c).arrAt_in 0 rfl _).trans ((A_eq1 (E10 m) c 0).trans (W11_of m c main_v47 (by decide)).symm))
    (((dat1 (E10 m) c).arrAt_in 1 rfl _).trans ((A_eq1 (E10 m) c 1).trans (W11_of m c main_v58 (by decide)).symm))
    (((dat1 (E10 m) c).arrAt_in 2 rfl _).trans ((A_eq1 (E10 m) c 2).trans (W11_of m c main_v51 (by decide)).symm))
    (((dat1 (E10 m) c).arrAt_in 3 rfl _).trans ((A_eq1 (E10 m) c 3).trans (W11_of m c main_v55 (by decide)).symm))
    (W11_out m c).symm
theorem hrest1 (c : Dev nD) : ∀ b, b ∉ Finset.univ.image (Pipeline.arrRef spec1) → E11 m c b = E10 m c b :=
  fun b hb => W11_of m c b fun h => hb (by
    rw [List.mem_singleton.mp h]; exact Finset.mem_image.mpr ⟨4, Finset.mem_univ _, rfl⟩)

theorem hF2 (c : Dev nD) : ∀ w : Fin 4, (dat2 (E12 m) c).arrAt w cfg2.N = E13 m c (Pipeline.arrRef spec2 w) :=
  forall_fin4 (P := fun w => (dat2 (E12 m) c).arrAt w cfg2.N = E13 m c (Pipeline.arrRef spec2 w))
    (((dat2 (E12 m) c).arrAt_in 0 rfl _).trans ((A_eq2 (E12 m) c 0).trans (W13_of m c main_v59 (by decide)).symm))
    (((dat2 (E12 m) c).arrAt_in 1 rfl _).trans ((A_eq2 (E12 m) c 1).trans (W13_of m c main_v53 (by decide)).symm))
    (((dat2 (E12 m) c).arrAt_in 2 rfl _).trans ((A_eq2 (E12 m) c 2).trans (W13_of m c main_v60 (by decide)).symm))
    (W13_out m c).symm
theorem hrest2 (c : Dev nD) : ∀ b, b ∉ Finset.univ.image (Pipeline.arrRef spec2) → E13 m c b = E12 m c b :=
  fun b hb => W13_of m c b fun h => hb (by
    rw [List.mem_singleton.mp h]; exact Finset.mem_image.mpr ⟨3, Finset.mem_univ _, rfl⟩)

theorem hF3 (c : Dev nD) : ∀ w : Fin 4, (dat3 (E13 m) c).arrAt w cfg3.N = E14 m c (Pipeline.arrRef spec3 w) :=
  forall_fin4 (P := fun w => (dat3 (E13 m) c).arrAt w cfg3.N = E14 m c (Pipeline.arrRef spec3 w))
    (((dat3 (E13 m) c).arrAt_in 0 rfl _).trans ((A_eq3 (E13 m) c 0).trans (W14_of m c main_v47 (by decide)).symm))
    (((dat3 (E13 m) c).arrAt_in 1 rfl _).trans ((A_eq3 (E13 m) c 1).trans (W14_of m c main_v61 (by decide)).symm))
    (((dat3 (E13 m) c).arrAt_in 2 rfl _).trans ((A_eq3 (E13 m) c 2).trans (W14_of m c main_v57 (by decide)).symm))
    (W14_out m c).symm
theorem hrest3 (c : Dev nD) : ∀ b, b ∉ Finset.univ.image (Pipeline.arrRef spec3) → E14 m c b = E13 m c b :=
  fun b hb => W14_of m c b fun h => hb (by
    rw [List.mem_singleton.mp h]; exact Finset.mem_image.mpr ⟨3, Finset.mem_univ _, rfl⟩)

/-! ## The proof data family and the thread state -/

/-- Every region's proof data, each at the contents its region finds. -/
def pdats : (p : Fin 4) → (c : Dev nD) → Dat τ (Elt F) Unit ℕ (UR sig nD τ) ℕ (Pipeline.pin (pcfgs (F := F)) adm p) c
  | ⟨0, _⟩ => fun c => dat0 (E9 m) c
  | ⟨1, _⟩ => fun c => dat1 (E10 m) c
  | ⟨2, _⟩ => fun c => dat2 (E12 m) c
  | ⟨3, _⟩ => fun c => dat3 (E13 m) c
/-- No core owes another anything: no level is assigned. -/
abbrev Lv : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- What rides along ends owing nothing (the generator register is dropped). -/
theorem R_owes (c : Dev nD) : R (F := F) c ⊢ iprop(∃ W, owes (c : Thread nD τ) (0 : CellTallies nD τ sig Unit) W) := by
  iintro ⟨-, HO⟩
  iexact HO
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none Lv lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! ## The regions as segments -/

set_option backward.isDefEq.respectTransparency.types false in
/-- Region 0 over the thread state: entered from every unscoped buffer at `V9`, left at `W10`. Its arrays are split out
    of the unscoped buffers and put back at the exit contents; the generator register goes into the region's invariant
    and comes out; nothing is owed; the kernel has no semaphore of its own. -/
def reg0 : Pipeline.RegionSeg (pcfgs (F := F)) adm (pdats m) () defs₀ Variants.none Lv lv 0 where
  win := launch0.win.to₀
  block_pos := launch0.block_pos
  stage_whole := launch0.stage_whole
  K := PEmpty
  osem k := k.elim
  ho := Pipeline.OwnSemFacts.none _
  hbody c := (body_obligation0 (E9 m) c).loose
  hwaits := Pipeline.hwaits_of_owed_zero _ _ _ _ Lv lv 0 fun _ _ => rfl
  pre c := iprop(StableHlo.held (c : Thread nD τ) (Pipeline.ucRefs τ sig) (V9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec0 c (E9 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E9 m) c)
    unfold Pipeline.ΦA
    iintro ⟨Hp, -, Hr⟩
    isplitl [Hr]; · iexact Hr
    iexact Hp
  hout c := by
    rw [Pipeline.ownSems0_none]
    refine BIBase.Entails.trans (hout0 (E9 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E9 m c) (E10 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1, in the same way: entered at `W10`, left at `W11`. -/
def reg1 : Pipeline.RegionSeg (pcfgs (F := F)) adm (pdats m) () defs₀ Variants.none Lv lv 1 where
  win := launch1.win.to₀
  block_pos := launch1.block_pos
  stage_whole := launch1.stage_whole
  K := PEmpty
  osem k := k.elim
  ho := Pipeline.OwnSemFacts.none _
  hbody c := (body_obligation1 (E10 m) c).loose
  hwaits := Pipeline.hwaits_of_owed_zero _ _ _ _ Lv lv 1 fun _ _ => rfl
  pre c := iprop(StableHlo.held (c : Thread nD τ) (Pipeline.ucRefs τ sig) (W10 m c) ∗ R c)
  post c := iprop(StableHlo.held (c : Thread nD τ) (Pipeline.ucRefs τ sig) (W11 m c) ∗ R c)
  X c := iprop(∃ r, prngReg c r)
  Y c := iprop(∃ r, prngReg c r)
  Z c := Pipeline.unscopedRest (Ix := Unit) (Name := ℕ) (U := UR sig nD τ) (Lvl := ℕ) spec1 c (E10 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E10 m) c)
    unfold Pipeline.ΦA
    iintro ⟨Hp, -, Hr⟩
    isplitl [Hr]; · iexact Hr
    iexact Hp
  hout c := by
    rw [Pipeline.ownSems0_none]
    refine BIBase.Entails.trans (hout1 (E10 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E10 m c) (E11 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2, in the same way: entered at `W12`, left at `W13`. -/
def reg2 : Pipeline.RegionSeg (pcfgs (F := F)) adm (pdats m) () defs₀ Variants.none Lv lv 2 where
  win := launch2.win.to₀
  block_pos := launch2.block_pos
  stage_whole := launch2.stage_whole
  K := PEmpty
  osem k := k.elim
  ho := Pipeline.OwnSemFacts.none _
  hbody c := (body_obligation2 (E12 m) c).loose
  hwaits := Pipeline.hwaits_of_owed_zero _ _ _ _ Lv lv 2 fun _ _ => rfl
  pre c := iprop(StableHlo.held (c : Thread nD τ) (Pipeline.ucRefs τ sig) (W12 m c) ∗ R c)
  post c := iprop(StableHlo.held (c : Thread nD τ) (Pipeline.ucRefs τ sig) (W13 m c) ∗ R c)
  X c := iprop(∃ r, prngReg c r)
  Y c := iprop(∃ r, prngReg c r)
  Z c := Pipeline.unscopedRest (Ix := Unit) (Name := ℕ) (U := UR sig nD τ) (Lvl := ℕ) spec2 c (E12 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (E12 m) c)
    unfold Pipeline.ΦA
    iintro ⟨Hp, -, Hr⟩
    isplitl [Hr]; · iexact Hr
    iexact Hp
  hout c := by
    rw [Pipeline.ownSems0_none]
    refine BIBase.Entails.trans (hout2 (E12 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E12 m c) (E13 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3, in the same way: entered at `W13`, left at `W14`. -/
def reg3 : Pipeline.RegionSeg (pcfgs (F := F)) adm (pdats m) () defs₀ Variants.none Lv lv 3 where
  win := launch3.win.to₀
  block_pos := launch3.block_pos
  stage_whole := launch3.stage_whole
  K := PEmpty
  osem k := k.elim
  ho := Pipeline.OwnSemFacts.none _
  hbody c := (body_obligation3 (E13 m) c).loose
  hwaits := Pipeline.hwaits_of_owed_zero _ _ _ _ Lv lv 3 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec3 c (E13 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (E13 m) c)
    unfold Pipeline.ΦA
    iintro ⟨Hp, -, Hr⟩
    isplitl [Hr]; · iexact Hr
    iexact Hp
  hout c := by
    rw [Pipeline.ownSems0_none]
    refine BIBase.Entails.trans (hout3 (E13 m) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E13 m c) (E14 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's fifteen items in order: a host segment per stretch from its boundary's contents, a region per kernel call. -/
abbrev segs : List (Pipeline.Seg (pcfgs (F := F)) adm (pdats m) () defs₀ Variants.none Lv lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .host (hseg hostOps0_5 hostOps0_5_sub hostOps0_5_fresh (V5 m)),
    .host (hseg hostOps0_6 hostOps0_6_sub hostOps0_6_fresh (V6 m)),
    .host (hseg hostOps0_7 hostOps0_7_sub hostOps0_7_fresh (V7 m)),
    .host (hseg hostOps0_8 hostOps0_8_sub hostOps0_8_fresh (V8 m)),
    .region (reg0 m),
    .region (reg1 m),
    .host (hseg hostOps2 hostOps2_sub hostOps2_fresh (W11 m)),
    .region (reg2 m),
    .region (reg3 m),
    .host (hseg hostOps4 hostOps4_sub hostOps4_fresh (W14 m)) ]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of the program on the TensorCores terminates,
    nothing faulting, and every final memory holds each unscoped buffer at the last boundary's contents `W15`. -/
theorem run_main (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W15 m c b) :=
  Pipeline.θ_run_regions_kit (pcfgs (F := F)) adm (pdats m) () cellOf_inj emb₁ defs₀ Variants.none Lv lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          Prog.lift (.customCall (Pipeline.entry 1) ()),
          StableHlo.seq hostOps2,
          Prog.lift (.customCall (Pipeline.entry 2) ()),
          Prog.lift (.customCall (Pipeline.entry 3) ()),
          StableHlo.seq hostOps4 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (W15 m c))
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun c => sep_mono .rfl (R_owes c)⟩)
    (hinit := by
      refine Pipeline.initEach Lv lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m c b)
    (hfin := fun c s' => by
      iintro ⟨Hh, HSI⟩
      unfold StableHlo.held
      imodintro
      iapply (pointsTo_read_all (Pipeline.ucRefs τ sig) (fun b => (((c : Thread nD τ)).1, b)) (W15 m c) s')
      isplitl [Hh] <;> iassumption)
    (hQ := fun s h c => h c)

/-! ## The arguments end as launched, and the result

No host operation and no region writes an argument, so the fold at an argument's buffer walks back to the launch memory. -/

theorem W15_main_arg0 (c : Dev nD) : W15 m c main_arg0 = m ((c : Thread nD τ).loc main_arg0) :=
  (W15_of m c main_arg0 (by decide)).trans <| (W14_of m c main_arg0 (by decide)).trans <| (W13_of m c main_arg0 (by decide)).trans <| (W12_of m c main_arg0 (by decide)).trans <| (W11_of m c main_arg0 (by decide)).trans <| (W10_of m c main_arg0 (by decide)).trans <| (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans rfl
theorem W15_main_arg1 (c : Dev nD) : W15 m c main_arg1 = m ((c : Thread nD τ).loc main_arg1) :=
  (W15_of m c main_arg1 (by decide)).trans <| (W14_of m c main_arg1 (by decide)).trans <| (W13_of m c main_arg1 (by decide)).trans <| (W12_of m c main_arg1 (by decide)).trans <| (W11_of m c main_arg1 (by decide)).trans <| (W10_of m c main_arg1 (by decide)).trans <| (V9_of m c main_arg1 (by decide)).trans <| (V8_of m c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans rfl
theorem W15_main_arg2 (c : Dev nD) : W15 m c main_arg2 = m ((c : Thread nD τ).loc main_arg2) :=
  (W15_of m c main_arg2 (by decide)).trans <| (W14_of m c main_arg2 (by decide)).trans <| (W13_of m c main_arg2 (by decide)).trans <| (W12_of m c main_arg2 (by decide)).trans <| (W11_of m c main_arg2 (by decide)).trans <| (W10_of m c main_arg2 (by decide)).trans <| (V9_of m c main_arg2 (by decide)).trans <| (V8_of m c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans rfl
theorem W15_main_arg3 (c : Dev nD) : W15 m c main_arg3 = m ((c : Thread nD τ).loc main_arg3) :=
  (W15_of m c main_arg3 (by decide)).trans <| (W14_of m c main_arg3 (by decide)).trans <| (W13_of m c main_arg3 (by decide)).trans <| (W12_of m c main_arg3 (by decide)).trans <| (W11_of m c main_arg3 (by decide)).trans <| (W10_of m c main_arg3 (by decide)).trans <| (V9_of m c main_arg3 (by decide)).trans <| (V8_of m c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans rfl
theorem W15_main_arg4 (c : Dev nD) : W15 m c main_arg4 = m ((c : Thread nD τ).loc main_arg4) :=
  (W15_of m c main_arg4 (by decide)).trans <| (W14_of m c main_arg4 (by decide)).trans <| (W13_of m c main_arg4 (by decide)).trans <| (W12_of m c main_arg4 (by decide)).trans <| (W11_of m c main_arg4 (by decide)).trans <| (W10_of m c main_arg4 (by decide)).trans <| (V9_of m c main_arg4 (by decide)).trans <| (V8_of m c main_arg4 (by decide)).trans <| (V7_of m c main_arg4 (by decide)).trans <| (V6_of m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide)).trans rfl
theorem W15_main_arg5 (c : Dev nD) : W15 m c main_arg5 = m ((c : Thread nD τ).loc main_arg5) :=
  (W15_of m c main_arg5 (by decide)).trans <| (W14_of m c main_arg5 (by decide)).trans <| (W13_of m c main_arg5 (by decide)).trans <| (W12_of m c main_arg5 (by decide)).trans <| (W11_of m c main_arg5 (by decide)).trans <| (W10_of m c main_arg5 (by decide)).trans <| (V9_of m c main_arg5 (by decide)).trans <| (V8_of m c main_arg5 (by decide)).trans <| (V7_of m c main_arg5 (by decide)).trans <| (V6_of m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide)).trans rfl
theorem W15_main_arg6 (c : Dev nD) : W15 m c main_arg6 = m ((c : Thread nD τ).loc main_arg6) :=
  (W15_of m c main_arg6 (by decide)).trans <| (W14_of m c main_arg6 (by decide)).trans <| (W13_of m c main_arg6 (by decide)).trans <| (W12_of m c main_arg6 (by decide)).trans <| (W11_of m c main_arg6 (by decide)).trans <| (W10_of m c main_arg6 (by decide)).trans <| (V9_of m c main_arg6 (by decide)).trans <| (V8_of m c main_arg6 (by decide)).trans <| (V7_of m c main_arg6 (by decide)).trans <| (V6_of m c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide)).trans rfl
theorem W15_main_arg7 (c : Dev nD) : W15 m c main_arg7 = m ((c : Thread nD τ).loc main_arg7) :=
  (W15_of m c main_arg7 (by decide)).trans <| (W14_of m c main_arg7 (by decide)).trans <| (W13_of m c main_arg7 (by decide)).trans <| (W12_of m c main_arg7 (by decide)).trans <| (W11_of m c main_arg7 (by decide)).trans <| (W10_of m c main_arg7 (by decide)).trans <| (V9_of m c main_arg7 (by decide)).trans <| (V8_of m c main_arg7 (by decide)).trans <| (V7_of m c main_arg7 (by decide)).trans <| (V6_of m c main_arg7 (by decide)).trans <| (V5_of m c main_arg7 (by decide)).trans <| (V4_of m c main_arg7 (by decide)).trans <| (V3_of m c main_arg7 (by decide)).trans <| (V2_of m c main_arg7 (by decide)).trans <| (V1_of m c main_arg7 (by decide)).trans rfl
theorem W15_main_arg8 (c : Dev nD) : W15 m c main_arg8 = m ((c : Thread nD τ).loc main_arg8) :=
  (W15_of m c main_arg8 (by decide)).trans <| (W14_of m c main_arg8 (by decide)).trans <| (W13_of m c main_arg8 (by decide)).trans <| (W12_of m c main_arg8 (by decide)).trans <| (W11_of m c main_arg8 (by decide)).trans <| (W10_of m c main_arg8 (by decide)).trans <| (V9_of m c main_arg8 (by decide)).trans <| (V8_of m c main_arg8 (by decide)).trans <| (V7_of m c main_arg8 (by decide)).trans <| (V6_of m c main_arg8 (by decide)).trans <| (V5_of m c main_arg8 (by decide)).trans <| (V4_of m c main_arg8 (by decide)).trans <| (V3_of m c main_arg8 (by decide)).trans <| (V2_of m c main_arg8 (by decide)).trans <| (V1_of m c main_arg8 (by decide)).trans rfl

/-- The frame: the program runs and every argument array ends holding its launch contents. -/
theorem frame_hand (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W15_main_arg0 m c),
      (h c _ (mem_uc main_arg1 (by decide))).trans (W15_main_arg1 m c),
      (h c _ (mem_uc main_arg2 (by decide))).trans (W15_main_arg2 m c),
      (h c _ (mem_uc main_arg3 (by decide))).trans (W15_main_arg3 m c),
      (h c _ (mem_uc main_arg4 (by decide))).trans (W15_main_arg4 m c),
      (h c _ (mem_uc main_arg5 (by decide))).trans (W15_main_arg5 m c),
      (h c _ (mem_uc main_arg6 (by decide))).trans (W15_main_arg6 m c),
      (h c _ (mem_uc main_arg7 (by decide))).trans (W15_main_arg7 m c),
      (h c _ (mem_uc main_arg8 (by decide))).trans (W15_main_arg8 m c)⟩) (run_main m ρ)

/-- The result: the program runs, its result array ends at the last boundary's contents, and every argument array ends
    holding its launch contents. -/
theorem result_hand (ρ : Dev nD → PrngReg) : θ_run defs (onTc (τ := τ) (main (F := F))) ⟨m, fun _ => 0, ρ⟩ (fun r => ∀ c : Dev nD,
      r.2.mem ((c.tc : Thread nD τ).loc main_v63) = W15 m c main_v63
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c _ (mem_uc main_v63 (by decide)),
      (h c _ (mem_uc main_arg0 (by decide))).trans (W15_main_arg0 m c),
      (h c _ (mem_uc main_arg1 (by decide))).trans (W15_main_arg1 m c),
      (h c _ (mem_uc main_arg2 (by decide))).trans (W15_main_arg2 m c),
      (h c _ (mem_uc main_arg3 (by decide))).trans (W15_main_arg3 m c),
      (h c _ (mem_uc main_arg4 (by decide))).trans (W15_main_arg4 m c),
      (h c _ (mem_uc main_arg5 (by decide))).trans (W15_main_arg5 m c),
      (h c _ (mem_uc main_arg6 (by decide))).trans (W15_main_arg6 m c),
      (h c _ (mem_uc main_arg7 (by decide))).trans (W15_main_arg7 m c),
      (h c _ (mem_uc main_arg8 (by decide))).trans (W15_main_arg8 m c)⟩) (run_main m ρ)

end Cert.KernelIdeal.Hand

end
-- ==== Proof.Bridge.FrameClaims.lean ====
import proofs.«179401_j66675072303277_2_alg».proof.Defs
import proofs.«179401_j66675072303277_2_alg».proof.Proof.Gen.Kernel
import proofs.«179401_j66675072303277_2_alg».proof.Proof.Gen.KernelIdeal
import proofs.«179401_j66675072303277_2_alg».proof.Proof.Gen.Pre_finite_inputs
import proofs.«179401_j66675072303277_2_alg».proof.Proof.K.Run
import proofs.«179401_j66675072303277_2_alg».proof.Proof.KI.Run

noncomputable section

namespace Cert.Proof.Claims

open Idealize.ShloMosaic Idealize.SL.Sem

/-- The kernel program as printed runs, and its argument arrays end unchanged: the run over its four regions, read at the arguments. -/
theorem frame_k : @Cert.frame_Kernel Cert.Kernel.Gen.facts Cert.Pre_finite_inputs.Gen.facts :=
  fun m ρ _ => Cert.Kernel.Hand.frame_hand (F := Bits) m ρ

/-- The idealized kernel program runs, and its argument arrays end unchanged: the run over its four regions, read at the arguments. -/
theorem frame_ki : @Cert.frame_KernelIdeal Cert.KernelIdeal.Gen.facts Cert.Pre_finite_inputs.Gen.facts :=
  fun m ρ _ => Cert.KernelIdeal.Hand.frame_hand (F := Ideal) m ρ

end Cert.Proof.Claims

end
-- ==== Proof.LibGcnDense.lean ====
import Mathlib.Data.EReal.Inv
import Mathlib.Algebra.BigOperators.Fin
import Mathlib.Algebra.BigOperators.Ring.Finset
import Mathlib.Algebra.Order.BigOperators.Group.Finset
import Mathlib.Logic.Equiv.Fin.Basic

/-!
# Graph convolution: edge-list form and dense-adjacency form

One layer of a graph convolution sends a feature matrix X (one row per node) to the matrix
whose entry (n, f) is (the sum over the edges e with col e = n of nrm e * (X W) (row e) f) + b f.
The same numbers are obtained from the dense adjacency matrix A, whose entry (n, j) is the
sum of nrm e over the edges e with col e = n and row e = j, either as (A X) W + b or as
A (X W) + b.  This file proves these identities over the reals, and then for real data cast
into the extended reals, where the dense matrix may be padded with zero rows and columns
and the padded operand rows may hold arbitrary values.
-/

open scoped BigOperators

namespace Cert.Bridge.GcnDense

/-! ## Casting finite real sums into the extended reals -/

/-- The cast of a finite sum of reals is the sum of the casts. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The cast of a conditional real with zero alternative. -/
theorem coe_ite_zero (c : Prop) [Decidable c] (r : ℝ) :
    ((if c then r else 0 : ℝ) : EReal) = if c then (r : EReal) else 0 := by
  split_ifs <;> simp

/-- The cast of a finite sum of products of reals. -/
theorem coe_sum_mul {ι : Type*} (s : Finset ι) (g h : ι → ℝ) :
    ((∑ i ∈ s, g i * h i : ℝ) : EReal) = ∑ i ∈ s, (g i : EReal) * (h i : EReal) := by
  rw [coe_sum]
  exact Finset.sum_congr rfl (fun i _ => EReal.coe_mul _ _)

section Real

variable {N E Fi Fo : ℕ}
variable (row col : Fin E → Fin N) (nrm : Fin E → ℝ)

/-- One graph-convolution layer over the reals, in edge-list form: node n receives, from
every edge e that ends at n, the weight of e times the transformed features of the
source node of e; the bias is added last. -/
def layerR (X : Fin N → Fin Fi → ℝ) (W : Fin Fi → Fin Fo → ℝ) (b : Fin Fo → ℝ)
    (n : Fin N) (f : Fin Fo) : ℝ :=
  (∑ e, if col e = n then nrm e * ∑ k, X (row e) k * W k f else 0) + b f

/-- The dense adjacency matrix: entry (n, j) is the total weight of the edges from j to n. -/
def adjR (n j : Fin N) : ℝ :=
  ∑ e, if col e = n ∧ row e = j then nrm e else 0

/-- Dense product = edge-list sum: multiplying row n of the dense adjacency matrix
with a vector Y gives the weighted sum of Y over the sources of the edges ending at n. -/
theorem sum_adjR_mul (Y : Fin N → ℝ) (n : Fin N) :
    ∑ j, adjR row col nrm n j * Y j = ∑ e, if col e = n then nrm e * Y (row e) else 0 := by
  unfold adjR
  simp_rw [Finset.sum_mul]
  rw [Finset.sum_comm]
  refine Finset.sum_congr rfl (fun e _ => ?_)
  by_cases h : col e = n
  · simp [h, ite_mul]
  · simp [h]

/-- The layer as transform-then-aggregate with the dense matrix: A (X W) + b. -/
theorem layerR_eq_adj_mul_xw (X : Fin N → Fin Fi → ℝ) (W : Fin Fi → Fin Fo → ℝ)
    (b : Fin Fo → ℝ) (n : Fin N) (f : Fin Fo) :
    layerR row col nrm X W b n f
      = (∑ j, adjR row col nrm n j * ∑ k, X j k * W k f) + b f := by
  unfold layerR
  rw [sum_adjR_mul row col nrm (fun j => ∑ k, X j k * W k f) n]

/-- The layer as aggregate-then-transform with the dense matrix: (A X) W + b. -/
theorem layerR_eq_adj_x_mul_w (X : Fin N → Fin Fi → ℝ) (W : Fin Fi → Fin Fo → ℝ)
    (b : Fin Fo → ℝ) (n : Fin N) (f : Fin Fo) :
    layerR row col nrm X W b n f
      = (∑ k, (∑ j, adjR row col nrm n j * X j k) * W k f) + b f := by
  rw [layerR_eq_adj_mul_xw]
  congr 1
  simp_rw [Finset.mul_sum, Finset.sum_mul]
  rw [Finset.sum_comm]
  refine Finset.sum_congr rfl (fun k _ => Finset.sum_congr rfl (fun j _ => ?_))
  ring

end Real

/-! ## The rectifier on cast reals -/

/-- The cast into the extended reals commutes with the maximum. -/
theorem coe_max (r s : ℝ) : ((max r s : ℝ) : EReal) = max (r : EReal) (s : EReal) :=
  EReal.coe_strictMono.monotone.map_max

/-- The rectifier of a cast real, zero written as a cast real. -/
theorem max_coe_coe_zero (r : ℝ) :
    max ((r : ℝ) : EReal) ((0 : ℝ) : EReal) = ((max r 0 : ℝ) : EReal) :=
  (coe_max r 0).symm

/-- The rectifier of a cast real, zero written as the extended real zero. -/
theorem max_coe_zero (r : ℝ) : max ((r : ℝ) : EReal) (0 : EReal) = ((max r 0 : ℝ) : EReal) := by
  rw [← EReal.coe_zero]; exact (coe_max r 0).symm

/-- The rectifier with the zero on the left, zero written as a cast real. -/
theorem max_coe_zero_coe (r : ℝ) :
    max ((0 : ℝ) : EReal) ((r : ℝ) : EReal) = ((max r 0 : ℝ) : EReal) := by
  rw [max_comm]; exact (coe_max r 0).symm

/-- The rectifier with the zero on the left, zero written as the extended real zero. -/
theorem max_zero_coe (r : ℝ) : max (0 : EReal) ((r : ℝ) : EReal) = ((max r 0 : ℝ) : EReal) := by
  rw [max_comm]; exact max_coe_zero r

section Ext

variable {N NP E Fi Fo : ℕ}
variable (row col : Fin E → Fin N) (nrm : Fin E → ℝ)

/-! ## The edge-list form in the extended reals -/

/-- The edge-list aggregation of cast reals is the cast of the real aggregation. -/
theorem edge_sum_coe (Y : Fin N → ℝ) (n : Fin N) :
    (∑ e, if col e = n then (nrm e : EReal) * (Y (row e) : EReal) else 0)
      = ((∑ e, if col e = n then nrm e * Y (row e) else 0 : ℝ) : EReal) := by
  rw [coe_sum]
  refine Finset.sum_congr rfl (fun e _ => ?_)
  rw [coe_ite_zero, EReal.coe_mul]

/-- The reference form of one layer on cast reals (accumulation started from zero,
bias added on the right) is the cast of the real layer. -/
theorem ref_layer_eq (X : Fin N → Fin Fi → ℝ) (W : Fin Fi → Fin Fo → ℝ) (b : Fin Fo → ℝ)
    (n : Fin N) (f : Fin Fo) :
    ((0 : EReal) + ∑ e, if col e = n then
        (nrm e : EReal) * (∑ k, (X (row e) k : EReal) * (W k f : EReal)) else 0) + (b f : EReal)
      = ((layerR row col nrm X W b n f : ℝ) : EReal) := by
  unfold layerR
  rw [EReal.coe_add, zero_add, ← edge_sum_coe row col nrm (fun j => ∑ k, X j k * W k f) n]
  congr 1
  refine Finset.sum_congr rfl (fun e _ => ?_)
  rw [coe_sum_mul]

/-! ## The padded dense adjacency matrix in the extended reals -/

/-- A sum over a padded index range whose summand vanishes on the padding is the sum over
the unpadded range. -/
theorem sum_pad {M : Type*} [AddCommMonoid M] (hN : N ≤ NP) (g : Fin NP → M)
    (hg : ∀ j : Fin NP, N ≤ j.val → g j = 0) :
    ∑ j, g j = ∑ j : Fin N, g (Fin.castLE hN j) := by
  obtain ⟨d, rfl⟩ := Nat.exists_eq_add_of_le hN
  rw [Fin.sum_univ_add]
  have h0 : ∑ i : Fin d, g (Fin.natAdd N i) = 0 :=
    Finset.sum_eq_zero (fun i _ => hg _ (by simp))
  rw [h0, add_zero]
  rfl

/-- AE is the dense adjacency matrix, cast into the extended reals and padded with zero rows
and zero columns from size N to size NP. -/
structure IsPaddedAdj (hN : N ≤ NP) (AE : Fin NP → Fin NP → EReal) : Prop where
  /-- On the N by N corner the entries are the casts of the real dense adjacency entries. -/
  inner : ∀ n j : Fin N, AE (Fin.castLE hN n) (Fin.castLE hN j) = (adjR row col nrm n j : EReal)
  /-- The padding rows are zero. -/
  outer_row : ∀ n j : Fin NP, N ≤ n.val → AE n j = 0
  /-- The padding columns are zero. -/
  outer_col : ∀ n j : Fin NP, N ≤ j.val → AE n j = 0

/-- A matrix given entrywise as the sum of the edge weights over the edges whose end points
have the entry's coordinates is the padded dense adjacency matrix. -/
theorem isPaddedAdj_of_sum (hN : N ≤ NP) (AE : Fin NP → Fin NP → EReal)
    (hAE : ∀ n j : Fin NP, AE n j
      = ∑ e, if (col e).val = n.val ∧ (row e).val = j.val then (nrm e : EReal) else 0) :
    IsPaddedAdj row col nrm hN AE := by
  refine ⟨fun n j => ?_, fun n j hn => ?_, fun n j hj => ?_⟩
  · rw [hAE]
    unfold adjR
    rw [coe_sum]
    refine Finset.sum_congr rfl (fun e _ => ?_)
    rw [coe_ite_zero]
    simp only [Fin.coe_castLE, Fin.val_inj]
  · rw [hAE]
    refine Finset.sum_eq_zero (fun e _ => ?_)
    have : ¬ ((col e).val = n.val ∧ (row e).val = j.val) := by
      intro h; have := (col e).isLt; omega
    rw [if_neg this]
  · rw [hAE]
    refine Finset.sum_eq_zero (fun e _ => ?_)
    have : ¬ ((col e).val = n.val ∧ (row e).val = j.val) := by
      intro h; have := (row e).isLt; omega
    rw [if_neg this]

/-- The same with the accumulation started from zero. -/
theorem isPaddedAdj_of_zero_add_sum (hN : N ≤ NP) (AE : Fin NP → Fin NP → EReal)
    (hAE : ∀ n j : Fin NP, AE n j
      = (0 : EReal)
        + ∑ e, if (col e).val = n.val ∧ (row e).val = j.val then (nrm e : EReal) else 0) :
    IsPaddedAdj row col nrm hN AE :=
  isPaddedAdj_of_sum row col nrm hN AE (fun n j => (hAE n j).trans (zero_add _))

variable {row col nrm}

/-- Row n of the padded dense matrix times a padded vector Z whose entries below N are the
casts of a real vector Y (the entries from N on are arbitrary) is the cast of the edge-list
aggregation of Y at node n. -/
theorem sum_adjE_mul {hN : N ≤ NP} {AE : Fin NP → Fin NP → EReal}
    (hA : IsPaddedAdj row col nrm hN AE) (Z : Fin NP → EReal) (Y : Fin N → ℝ)
    (hZ : ∀ (j : Fin NP) (hj : j.val < N), Z j = (Y ⟨j.val, hj⟩ : EReal))
    (n' : Fin NP) (hn : n'.val < N) :
    ∑ j, AE n' j * Z j
      = ((∑ e, if col e = ⟨n'.val, hn⟩ then nrm e * Y (row e) else 0 : ℝ) : EReal) := by
  rw [sum_pad hN (fun j => AE n' j * Z j)
    (fun j hj => by show AE n' j * Z j = 0; rw [hA.outer_col n' j hj, zero_mul])]
  rw [← sum_adjR_mul row col nrm Y ⟨n'.val, hn⟩, coe_sum_mul]
  refine Finset.sum_congr rfl (fun j _ => ?_)
  have hn' : n' = Fin.castLE hN ⟨n'.val, hn⟩ := Fin.ext rfl
  show AE n' (Fin.castLE hN j) * Z (Fin.castLE hN j) = _
  have hin := hA.inner ⟨n'.val, hn⟩ j
  rw [← hn'] at hin
  rw [hZ (Fin.castLE hN j) (by simp), hin]
  rfl

/-- A padding row of the padded dense matrix times any vector is zero. -/
theorem sum_adjE_mul_of_le {hN : N ≤ NP} {AE : Fin NP → Fin NP → EReal}
    (hA : IsPaddedAdj row col nrm hN AE) (Z : Fin NP → EReal)
    (n' : Fin NP) (hn : N ≤ n'.val) :
    ∑ j, AE n' j * Z j = 0 :=
  Finset.sum_eq_zero (fun j _ => by rw [hA.outer_row n' j hn, zero_mul])

/-- Aggregate-then-transform with the padded dense matrix: for a node n below N, and a
padded operand Xp whose rows below N are the casts of the rows of X (the rows from N on are
arbitrary), (AE Xp) W + b at (n, f) is the cast of the real layer. -/
theorem dense_layer_agg_first {hN : N ≤ NP} {AE : Fin NP → Fin NP → EReal}
    (hA : IsPaddedAdj row col nrm hN AE) (Xp : Fin NP → Fin Fi → EReal)
    (X : Fin N → Fin Fi → ℝ)
    (hX : ∀ (j : Fin NP) (hj : j.val < N) (k : Fin Fi), Xp j k = (X ⟨j.val, hj⟩ k : EReal))
    (W : Fin Fi → Fin Fo → ℝ) (b : Fin Fo → ℝ) (n' : Fin NP) (hn : n'.val < N) (f : Fin Fo) :
    (∑ k, (∑ j, AE n' j * Xp j k) * (W k f : EReal)) + (b f : EReal)
      = ((layerR row col nrm X W b ⟨n'.val, hn⟩ f : ℝ) : EReal) := by
  rw [layerR_eq_adj_x_mul_w, EReal.coe_add, coe_sum_mul]
  congr 1
  refine Finset.sum_congr rfl (fun k _ => ?_)
  rw [sum_adjE_mul hA (fun j => Xp j k) (fun j => X j k) (fun j hj => hX j hj k) n' hn,
    sum_adjR_mul]

/-- On a padding row the aggregation with the padded dense matrix is zero. -/
theorem dense_agg_of_le {hN : N ≤ NP} {AE : Fin NP → Fin NP → EReal}
    (hA : IsPaddedAdj row col nrm hN AE) (Xp : Fin NP → Fin Fi → EReal)
    (n' : Fin NP) (hn : N ≤ n'.val) (k : Fin Fi) :
    ∑ j, AE n' j * Xp j k = 0 :=
  sum_adjE_mul_of_le hA (fun j => Xp j k) n' hn

/-- Transform-then-aggregate with the padded dense matrix: for a node n below N,
AE (Xp W) + b at (n, f) is the cast of the real layer; the rows of Xp from N on are
arbitrary. -/
theorem dense_layer_transform_first {hN : N ≤ NP} {AE : Fin NP → Fin NP → EReal}
    (hA : IsPaddedAdj row col nrm hN AE) (Xp : Fin NP → Fin Fi → EReal)
    (X : Fin N → Fin Fi → ℝ)
    (hX : ∀ (j : Fin NP) (hj : j.val < N) (k : Fin Fi), Xp j k = (X ⟨j.val, hj⟩ k : EReal))
    (W : Fin Fi → Fin Fo → ℝ) (b : Fin Fo → ℝ) (n' : Fin NP) (hn : n'.val < N) (f : Fin Fo) :
    (∑ j, AE n' j * (∑ k, Xp j k * (W k f : EReal))) + (b f : EReal)
      = ((layerR row col nrm X W b ⟨n'.val, hn⟩ f : ℝ) : EReal) := by
  unfold layerR
  rw [EReal.coe_add]
  congr 1
  refine sum_adjE_mul hA (fun j => ∑ k, Xp j k * (W k f : EReal))
    (fun j => ∑ k, X j k * W k f) (fun j hj => ?_) n' hn
  rw [coe_sum_mul]
  exact Finset.sum_congr rfl (fun k _ => by rw [hX j hj k])

end Ext

/-! ## Blocked sums and left-nested accumulation -/

section Blocks

variable {M : Type*} [AddCommMonoid M]

/-- The q-th index of the p-th block of length b lies below a * b. -/
theorem block_index_lt {a b : ℕ} (p : Fin a) (q : Fin b) : p.val * b + q.val < a * b := by
  have h1 : p.val * b + q.val < (p.val + 1) * b := by
    rw [Nat.succ_mul]; exact Nat.add_lt_add_left q.isLt _
  exact lt_of_lt_of_le h1 (Nat.mul_le_mul_right b p.isLt)

/-- A sum over a * b indices is the sum over the a blocks of the sums over the b indices
of each block. -/
theorem sum_blocks (a b : ℕ) (g : Fin (a * b) → M) :
    ∑ i, g i = ∑ p : Fin a, ∑ q : Fin b, g ⟨p.val * b + q.val, block_index_lt p q⟩ := by
  rw [← Equiv.sum_comp finProdFinEquiv g, Fintype.sum_prod_type]
  refine Finset.sum_congr rfl (fun p _ => Finset.sum_congr rfl (fun q _ => ?_))
  congr 1
  apply Fin.ext
  simp only [finProdFinEquiv_apply_val]
  rw [Nat.add_comm, Nat.mul_comm]

/-- The same for an index range whose length is given as a product by an equation. -/
theorem sum_blocks_of_eq {a b n : ℕ} (h : a * b = n) (g : Fin n → M) :
    ∑ i, g i
      = ∑ p : Fin a, ∑ q : Fin b, g ⟨p.val * b + q.val, h ▸ block_index_lt p q⟩ := by
  subst h
  exact sum_blocks a b g

/-- A left fold that adds the terms s p over a list, started from z, is z plus the sum of the
terms. -/
theorem list_foldl_add {ι : Type*} (l : List ι) (s : ι → M) (z : M) :
    l.foldl (fun acc p => acc + s p) z = z + (l.map s).sum := by
  induction l generalizing z with
  | nil => simp
  | cons x l ih => rw [List.foldl_cons, ih, List.map_cons, List.sum_cons, add_assoc]

/-- The left-nested accumulation ((0 + s 0) + s 1) + … + s (a - 1), as a fold over all
indices below a, is the sum of the terms. -/
theorem fin_foldl_add_eq_sum (a : ℕ) (s : Fin a → M) :
    Fin.foldl a (fun acc p => acc + s p) 0 = ∑ p, s p := by
  rw [Fin.foldl_eq_finRange_foldl, list_foldl_add, zero_add, Fin.sum_univ_def]

/-- The same accumulation started from an arbitrary value z. -/
theorem fin_foldl_add_eq_add_sum (a : ℕ) (s : Fin a → M) (z : M) :
    Fin.foldl a (fun acc p => acc + s p) z = z + ∑ p, s p := by
  rw [Fin.foldl_eq_finRange_foldl, list_foldl_add, Fin.sum_univ_def]

/-- The left-nested accumulation as a fold over the list of all indices below a. -/
theorem finRange_foldl_add_eq_sum (a : ℕ) (s : Fin a → M) :
    (List.finRange a).foldl (fun acc p => acc + s p) 0 = ∑ p, s p := by
  rw [list_foldl_add, zero_add, Fin.sum_univ_def]

/-- The left-nested accumulation over the natural numbers below a. -/
theorem range_foldl_add_eq_sum (a : ℕ) (t : ℕ → M) (z : M) :
    (List.range a).foldl (fun acc p => acc + t p) z = z + ∑ p ∈ Finset.range a, t p := by
  have h : ((List.range a).map t).sum = ∑ p ∈ Finset.range a, t p := by
    induction a with
    | zero => simp
    | succ a ih =>
      rw [List.range_succ, List.map_append, List.sum_append, ih, Finset.sum_range_succ]
      simp
  rw [list_foldl_add, h]

/-- Two terms, written out. -/
theorem nested_two (s : Fin 2 → M) : (0 + s 0) + s 1 = ∑ p, s p := by
  rw [Fin.sum_univ_two, zero_add]

/-- Five terms, written out. -/
theorem nested_five (s : Fin 5 → M) :
    ((((0 + s 0) + s 1) + s 2) + s 3) + s 4 = ∑ p, s p := by
  rw [Fin.sum_univ_five, zero_add]

/-- Ten terms, written out. -/
theorem nested_ten (s : Fin 10 → M) :
    (((((((((0 + s 0) + s 1) + s 2) + s 3) + s 4) + s 5) + s 6) + s 7) + s 8) + s 9
      = ∑ p, s p := by
  simp only [Fin.sum_univ_succ, Fin.sum_univ_zero, zero_add, add_zero, add_assoc]
  rfl

end Blocks

/-! ## Variants: accumulation not started from zero, bias added on the left, rectified layers -/

section Variants

variable {N NP E Fi Fo : ℕ}
variable (row col : Fin E → Fin N) (nrm : Fin E → ℝ)

/-- A dot product of cast reals plus a cast real is the cast of the real expression. -/
theorem coe_dot_add {ι : Type*} (s : Finset ι) (g w : ι → ℝ) (β : ℝ) :
    (∑ k ∈ s, (g k : EReal) * (w k : EReal)) + (β : EReal)
      = ((∑ k ∈ s, g k * w k + β : ℝ) : EReal) := by
  rw [EReal.coe_add, coe_sum_mul]

/-- The reference form of one layer without the leading zero. -/
theorem ref_layer_eq_of_sum (X : Fin N → Fin Fi → ℝ) (W : Fin Fi → Fin Fo → ℝ) (b : Fin Fo → ℝ)
    (n : Fin N) (f : Fin Fo) :
    (∑ e, if col e = n then
        (nrm e : EReal) * (∑ k, (X (row e) k : EReal) * (W k f : EReal)) else 0) + (b f : EReal)
      = ((layerR row col nrm X W b n f : ℝ) : EReal) := by
  rw [← ref_layer_eq, zero_add]

/-- The reference form of one layer with the bias added on the left. -/
theorem ref_layer_eq_bias_left (X : Fin N → Fin Fi → ℝ) (W : Fin Fi → Fin Fo → ℝ)
    (b : Fin Fo → ℝ) (n : Fin N) (f : Fin Fo) :
    (b f : EReal) + ((0 : EReal) + ∑ e, if col e = n then
        (nrm e : EReal) * (∑ k, (X (row e) k : EReal) * (W k f : EReal)) else 0)
      = ((layerR row col nrm X W b n f : ℝ) : EReal) := by
  rw [add_comm, ref_layer_eq]

/-- The reference form of one layer with the bias added on the left and no leading
zero. -/
theorem ref_layer_eq_bias_left_of_sum (X : Fin N → Fin Fi → ℝ) (W : Fin Fi → Fin Fo → ℝ)
    (b : Fin Fo → ℝ) (n : Fin N) (f : Fin Fo) :
    (b f : EReal) + (∑ e, if col e = n then
        (nrm e : EReal) * (∑ k, (X (row e) k : EReal) * (W k f : EReal)) else 0)
      = ((layerR row col nrm X W b n f : ℝ) : EReal) := by
  rw [add_comm, ref_layer_eq_of_sum]

/-- The rectified layer over the reals. -/
def reluLayerR (X : Fin N → Fin Fi → ℝ) (W : Fin Fi → Fin Fo → ℝ) (b : Fin Fo → ℝ)
    (n : Fin N) (f : Fin Fo) : ℝ :=
  max (layerR row col nrm X W b n f) 0

/-- The rectified reference form of one layer on cast reals is the cast of the rectified real
layer. -/
theorem ref_relu_layer_eq (X : Fin N → Fin Fi → ℝ) (W : Fin Fi → Fin Fo → ℝ) (b : Fin Fo → ℝ)
    (n : Fin N) (f : Fin Fo) :
    max (((0 : EReal) + ∑ e, if col e = n then
        (nrm e : EReal) * (∑ k, (X (row e) k : EReal) * (W k f : EReal)) else 0) + (b f : EReal))
      (0 : EReal)
      = ((reluLayerR row col nrm X W b n f : ℝ) : EReal) := by
  rw [ref_layer_eq, max_coe_zero]; rfl

variable {row col nrm}

/-- Aggregate-then-transform with the bias added on the left. -/
theorem dense_layer_agg_first_bias_left {hN : N ≤ NP} {AE : Fin NP → Fin NP → EReal}
    (hA : IsPaddedAdj row col nrm hN AE) (Xp : Fin NP → Fin Fi → EReal)
    (X : Fin N → Fin Fi → ℝ)
    (hX : ∀ (j : Fin NP) (hj : j.val < N) (k : Fin Fi), Xp j k = (X ⟨j.val, hj⟩ k : EReal))
    (W : Fin Fi → Fin Fo → ℝ) (b : Fin Fo → ℝ) (n' : Fin NP) (hn : n'.val < N) (f : Fin Fo) :
    (b f : EReal) + (∑ k, (∑ j, AE n' j * Xp j k) * (W k f : EReal))
      = ((layerR row col nrm X W b ⟨n'.val, hn⟩ f : ℝ) : EReal) := by
  rw [add_comm, dense_layer_agg_first hA Xp X hX W b n' hn f]

/-- Transform-then-aggregate with the bias added on the left. -/
theorem dense_layer_transform_first_bias_left {hN : N ≤ NP} {AE : Fin NP → Fin NP → EReal}
    (hA : IsPaddedAdj row col nrm hN AE) (Xp : Fin NP → Fin Fi → EReal)
    (X : Fin N → Fin Fi → ℝ)
    (hX : ∀ (j : Fin NP) (hj : j.val < N) (k : Fin Fi), Xp j k = (X ⟨j.val, hj⟩ k : EReal))
    (W : Fin Fi → Fin Fo → ℝ) (b : Fin Fo → ℝ) (n' : Fin NP) (hn : n'.val < N) (f : Fin Fo) :
    (b f : EReal) + (∑ j, AE n' j * (∑ k, Xp j k * (W k f : EReal)))
      = ((layerR row col nrm X W b ⟨n'.val, hn⟩ f : ℝ) : EReal) := by
  rw [add_comm, dense_layer_transform_first hA Xp X hX W b n' hn f]

/-- The rectified aggregate-then-transform layer with the padded dense matrix is the cast of
the rectified real layer. -/
theorem dense_relu_layer_agg_first {hN : N ≤ NP} {AE : Fin NP → Fin NP → EReal}
    (hA : IsPaddedAdj row col nrm hN AE) (Xp : Fin NP → Fin Fi → EReal)
    (X : Fin N → Fin Fi → ℝ)
    (hX : ∀ (j : Fin NP) (hj : j.val < N) (k : Fin Fi), Xp j k = (X ⟨j.val, hj⟩ k : EReal))
    (W : Fin Fi → Fin Fo → ℝ) (b : Fin Fo → ℝ) (n' : Fin NP) (hn : n'.val < N) (f : Fin Fo) :
    max ((∑ k, (∑ j, AE n' j * Xp j k) * (W k f : EReal)) + (b f : EReal)) (0 : EReal)
      = ((reluLayerR row col nrm X W b ⟨n'.val, hn⟩ f : ℝ) : EReal) := by
  rw [dense_layer_agg_first hA Xp X hX W b n' hn f, max_coe_zero]; rfl

/-- Aggregate-then-transform where the aggregation over the padded index range is written
block by block: a blocks of b columns, a * b = NP. -/
theorem dense_layer_agg_first_blocked {hN : N ≤ NP} {AE : Fin NP → Fin NP → EReal}
    (hA : IsPaddedAdj row col nrm hN AE) (Xp : Fin NP → Fin Fi → EReal)
    (X : Fin N → Fin Fi → ℝ)
    (hX : ∀ (j : Fin NP) (hj : j.val < N) (k : Fin Fi), Xp j k = (X ⟨j.val, hj⟩ k : EReal))
    (W : Fin Fi → Fin Fo → ℝ) (b : Fin Fo → ℝ) (n' : Fin NP) (hn : n'.val < N) (f : Fin Fo)
    {a c : ℕ} (h : a * c = NP) :
    (∑ k, (∑ p : Fin a, ∑ q : Fin c,
        AE n' ⟨p.val * c + q.val, h ▸ block_index_lt p q⟩
          * Xp ⟨p.val * c + q.val, h ▸ block_index_lt p q⟩ k) * (W k f : EReal)) + (b f : EReal)
      = ((layerR row col nrm X W b ⟨n'.val, hn⟩ f : ℝ) : EReal) := by
  rw [← dense_layer_agg_first hA Xp X hX W b n' hn f]
  congr 1
  refine Finset.sum_congr rfl (fun k _ => ?_)
  rw [sum_blocks_of_eq h (fun j => AE n' j * Xp j k)]

/-- Transform-then-aggregate where the aggregation over the padded index range is written
block by block, for a padded vector Z whose entries below N are the casts of a real
vector Y. -/
theorem sum_adjE_mul_blocked {hN : N ≤ NP} {AE : Fin NP → Fin NP → EReal}
    (hA : IsPaddedAdj row col nrm hN AE) (Z : Fin NP → EReal) (Y : Fin N → ℝ)
    (hZ : ∀ (j : Fin NP) (hj : j.val < N), Z j = (Y ⟨j.val, hj⟩ : EReal))
    (n' : Fin NP) (hn : n'.val < N) {a c : ℕ} (h : a * c = NP) :
    (∑ p : Fin a, ∑ q : Fin c,
        AE n' ⟨p.val * c + q.val, h ▸ block_index_lt p q⟩
          * Z ⟨p.val * c + q.val, h ▸ block_index_lt p q⟩)
      = ((∑ e, if col e = ⟨n'.val, hn⟩ then nrm e * Y (row e) else 0 : ℝ) : EReal) := by
  rw [← sum_adjE_mul hA Z Y hZ n' hn, sum_blocks_of_eq h (fun j => AE n' j * Z j)]

end Variants

end Cert.Bridge.GcnDense
-- ==== Proof.KI.Val0.lean ====
import proofs.«179401_j66675072303277_2_alg».proof.Proof.KI.R0
import proofs.«179401_j66675072303277_2_alg».proof.Proof.LibGcnDense
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.Tactic Idealize.SL.Sem
open Idealize.ShloMosaic.Pipeline (Dat)
open Idealize.ShloMosaic.ValueIdx
open scoped BigOperators

variable {F : FTy → Type} [FloatOps F]

/-! # Region 0: the values

What each control case of the body leaves, as the arithmetic of the loaded blocks; the arithmetic read at an index over the
extended reals; the accumulator after every point; the output array. -/

theorem hz2 : (![0, 0] : Fin 2 → Nat) = fun _ => 0 := funext fun a => by fin_cases a <;> rfl

/-- An inner step leaves in the accumulator what it found there plus the product of the two blocks. -/
theorem sout0_B_eq (c : Dev nD) (i : grid0.Coords) (arg2 : Memref sig .tc .vmem S1024x2048 .bf16) (harg2 : arg2.IsWhole) (arg3 : Memref sig .tc .vmem S2048x256 .bf16) (harg3 : arg3.IsWhole) (arg4 : Memref sig .tc .vmem S256x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x256 .f32) (harg7 : arg7.IsWhole) (hc0 : ¬cond0_0 i) (hc1 : ¬cond0_1 i) (x0 : Vec F S1024x2048 .bf16) (x1 : Vec F S2048x256 .bf16) (x2 : Vec F S256x512 .bf16) (x3 : Vec F S1x512 .f32) (xs : Vec F S1024x256 .f32) :
    sout0_B c i arg2 harg2 arg3 harg3 arg4 harg4 arg5 harg5 arg6 harg6 arg7 harg7 hc0 hc1 x0 x1 x2 x3 xs = k0_pay2 xs x0 x1 := by
  unfold sout0_B
  rw [View.read_writes_eq_canon _ _ _ scover0_B]
  unfold kernelRun0_B
  dsimp only
  sl_unfold_words
  rw [View.canon_unit_zero hz2]
  simp only [View.readAt_eq_ld, harg7.read_unread, harg2.read_unread, harg3.read_unread, harg4.read_unread, harg5.read_unread,
    View.ld_unit_zero (S := S1024x256) hz2, View.ld_unit_zero (S := S1024x2048) hz2, View.ld_unit_zero (S := S2048x256) hz2,
    View.ld_unit_zero (S := S256x512) hz2, View.ld_unit_zero (S := S1x512) hz2]
  try rfl

/-- The first step leaves in the accumulator the zero block plus the product of the two blocks. -/
theorem sout0_A_eq (c : Dev nD) (i : grid0.Coords) (arg2 : Memref sig .tc .vmem S1024x2048 .bf16) (harg2 : arg2.IsWhole) (arg3 : Memref sig .tc .vmem S2048x256 .bf16) (harg3 : arg3.IsWhole) (arg4 : Memref sig .tc .vmem S256x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x256 .f32) (harg7 : arg7.IsWhole) (hc0 : cond0_0 i) (hc1 : ¬cond0_1 i) (x0 : Vec F S1024x2048 .bf16) (x1 : Vec F S2048x256 .bf16) (x2 : Vec F S256x512 .bf16) (x3 : Vec F S1x512 .f32) :
    sout0_A c i arg2 harg2 arg3 harg3 arg4 harg4 arg5 harg5 arg6 harg6 arg7 harg7 hc0 hc1 x0 x1 x2 x3 = k0_pay2 k0_pay1 x0 x1 := by
  unfold sout0_A
  rw [View.read_writes_eq_canon _ _ _ scover0_A]
  unfold kernelRun0_A
  dsimp only
  sl_unfold_words
  rw [View.canon_cons_unit_zero (S := S1024x256) hz2, View.readCov_unit_zero (S := S1024x256) _ hz2]
  simp only [View.readAt_eq_ld, harg7.read_unread, harg2.read_unread, harg3.read_unread, harg4.read_unread, harg5.read_unread,
    View.ld_unit_zero (S := S1024x256) hz2, View.ld_unit_zero (S := S1024x2048) hz2, View.ld_unit_zero (S := S2048x256) hz2,
    View.ld_unit_zero (S := S256x512) hz2, View.ld_unit_zero (S := S1x512) hz2]
  try rfl

/-- The last step leaves in the accumulator what it found there plus the product of the two blocks. -/
theorem sout0_C_eq (c : Dev nD) (i : grid0.Coords) (arg2 : Memref sig .tc .vmem S1024x2048 .bf16) (harg2 : arg2.IsWhole) (arg3 : Memref sig .tc .vmem S2048x256 .bf16) (harg3 : arg3.IsWhole) (arg4 : Memref sig .tc .vmem S256x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x256 .f32) (harg7 : arg7.IsWhole) (hc0 : ¬cond0_0 i) (hc1 : cond0_1 i) (x0 : Vec F S1024x2048 .bf16) (x1 : Vec F S2048x256 .bf16) (x2 : Vec F S256x512 .bf16) (x3 : Vec F S1x512 .f32) (xs : Vec F S1024x256 .f32) :
    sout0_C c i arg2 harg2 arg3 harg3 arg4 harg4 arg5 harg5 arg6 harg6 arg7 harg7 hc0 hc1 x0 x1 x2 x3 xs = k0_pay2 xs x0 x1 := by
  unfold sout0_C
  rw [View.read_writes_eq_canon _ _ _ scover0_C]
  unfold kernelRun0_C
  dsimp only
  sl_unfold_words
  rw [View.canon_unit_zero hz2]
  simp only [View.readAt_eq_ld, harg7.read_unread, harg2.read_unread, harg3.read_unread, harg4.read_unread, harg5.read_unread,
    View.ld_unit_zero (S := S1024x256) hz2, View.ld_unit_zero (S := S1024x2048) hz2, View.ld_unit_zero (S := S2048x256) hz2,
    View.ld_unit_zero (S := S256x512) hz2, View.ld_unit_zero (S := S1x512) hz2]
  try rfl

/-- The last step leaves in the output's buffer the epilogue of the new accumulator, the weights and the bias row. -/
theorem out0_C_eq (c : Dev nD) (i : grid0.Coords) (arg2 : Memref sig .tc .vmem S1024x2048 .bf16) (harg2 : arg2.IsWhole) (arg3 : Memref sig .tc .vmem S2048x256 .bf16) (harg3 : arg3.IsWhole) (arg4 : Memref sig .tc .vmem S256x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x256 .f32) (harg7 : arg7.IsWhole) (hc0 : ¬cond0_0 i) (hc1 : cond0_1 i) (x0 : Vec F S1024x2048 .bf16) (x1 : Vec F S2048x256 .bf16) (x2 : Vec F S256x512 .bf16) (x3 : Vec F S1x512 .f32) (xs : Vec F S1024x256 .f32) :
    out0_C c i arg2 harg2 arg3 harg3 arg4 harg4 arg5 harg5 arg6 harg6 arg7 harg7 hc0 hc1 x0 x1 x2 x3 xs = k0_pay3 (k0_pay2 xs x0 x1) x2 x3 := by
  unfold out0_C
  rw [View.read_writes_eq_canon _ _ _ cover0_C]
  unfold kernelRun0_C
  dsimp only
  sl_unfold_words
  rw [View.canon_unit_zero hz2, View.readCov_unit_zero (S := S1024x256) _ hz2]
  simp only [View.readAt_eq_ld, harg7.read_unread, harg2.read_unread, harg3.read_unread, harg4.read_unread, harg5.read_unread,
    View.ld_unit_zero (S := S1024x256) hz2, View.ld_unit_zero (S := S1024x2048) hz2, View.ld_unit_zero (S := S2048x256) hz2,
    View.ld_unit_zero (S := S256x512) hz2, View.ld_unit_zero (S := S1x512) hz2]
  try rfl

/-! ## The arithmetic at an index, over the extended reals -/

theorem lhs_k0a_0 (i : S1024x256.Idx) (q : dot_S1024x2048_S2048x256_S1024x256_1_0_0_1_n_n.contr.Idx) : (dot_S1024x2048_S2048x256_S1024x256_1_0_0_1_n_n.lhsIdx i q 0).val = (i 0).val := by
  unfold DotDims.lhsIdx
  rw [dif_neg (show ¬(0 : Fin S1024x2048.rank) ∈ dot_S1024x2048_S2048x256_S1024x256_1_0_0_1_n_n.lhsBatch by decide), dif_pos (show (0 : Fin S1024x2048.rank) ∈ dot_S1024x2048_S2048x256_S1024x256_1_0_0_1_n_n.lhsNonContracting by decide)]
  rfl
theorem lhs_k0a_1 (i : S1024x256.Idx) (q : dot_S1024x2048_S2048x256_S1024x256_1_0_0_1_n_n.contr.Idx) : (dot_S1024x2048_S2048x256_S1024x256_1_0_0_1_n_n.lhsIdx i q 1).val = (q ⟨0, by decide⟩).val :=
  dot_S1024x2048_S2048x256_S1024x256_1_0_0_1_n_n.lhsIdx_val_of_single rfl i q
theorem rhs_k0a_0 (i : S1024x256.Idx) (q : dot_S1024x2048_S2048x256_S1024x256_1_0_0_1_n_n.contr.Idx) : (dot_S1024x2048_S2048x256_S1024x256_1_0_0_1_n_n.rhsIdx i q 0).val = (q ⟨0, by decide⟩).val :=
  dot_S1024x2048_S2048x256_S1024x256_1_0_0_1_n_n.rhsIdx_val_of_single rfl i q
theorem rhs_k0a_1 (i : S1024x256.Idx) (q : dot_S1024x2048_S2048x256_S1024x256_1_0_0_1_n_n.contr.Idx) : (dot_S1024x2048_S2048x256_S1024x256_1_0_0_1_n_n.rhsIdx i q 1).val = (i 1).val := by
  unfold DotDims.rhsIdx
  rw [dif_neg (show ¬(1 : Fin S2048x256.rank) ∈ dot_S1024x2048_S2048x256_S1024x256_1_0_0_1_n_n.rhsBatch by decide), dif_pos (show (1 : Fin S2048x256.rank) ∈ dot_S1024x2048_S2048x256_S1024x256_1_0_0_1_n_n.rhsNonContracting by decide)]
  rfl

/-- A product of two blocks into the zero block, read at (r, q): the dot product of row r and column q. -/
theorem matmul_k0a_apply {φ₁ φ₂ : FTy} (a : FVec Ideal S1024x2048 φ₁) (x : FVec Ideal S2048x256 φ₂) (r : Fin 1024) (q : Fin 256) :
    FloatOps.matmul dot_S1024x2048_S2048x256_S1024x256_1_0_0_1_n_n none a x (constant S1024x256 .f32 0x00000000#32) (ix2 r q) = ∑ k : Fin 2048, a (ix2 r k) * x (ix2 k q) := by
  refine (Ideal.matmul_constant_zero_apply dot_S1024x2048_S2048x256_S1024x256_1_0_0_1_n_n none a x (ix2 r q)).trans ?_
  rw [← Equiv.sum_comp (ValueIdx.contrEquiv1 dot_S1024x2048_S2048x256_S1024x256_1_0_0_1_n_n 2048 rfl rfl).symm]
  refine Finset.sum_congr rfl fun k _ => ?_
  have hk := ValueIdx.contrEquiv1_symm_val dot_S1024x2048_S2048x256_S1024x256_1_0_0_1_n_n 2048 rfl rfl k
  have el : dot_S1024x2048_S2048x256_S1024x256_1_0_0_1_n_n.lhsIdx (ix2 r q) ((ValueIdx.contrEquiv1 dot_S1024x2048_S2048x256_S1024x256_1_0_0_1_n_n 2048 rfl rfl).symm k) = ix2 r k := funext fun a => Fin.ext (by
    match a with
    | ⟨0, _⟩ => exact lhs_k0a_0 _ _
    | ⟨1, _⟩ => exact (lhs_k0a_1 _ _).trans hk)
  have er : dot_S1024x2048_S2048x256_S1024x256_1_0_0_1_n_n.rhsIdx (ix2 r q) ((ValueIdx.contrEquiv1 dot_S1024x2048_S2048x256_S1024x256_1_0_0_1_n_n 2048 rfl rfl).symm k) = ix2 k q := funext fun a => Fin.ext (by
    match a with
    | ⟨0, _⟩ => exact (rhs_k0a_0 _ _).trans hk
    | ⟨1, _⟩ => exact rhs_k0a_1 _ _)
  exact congrArg₂ (· * ·) (congrArg a el) (congrArg x er)

theorem lhs_k0b_0 (i : S1024x512.Idx) (q : dot_S1024x256_S256x512_S1024x512_1_0_0_1_n_n.contr.Idx) : (dot_S1024x256_S256x512_S1024x512_1_0_0_1_n_n.lhsIdx i q 0).val = (i 0).val := by
  unfold DotDims.lhsIdx
  rw [dif_neg (show ¬(0 : Fin S1024x256.rank) ∈ dot_S1024x256_S256x512_S1024x512_1_0_0_1_n_n.lhsBatch by decide), dif_pos (show (0 : Fin S1024x256.rank) ∈ dot_S1024x256_S256x512_S1024x512_1_0_0_1_n_n.lhsNonContracting by decide)]
  rfl
theorem lhs_k0b_1 (i : S1024x512.Idx) (q : dot_S1024x256_S256x512_S1024x512_1_0_0_1_n_n.contr.Idx) : (dot_S1024x256_S256x512_S1024x512_1_0_0_1_n_n.lhsIdx i q 1).val = (q ⟨0, by decide⟩).val :=
  dot_S1024x256_S256x512_S1024x512_1_0_0_1_n_n.lhsIdx_val_of_single rfl i q
theorem rhs_k0b_0 (i : S1024x512.Idx) (q : dot_S1024x256_S256x512_S1024x512_1_0_0_1_n_n.contr.Idx) : (dot_S1024x256_S256x512_S1024x512_1_0_0_1_n_n.rhsIdx i q 0).val = (q ⟨0, by decide⟩).val :=
  dot_S1024x256_S256x512_S1024x512_1_0_0_1_n_n.rhsIdx_val_of_single rfl i q
theorem rhs_k0b_1 (i : S1024x512.Idx) (q : dot_S1024x256_S256x512_S1024x512_1_0_0_1_n_n.contr.Idx) : (dot_S1024x256_S256x512_S1024x512_1_0_0_1_n_n.rhsIdx i q 1).val = (i 1).val := by
  unfold DotDims.rhsIdx
  rw [dif_neg (show ¬(1 : Fin S256x512.rank) ∈ dot_S1024x256_S256x512_S1024x512_1_0_0_1_n_n.rhsBatch by decide), dif_pos (show (1 : Fin S256x512.rank) ∈ dot_S1024x256_S256x512_S1024x512_1_0_0_1_n_n.rhsNonContracting by decide)]
  rfl

/-- A product of two blocks into the zero block, read at (r, q): the dot product of row r and column q. -/
theorem matmul_k0b_apply {φ₁ φ₂ : FTy} (a : FVec Ideal S1024x256 φ₁) (x : FVec Ideal S256x512 φ₂) (r : Fin 1024) (q : Fin 512) :
    FloatOps.matmul dot_S1024x256_S256x512_S1024x512_1_0_0_1_n_n none a x (constant S1024x512 .f32 0x00000000#32) (ix2 r q) = ∑ k : Fin 256, a (ix2 r k) * x (ix2 k q) := by
  refine (Ideal.matmul_constant_zero_apply dot_S1024x256_S256x512_S1024x512_1_0_0_1_n_n none a x (ix2 r q)).trans ?_
  rw [← Equiv.sum_comp (ValueIdx.contrEquiv1 dot_S1024x256_S256x512_S1024x512_1_0_0_1_n_n 256 rfl rfl).symm]
  refine Finset.sum_congr rfl fun k _ => ?_
  have hk := ValueIdx.contrEquiv1_symm_val dot_S1024x256_S256x512_S1024x512_1_0_0_1_n_n 256 rfl rfl k
  have el : dot_S1024x256_S256x512_S1024x512_1_0_0_1_n_n.lhsIdx (ix2 r q) ((ValueIdx.contrEquiv1 dot_S1024x256_S256x512_S1024x512_1_0_0_1_n_n 256 rfl rfl).symm k) = ix2 r k := funext fun a => Fin.ext (by
    match a with
    | ⟨0, _⟩ => exact lhs_k0b_0 _ _
    | ⟨1, _⟩ => exact (lhs_k0b_1 _ _).trans hk)
  have er : dot_S1024x256_S256x512_S1024x512_1_0_0_1_n_n.rhsIdx (ix2 r q) ((ValueIdx.contrEquiv1 dot_S1024x256_S256x512_S1024x512_1_0_0_1_n_n 256 rfl rfl).symm k) = ix2 k q := funext fun a => Fin.ext (by
    match a with
    | ⟨0, _⟩ => exact (rhs_k0b_0 _ _).trans hk
    | ⟨1, _⟩ => exact rhs_k0b_1 _ _)
  exact congrArg₂ (· * ·) (congrArg a el) (congrArg x er)

/-- The zero block reads zero. -/
theorem k0_pay1_apply (y : S1024x256.Idx) : k0_pay1 (F := Ideal) y = 0 := by
  unfold k0_pay1
  refine (congrFun (shapeCast_self _ _) y).trans ?_
  exact Ideal.ofBits_zero_f32

/-- One accumulation step at (r, q): the accumulator there plus the dot product of row r of the left block and column q of
the right block. -/
theorem k0_pay2_apply (acc : Vec Ideal S1024x256 .f32) (a : Vec Ideal S1024x2048 .bf16) (x : Vec Ideal S2048x256 .bf16)
    (r : Fin 1024) (q : Fin 256) :
    k0_pay2 (F := Ideal) acc a x (ix2 r q) = acc (ix2 r q) + ∑ k : Fin 2048, a (ix2 r k) * x (ix2 k q) := by
  unfold k0_pay2
  refine (congrFun (shapeCast_self _ _) (ix2 r q)).trans ?_
  refine (addf_apply _ _ _).trans ?_
  refine congrArg (acc (ix2 r q) + ·) ?_
  refine (matmul_k0a_apply _ _ r q).trans ?_
  refine Finset.sum_congr rfl fun k _ => ?_
  rw [shapeCast_self, shapeCast_self]

/-- The epilogue at (r, f): the rectified sum of the dot product of row r of the accumulator with column f of the weights and
entry f of the bias row. -/
theorem k0_pay3_apply (acc : Vec Ideal S1024x256 .f32) (w : Vec Ideal S256x512 .bf16) (b : Vec Ideal S1x512 .f32)
    (r : Fin 1024) (f : Fin 512) :
    k0_pay3 (F := Ideal) acc w b (ix2 r f)
      = max ((∑ k : Fin 256, acc (ix2 r k) * w (ix2 k f)) + b (ix2 0 f)) 0 := by
  unfold k0_pay3
  refine (truncf_apply (ψ := .bf16) (φ := .f32) (s := S1024x512) _ bitsLt_bf16_f32 (ix2 r f)).trans ?_
  refine (maximumf_apply _ _ _).trans ?_
  refine congrArg₂ max ?_ Ideal.ofBits_zero_f32
  refine (addf_apply _ _ _).trans ?_
  refine congrArg₂ (· + ·) ?_ ?_
  · refine (matmul_k0b_apply _ _ r f).trans ?_
    refine Finset.sum_congr rfl fun k _ => ?_
    rw [shapeCast_self]
    rfl
  · refine (broadcastTo_apply _ broadcasts_S1x512_S1024x512 (ix2 r f) (ix2 0 f) (fun a => ?_)).trans ?_
    · match a with
      | ⟨0, _⟩ => rfl
      | ⟨1, _⟩ => rfl
    · rw [shapeCast_self]

/-! ## The accumulator after every point -/

section Inv

variable (V : (c : Dev nD) → (b : Ref sig .tc) → Buf (Elt Ideal) ((c : Thread nD τ).loc b))

/-- Row r of a left block times column q of a right block. -/
def dotA0 (a : Vec Ideal S1024x2048 .bf16) (x : Vec Ideal S2048x256 .bf16) (r : Fin 1024) (q : Fin 256) : EReal :=
  ∑ j : Fin 2048, a (ix2 r j) * x (ix2 j q)

/-- The product of the two blocks of point t at (r, q). -/
def D0 (c : Dev nD) (t : Fin cfg0.N) (r : Fin 1024) (q : Fin 256) : EReal :=
  dotA0 (iblk0 V c 0 t) (iblk0 V c 1 t) r q

/-- The same for a point given as a natural number, zero outside the grid. -/
def Dn0 (c : Dev nD) (n : ℕ) (r : Fin 1024) (q : Fin 256) : EReal :=
  if h : n < cfg0.N then D0 V c ⟨n, h⟩ r q else 0

theorem Dn0_eq (c : Dev nD) (n m : ℕ) (hn : n < cfg0.N) (e : m = n) (r : Fin 1024) (q : Fin 256) :
    Dn0 V c m r q = D0 V c ⟨n, hn⟩ r q := by
  subst e; exact dif_pos hn

/-- A first step leaves the product of its blocks. -/
theorem stepA0 (c : Dev nD) (t : Fin cfg0.N) (h0 : t.val % 5 = 0) (r : Fin 1024) (q : Fin 256) :
    (outsAt0 V c t.val t.isLt).2 (ix2 r q) = 0 + D0 V c t r q := by
  have h1 : ¬t.val % 5 = 4 := by omega
  rw [outsAt0_A V c t h0 h1]
  dsimp only
  refine (congrFun (sout0_A_eq (F := Ideal) c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t) (iblk0 V c 3 t)) (ix2 r q)).trans ?_
  refine (k0_pay2_apply _ _ _ r q).trans ?_
  rw [k0_pay1_apply]
  rfl

/-- Every other step adds the product of its blocks to what the point before left. -/
theorem stepBC0 (c : Dev nD) (t : Fin cfg0.N) (h0 : ¬t.val % 5 = 0) (r : Fin 1024) (q : Fin 256) :
    (outsAt0 V c t.val t.isLt).2 (ix2 r q)
      = (outsAt0 V c (t.val - 1) (Nat.lt_of_le_of_lt (Nat.sub_le _ _) t.isLt)).2 (ix2 r q) + D0 V c t r q := by
  by_cases h1 : t.val % 5 = 4
  · rw [outsAt0_C V c t h0 h1]
    dsimp only
    refine (congrFun (sout0_C_eq (F := Ideal) c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) (ix2 r q)).trans ?_
    exact k0_pay2_apply _ _ _ r q
  · rw [outsAt0_B V c t h0 h1]
    dsimp only
    refine (congrFun (sout0_B_eq (F := Ideal) c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) (ix2 r q)).trans ?_
    exact k0_pay2_apply _ _ _ r q

/-- The epilogue at (r, f), from an accumulator, a weight block and a bias row. -/
def epi0 (acc : Vec Ideal S1024x256 .f32) (w : Vec Ideal S256x512 .bf16) (b : Vec Ideal S1x512 .f32) (r : Fin 1024) (f : Fin 512) : EReal :=
  max ((∑ k : Fin 256, acc (ix2 r k) * w (ix2 k f)) + b (ix2 0 f)) 0

/-- At a last step the output's buffer holds the epilogue of the accumulator the step leaves. -/
theorem stepOut0 (c : Dev nD) (t : Fin cfg0.N) (h1 : t.val % 5 = 4) (r : Fin 1024) (f : Fin 512) :
    (outsAt0 V c t.val t.isLt).1 (ix2 r f)
      = epi0 (outsAt0 V c t.val t.isLt).2 (iblk0 V c 2 t) (iblk0 V c 3 t) r f := by
  have h0 : ¬t.val % 5 = 0 := by omega
  rw [outsAt0_C V c t h0 h1]
  dsimp only
  rw [sout0_C_eq (F := Ideal) c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2]
  refine (congrFun (out0_C_eq (F := Ideal) c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) (ix2 r f)).trans ?_
  exact k0_pay3_apply _ _ _ r f

/-- After point n = b + m, m steps into the row block that starts at point b, the accumulator holds the sum of the products of
the blocks of the points b, …, b + m. -/
theorem acc0_eq (c : Dev nD) (r : Fin 1024) (q : Fin 256) :
    ∀ (n : ℕ) (hn : n < cfg0.N) (b m : ℕ), n = b + m → b % 5 = 0 → m < 5 →
      (outsAt0 V c n hn).2 (ix2 r q) = ∑ k' ∈ Finset.range (m + 1), Dn0 V c (b + k') r q := by
  intro n
  induction n with
  | zero =>
    intro hn b m e hb hm
    obtain ⟨rfl, rfl⟩ : b = 0 ∧ m = 0 := by omega
    rw [Finset.sum_range_one, Dn0_eq V c 0 (0 + 0) hn rfl r q]
    refine (stepA0 V c ⟨0, hn⟩ rfl r q).trans ?_
    rw [zero_add]
  | succ n ih =>
    intro hn b m e hb hm
    by_cases h0 : (n + 1) % 5 = 0
    · obtain rfl : m = 0 := by omega
      obtain rfl : b = n + 1 := by omega
      rw [Finset.sum_range_one, Dn0_eq V c (n + 1) (n + 1 + 0) hn rfl r q]
      refine (stepA0 V c ⟨n + 1, hn⟩ h0 r q).trans ?_
      rw [zero_add]
    · obtain ⟨m', rfl⟩ : ∃ m', m = m' + 1 := ⟨m - 1, by omega⟩
      have ih' := ih (Nat.lt_of_succ_lt hn) b m' (by omega) hb (by omega)
      rw [Finset.sum_range_succ, ← ih']
      refine (stepBC0 V c ⟨n + 1, hn⟩ h0 r q).trans ?_
      rw [Dn0_eq V c (n + 1) (b + (m' + 1)) hn (by omega) r q]
      rfl

end Inv

/-! ## The blocks read off the arrays -/

section Blocks

variable (V : (c : Dev nD) → (b : Ref sig .tc) → Buf (Elt Ideal) ((c : Thread nD τ).loc b))

/-- The four input arrays as the region finds them, at their literal shapes. -/
abbrev arrA0 (c : Dev nD) : Vec Ideal S10240x10240 .bf16 := V c main_v47
abbrev arrX0 (c : Dev nD) : Vec Ideal S10240x256 .bf16 := V c main_v49
abbrev arrW0 (c : Dev nD) : Vec Ideal S256x512 .bf16 := V c main_v50
abbrev arrB0 (c : Dev nD) : Vec Ideal S1x512 .f32 := V c main_v54

/-- The printed index maps, decided over the grid. -/
theorem idx_facts0 : ∀ t : Fin cfg0.N,
    win0_0.index t (0 : Fin 2) = t.val / 5 ∧ win0_0.index t (1 : Fin 2) = t.val % 5
    ∧ win0_1.index t (0 : Fin 2) = t.val % 5 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val / 5 ∧ win0_4.index t (1 : Fin 2) = 0 :=
  (by decide +kernel : ∀ t : Fin grid0.N, _)

/-- The product of the blocks of point t = 5 i + p, over the arrays: columns p * 2048 … of row i * 1024 + r of the first
array against rows p * 2048 … of column q of the second. -/
theorem D0_eq (c : Dev nD) (t : Fin cfg0.N) (i p : ℕ) (hp : p < 5) (ht : t.val = 5 * i + p) (r : Fin 1024) (q : Fin 256)
    (hi : i * 1024 + r.val < 10240) :
    D0 V c t r q = ∑ j : Fin 2048,
      arrA0 V c (ix2 (⟨i * 1024 + r.val, hi⟩ : Fin 10240) (⟨p * 2048 + j.val, by have := j.isLt; omega⟩ : Fin 10240))
        * arrX0 V c (ix2 (⟨p * 2048 + j.val, by have := j.isLt; omega⟩ : Fin 10240) q) := by
  obtain ⟨e00, e01, e10, e11, -⟩ := idx_facts0 t
  have hd : t.val / 5 = i := by omega
  have hm : t.val % 5 = p := by omega
  unfold D0 dotA0
  refine Finset.sum_congr rfl fun j _ => ?_
  refine congrArg₂ (· * ·) ?_ ?_
  · unfold iblk0
    rw [View.read_apply]
    show V c main_v47 _ = V c main_v47 _
    refine congrArg (V c main_v47) (funext fun a => Fin.ext ?_)
    match a with
    | ⟨0, _⟩ => show win0_0.index t (0 : Fin 2) * 1024 + 1 * r.val = i * 1024 + r.val; rw [e00, hd]; omega
    | ⟨1, _⟩ => show win0_0.index t (1 : Fin 2) * 2048 + 1 * j.val = p * 2048 + j.val; rw [e01, hm]; omega
  · unfold iblk0
    rw [View.read_apply]
    show V c main_v49 _ = V c main_v49 _
    refine congrArg (V c main_v49) (funext fun a => Fin.ext ?_)
    match a with
    | ⟨0, _⟩ => show win0_1.index t (0 : Fin 2) * 2048 + 1 * j.val = p * 2048 + j.val; rw [e10, hm]; omega
    | ⟨1, _⟩ => show win0_1.index t (1 : Fin 2) * 256 + 1 * q.val = q.val; rw [e11]; omega

/-- The epilogue's weight block and bias row are the whole arrays. -/
theorem epi0_eq (c : Dev nD) (t : Fin cfg0.N) (acc : Vec Ideal S1024x256 .f32) (r : Fin 1024) (f : Fin 512) :
    epi0 acc (iblk0 V c 2 t) (iblk0 V c 3 t) r f
      = max ((∑ k : Fin 256, acc (ix2 r k) * arrW0 V c (ix2 k f)) + arrB0 V c (ix2 0 f)) 0 := by
  obtain ⟨-, -, -, -, e20, e21, e30, e31, -⟩ := idx_facts0 t
  unfold epi0
  refine congrArg₂ max (congrArg₂ (· + ·) (Finset.sum_congr rfl fun k _ => congrArg₂ (· * ·) rfl ?_) ?_) rfl
  · unfold iblk0
    rw [View.read_apply]
    show V c main_v50 _ = V c main_v50 _
    refine congrArg (V c main_v50) (funext fun a => Fin.ext ?_)
    match a with
    | ⟨0, _⟩ => show win0_2.index t (0 : Fin 2) * 256 + 1 * k.val = k.val; rw [e20]; omega
    | ⟨1, _⟩ => show win0_2.index t (1 : Fin 2) * 512 + 1 * f.val = f.val; rw [e21]; omega
  · unfold iblk0
    rw [View.read_apply]
    show V c main_v54 _ = V c main_v54 _
    refine congrArg (V c main_v54) (funext fun a => Fin.ext ?_)
    match a with
    | ⟨0, _⟩ => show win0_3.index t (0 : Fin 2) * 1 + 1 * 0 = 0; rw [e30]
    | ⟨1, _⟩ => show win0_3.index t (1 : Fin 2) * 512 + 1 * f.val = f.val; rw [e31]; omega

end Blocks

/-! ## The output array -/

section Final

variable (V : (c : Dev nD) → (b : Ref sig .tc) → Buf (Elt Ideal) ((c : Thread nD τ).loc b))

/-- What the region leaves in its output array: row n of the first array times the second, times the weights, plus the bias
row, rectified. -/
def G0 (c : Dev nD) : Vec Ideal S10240x512 .bf16 := fun y =>
  max ((∑ k : Fin 256, (∑ j : Fin 10240, arrA0 V c (ix2 (y 0) j) * arrX0 V c (ix2 j k)) * arrW0 V c (ix2 k (y 1)))
    + arrB0 V c (ix2 0 (y 1))) 0

theorem G0_apply (c : Dev nD) (n : Fin 10240) (f : Fin 512) :
    G0 V c (ix2 n f) = max ((∑ k : Fin 256, (∑ j : Fin 10240, arrA0 V c (ix2 n j) * arrX0 V c (ix2 j k)) * arrW0 V c (ix2 k f))
      + arrB0 V c (ix2 0 f)) 0 := rfl

/-- After the five points of row block i the accumulator at (r, k) is row i * 1024 + r of the first array times column k of
the second. -/
theorem acc0_last (c : Dev nD) (t : Fin cfg0.N) (h1 : t.val % 5 = 4) (r : Fin 1024) (k : Fin 256)
    (hi : t.val / 5 * 1024 + r.val < 10240) :
    (outsAt0 V c t.val t.isLt).2 (ix2 r k)
      = ∑ j : Fin 10240, arrA0 V c (ix2 (⟨t.val / 5 * 1024 + r.val, hi⟩ : Fin 10240) j) * arrX0 V c (ix2 j k) := by
  have hN : cfg0.N = 50 := N_0
  have htN := t.isLt
  rw [acc0_eq V c r k t.val t.isLt (t.val - 4) 4 (by omega) (by omega) (by omega), Finset.sum_range,
    Cert.Bridge.GcnDense.sum_blocks_of_eq (by norm_num : 5 * 2048 = 10240)
      (fun j => arrA0 V c (ix2 (⟨t.val / 5 * 1024 + r.val, hi⟩ : Fin 10240) j) * arrX0 V c (ix2 j k))]
  refine Finset.sum_congr rfl fun p _ => ?_
  have hp := p.isLt
  rw [Dn0_eq V c (t.val - 4 + p.val) (t.val - 4 + p.val) (by omega) rfl r k,
    D0_eq V c ⟨t.val - 4 + p.val, by omega⟩ (t.val / 5) p.val hp (by show t.val - 4 + p.val = _; omega) r k hi]

/-- What a last step leaves in the output's buffer at (r, f) is the region's result at (i * 1024 + r, f). -/
theorem out0_key (c : Dev nD) (t : Fin cfg0.N) (h1 : t.val % 5 = 4) (r : Fin 1024) (f : Fin 512)
    (hi : t.val / 5 * 1024 + r.val < 10240) :
    (outsAt0 V c t.val t.isLt).1 (ix2 r f) = G0 V c (ix2 (⟨t.val / 5 * 1024 + r.val, hi⟩ : Fin 10240) f) := by
  rw [stepOut0 V c t h1 r f, epi0_eq V c t _ r f, G0_apply]
  refine congrArg₂ max (congrArg₂ (· + ·) (Finset.sum_congr rfl fun k _ => congrArg₂ (· * ·) ?_ rfl) rfl) rfl
  exact acc0_last V c t h1 r k hi

/-- What a flushing point writes back is its block of the region's result. -/
theorem flushed0_eq (c : Dev nD) (t : Fin cfg0.N) (hf : (cfg0.win 4).flush t = true) :
    (dat0 V c).flushed 4 t = ((cfg0.win 4).blk t).view.read (Elt Ideal) (G0 V c) := by
  have h1 : t.val % 5 = 4 := (flush0_4 t).mp hf
  obtain ⟨-, -, -, -, -, -, -, -, e40, e41⟩ := idx_facts0 t
  have hN : cfg0.N = 50 := N_0
  have htN := t.isLt
  show (cfg0.win 4).cut (grid0.coords t) ((dat0 V c).after 4 t) = _
  rw [after0_4]
  funext y
  have h0 : (y 0).val < 1024 := idx2_lt0 (n0 := 1024) (n1 := 512) y
  have h1' : (y 1).val < 512 := idx2_lt1 (n0 := 1024) (n1 := 512) y
  have hy := eq_ix2 (n0 := 1024) (n1 := 512) y
  show (outsAt0 V c t.val t.isLt).1 y = G0 V c (((cfg0.win 4).blk t).view.emb y)
  refine (congrArg (outsAt0 V c t.val t.isLt).1 hy).trans ?_
  refine (out0_key V c t h1 ⟨(y 0).val, h0⟩ ⟨(y 1).val, h1'⟩ (by show t.val / 5 * 1024 + (y 0).val < 10240; omega)).trans ?_
  refine congrArg (G0 V c) (funext fun a => Fin.ext ?_)
  match a with
  | ⟨0, _⟩ => show t.val / 5 * 1024 + (y 0).val = win0_4.index t (0 : Fin 2) * 1024 + 1 * (y 0).val; rw [e40]; omega
  | ⟨1, _⟩ => show (y 1).val = win0_4.index t (1 : Fin 2) * 512 + 1 * (y 1).val; rw [e41]; omega

/-- An index of the output array is in point t's block iff each coordinate is in the block's range on its axis. -/
theorem mem_blk0_4 (t : Fin cfg0.N) (i : S10240x512.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v58).slice (win0_4.rect t)).set ↔ _
  rw [View.set_slice_whole, Rect.mem_set_unit]
  exact Iff.rfl

/-- The output array after the region: its result. -/
theorem final0 (c : Dev nD) : (dat0 V c).arrAt 4 cfg0.N = G0 V c :=
  (dat0 V c).arrAt_eq_of_cover 4 (G0 V c) (flushed0_eq V c) fun i => by
    have hi0 : (i 0).val < 10240 := idx2_lt0 (n0 := 10240) (n1 := 512) i
    have hi1 : (i 1).val < 512 := idx2_lt1 (n0 := 10240) (n1 := 512) i
    have hN : cfg0.N = 50 := N_0
    have htl : 5 * ((i 0).val / 1024) + 4 < cfg0.N := by omega
    obtain ⟨-, -, -, -, -, -, -, -, e40, e41⟩ := idx_facts0 ⟨5 * ((i 0).val / 1024) + 4, htl⟩
    refine ⟨⟨5 * ((i 0).val / 1024) + 4, htl⟩, (flush0_4 _).mpr (by show (5 * ((i 0).val / 1024) + 4) % 5 = 4; omega), ?_⟩
    rw [mem_blk0_4]
    intro a
    match a with
    | ⟨0, _⟩ =>
      show win0_4.index ⟨5 * ((i 0).val / 1024) + 4, htl⟩ (0 : Fin 2) * 1024 ≤ (i 0).val ∧ (i 0).val < win0_4.index ⟨5 * ((i 0).val / 1024) + 4, htl⟩ (0 : Fin 2) * 1024 + 1024
      rw [e40]; show (5 * ((i 0).val / 1024) + 4) / 5 * 1024 ≤ (i 0).val ∧ (i 0).val < (5 * ((i 0).val / 1024) + 4) / 5 * 1024 + 1024; omega
    | ⟨1, _⟩ =>
      show win0_4.index ⟨5 * ((i 0).val / 1024) + 4, htl⟩ (1 : Fin 2) * 512 ≤ (i 1).val ∧ (i 1).val < win0_4.index ⟨5 * ((i 0).val / 1024) + 4, htl⟩ (1 : Fin 2) * 512 + 512
      rw [e41]; omega

/-- REGION 0's VALUE: its output array at (n, f), from the arrays the region finds. -/
theorem val0 (c : Dev nD) (n : Fin 10240) (f : Fin 512) :
    ((dat0 V c).arrAt 4 cfg0.N : Vec Ideal S10240x512 .bf16) (ix2 n f)
      = max ((∑ k : Fin 256, (∑ j : Fin 10240, arrA0 V c (ix2 n j) * arrX0 V c (ix2 j k)) * arrW0 V c (ix2 k f))
        + arrB0 V c (ix2 0 f)) 0 := by
  rw [final0]
  rfl

end Final

end Cert.KernelIdeal.HandVal

end
-- ==== Proof.KI.Val1.lean ====
import proofs.«179401_j66675072303277_2_alg».proof.Proof.KI.R1
import proofs.«179401_j66675072303277_2_alg».proof.Proof.LibGcnDense
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.Tactic Idealize.SL.Sem
open Idealize.ShloMosaic.Pipeline (Dat)
open Idealize.ShloMosaic.ValueIdx
open scoped BigOperators

variable {F : FTy → Type} [FloatOps F]

/-! # Region 1: the values

What each control case of the body leaves, as the arithmetic of the loaded blocks; the arithmetic read at an index over the
extended reals; the accumulator after every point; the output array. -/

theorem hz2_1 : (![0, 0] : Fin 2 → Nat) = fun _ => 0 := funext fun a => by fin_cases a <;> rfl

/-- An inner step leaves in the accumulator what it found there plus the product of the two blocks. -/
theorem sout1_B_eq (c : Dev nD) (i : grid1.Coords) (arg2 : Memref sig .tc .vmem S1024x2048 .bf16) (harg2 : arg2.IsWhole) (arg3 : Memref sig .tc .vmem S2048x512 .bf16) (harg3 : arg3.IsWhole) (arg4 : Memref sig .tc .vmem S512x768 .bf16) (harg4 : arg4.IsWhole) (arg5 : Memref sig .tc .vmem S1x768 .f32) (harg5 : arg5.IsWhole) (arg6 : Memref sig .tc .vmem S1024x768 .bf16) (harg6 : arg6.IsWhole) (arg7 : Memref sig .tc .vmem S1024x512 .f32) (harg7 : arg7.IsWhole) (hc0 : ¬cond1_0 i) (hc1 : ¬cond1_1 i) (x0 : Vec F S1024x2048 .bf16) (x1 : Vec F S2048x512 .bf16) (x2 : Vec F S512x768 .bf16) (x3 : Vec F S1x768 .f32) (xs : Vec F S1024x512 .f32) :
    sout1_B c i arg2 harg2 arg3 harg3 arg4 harg4 arg5 harg5 arg6 harg6 arg7 harg7 hc0 hc1 x0 x1 x2 x3 xs = k1_pay2 xs x0 x1 := by
  unfold sout1_B
  rw [View.read_writes_eq_canon _ _ _ scover1_B]
  unfold kernelRun1_B
  dsimp only
  sl_unfold_words
  rw [View.canon_unit_zero hz2_1]
  simp only [View.readAt_eq_ld, harg7.read_unread, harg2.read_unread, harg3.read_unread, harg4.read_unread, harg5.read_unread,
    View.ld_unit_zero (S := S1024x512) hz2_1, View.ld_unit_zero (S := S1024x2048) hz2_1, View.ld_unit_zero (S := S2048x512) hz2_1,
    View.ld_unit_zero (S := S512x768) hz2_1, View.ld_unit_zero (S := S1x768) hz2_1]
  try rfl

/-- The first step leaves in the accumulator the zero block plus the product of the two blocks. -/
theorem sout1_A_eq (c : Dev nD) (i : grid1.Coords) (arg2 : Memref sig .tc .vmem S1024x2048 .bf16) (harg2 : arg2.IsWhole) (arg3 : Memref sig .tc .vmem S2048x512 .bf16) (harg3 : arg3.IsWhole) (arg4 : Memref sig .tc .vmem S512x768 .bf16) (harg4 : arg4.IsWhole) (arg5 : Memref sig .tc .vmem S1x768 .f32) (harg5 : arg5.IsWhole) (arg6 : Memref sig .tc .vmem S1024x768 .bf16) (harg6 : arg6.IsWhole) (arg7 : Memref sig .tc .vmem S1024x512 .f32) (harg7 : arg7.IsWhole) (hc0 : cond1_0 i) (hc1 : ¬cond1_1 i) (x0 : Vec F S1024x2048 .bf16) (x1 : Vec F S2048x512 .bf16) (x2 : Vec F S512x768 .bf16) (x3 : Vec F S1x768 .f32) :
    sout1_A c i arg2 harg2 arg3 harg3 arg4 harg4 arg5 harg5 arg6 harg6 arg7 harg7 hc0 hc1 x0 x1 x2 x3 = k1_pay2 k1_pay1 x0 x1 := by
  unfold sout1_A
  rw [View.read_writes_eq_canon _ _ _ scover1_A]
  unfold kernelRun1_A
  dsimp only
  sl_unfold_words
  rw [View.canon_cons_unit_zero (S := S1024x512) hz2_1, View.readCov_unit_zero (S := S1024x512) _ hz2_1]
  simp only [View.readAt_eq_ld, harg7.read_unread, harg2.read_unread, harg3.read_unread, harg4.read_unread, harg5.read_unread,
    View.ld_unit_zero (S := S1024x512) hz2_1, View.ld_unit_zero (S := S1024x2048) hz2_1, View.ld_unit_zero (S := S2048x512) hz2_1,
    View.ld_unit_zero (S := S512x768) hz2_1, View.ld_unit_zero (S := S1x768) hz2_1]
  try rfl

/-- The last step leaves in the accumulator what it found there plus the product of the two blocks. -/
theorem sout1_C_eq (c : Dev nD) (i : grid1.Coords) (arg2 : Memref sig .tc .vmem S1024x2048 .bf16) (harg2 : arg2.IsWhole) (arg3 : Memref sig .tc .vmem S2048x512 .bf16) (harg3 : arg3.IsWhole) (arg4 : Memref sig .tc .vmem S512x768 .bf16) (harg4 : arg4.IsWhole) (arg5 : Memref sig .tc .vmem S1x768 .f32) (harg5 : arg5.IsWhole) (arg6 : Memref sig .tc .vmem S1024x768 .bf16) (harg6 : arg6.IsWhole) (arg7 : Memref sig .tc .vmem S1024x512 .f32) (harg7 : arg7.IsWhole) (hc0 : ¬cond1_0 i) (hc1 : cond1_1 i) (x0 : Vec F S1024x2048 .bf16) (x1 : Vec F S2048x512 .bf16) (x2 : Vec F S512x768 .bf16) (x3 : Vec F S1x768 .f32) (xs : Vec F S1024x512 .f32) :
    sout1_C c i arg2 harg2 arg3 harg3 arg4 harg4 arg5 harg5 arg6 harg6 arg7 harg7 hc0 hc1 x0 x1 x2 x3 xs = k1_pay2 xs x0 x1 := by
  unfold sout1_C
  rw [View.read_writes_eq_canon _ _ _ scover1_C]
  unfold kernelRun1_C
  dsimp only
  sl_unfold_words
  rw [View.canon_unit_zero hz2_1]
  simp only [View.readAt_eq_ld, harg7.read_unread, harg2.read_unread, harg3.read_unread, harg4.read_unread, harg5.read_unread,
    View.ld_unit_zero (S := S1024x512) hz2_1, View.ld_unit_zero (S := S1024x2048) hz2_1, View.ld_unit_zero (S := S2048x512) hz2_1,
    View.ld_unit_zero (S := S512x768) hz2_1, View.ld_unit_zero (S := S1x768) hz2_1]
  try rfl

/-- The last step leaves in the output's buffer the epilogue of the new accumulator, the weights and the bias row. -/
theorem out1_C_eq (c : Dev nD) (i : grid1.Coords) (arg2 : Memref sig .tc .vmem S1024x2048 .bf16) (harg2 : arg2.IsWhole) (arg3 : Memref sig .tc .vmem S2048x512 .bf16) (harg3 : arg3.IsWhole) (arg4 : Memref sig .tc .vmem S512x768 .bf16) (harg4 : arg4.IsWhole) (arg5 : Memref sig .tc .vmem S1x768 .f32) (harg5 : arg5.IsWhole) (arg6 : Memref sig .tc .vmem S1024x768 .bf16) (harg6 : arg6.IsWhole) (arg7 : Memref sig .tc .vmem S1024x512 .f32) (harg7 : arg7.IsWhole) (hc0 : ¬cond1_0 i) (hc1 : cond1_1 i) (x0 : Vec F S1024x2048 .bf16) (x1 : Vec F S2048x512 .bf16) (x2 : Vec F S512x768 .bf16) (x3 : Vec F S1x768 .f32) (xs : Vec F S1024x512 .f32) :
    out1_C c i arg2 harg2 arg3 harg3 arg4 harg4 arg5 harg5 arg6 harg6 arg7 harg7 hc0 hc1 x0 x1 x2 x3 xs = k1_pay3 (k1_pay2 xs x0 x1) x2 x3 := by
  unfold out1_C
  rw [View.read_writes_eq_canon _ _ _ cover1_C]
  unfold kernelRun1_C
  dsimp only
  sl_unfold_words
  rw [View.canon_unit_zero hz2_1, View.readCov_unit_zero (S := S1024x512) _ hz2_1]
  simp only [View.readAt_eq_ld, harg7.read_unread, harg2.read_unread, harg3.read_unread, harg4.read_unread, harg5.read_unread,
    View.ld_unit_zero (S := S1024x512) hz2_1, View.ld_unit_zero (S := S1024x2048) hz2_1, View.ld_unit_zero (S := S2048x512) hz2_1,
    View.ld_unit_zero (S := S512x768) hz2_1, View.ld_unit_zero (S := S1x768) hz2_1]
  try rfl

/-! ## The arithmetic at an index, over the extended reals -/

theorem lhs_k1a_0 (i : S1024x512.Idx) (q : dot_S1024x2048_S2048x512_S1024x512_1_0_0_1_n_n.contr.Idx) : (dot_S1024x2048_S2048x512_S1024x512_1_0_0_1_n_n.lhsIdx i q 0).val = (i 0).val := by
  unfold DotDims.lhsIdx
  rw [dif_neg (show ¬(0 : Fin S1024x2048.rank) ∈ dot_S1024x2048_S2048x512_S1024x512_1_0_0_1_n_n.lhsBatch by decide), dif_pos (show (0 : Fin S1024x2048.rank) ∈ dot_S1024x2048_S2048x512_S1024x512_1_0_0_1_n_n.lhsNonContracting by decide)]
  rfl
theorem lhs_k1a_1 (i : S1024x512.Idx) (q : dot_S1024x2048_S2048x512_S1024x512_1_0_0_1_n_n.contr.Idx) : (dot_S1024x2048_S2048x512_S1024x512_1_0_0_1_n_n.lhsIdx i q 1).val = (q ⟨0, by decide⟩).val :=
  dot_S1024x2048_S2048x512_S1024x512_1_0_0_1_n_n.lhsIdx_val_of_single rfl i q
theorem rhs_k1a_0 (i : S1024x512.Idx) (q : dot_S1024x2048_S2048x512_S1024x512_1_0_0_1_n_n.contr.Idx) : (dot_S1024x2048_S2048x512_S1024x512_1_0_0_1_n_n.rhsIdx i q 0).val = (q ⟨0, by decide⟩).val :=
  dot_S1024x2048_S2048x512_S1024x512_1_0_0_1_n_n.rhsIdx_val_of_single rfl i q
theorem rhs_k1a_1 (i : S1024x512.Idx) (q : dot_S1024x2048_S2048x512_S1024x512_1_0_0_1_n_n.contr.Idx) : (dot_S1024x2048_S2048x512_S1024x512_1_0_0_1_n_n.rhsIdx i q 1).val = (i 1).val := by
  unfold DotDims.rhsIdx
  rw [dif_neg (show ¬(1 : Fin S2048x512.rank) ∈ dot_S1024x2048_S2048x512_S1024x512_1_0_0_1_n_n.rhsBatch by decide), dif_pos (show (1 : Fin S2048x512.rank) ∈ dot_S1024x2048_S2048x512_S1024x512_1_0_0_1_n_n.rhsNonContracting by decide)]
  rfl

/-- A product of two blocks into the zero block, read at (r, q): the dot product of row r and column q. -/
theorem matmul_k1a_apply {φ₁ φ₂ : FTy} (a : FVec Ideal S1024x2048 φ₁) (x : FVec Ideal S2048x512 φ₂) (r : Fin 1024) (q : Fin 512) :
    FloatOps.matmul dot_S1024x2048_S2048x512_S1024x512_1_0_0_1_n_n none a x (constant S1024x512 .f32 0x00000000#32) (ix2 r q) = ∑ k : Fin 2048, a (ix2 r k) * x (ix2 k q) := by
  refine (Ideal.matmul_constant_zero_apply dot_S1024x2048_S2048x512_S1024x512_1_0_0_1_n_n none a x (ix2 r q)).trans ?_
  rw [← Equiv.sum_comp (ValueIdx.contrEquiv1 dot_S1024x2048_S2048x512_S1024x512_1_0_0_1_n_n 2048 rfl rfl).symm]
  refine Finset.sum_congr rfl fun k _ => ?_
  have hk := ValueIdx.contrEquiv1_symm_val dot_S1024x2048_S2048x512_S1024x512_1_0_0_1_n_n 2048 rfl rfl k
  have el : dot_S1024x2048_S2048x512_S1024x512_1_0_0_1_n_n.lhsIdx (ix2 r q) ((ValueIdx.contrEquiv1 dot_S1024x2048_S2048x512_S1024x512_1_0_0_1_n_n 2048 rfl rfl).symm k) = ix2 r k := funext fun a => Fin.ext (by
    match a with
    | ⟨0, _⟩ => exact lhs_k1a_0 _ _
    | ⟨1, _⟩ => exact (lhs_k1a_1 _ _).trans hk)
  have er : dot_S1024x2048_S2048x512_S1024x512_1_0_0_1_n_n.rhsIdx (ix2 r q) ((ValueIdx.contrEquiv1 dot_S1024x2048_S2048x512_S1024x512_1_0_0_1_n_n 2048 rfl rfl).symm k) = ix2 k q := funext fun a => Fin.ext (by
    match a with
    | ⟨0, _⟩ => exact (rhs_k1a_0 _ _).trans hk
    | ⟨1, _⟩ => exact rhs_k1a_1 _ _)
  exact congrArg₂ (· * ·) (congrArg a el) (congrArg x er)

theorem lhs_k1b_0 (i : S1024x768.Idx) (q : dot_S1024x512_S512x768_S1024x768_1_0_0_1_n_n.contr.Idx) : (dot_S1024x512_S512x768_S1024x768_1_0_0_1_n_n.lhsIdx i q 0).val = (i 0).val := by
  unfold DotDims.lhsIdx
  rw [dif_neg (show ¬(0 : Fin S1024x512.rank) ∈ dot_S1024x512_S512x768_S1024x768_1_0_0_1_n_n.lhsBatch by decide), dif_pos (show (0 : Fin S1024x512.rank) ∈ dot_S1024x512_S512x768_S1024x768_1_0_0_1_n_n.lhsNonContracting by decide)]
  rfl
theorem lhs_k1b_1 (i : S1024x768.Idx) (q : dot_S1024x512_S512x768_S1024x768_1_0_0_1_n_n.contr.Idx) : (dot_S1024x512_S512x768_S1024x768_1_0_0_1_n_n.lhsIdx i q 1).val = (q ⟨0, by decide⟩).val :=
  dot_S1024x512_S512x768_S1024x768_1_0_0_1_n_n.lhsIdx_val_of_single rfl i q
theorem rhs_k1b_0 (i : S1024x768.Idx) (q : dot_S1024x512_S512x768_S1024x768_1_0_0_1_n_n.contr.Idx) : (dot_S1024x512_S512x768_S1024x768_1_0_0_1_n_n.rhsIdx i q 0).val = (q ⟨0, by decide⟩).val :=
  dot_S1024x512_S512x768_S1024x768_1_0_0_1_n_n.rhsIdx_val_of_single rfl i q
theorem rhs_k1b_1 (i : S1024x768.Idx) (q : dot_S1024x512_S512x768_S1024x768_1_0_0_1_n_n.contr.Idx) : (dot_S1024x512_S512x768_S1024x768_1_0_0_1_n_n.rhsIdx i q 1).val = (i 1).val := by
  unfold DotDims.rhsIdx
  rw [dif_neg (show ¬(1 : Fin S512x768.rank) ∈ dot_S1024x512_S512x768_S1024x768_1_0_0_1_n_n.rhsBatch by decide), dif_pos (show (1 : Fin S512x768.rank) ∈ dot_S1024x512_S512x768_S1024x768_1_0_0_1_n_n.rhsNonContracting by decide)]
  rfl

/-- A product of two blocks into the zero block, read at (r, q): the dot product of row r and column q. -/
theorem matmul_k1b_apply {φ₁ φ₂ : FTy} (a : FVec Ideal S1024x512 φ₁) (x : FVec Ideal S512x768 φ₂) (r : Fin 1024) (q : Fin 768) :
    FloatOps.matmul dot_S1024x512_S512x768_S1024x768_1_0_0_1_n_n none a x (constant S1024x768 .f32 0x00000000#32) (ix2 r q) = ∑ k : Fin 512, a (ix2 r k) * x (ix2 k q) := by
  refine (Ideal.matmul_constant_zero_apply dot_S1024x512_S512x768_S1024x768_1_0_0_1_n_n none a x (ix2 r q)).trans ?_
  rw [← Equiv.sum_comp (ValueIdx.contrEquiv1 dot_S1024x512_S512x768_S1024x768_1_0_0_1_n_n 512 rfl rfl).symm]
  refine Finset.sum_congr rfl fun k _ => ?_
  have hk := ValueIdx.contrEquiv1_symm_val dot_S1024x512_S512x768_S1024x768_1_0_0_1_n_n 512 rfl rfl k
  have el : dot_S1024x512_S512x768_S1024x768_1_0_0_1_n_n.lhsIdx (ix2 r q) ((ValueIdx.contrEquiv1 dot_S1024x512_S512x768_S1024x768_1_0_0_1_n_n 512 rfl rfl).symm k) = ix2 r k := funext fun a => Fin.ext (by
    match a with
    | ⟨0, _⟩ => exact lhs_k1b_0 _ _
    | ⟨1, _⟩ => exact (lhs_k1b_1 _ _).trans hk)
  have er : dot_S1024x512_S512x768_S1024x768_1_0_0_1_n_n.rhsIdx (ix2 r q) ((ValueIdx.contrEquiv1 dot_S1024x512_S512x768_S1024x768_1_0_0_1_n_n 512 rfl rfl).symm k) = ix2 k q := funext fun a => Fin.ext (by
    match a with
    | ⟨0, _⟩ => exact (rhs_k1b_0 _ _).trans hk
    | ⟨1, _⟩ => exact rhs_k1b_1 _ _)
  exact congrArg₂ (· * ·) (congrArg a el) (congrArg x er)

/-- The zero block reads zero. -/
theorem k1_pay1_apply (y : S1024x512.Idx) : k1_pay1 (F := Ideal) y = 0 := by
  unfold k1_pay1
  refine (congrFun (shapeCast_self _ _) y).trans ?_
  exact Ideal.ofBits_zero_f32

/-- One accumulation step at (r, q): the accumulator there plus the dot product of row r of the left block and column q of
the right block. -/
theorem k1_pay2_apply (acc : Vec Ideal S1024x512 .f32) (a : Vec Ideal S1024x2048 .bf16) (x : Vec Ideal S2048x512 .bf16)
    (r : Fin 1024) (q : Fin 512) :
    k1_pay2 (F := Ideal) acc a x (ix2 r q) = acc (ix2 r q) + ∑ k : Fin 2048, a (ix2 r k) * x (ix2 k q) := by
  unfold k1_pay2
  refine (congrFun (shapeCast_self _ _) (ix2 r q)).trans ?_
  refine (addf_apply _ _ _).trans ?_
  refine congrArg (acc (ix2 r q) + ·) ?_
  refine (matmul_k1a_apply _ _ r q).trans ?_
  refine Finset.sum_congr rfl fun k _ => ?_
  rw [shapeCast_self, shapeCast_self]

/-- The epilogue at (r, f): the rectified sum of the dot product of row r of the accumulator with column f of the weights and
entry f of the bias row. -/
theorem k1_pay3_apply (acc : Vec Ideal S1024x512 .f32) (w : Vec Ideal S512x768 .bf16) (b : Vec Ideal S1x768 .f32)
    (r : Fin 1024) (f : Fin 768) :
    k1_pay3 (F := Ideal) acc w b (ix2 r f)
      = max ((∑ k : Fin 512, acc (ix2 r k) * w (ix2 k f)) + b (ix2 0 f)) 0 := by
  unfold k1_pay3
  refine (truncf_apply (ψ := .bf16) (φ := .f32) (s := S1024x768) _ bitsLt_bf16_f32 (ix2 r f)).trans ?_
  refine (maximumf_apply _ _ _).trans ?_
  refine congrArg₂ max ?_ Ideal.ofBits_zero_f32
  refine (addf_apply _ _ _).trans ?_
  refine congrArg₂ (· + ·) ?_ ?_
  · refine (matmul_k1b_apply _ _ r f).trans ?_
    refine Finset.sum_congr rfl fun k _ => ?_
    rw [shapeCast_self]
    rfl
  · refine (broadcastTo_apply _ broadcasts_S1x768_S1024x768 (ix2 r f) (ix2 0 f) (fun a => ?_)).trans ?_
    · match a with
      | ⟨0, _⟩ => rfl
      | ⟨1, _⟩ => rfl
    · rw [shapeCast_self]

/-! ## The accumulator after every point -/

section Inv

variable (V : (c : Dev nD) → (b : Ref sig .tc) → Buf (Elt Ideal) ((c : Thread nD τ).loc b))

/-- Row r of a left block times column q of a right block. -/
def dotA1 (a : Vec Ideal S1024x2048 .bf16) (x : Vec Ideal S2048x512 .bf16) (r : Fin 1024) (q : Fin 512) : EReal :=
  ∑ j : Fin 2048, a (ix2 r j) * x (ix2 j q)

/-- The product of the two blocks of point t at (r, q). -/
def D1 (c : Dev nD) (t : Fin cfg1.N) (r : Fin 1024) (q : Fin 512) : EReal :=
  dotA1 (iblk1 V c 0 t) (iblk1 V c 1 t) r q

/-- The same for a point given as a natural number, zero outside the grid. -/
def Dn1 (c : Dev nD) (n : ℕ) (r : Fin 1024) (q : Fin 512) : EReal :=
  if h : n < cfg1.N then D1 V c ⟨n, h⟩ r q else 0

theorem Dn1_eq (c : Dev nD) (n m : ℕ) (hn : n < cfg1.N) (e : m = n) (r : Fin 1024) (q : Fin 512) :
    Dn1 V c m r q = D1 V c ⟨n, hn⟩ r q := by
  subst e; exact dif_pos hn

/-- A first step leaves the product of its blocks. -/
theorem stepA1 (c : Dev nD) (t : Fin cfg1.N) (h0 : t.val % 5 = 0) (r : Fin 1024) (q : Fin 512) :
    (outsAt1 V c t.val t.isLt).2 (ix2 r q) = 0 + D1 V c t r q := by
  have h1 : ¬t.val % 5 = 4 := by omega
  rw [outsAt1_A V c t h0 h1]
  dsimp only
  refine (congrFun (sout1_A_eq (F := Ideal) c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t) (iblk1 V c 2 t) (iblk1 V c 3 t)) (ix2 r q)).trans ?_
  refine (k1_pay2_apply _ _ _ r q).trans ?_
  rw [k1_pay1_apply]
  rfl

/-- Every other step adds the product of its blocks to what the point before left. -/
theorem stepBC1 (c : Dev nD) (t : Fin cfg1.N) (h0 : ¬t.val % 5 = 0) (r : Fin 1024) (q : Fin 512) :
    (outsAt1 V c t.val t.isLt).2 (ix2 r q)
      = (outsAt1 V c (t.val - 1) (Nat.lt_of_le_of_lt (Nat.sub_le _ _) t.isLt)).2 (ix2 r q) + D1 V c t r q := by
  by_cases h1 : t.val % 5 = 4
  · rw [outsAt1_C V c t h0 h1]
    dsimp only
    refine (congrFun (sout1_C_eq (F := Ideal) c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) (ix2 r q)).trans ?_
    exact k1_pay2_apply _ _ _ r q
  · rw [outsAt1_B V c t h0 h1]
    dsimp only
    refine (congrFun (sout1_B_eq (F := Ideal) c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) (ix2 r q)).trans ?_
    exact k1_pay2_apply _ _ _ r q

/-- The epilogue at (r, f), from an accumulator, a weight block and a bias row. -/
def epi1 (acc : Vec Ideal S1024x512 .f32) (w : Vec Ideal S512x768 .bf16) (b : Vec Ideal S1x768 .f32) (r : Fin 1024) (f : Fin 768) : EReal :=
  max ((∑ k : Fin 512, acc (ix2 r k) * w (ix2 k f)) + b (ix2 0 f)) 0

/-- At a last step the output's buffer holds the epilogue of the accumulator the step leaves. -/
theorem stepOut1 (c : Dev nD) (t : Fin cfg1.N) (h1 : t.val % 5 = 4) (r : Fin 1024) (f : Fin 768) :
    (outsAt1 V c t.val t.isLt).1 (ix2 r f)
      = epi1 (outsAt1 V c t.val t.isLt).2 (iblk1 V c 2 t) (iblk1 V c 3 t) r f := by
  have h0 : ¬t.val % 5 = 0 := by omega
  rw [outsAt1_C V c t h0 h1]
  dsimp only
  rw [sout1_C_eq (F := Ideal) c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2]
  refine (congrFun (out1_C_eq (F := Ideal) c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) (ix2 r f)).trans ?_
  exact k1_pay3_apply _ _ _ r f

/-- After point n = b + m, m steps into the row block that starts at point b, the accumulator holds the sum of the products of
the blocks of the points b, …, b + m. -/
theorem acc1_eq (c : Dev nD) (r : Fin 1024) (q : Fin 512) :
    ∀ (n : ℕ) (hn : n < cfg1.N) (b m : ℕ), n = b + m → b % 5 = 0 → m < 5 →
      (outsAt1 V c n hn).2 (ix2 r q) = ∑ k' ∈ Finset.range (m + 1), Dn1 V c (b + k') r q := by
  intro n
  induction n with
  | zero =>
    intro hn b m e hb hm
    obtain ⟨rfl, rfl⟩ : b = 0 ∧ m = 0 := by omega
    rw [Finset.sum_range_one, Dn1_eq V c 0 (0 + 0) hn rfl r q]
    refine (stepA1 V c ⟨0, hn⟩ rfl r q).trans ?_
    rw [zero_add]
  | succ n ih =>
    intro hn b m e hb hm
    by_cases h0 : (n + 1) % 5 = 0
    · obtain rfl : m = 0 := by omega
      obtain rfl : b = n + 1 := by omega
      rw [Finset.sum_range_one, Dn1_eq V c (n + 1) (n + 1 + 0) hn rfl r q]
      refine (stepA1 V c ⟨n + 1, hn⟩ h0 r q).trans ?_
      rw [zero_add]
    · obtain ⟨m', rfl⟩ : ∃ m', m = m' + 1 := ⟨m - 1, by omega⟩
      have ih' := ih (Nat.lt_of_succ_lt hn) b m' (by omega) hb (by omega)
      rw [Finset.sum_range_succ, ← ih']
      refine (stepBC1 V c ⟨n + 1, hn⟩ h0 r q).trans ?_
      rw [Dn1_eq V c (n + 1) (b + (m' + 1)) hn (by omega) r q]
      rfl

end Inv

/-! ## The blocks read off the arrays -/

section Blocks

variable (V : (c : Dev nD) → (b : Ref sig .tc) → Buf (Elt Ideal) ((c : Thread nD τ).loc b))

/-- The four input arrays as the region finds them, at their literal shapes. -/
abbrev arrA1 (c : Dev nD) : Vec Ideal S10240x10240 .bf16 := V c main_v47
abbrev arrX1 (c : Dev nD) : Vec Ideal S10240x512 .bf16 := V c main_v58
abbrev arrW1 (c : Dev nD) : Vec Ideal S512x768 .bf16 := V c main_v51
abbrev arrB1 (c : Dev nD) : Vec Ideal S1x768 .f32 := V c main_v55

/-- The printed index maps, decided over the grid. -/
theorem idx_facts1 : ∀ t : Fin cfg1.N,
    win1_0.index t (0 : Fin 2) = t.val / 5 ∧ win1_0.index t (1 : Fin 2) = t.val % 5
    ∧ win1_1.index t (0 : Fin 2) = t.val % 5 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val / 5 ∧ win1_4.index t (1 : Fin 2) = 0 :=
  (by decide +kernel : ∀ t : Fin grid1.N, _)

/-- The product of the blocks of point t = 5 i + p, over the arrays: columns p * 2048 … of row i * 1024 + r of the first
array against rows p * 2048 … of column q of the second. -/
theorem D1_eq (c : Dev nD) (t : Fin cfg1.N) (i p : ℕ) (hp : p < 5) (ht : t.val = 5 * i + p) (r : Fin 1024) (q : Fin 512)
    (hi : i * 1024 + r.val < 10240) :
    D1 V c t r q = ∑ j : Fin 2048,
      arrA1 V c (ix2 (⟨i * 1024 + r.val, hi⟩ : Fin 10240) (⟨p * 2048 + j.val, by have := j.isLt; omega⟩ : Fin 10240))
        * arrX1 V c (ix2 (⟨p * 2048 + j.val, by have := j.isLt; omega⟩ : Fin 10240) q) := by
  obtain ⟨e00, e01, e10, e11, -⟩ := idx_facts1 t
  have hd : t.val / 5 = i := by omega
  have hm : t.val % 5 = p := by omega
  unfold D1 dotA1
  refine Finset.sum_congr rfl fun j _ => ?_
  refine congrArg₂ (· * ·) ?_ ?_
  · unfold iblk1
    rw [View.read_apply]
    show V c main_v47 _ = V c main_v47 _
    refine congrArg (V c main_v47) (funext fun a => Fin.ext ?_)
    match a with
    | ⟨0, _⟩ => show win1_0.index t (0 : Fin 2) * 1024 + 1 * r.val = i * 1024 + r.val; rw [e00, hd]; omega
    | ⟨1, _⟩ => show win1_0.index t (1 : Fin 2) * 2048 + 1 * j.val = p * 2048 + j.val; rw [e01, hm]; omega
  · unfold iblk1
    rw [View.read_apply]
    show V c main_v58 _ = V c main_v58 _
    refine congrArg (V c main_v58) (funext fun a => Fin.ext ?_)
    match a with
    | ⟨0, _⟩ => show win1_1.index t (0 : Fin 2) * 2048 + 1 * j.val = p * 2048 + j.val; rw [e10, hm]; omega
    | ⟨1, _⟩ => show win1_1.index t (1 : Fin 2) * 512 + 1 * q.val = q.val; rw [e11]; omega

/-- The epilogue's weight block and bias row are the whole arrays. -/
theorem epi1_eq (c : Dev nD) (t : Fin cfg1.N) (acc : Vec Ideal S1024x512 .f32) (r : Fin 1024) (f : Fin 768) :
    epi1 acc (iblk1 V c 2 t) (iblk1 V c 3 t) r f
      = max ((∑ k : Fin 512, acc (ix2 r k) * arrW1 V c (ix2 k f)) + arrB1 V c (ix2 0 f)) 0 := by
  obtain ⟨-, -, -, -, e20, e21, e30, e31, -⟩ := idx_facts1 t
  unfold epi1
  refine congrArg₂ max (congrArg₂ (· + ·) (Finset.sum_congr rfl fun k _ => congrArg₂ (· * ·) rfl ?_) ?_) rfl
  · unfold iblk1
    rw [View.read_apply]
    show V c main_v51 _ = V c main_v51 _
    refine congrArg (V c main_v51) (funext fun a => Fin.ext ?_)
    match a with
    | ⟨0, _⟩ => show win1_2.index t (0 : Fin 2) * 512 + 1 * k.val = k.val; rw [e20]; omega
    | ⟨1, _⟩ => show win1_2.index t (1 : Fin 2) * 768 + 1 * f.val = f.val; rw [e21]; omega
  · unfold iblk1
    rw [View.read_apply]
    show V c main_v55 _ = V c main_v55 _
    refine congrArg (V c main_v55) (funext fun a => Fin.ext ?_)
    match a with
    | ⟨0, _⟩ => show win1_3.index t (0 : Fin 2) * 1 + 1 * 0 = 0; rw [e30]
    | ⟨1, _⟩ => show win1_3.index t (1 : Fin 2) * 768 + 1 * f.val = f.val; rw [e31]; omega

end Blocks

/-! ## The output array -/

section Final

variable (V : (c : Dev nD) → (b : Ref sig .tc) → Buf (Elt Ideal) ((c : Thread nD τ).loc b))

/-- What the region leaves in its output array: row n of the first array times the second, times the weights, plus the bias
row, rectified. -/
def G1 (c : Dev nD) : Vec Ideal S10240x768 .bf16 := fun y =>
  max ((∑ k : Fin 512, (∑ j : Fin 10240, arrA1 V c (ix2 (y 0) j) * arrX1 V c (ix2 j k)) * arrW1 V c (ix2 k (y 1)))
    + arrB1 V c (ix2 0 (y 1))) 0

theorem G1_apply (c : Dev nD) (n : Fin 10240) (f : Fin 768) :
    G1 V c (ix2 n f) = max ((∑ k : Fin 512, (∑ j : Fin 10240, arrA1 V c (ix2 n j) * arrX1 V c (ix2 j k)) * arrW1 V c (ix2 k f))
      + arrB1 V c (ix2 0 f)) 0 := rfl

/-- After the five points of row block i the accumulator at (r, k) is row i * 1024 + r of the first array times column k of
the second. -/
theorem acc1_last (c : Dev nD) (t : Fin cfg1.N) (h1 : t.val % 5 = 4) (r : Fin 1024) (k : Fin 512)
    (hi : t.val / 5 * 1024 + r.val < 10240) :
    (outsAt1 V c t.val t.isLt).2 (ix2 r k)
      = ∑ j : Fin 10240, arrA1 V c (ix2 (⟨t.val / 5 * 1024 + r.val, hi⟩ : Fin 10240) j) * arrX1 V c (ix2 j k) := by
  have hN : cfg1.N = 50 := N_1
  have htN := t.isLt
  rw [acc1_eq V c r k t.val t.isLt (t.val - 4) 4 (by omega) (by omega) (by omega), Finset.sum_range,
    Cert.Bridge.GcnDense.sum_blocks_of_eq (by norm_num : 5 * 2048 = 10240)
      (fun j => arrA1 V c (ix2 (⟨t.val / 5 * 1024 + r.val, hi⟩ : Fin 10240) j) * arrX1 V c (ix2 j k))]
  refine Finset.sum_congr rfl fun p _ => ?_
  have hp := p.isLt
  rw [Dn1_eq V c (t.val - 4 + p.val) (t.val - 4 + p.val) (by omega) rfl r k,
    D1_eq V c ⟨t.val - 4 + p.val, by omega⟩ (t.val / 5) p.val hp (by show t.val - 4 + p.val = _; omega) r k hi]

/-- What a last step leaves in the output's buffer at (r, f) is the region's result at (i * 1024 + r, f). -/
theorem out1_key (c : Dev nD) (t : Fin cfg1.N) (h1 : t.val % 5 = 4) (r : Fin 1024) (f : Fin 768)
    (hi : t.val / 5 * 1024 + r.val < 10240) :
    (outsAt1 V c t.val t.isLt).1 (ix2 r f) = G1 V c (ix2 (⟨t.val / 5 * 1024 + r.val, hi⟩ : Fin 10240) f) := by
  rw [stepOut1 V c t h1 r f, epi1_eq V c t _ r f, G1_apply]
  refine congrArg₂ max (congrArg₂ (· + ·) (Finset.sum_congr rfl fun k _ => congrArg₂ (· * ·) ?_ rfl) rfl) rfl
  exact acc1_last V c t h1 r k hi

/-- What a flushing point writes back is its block of the region's result. -/
theorem flushed1_eq (c : Dev nD) (t : Fin cfg1.N) (hf : (cfg1.win 4).flush t = true) :
    (dat1 V c).flushed 4 t = ((cfg1.win 4).blk t).view.read (Elt Ideal) (G1 V c) := by
  have h1 : t.val % 5 = 4 := (flush1_4 t).mp hf
  obtain ⟨-, -, -, -, -, -, -, -, e40, e41⟩ := idx_facts1 t
  have hN : cfg1.N = 50 := N_1
  have htN := t.isLt
  show (cfg1.win 4).cut (grid1.coords t) ((dat1 V c).after 4 t) = _
  rw [after1_4]
  funext y
  have h0 : (y 0).val < 1024 := idx2_lt0 (n0 := 1024) (n1 := 768) y
  have h1' : (y 1).val < 768 := idx2_lt1 (n0 := 1024) (n1 := 768) y
  have hy := eq_ix2 (n0 := 1024) (n1 := 768) y
  show (outsAt1 V c t.val t.isLt).1 y = G1 V c (((cfg1.win 4).blk t).view.emb y)
  refine (congrArg (outsAt1 V c t.val t.isLt).1 hy).trans ?_
  refine (out1_key V c t h1 ⟨(y 0).val, h0⟩ ⟨(y 1).val, h1'⟩ (by show t.val / 5 * 1024 + (y 0).val < 10240; omega)).trans ?_
  refine congrArg (G1 V c) (funext fun a => Fin.ext ?_)
  match a with
  | ⟨0, _⟩ => show t.val / 5 * 1024 + (y 0).val = win1_4.index t (0 : Fin 2) * 1024 + 1 * (y 0).val; rw [e40]; omega
  | ⟨1, _⟩ => show (y 1).val = win1_4.index t (1 : Fin 2) * 768 + 1 * (y 1).val; rw [e41]; omega

/-- An index of the output array is in point t's block iff each coordinate is in the block's range on its axis. -/
theorem mem_blk1_4 (t : Fin cfg1.N) (i : S10240x768.Idx) :
    i ∈ ((cfg1.win 4).blk t).view.set ↔ ∀ a : Fin 2, win1_4.index t a * S1024x768.size a ≤ (i a).val ∧ (i a).val < win1_4.index t a * S1024x768.size a + S1024x768.size a := by
  show i ∈ ((View.whole main_v59).slice (win1_4.rect t)).set ↔ _
  rw [View.set_slice_whole, Rect.mem_set_unit]
  exact Iff.rfl

/-- The output array after the region: its result. -/
theorem final1 (c : Dev nD) : (dat1 V c).arrAt 4 cfg1.N = G1 V c :=
  (dat1 V c).arrAt_eq_of_cover 4 (G1 V c) (flushed1_eq V c) fun i => by
    have hi0 : (i 0).val < 10240 := idx2_lt0 (n0 := 10240) (n1 := 768) i
    have hi1 : (i 1).val < 768 := idx2_lt1 (n0 := 10240) (n1 := 768) i
    have hN : cfg1.N = 50 := N_1
    have htl : 5 * ((i 0).val / 1024) + 4 < cfg1.N := by omega
    obtain ⟨-, -, -, -, -, -, -, -, e40, e41⟩ := idx_facts1 ⟨5 * ((i 0).val / 1024) + 4, htl⟩
    refine ⟨⟨5 * ((i 0).val / 1024) + 4, htl⟩, (flush1_4 _).mpr (by show (5 * ((i 0).val / 1024) + 4) % 5 = 4; omega), ?_⟩
    rw [mem_blk1_4]
    intro a
    match a with
    | ⟨0, _⟩ =>
      show win1_4.index ⟨5 * ((i 0).val / 1024) + 4, htl⟩ (0 : Fin 2) * 1024 ≤ (i 0).val ∧ (i 0).val < win1_4.index ⟨5 * ((i 0).val / 1024) + 4, htl⟩ (0 : Fin 2) * 1024 + 1024
      rw [e40]; show (5 * ((i 0).val / 1024) + 4) / 5 * 1024 ≤ (i 0).val ∧ (i 0).val < (5 * ((i 0).val / 1024) + 4) / 5 * 1024 + 1024; omega
    | ⟨1, _⟩ =>
      show win1_4.index ⟨5 * ((i 0).val / 1024) + 4, htl⟩ (1 : Fin 2) * 768 ≤ (i 1).val ∧ (i 1).val < win1_4.index ⟨5 * ((i 0).val / 1024) + 4, htl⟩ (1 : Fin 2) * 768 + 768
      rw [e41]; omega

/-- REGION 1's VALUE: its output array at (n, f), from the arrays the region finds. -/
theorem val1 (c : Dev nD) (n : Fin 10240) (f : Fin 768) :
    ((dat1 V c).arrAt 4 cfg1.N : Vec Ideal S10240x768 .bf16) (ix2 n f)
      = max ((∑ k : Fin 512, (∑ j : Fin 10240, arrA1 V c (ix2 n j) * arrX1 V c (ix2 j k)) * arrW1 V c (ix2 k f))
        + arrB1 V c (ix2 0 f)) 0 := by
  rw [final1]
  rfl

end Final

end Cert.KernelIdeal.HandVal

end
-- ==== Proof.KI.Val2.lean ====
import proofs.«179401_j66675072303277_2_alg».proof.Proof.KI.R2
import proofs.«179401_j66675072303277_2_alg».proof.Proof.LibGcnDense
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.Tactic Idealize.SL.Sem
open Idealize.ShloMosaic.Pipeline (Dat)
open Idealize.ShloMosaic.ValueIdx
open scoped BigOperators

variable {F : FTy → Type} [FloatOps F]

/-! # Region 2: the values

What the body's one control case leaves, as the arithmetic of the loaded blocks; the arithmetic read at an index over the
extended reals; the output array. -/

theorem hz2_2 : (![0, 0] : Fin 2 → Nat) = fun _ => 0 := funext fun a => by fin_cases a <;> rfl

/-- Every step leaves in the output's buffer the epilogue of the zero block plus the product of the two blocks, and the bias
row. -/
theorem out2_D_eq (c : Dev nD) (i : grid2.Coords) (arg2 : Memref sig .tc .vmem S1024x768 .bf16) (harg2 : arg2.IsWhole) (arg3 : Memref sig .tc .vmem S768x128 .bf16) (harg3 : arg3.IsWhole) (arg4 : Memref sig .tc .vmem S1x128 .f32) (harg4 : arg4.IsWhole) (arg5 : Memref sig .tc .vmem S1024x128 .bf16) (harg5 : arg5.IsWhole) (arg6 : Memref sig .tc .vmem S1024x128 .f32) (harg6 : arg6.IsWhole) (hc0 : cond2_0 i) (hc1 : cond2_1 i) (x0 : Vec F S1024x768 .bf16) (x1 : Vec F S768x128 .bf16) (x2 : Vec F S1x128 .f32) :
    out2_D c i arg2 harg2 arg3 harg3 arg4 harg4 arg5 harg5 arg6 harg6 hc0 hc1 x0 x1 x2 = k2_pay3 (k2_pay2 k2_pay1 x0 x1) x2 := by
  unfold out2_D
  rw [View.read_writes_eq_canon _ _ _ cover2_D]
  unfold kernelRun2_D
  dsimp only
  sl_unfold_words
  rw [View.canon_unit_zero hz2_2]
  simp only [View.readCov_cons_toLoadRect, View.readAt_eq_ld, harg2.read_unread, harg3.read_unread, harg4.read_unread,
    View.ld_unit_zero (S := S1024x128) hz2_2, View.ld_unit_zero (S := S1024x768) hz2_2, View.ld_unit_zero (S := S768x128) hz2_2,
    View.ld_unit_zero (S := S1x128) hz2_2]
  try rfl

/-! ## The arithmetic at an index, over the extended reals -/

theorem lhs_k2a_0 (i : S1024x128.Idx) (q : dot_S1024x768_S768x128_S1024x128_1_0_0_1_n_n.contr.Idx) : (dot_S1024x768_S768x128_S1024x128_1_0_0_1_n_n.lhsIdx i q 0).val = (i 0).val := by
  unfold DotDims.lhsIdx
  rw [dif_neg (show ¬(0 : Fin S1024x768.rank) ∈ dot_S1024x768_S768x128_S1024x128_1_0_0_1_n_n.lhsBatch by decide), dif_pos (show (0 : Fin S1024x768.rank) ∈ dot_S1024x768_S768x128_S1024x128_1_0_0_1_n_n.lhsNonContracting by decide)]
  rfl
theorem lhs_k2a_1 (i : S1024x128.Idx) (q : dot_S1024x768_S768x128_S1024x128_1_0_0_1_n_n.contr.Idx) : (dot_S1024x768_S768x128_S1024x128_1_0_0_1_n_n.lhsIdx i q 1).val = (q ⟨0, by decide⟩).val :=
  dot_S1024x768_S768x128_S1024x128_1_0_0_1_n_n.lhsIdx_val_of_single rfl i q
theorem rhs_k2a_0 (i : S1024x128.Idx) (q : dot_S1024x768_S768x128_S1024x128_1_0_0_1_n_n.contr.Idx) : (dot_S1024x768_S768x128_S1024x128_1_0_0_1_n_n.rhsIdx i q 0).val = (q ⟨0, by decide⟩).val :=
  dot_S1024x768_S768x128_S1024x128_1_0_0_1_n_n.rhsIdx_val_of_single rfl i q
theorem rhs_k2a_1 (i : S1024x128.Idx) (q : dot_S1024x768_S768x128_S1024x128_1_0_0_1_n_n.contr.Idx) : (dot_S1024x768_S768x128_S1024x128_1_0_0_1_n_n.rhsIdx i q 1).val = (i 1).val := by
  unfold DotDims.rhsIdx
  rw [dif_neg (show ¬(1 : Fin S768x128.rank) ∈ dot_S1024x768_S768x128_S1024x128_1_0_0_1_n_n.rhsBatch by decide), dif_pos (show (1 : Fin S768x128.rank) ∈ dot_S1024x768_S768x128_S1024x128_1_0_0_1_n_n.rhsNonContracting by decide)]
  rfl

/-- A product of two blocks into the zero block, read at (r, q): the dot product of row r and column q. -/
theorem matmul_k2a_apply {φ₁ φ₂ : FTy} (a : FVec Ideal S1024x768 φ₁) (x : FVec Ideal S768x128 φ₂) (r : Fin 1024) (q : Fin 128) :
    FloatOps.matmul dot_S1024x768_S768x128_S1024x128_1_0_0_1_n_n none a x (constant S1024x128 .f32 0x00000000#32) (ix2 r q) = ∑ k : Fin 768, a (ix2 r k) * x (ix2 k q) := by
  refine (Ideal.matmul_constant_zero_apply dot_S1024x768_S768x128_S1024x128_1_0_0_1_n_n none a x (ix2 r q)).trans ?_
  rw [← Equiv.sum_comp (ValueIdx.contrEquiv1 dot_S1024x768_S768x128_S1024x128_1_0_0_1_n_n 768 rfl rfl).symm]
  refine Finset.sum_congr rfl fun k _ => ?_
  have hk := ValueIdx.contrEquiv1_symm_val dot_S1024x768_S768x128_S1024x128_1_0_0_1_n_n 768 rfl rfl k
  have el : dot_S1024x768_S768x128_S1024x128_1_0_0_1_n_n.lhsIdx (ix2 r q) ((ValueIdx.contrEquiv1 dot_S1024x768_S768x128_S1024x128_1_0_0_1_n_n 768 rfl rfl).symm k) = ix2 r k := funext fun a => Fin.ext (by
    match a with
    | ⟨0, _⟩ => exact lhs_k2a_0 _ _
    | ⟨1, _⟩ => exact (lhs_k2a_1 _ _).trans hk)
  have er : dot_S1024x768_S768x128_S1024x128_1_0_0_1_n_n.rhsIdx (ix2 r q) ((ValueIdx.contrEquiv1 dot_S1024x768_S768x128_S1024x128_1_0_0_1_n_n 768 rfl rfl).symm k) = ix2 k q := funext fun a => Fin.ext (by
    match a with
    | ⟨0, _⟩ => exact (rhs_k2a_0 _ _).trans hk
    | ⟨1, _⟩ => exact rhs_k2a_1 _ _)
  exact congrArg₂ (· * ·) (congrArg a el) (congrArg x er)

/-- The zero block reads zero. -/
theorem k2_pay1_apply (y : S1024x128.Idx) : k2_pay1 (F := Ideal) y = 0 := by
  unfold k2_pay1
  refine (congrFun (shapeCast_self _ _) y).trans ?_
  exact Ideal.ofBits_zero_f32

/-- One accumulation step at (r, q): the accumulator there plus the dot product of row r of the left block and column q of
the right block. -/
theorem k2_pay2_apply (acc : Vec Ideal S1024x128 .f32) (a : Vec Ideal S1024x768 .bf16) (x : Vec Ideal S768x128 .bf16)
    (r : Fin 1024) (q : Fin 128) :
    k2_pay2 (F := Ideal) acc a x (ix2 r q) = acc (ix2 r q) + ∑ k : Fin 768, a (ix2 r k) * x (ix2 k q) := by
  unfold k2_pay2
  refine (congrFun (shapeCast_self _ _) (ix2 r q)).trans ?_
  refine (addf_apply _ _ _).trans ?_
  refine congrArg (acc (ix2 r q) + ·) ?_
  refine (matmul_k2a_apply _ _ r q).trans ?_
  refine Finset.sum_congr rfl fun k _ => ?_
  rw [shapeCast_self, shapeCast_self]

/-- The epilogue at (r, f): the accumulator there plus entry f of the bias row. -/
theorem k2_pay3_apply (acc : Vec Ideal S1024x128 .f32) (b : Vec Ideal S1x128 .f32) (r : Fin 1024) (f : Fin 128) :
    k2_pay3 (F := Ideal) acc b (ix2 r f) = acc (ix2 r f) + b (ix2 0 f) := by
  unfold k2_pay3
  refine (truncf_apply (ψ := .bf16) (φ := .f32) (s := S1024x128) _ bitsLt_bf16_f32 (ix2 r f)).trans ?_
  refine (addf_apply _ _ _).trans ?_
  refine congrArg (acc (ix2 r f) + ·) ?_
  refine (broadcastTo_apply _ broadcasts_S1x128_S1024x128 (ix2 r f) (ix2 0 f) (fun a => ?_)).trans ?_
  · match a with
    | ⟨0, _⟩ => rfl
    | ⟨1, _⟩ => rfl
  · rw [shapeCast_self]

/-! ## What every point leaves -/

section Inv

variable (V : (c : Dev nD) → (b : Ref sig .tc) → Buf (Elt Ideal) ((c : Thread nD τ).loc b))

/-- The body's result at (r, f) from its three blocks: row r of the first times column f of the second, plus entry f of the bias
row. -/
def epi2 (x : Vec Ideal S1024x768 .bf16) (w : Vec Ideal S768x128 .bf16) (b : Vec Ideal S1x128 .f32) (r : Fin 1024) (f : Fin 128) : EReal :=
  (∑ k : Fin 768, x (ix2 r k) * w (ix2 k f)) + b (ix2 0 f)

/-- Every point leaves in the output's buffer the body's result of its blocks. -/
theorem stepOut2' (c : Dev nD) (n : ℕ) (hn : n < cfg2.N) (r : Fin 1024) (f : Fin 128) :
    (outsAt2 V c n hn).1 (ix2 r f) = epi2 (iblk2 V c 0 ⟨n, hn⟩) (iblk2 V c 1 ⟨n, hn⟩) (iblk2 V c 2 ⟨n, hn⟩) r f := by
  unfold outsAt2
  dsimp only
  refine (congrFun (out2_D_eq (F := Ideal) c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) (ms2_3 ⟨n, hn⟩) (hs2_3 ⟨n, hn⟩) scM2 (Memref.isWhole_whole _) (hcond2_0 ⟨n, hn⟩) (hcond2_1 ⟨n, hn⟩) (iblk2 V c 0 ⟨n, hn⟩) (iblk2 V c 1 ⟨n, hn⟩) (iblk2 V c 2 ⟨n, hn⟩)) (ix2 r f)).trans ?_
  refine (k2_pay3_apply _ _ r f).trans ?_
  unfold epi2
  refine congrArg (· + _) ?_
  refine (k2_pay2_apply _ _ _ r f).trans ?_
  rw [k2_pay1_apply, zero_add]

theorem stepOut2 (c : Dev nD) (t : Fin cfg2.N) (r : Fin 1024) (f : Fin 128) :
    (outsAt2 V c t.val t.isLt).1 (ix2 r f) = epi2 (iblk2 V c 0 t) (iblk2 V c 1 t) (iblk2 V c 2 t) r f :=
  stepOut2' V c t.val t.isLt r f

end Inv

/-! ## The blocks read off the arrays -/

section Blocks

variable (V : (c : Dev nD) → (b : Ref sig .tc) → Buf (Elt Ideal) ((c : Thread nD τ).loc b))

/-- The three input arrays as the region finds them, at their literal shapes. -/
abbrev arrX2 (c : Dev nD) : Vec Ideal S10240x768 .bf16 := V c main_v59
abbrev arrW2 (c : Dev nD) : Vec Ideal S768x128 .bf16 := V c main_v53
abbrev arrB2 (c : Dev nD) : Vec Ideal S1x128 .f32 := V c main_v60

/-- The printed index maps, decided over the grid. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The body's result of the blocks of point t, over the arrays. -/
theorem epi2_eq (c : Dev nD) (t : Fin cfg2.N) (r : Fin 1024) (f : Fin 128) (hi : t.val * 1024 + r.val < 10240) :
    epi2 (iblk2 V c 0 t) (iblk2 V c 1 t) (iblk2 V c 2 t) r f
      = (∑ k : Fin 768, arrX2 V c (ix2 (⟨t.val * 1024 + r.val, hi⟩ : Fin 10240) k) * arrW2 V c (ix2 k f)) + arrB2 V c (ix2 0 f) := by
  obtain ⟨e00, e01, e10, e11, e20, e21, -⟩ := idx_facts2 t
  unfold epi2
  refine congrArg₂ (· + ·) (Finset.sum_congr rfl fun k _ => congrArg₂ (· * ·) ?_ ?_) ?_
  · unfold iblk2
    rw [View.read_apply]
    show V c main_v59 _ = V c main_v59 _
    refine congrArg (V c main_v59) (funext fun a => Fin.ext ?_)
    match a with
    | ⟨0, _⟩ => show win2_0.index t (0 : Fin 2) * 1024 + 1 * r.val = t.val * 1024 + r.val; rw [e00]; omega
    | ⟨1, _⟩ => show win2_0.index t (1 : Fin 2) * 768 + 1 * k.val = k.val; rw [e01]; omega
  · unfold iblk2
    rw [View.read_apply]
    show V c main_v53 _ = V c main_v53 _
    refine congrArg (V c main_v53) (funext fun a => Fin.ext ?_)
    match a with
    | ⟨0, _⟩ => show win2_1.index t (0 : Fin 2) * 768 + 1 * k.val = k.val; rw [e10]; omega
    | ⟨1, _⟩ => show win2_1.index t (1 : Fin 2) * 128 + 1 * f.val = f.val; rw [e11]; omega
  · unfold iblk2
    rw [View.read_apply]
    show V c main_v60 _ = V c main_v60 _
    refine congrArg (V c main_v60) (funext fun a => Fin.ext ?_)
    match a with
    | ⟨0, _⟩ => show win2_2.index t (0 : Fin 2) * 1 + 1 * 0 = 0; rw [e20]
    | ⟨1, _⟩ => show win2_2.index t (1 : Fin 2) * 128 + 1 * f.val = f.val; rw [e21]; omega

end Blocks

/-! ## The output array -/

section Final

variable (V : (c : Dev nD) → (b : Ref sig .tc) → Buf (Elt Ideal) ((c : Thread nD τ).loc b))

/-- What the region leaves in its output array: row n of the first array times the second, plus the bias row. -/
def G2 (c : Dev nD) : Vec Ideal S10240x128 .bf16 := fun y =>
  (∑ k : Fin 768, arrX2 V c (ix2 (y 0) k) * arrW2 V c (ix2 k (y 1))) + arrB2 V c (ix2 0 (y 1))

theorem G2_apply (c : Dev nD) (n : Fin 10240) (f : Fin 128) :
    G2 V c (ix2 n f) = (∑ k : Fin 768, arrX2 V c (ix2 n k) * arrW2 V c (ix2 k f)) + arrB2 V c (ix2 0 f) := rfl

/-- What point t leaves in the output's buffer at (r, f) is the region's result at (t * 1024 + r, f). -/
theorem out2_key (c : Dev nD) (t : Fin cfg2.N) (r : Fin 1024) (f : Fin 128) (hi : t.val * 1024 + r.val < 10240) :
    (outsAt2 V c t.val t.isLt).1 (ix2 r f) = G2 V c (ix2 (⟨t.val * 1024 + r.val, hi⟩ : Fin 10240) f) := by
  rw [stepOut2 V c t r f, epi2_eq V c t r f hi, G2_apply]

/-- What a point writes back is its block of the region's result. -/
theorem flushed2_eq (c : Dev nD) (t : Fin cfg2.N) (hf : (cfg2.win 3).flush t = true) :
    (dat2 V c).flushed 3 t = ((cfg2.win 3).blk t).view.read (Elt Ideal) (G2 V c) := by
  obtain ⟨-, -, -, -, -, -, e30, e31⟩ := idx_facts2 t
  have hN : cfg2.N = 10 := N_2
  have htN := t.isLt
  show (cfg2.win 3).cut (grid2.coords t) ((dat2 V c).after 3 t) = _
  rw [after2_3]
  funext y
  have h0 : (y 0).val < 1024 := idx2_lt0 (n0 := 1024) (n1 := 128) y
  have h1' : (y 1).val < 128 := idx2_lt1 (n0 := 1024) (n1 := 128) y
  have hy := eq_ix2 (n0 := 1024) (n1 := 128) y
  show (outsAt2 V c t.val t.isLt).1 y = G2 V c (((cfg2.win 3).blk t).view.emb y)
  refine (congrArg (outsAt2 V c t.val t.isLt).1 hy).trans ?_
  refine (out2_key V c t ⟨(y 0).val, h0⟩ ⟨(y 1).val, h1'⟩ (by show t.val * 1024 + (y 0).val < 10240; omega)).trans ?_
  refine congrArg (G2 V c) (funext fun a => Fin.ext ?_)
  match a with
  | ⟨0, _⟩ => show t.val * 1024 + (y 0).val = win2_3.index t (0 : Fin 2) * 1024 + 1 * (y 0).val; rw [e30]; omega
  | ⟨1, _⟩ => show (y 1).val = win2_3.index t (1 : Fin 2) * 128 + 1 * (y 1).val; rw [e31]; omega

/-- An index of the output array is in point t's block iff each coordinate is in the block's range on its axis. -/
theorem mem_blk2_3 (t : Fin cfg2.N) (i : S10240x128.Idx) :
    i ∈ ((cfg2.win 3).blk t).view.set ↔ ∀ a : Fin 2, win2_3.index t a * S1024x128.size a ≤ (i a).val ∧ (i a).val < win2_3.index t a * S1024x128.size a + S1024x128.size a := by
  show i ∈ ((View.whole main_v61).slice (win2_3.rect t)).set ↔ _
  rw [View.set_slice_whole, Rect.mem_set_unit]
  exact Iff.rfl

/-- The output array after the region: its result. -/
theorem final2 (c : Dev nD) : (dat2 V c).arrAt 3 cfg2.N = G2 V c :=
  (dat2 V c).arrAt_eq_of_cover 3 (G2 V c) (flushed2_eq V c) fun i => by
    have hi0 : (i 0).val < 10240 := idx2_lt0 (n0 := 10240) (n1 := 128) i
    have hi1 : (i 1).val < 128 := idx2_lt1 (n0 := 10240) (n1 := 128) i
    have hN : cfg2.N = 10 := N_2
    have htl : (i 0).val / 1024 < cfg2.N := by omega
    obtain ⟨-, -, -, -, -, -, e30, e31⟩ := idx_facts2 ⟨(i 0).val / 1024, htl⟩
    refine ⟨⟨(i 0).val / 1024, htl⟩, flush2_3 _, ?_⟩
    rw [mem_blk2_3]
    intro a
    match a with
    | ⟨0, _⟩ =>
      show win2_3.index ⟨(i 0).val / 1024, htl⟩ (0 : Fin 2) * 1024 ≤ (i 0).val ∧ (i 0).val < win2_3.index ⟨(i 0).val / 1024, htl⟩ (0 : Fin 2) * 1024 + 1024
      rw [e30]; show (i 0).val / 1024 * 1024 ≤ (i 0).val ∧ (i 0).val < (i 0).val / 1024 * 1024 + 1024; omega
    | ⟨1, _⟩ =>
      show win2_3.index ⟨(i 0).val / 1024, htl⟩ (1 : Fin 2) * 128 ≤ (i 1).val ∧ (i 1).val < win2_3.index ⟨(i 0).val / 1024, htl⟩ (1 : Fin 2) * 128 + 128
      rw [e31]; omega

/-- REGION 2's VALUE: its output array at (n, f), from the arrays the region finds. -/
theorem val2 (c : Dev nD) (n : Fin 10240) (f : Fin 128) :
    ((dat2 V c).arrAt 3 cfg2.N : Vec Ideal S10240x128 .bf16) (ix2 n f)
      = (∑ k : Fin 768, arrX2 V c (ix2 n k) * arrW2 V c (ix2 k f)) + arrB2 V c (ix2 0 f) := by
  rw [final2]
  rfl

end Final

end Cert.KernelIdeal.HandVal

end
-- ==== Proof.KI.Val3.lean ====
import proofs.«179401_j66675072303277_2_alg».proof.Proof.KI.R3
import proofs.«179401_j66675072303277_2_alg».proof.Proof.LibGcnDense
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.Tactic Idealize.SL.Sem
open Idealize.ShloMosaic.Pipeline (Dat)
open Idealize.ShloMosaic.ValueIdx
open scoped BigOperators

variable {F : FTy → Type} [FloatOps F]

/-! # Region 3: the values

What each control case of the body leaves, as the arithmetic of the loaded blocks; the arithmetic read at an index over the
extended reals; the accumulator after every point; the output array. -/

theorem hz2_3 : (![0, 0] : Fin 2 → Nat) = fun _ => 0 := funext fun a => by fin_cases a <;> rfl

/-- An inner step leaves in the accumulator what it found there plus the product of the two blocks. -/
theorem sout3_B_eq (c : Dev nD) (i : grid3.Coords) (arg2 : Memref sig .tc .vmem S1024x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : ¬cond3_1 i) (x0 : Vec F S1024x2048 .bf16) (x1 : Vec F S2048x128 .bf16) (x2 : Vec F S1x128 .f32) (xs : Vec F S1024x128 .f32) :
    sout3_B c i arg2 harg2 arg3 harg3 arg4 harg4 arg5 harg5 arg6 harg6 hc0 hc1 x0 x1 x2 xs = k3_pay2 xs x0 x1 := by
  unfold sout3_B
  rw [View.read_writes_eq_canon _ _ _ scover3_B]
  unfold kernelRun3_B
  dsimp only
  sl_unfold_words
  rw [View.canon_unit_zero hz2_3]
  simp only [View.readAt_eq_ld, harg6.read_unread, harg2.read_unread, harg3.read_unread, harg4.read_unread,
    View.ld_unit_zero (S := S1024x128) hz2_3, View.ld_unit_zero (S := S1024x2048) hz2_3, View.ld_unit_zero (S := S2048x128) hz2_3,
    View.ld_unit_zero (S := S1x128) hz2_3]
  try rfl

/-- The first step leaves in the accumulator the zero block plus the product of the two blocks. -/
theorem sout3_A_eq (c : Dev nD) (i : grid3.Coords) (arg2 : Memref sig .tc .vmem S1024x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : cond3_0 i) (hc1 : ¬cond3_1 i) (x0 : Vec F S1024x2048 .bf16) (x1 : Vec F S2048x128 .bf16) (x2 : Vec F S1x128 .f32) :
    sout3_A c i arg2 harg2 arg3 harg3 arg4 harg4 arg5 harg5 arg6 harg6 hc0 hc1 x0 x1 x2 = k3_pay2 k3_pay1 x0 x1 := by
  unfold sout3_A
  rw [View.read_writes_eq_canon _ _ _ scover3_A]
  unfold kernelRun3_A
  dsimp only
  sl_unfold_words
  rw [View.canon_cons_unit_zero (S := S1024x128) hz2_3, View.readCov_unit_zero (S := S1024x128) _ hz2_3]
  simp only [View.readAt_eq_ld, harg6.read_unread, harg2.read_unread, harg3.read_unread, harg4.read_unread,
    View.ld_unit_zero (S := S1024x128) hz2_3, View.ld_unit_zero (S := S1024x2048) hz2_3, View.ld_unit_zero (S := S2048x128) hz2_3,
    View.ld_unit_zero (S := S1x128) hz2_3]
  try rfl

/-- The last step leaves in the accumulator what it found there plus the product of the two blocks. -/
theorem sout3_C_eq (c : Dev nD) (i : grid3.Coords) (arg2 : Memref sig .tc .vmem S1024x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : cond3_1 i) (x0 : Vec F S1024x2048 .bf16) (x1 : Vec F S2048x128 .bf16) (x2 : Vec F S1x128 .f32) (xs : Vec F S1024x128 .f32) :
    sout3_C c i arg2 harg2 arg3 harg3 arg4 harg4 arg5 harg5 arg6 harg6 hc0 hc1 x0 x1 x2 xs = k3_pay2 xs x0 x1 := by
  unfold sout3_C
  rw [View.read_writes_eq_canon _ _ _ scover3_C]
  unfold kernelRun3_C
  dsimp only
  sl_unfold_words
  rw [View.canon_unit_zero hz2_3]
  simp only [View.readAt_eq_ld, harg6.read_unread, harg2.read_unread, harg3.read_unread, harg4.read_unread,
    View.ld_unit_zero (S := S1024x128) hz2_3, View.ld_unit_zero (S := S1024x2048) hz2_3, View.ld_unit_zero (S := S2048x128) hz2_3,
    View.ld_unit_zero (S := S1x128) hz2_3]
  try rfl

/-- The last step leaves in the output's buffer the new accumulator plus the bias row. -/
theorem out3_C_eq (c : Dev nD) (i : grid3.Coords) (arg2 : Memref sig .tc .vmem S1024x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (hc0 : ¬cond3_0 i) (hc1 : cond3_1 i) (x0 : Vec F S1024x2048 .bf16) (x1 : Vec F S2048x128 .bf16) (x2 : Vec F S1x128 .f32) (xs : Vec F S1024x128 .f32) :
    out3_C c i arg2 harg2 arg3 harg3 arg4 harg4 arg5 harg5 arg6 harg6 hc0 hc1 x0 x1 x2 xs = k3_pay3 (k3_pay2 xs x0 x1) x2 := by
  unfold out3_C
  rw [View.read_writes_eq_canon _ _ _ cover3_C]
  unfold kernelRun3_C
  dsimp only
  sl_unfold_words
  rw [View.canon_unit_zero hz2_3, View.readCov_unit_zero (S := S1024x128) _ hz2_3]
  simp only [View.readAt_eq_ld, harg6.read_unread, harg2.read_unread, harg3.read_unread, harg4.read_unread,
    View.ld_unit_zero (S := S1024x128) hz2_3, View.ld_unit_zero (S := S1024x2048) hz2_3, View.ld_unit_zero (S := S2048x128) hz2_3,
    View.ld_unit_zero (S := S1x128) hz2_3]
  try rfl

/-! ## The arithmetic at an index, over the extended reals -/

theorem lhs_k3a_0 (i : S1024x128.Idx) (q : dot_S1024x2048_S2048x128_S1024x128_1_0_0_1_n_n.contr.Idx) : (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
theorem lhs_k3a_1 (i : S1024x128.Idx) (q : dot_S1024x2048_S2048x128_S1024x128_1_0_0_1_n_n.contr.Idx) : (dot_S1024x2048_S2048x128_S1024x128_1_0_0_1_n_n.lhsIdx i q 1).val = (q ⟨0, by decide⟩).val :=
  dot_S1024x2048_S2048x128_S1024x128_1_0_0_1_n_n.lhsIdx_val_of_single rfl i q
theorem rhs_k3a_0 (i : S1024x128.Idx) (q : dot_S1024x2048_S2048x128_S1024x128_1_0_0_1_n_n.contr.Idx) : (dot_S1024x2048_S2048x128_S1024x128_1_0_0_1_n_n.rhsIdx i q 0).val = (q ⟨0, by decide⟩).val :=
  dot_S1024x2048_S2048x128_S1024x128_1_0_0_1_n_n.rhsIdx_val_of_single rfl i q
theorem rhs_k3a_1 (i : S1024x128.Idx) (q : dot_S1024x2048_S2048x128_S1024x128_1_0_0_1_n_n.contr.Idx) : (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- A product of two blocks into the zero block, read at (r, q): the dot product of row r and column q. -/
theorem matmul_k3a_apply {φ₁ φ₂ : FTy} (a : FVec Ideal S1024x2048 φ₁) (x : FVec Ideal S2048x128 φ₂) (r : Fin 1024) (q : Fin 128) :
    FloatOps.matmul dot_S1024x2048_S2048x128_S1024x128_1_0_0_1_n_n none a x (constant S1024x128 .f32 0x00000000#32) (ix2 r q) = ∑ k : Fin 2048, a (ix2 r k) * x (ix2 k q) := by
  refine (Ideal.matmul_constant_zero_apply dot_S1024x2048_S2048x128_S1024x128_1_0_0_1_n_n none a x (ix2 r q)).trans ?_
  rw [← Equiv.sum_comp (ValueIdx.contrEquiv1 dot_S1024x2048_S2048x128_S1024x128_1_0_0_1_n_n 2048 rfl rfl).symm]
  refine Finset.sum_congr rfl fun k _ => ?_
  have hk := ValueIdx.contrEquiv1_symm_val dot_S1024x2048_S2048x128_S1024x128_1_0_0_1_n_n 2048 rfl rfl k
  have el : dot_S1024x2048_S2048x128_S1024x128_1_0_0_1_n_n.lhsIdx (ix2 r q) ((ValueIdx.contrEquiv1 dot_S1024x2048_S2048x128_S1024x128_1_0_0_1_n_n 2048 rfl rfl).symm k) = ix2 r k := funext fun a => Fin.ext (by
    match a with
    | ⟨0, _⟩ => exact lhs_k3a_0 _ _
    | ⟨1, _⟩ => exact (lhs_k3a_1 _ _).trans hk)
  have er : dot_S1024x2048_S2048x128_S1024x128_1_0_0_1_n_n.rhsIdx (ix2 r q) ((ValueIdx.contrEquiv1 dot_S1024x2048_S2048x128_S1024x128_1_0_0_1_n_n 2048 rfl rfl).symm k) = ix2 k q := funext fun a => Fin.ext (by
    match a with
    | ⟨0, _⟩ => exact (rhs_k3a_0 _ _).trans hk
    | ⟨1, _⟩ => exact rhs_k3a_1 _ _)
  exact congrArg₂ (· * ·) (congrArg a el) (congrArg x er)

/-- The zero block reads zero. -/
theorem k3_pay1_apply (y : S1024x128.Idx) : k3_pay1 (F := Ideal) y = 0 := by
  unfold k3_pay1
  refine (congrFun (shapeCast_self _ _) y).trans ?_
  exact Ideal.ofBits_zero_f32

/-- One accumulation step at (r, q): the accumulator there plus the dot product of row r of the left block and column q of
the right block. -/
theorem k3_pay2_apply (acc : Vec Ideal S1024x128 .f32) (a : Vec Ideal S1024x2048 .bf16) (x : Vec Ideal S2048x128 .bf16)
    (r : Fin 1024) (q : Fin 128) :
    k3_pay2 (F := Ideal) acc a x (ix2 r q) = acc (ix2 r q) + ∑ k : Fin 2048, a (ix2 r k) * x (ix2 k q) := by
  unfold k3_pay2
  refine (congrFun (shapeCast_self _ _) (ix2 r q)).trans ?_
  refine (addf_apply _ _ _).trans ?_
  refine congrArg (acc (ix2 r q) + ·) ?_
  refine (matmul_k3a_apply _ _ r q).trans ?_
  refine Finset.sum_congr rfl fun k _ => ?_
  rw [shapeCast_self, shapeCast_self]

/-- The epilogue at (r, f): the accumulator there plus entry f of the bias row. -/
theorem k3_pay3_apply (acc : Vec Ideal S1024x128 .f32) (b : Vec Ideal S1x128 .f32) (r : Fin 1024) (f : Fin 128) :
    k3_pay3 (F := Ideal) acc b (ix2 r f) = acc (ix2 r f) + b (ix2 0 f) := by
  unfold k3_pay3
  refine (addf_apply _ _ _).trans ?_
  refine congrArg (acc (ix2 r f) + ·) ?_
  refine (broadcastTo_apply _ broadcasts_S1x128_S1024x128 (ix2 r f) (ix2 0 f) (fun a => ?_)).trans ?_
  · match a with
    | ⟨0, _⟩ => rfl
    | ⟨1, _⟩ => rfl
  · rw [shapeCast_self]

/-! ## The accumulator after every point -/

section Inv

variable (V : (c : Dev nD) → (b : Ref sig .tc) → Buf (Elt Ideal) ((c : Thread nD τ).loc b))

/-- Row r of a left block times column q of a right block. -/
def dotA3 (a : Vec Ideal S1024x2048 .bf16) (x : Vec Ideal S2048x128 .bf16) (r : Fin 1024) (q : Fin 128) : EReal :=
  ∑ j : Fin 2048, a (ix2 r j) * x (ix2 j q)

/-- The product of the two blocks of point t at (r, q). -/
def D3 (c : Dev nD) (t : Fin cfg3.N) (r : Fin 1024) (q : Fin 128) : EReal :=
  dotA3 (iblk3 V c 0 t) (iblk3 V c 1 t) r q

/-- The same for a point given as a natural number, zero outside the grid. -/
def Dn3 (c : Dev nD) (n : ℕ) (r : Fin 1024) (q : Fin 128) : EReal :=
  if h : n < cfg3.N then D3 V c ⟨n, h⟩ r q else 0

theorem Dn3_eq (c : Dev nD) (n m : ℕ) (hn : n < cfg3.N) (e : m = n) (r : Fin 1024) (q : Fin 128) :
    Dn3 V c m r q = D3 V c ⟨n, hn⟩ r q := by
  subst e; exact dif_pos hn

/-- A first step leaves the product of its blocks. -/
theorem stepA3 (c : Dev nD) (t : Fin cfg3.N) (h0 : t.val % 5 = 0) (r : Fin 1024) (q : Fin 128) :
    (outsAt3 V c t.val t.isLt).2 (ix2 r q) = 0 + D3 V c t r q := by
  have h1 : ¬t.val % 5 = 4 := by omega
  rw [outsAt3_A V c t h0 h1]
  dsimp only
  refine (congrFun (sout3_A_eq (F := Ideal) c (grid3.coords t) (ms3_0 t) (hs3_0 t) (ms3_1 t) (hs3_1 t) (ms3_2 t) (hs3_2 t) (ms3_3 t) (hs3_3 t) scM3 (Memref.isWhole_whole _) ((hcond3_0 t).mpr h0) (fun h => h1 ((hcond3_1 t).mp h)) (iblk3 V c 0 t) (iblk3 V c 1 t) (iblk3 V c 2 t)) (ix2 r q)).trans ?_
  refine (k3_pay2_apply _ _ _ r q).trans ?_
  rw [k3_pay1_apply]
  rfl

/-- Every other step adds the product of its blocks to what the point before left. -/
theorem stepBC3 (c : Dev nD) (t : Fin cfg3.N) (h0 : ¬t.val % 5 = 0) (r : Fin 1024) (q : Fin 128) :
    (outsAt3 V c t.val t.isLt).2 (ix2 r q)
      = (outsAt3 V c (t.val - 1) (Nat.lt_of_le_of_lt (Nat.sub_le _ _) t.isLt)).2 (ix2 r q) + D3 V c t r q := by
  by_cases h1 : t.val % 5 = 4
  · rw [outsAt3_C V c t h0 h1]
    dsimp only
    refine (congrFun (sout3_C_eq (F := Ideal) c (grid3.coords t) (ms3_0 t) (hs3_0 t) (ms3_1 t) (hs3_1 t) (ms3_2 t) (hs3_2 t) (ms3_3 t) (hs3_3 t) scM3 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) (ix2 r q)).trans ?_
    exact k3_pay2_apply _ _ _ r q
  · rw [outsAt3_B V c t h0 h1]
    dsimp only
    refine (congrFun (sout3_B_eq (F := Ideal) c (grid3.coords t) (ms3_0 t) (hs3_0 t) (ms3_1 t) (hs3_1 t) (ms3_2 t) (hs3_2 t) (ms3_3 t) (hs3_3 t) scM3 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2) (ix2 r q)).trans ?_
    exact k3_pay2_apply _ _ _ r q

/-- The epilogue at (r, f), from an accumulator and a bias row. -/
def epi3 (acc : Vec Ideal S1024x128 .f32) (b : Vec Ideal S1x128 .f32) (r : Fin 1024) (f : Fin 128) : EReal :=
  acc (ix2 r f) + b (ix2 0 f)

/-- At a last step the output's buffer holds the epilogue of the accumulator the step leaves. -/
theorem stepOut3 (c : Dev nD) (t : Fin cfg3.N) (h1 : t.val % 5 = 4) (r : Fin 1024) (f : Fin 128) :
    (outsAt3 V c t.val t.isLt).1 (ix2 r f)
      = epi3 (outsAt3 V c t.val t.isLt).2 (iblk3 V c 2 t) r f := by
  have h0 : ¬t.val % 5 = 0 := by omega
  rw [outsAt3_C V c t h0 h1]
  dsimp only
  rw [sout3_C_eq (F := Ideal) c (grid3.coords t) (ms3_0 t) (hs3_0 t) (ms3_1 t) (hs3_1 t) (ms3_2 t) (hs3_2 t) (ms3_3 t) (hs3_3 t) scM3 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2]
  refine (congrFun (out3_C_eq (F := Ideal) c (grid3.coords t) (ms3_0 t) (hs3_0 t) (ms3_1 t) (hs3_1 t) (ms3_2 t) (hs3_2 t) (ms3_3 t) (hs3_3 t) scM3 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) (ix2 r f)).trans ?_
  exact k3_pay3_apply _ _ r f

/-- After point n = b + m, m steps into the row block that starts at point b, the accumulator holds the sum of the products of
the blocks of the points b, …, b + m. -/
theorem acc3_eq (c : Dev nD) (r : Fin 1024) (q : Fin 128) :
    ∀ (n : ℕ) (hn : n < cfg3.N) (b m : ℕ), n = b + m → b % 5 = 0 → m < 5 →
      (outsAt3 V c n hn).2 (ix2 r q) = ∑ k' ∈ Finset.range (m + 1), Dn3 V c (b + k') r q := by
  intro n
  induction n with
  | zero =>
    intro hn b m e hb hm
    obtain ⟨rfl, rfl⟩ : b = 0 ∧ m = 0 := by omega
    rw [Finset.sum_range_one, Dn3_eq V c 0 (0 + 0) hn rfl r q]
    refine (stepA3 V c ⟨0, hn⟩ rfl r q).trans ?_
    rw [zero_add]
  | succ n ih =>
    intro hn b m e hb hm
    by_cases h0 : (n + 1) % 5 = 0
    · obtain rfl : m = 0 := by omega
      obtain rfl : b = n + 1 := by omega
      rw [Finset.sum_range_one, Dn3_eq V c (n + 1) (n + 1 + 0) hn rfl r q]
      refine (stepA3 V c ⟨n + 1, hn⟩ h0 r q).trans ?_
      rw [zero_add]
    · obtain ⟨m', rfl⟩ : ∃ m', m = m' + 1 := ⟨m - 1, by omega⟩
      have ih' := ih (Nat.lt_of_succ_lt hn) b m' (by omega) hb (by omega)
      rw [Finset.sum_range_succ, ← ih']
      refine (stepBC3 V c ⟨n + 1, hn⟩ h0 r q).trans ?_
      rw [Dn3_eq V c (n + 1) (b + (m' + 1)) hn (by omega) r q]
      rfl

end Inv

/-! ## The blocks read off the arrays -/

section Blocks

variable (V : (c : Dev nD) → (b : Ref sig .tc) → Buf (Elt Ideal) ((c : Thread nD τ).loc b))

/-- The three input arrays as the region finds them, at their literal shapes. -/
abbrev arrA3 (c : Dev nD) : Vec Ideal S10240x10240 .bf16 := V c main_v47
abbrev arrX3 (c : Dev nD) : Vec Ideal S10240x128 .bf16 := V c main_v61
abbrev arrB3 (c : Dev nD) : Vec Ideal S1x128 .f32 := V c main_v57

/-- The printed index maps, decided over the grid. -/
theorem idx_facts3 : ∀ t : Fin cfg3.N,
    win3_0.index t (0 : Fin 2) = t.val / 5 ∧ win3_0.index t (1 : Fin 2) = t.val % 5
    ∧ win3_1.index t (0 : Fin 2) = t.val % 5 ∧ win3_1.index t (1 : Fin 2) = 0
    ∧ win3_2.index t (0 : Fin 2) = 0 ∧ win3_2.index t (1 : Fin 2) = 0
    ∧ win3_3.index t (0 : Fin 2) = t.val / 5 ∧ win3_3.index t (1 : Fin 2) = 0 :=
  (by decide +kernel : ∀ t : Fin grid3.N, _)

/-- The product of the blocks of point t = 5 i + p, over the arrays. -/
theorem D3_eq (c : Dev nD) (t : Fin cfg3.N) (i p : ℕ) (hp : p < 5) (ht : t.val = 5 * i + p) (r : Fin 1024) (q : Fin 128)
    (hi : i * 1024 + r.val < 10240) :
    D3 V c t r q = ∑ j : Fin 2048,
      arrA3 V c (ix2 (⟨i * 1024 + r.val, hi⟩ : Fin 10240) (⟨p * 2048 + j.val, by have := j.isLt; omega⟩ : Fin 10240))
        * arrX3 V c (ix2 (⟨p * 2048 + j.val, by have := j.isLt; omega⟩ : Fin 10240) q) := by
  obtain ⟨e00, e01, e10, e11, -⟩ := idx_facts3 t
  have hd : t.val / 5 = i := by omega
  have hm : t.val % 5 = p := by omega
  unfold D3 dotA3
  refine Finset.sum_congr rfl fun j _ => ?_
  refine congrArg₂ (· * ·) ?_ ?_
  · unfold iblk3
    rw [View.read_apply]
    show V c main_v47 _ = V c main_v47 _
    refine congrArg (V c main_v47) (funext fun a => Fin.ext ?_)
    match a with
    | ⟨0, _⟩ => show win3_0.index t (0 : Fin 2) * 1024 + 1 * r.val = i * 1024 + r.val; rw [e00, hd]; omega
    | ⟨1, _⟩ => show win3_0.index t (1 : Fin 2) * 2048 + 1 * j.val = p * 2048 + j.val; rw [e01, hm]; omega
  · unfold iblk3
    rw [View.read_apply]
    show V c main_v61 _ = V c main_v61 _
    refine congrArg (V c main_v61) (funext fun a => Fin.ext ?_)
    match a with
    | ⟨0, _⟩ => show win3_1.index t (0 : Fin 2) * 2048 + 1 * j.val = p * 2048 + j.val; rw [e10, hm]; omega
    | ⟨1, _⟩ => show win3_1.index t (1 : Fin 2) * 128 + 1 * q.val = q.val; rw [e11]; omega

/-- The epilogue's bias row is the whole array. -/
theorem epi3_eq (c : Dev nD) (t : Fin cfg3.N) (acc : Vec Ideal S1024x128 .f32) (r : Fin 1024) (f : Fin 128) :
    epi3 acc (iblk3 V c 2 t) r f = acc (ix2 r f) + arrB3 V c (ix2 0 f) := by
  obtain ⟨-, -, -, -, e20, e21, -⟩ := idx_facts3 t
  unfold epi3
  refine congrArg (acc (ix2 r f) + ·) ?_
  unfold iblk3
  rw [View.read_apply]
  show V c main_v57 _ = V c main_v57 _
  refine congrArg (V c main_v57) (funext fun a => Fin.ext ?_)
  match a with
  | ⟨0, _⟩ => show win3_2.index t (0 : Fin 2) * 1 + 1 * 0 = 0; rw [e20]
  | ⟨1, _⟩ => show win3_2.index t (1 : Fin 2) * 128 + 1 * f.val = f.val; rw [e21]; omega

end Blocks

/-! ## The output array -/

section Final

variable (V : (c : Dev nD) → (b : Ref sig .tc) → Buf (Elt Ideal) ((c : Thread nD τ).loc b))

/-- What the region leaves in its output array: row n of the first array times the second, plus the bias row. -/
def G3 (c : Dev nD) : Vec Ideal S10240x128 .f32 := fun y =>
  (∑ j : Fin 10240, arrA3 V c (ix2 (y 0) j) * arrX3 V c (ix2 j (y 1))) + arrB3 V c (ix2 0 (y 1))

theorem G3_apply (c : Dev nD) (n : Fin 10240) (f : Fin 128) :
    G3 V c (ix2 n f) = (∑ j : Fin 10240, arrA3 V c (ix2 n j) * arrX3 V c (ix2 j f)) + arrB3 V c (ix2 0 f) := rfl

/-- After the five points of row block i the accumulator at (r, k) is row i * 1024 + r of the first array times column k of
the second. -/
theorem acc3_last (c : Dev nD) (t : Fin cfg3.N) (h1 : t.val % 5 = 4) (r : Fin 1024) (k : Fin 128)
    (hi : t.val / 5 * 1024 + r.val < 10240) :
    (outsAt3 V c t.val t.isLt).2 (ix2 r k)
      = ∑ j : Fin 10240, arrA3 V c (ix2 (⟨t.val / 5 * 1024 + r.val, hi⟩ : Fin 10240) j) * arrX3 V c (ix2 j k) := by
  have hN : cfg3.N = 50 := N_3
  have htN := t.isLt
  rw [acc3_eq V c r k t.val t.isLt (t.val - 4) 4 (by omega) (by omega) (by omega), Finset.sum_range,
    Cert.Bridge.GcnDense.sum_blocks_of_eq (by norm_num : 5 * 2048 = 10240)
      (fun j => arrA3 V c (ix2 (⟨t.val / 5 * 1024 + r.val, hi⟩ : Fin 10240) j) * arrX3 V c (ix2 j k))]
  refine Finset.sum_congr rfl fun p _ => ?_
  have hp := p.isLt
  rw [Dn3_eq V c (t.val - 4 + p.val) (t.val - 4 + p.val) (by omega) rfl r k,
    D3_eq V c ⟨t.val - 4 + p.val, by omega⟩ (t.val / 5) p.val hp (by show t.val - 4 + p.val = _; omega) r k hi]

/-- What a last step leaves in the output's buffer at (r, f) is the region's result at (i * 1024 + r, f). -/
theorem out3_key (c : Dev nD) (t : Fin cfg3.N) (h1 : t.val % 5 = 4) (r : Fin 1024) (f : Fin 128)
    (hi : t.val / 5 * 1024 + r.val < 10240) :
    (outsAt3 V c t.val t.isLt).1 (ix2 r f) = G3 V c (ix2 (⟨t.val / 5 * 1024 + r.val, hi⟩ : Fin 10240) f) := by
  rw [stepOut3 V c t h1 r f, epi3_eq V c t _ r f, G3_apply]
  refine congrArg (· + arrB3 V c (ix2 0 f)) ?_
  exact acc3_last V c t h1 r f hi

/-- What a flushing point writes back is its block of the region's result. -/
theorem flushed3_eq (c : Dev nD) (t : Fin cfg3.N) (hf : (cfg3.win 3).flush t = true) :
    (dat3 V c).flushed 3 t = ((cfg3.win 3).blk t).view.read (Elt Ideal) (G3 V c) := by
  have h1 : t.val % 5 = 4 := (flush3_3 t).mp hf
  obtain ⟨-, -, -, -, -, -, e30, e31⟩ := idx_facts3 t
  have hN : cfg3.N = 50 := N_3
  have htN := t.isLt
  show (cfg3.win 3).cut (grid3.coords t) ((dat3 V c).after 3 t) = _
  rw [after3_3]
  funext y
  have h0 : (y 0).val < 1024 := idx2_lt0 (n0 := 1024) (n1 := 128) y
  have h1' : (y 1).val < 128 := idx2_lt1 (n0 := 1024) (n1 := 128) y
  have hy := eq_ix2 (n0 := 1024) (n1 := 128) y
  show (outsAt3 V c t.val t.isLt).1 y = G3 V c (((cfg3.win 3).blk t).view.emb y)
  refine (congrArg (outsAt3 V c t.val t.isLt).1 hy).trans ?_
  refine (out3_key V c t h1 ⟨(y 0).val, h0⟩ ⟨(y 1).val, h1'⟩ (by show t.val / 5 * 1024 + (y 0).val < 10240; omega)).trans ?_
  refine congrArg (G3 V c) (funext fun a => Fin.ext ?_)
  match a with
  | ⟨0, _⟩ => show t.val / 5 * 1024 + (y 0).val = win3_3.index t (0 : Fin 2) * 1024 + 1 * (y 0).val; rw [e30]; omega
  | ⟨1, _⟩ => show (y 1).val = win3_3.index t (1 : Fin 2) * 128 + 1 * (y 1).val; rw [e31]; omega

/-- An index of the output array is in point t's block iff each coordinate is in the block's range on its axis. -/
theorem mem_blk3_3 (t : Fin cfg3.N) (i : S10240x128.Idx) :
    i ∈ ((cfg3.win 3).blk t).view.set ↔ ∀ a : Fin 2, win3_3.index t a * S1024x128.size a ≤ (i a).val ∧ (i a).val < win3_3.index t a * S1024x128.size a + S1024x128.size a := by
  show i ∈ ((View.whole main_v62).slice (win3_3.rect t)).set ↔ _
  rw [View.set_slice_whole, Rect.mem_set_unit]
  exact Iff.rfl

/-- The output array after the region: its result. -/
theorem final3 (c : Dev nD) : (dat3 V c).arrAt 3 cfg3.N = G3 V c :=
  (dat3 V c).arrAt_eq_of_cover 3 (G3 V c) (flushed3_eq V c) fun i => by
    have hi0 : (i 0).val < 10240 := idx2_lt0 (n0 := 10240) (n1 := 128) i
    have hi1 : (i 1).val < 128 := idx2_lt1 (n0 := 10240) (n1 := 128) i
    have hN : cfg3.N = 50 := N_3
    have htl : 5 * ((i 0).val / 1024) + 4 < cfg3.N := by omega
    obtain ⟨-, -, -, -, -, -, e30, e31⟩ := idx_facts3 ⟨5 * ((i 0).val / 1024) + 4, htl⟩
    refine ⟨⟨5 * ((i 0).val / 1024) + 4, htl⟩, (flush3_3 _).mpr (by show (5 * ((i 0).val / 1024) + 4) % 5 = 4; omega), ?_⟩
    rw [mem_blk3_3]
    intro a
    match a with
    | ⟨0, _⟩ =>
      show win3_3.index ⟨5 * ((i 0).val / 1024) + 4, htl⟩ (0 : Fin 2) * 1024 ≤ (i 0).val ∧ (i 0).val < win3_3.index ⟨5 * ((i 0).val / 1024) + 4, htl⟩ (0 : Fin 2) * 1024 + 1024
      rw [e30]; show (5 * ((i 0).val / 1024) + 4) / 5 * 1024 ≤ (i 0).val ∧ (i 0).val < (5 * ((i 0).val / 1024) + 4) / 5 * 1024 + 1024; omega
    | ⟨1, _⟩ =>
      show win3_3.index ⟨5 * ((i 0).val / 1024) + 4, htl⟩ (1 : Fin 2) * 128 ≤ (i 1).val ∧ (i 1).val < win3_3.index ⟨5 * ((i 0).val / 1024) + 4, htl⟩ (1 : Fin 2) * 128 + 128
      rw [e31]; omega

/-- REGION 3's VALUE: its output array at (n, f), from the arrays the region finds. -/
theorem val3 (c : Dev nD) (n : Fin 10240) (f : Fin 128) :
    ((dat3 V c).arrAt 3 cfg3.N : Vec Ideal S10240x128 .f32) (ix2 n f)
      = (∑ j : Fin 10240, arrA3 V c (ix2 n j) * arrX3 V c (ix2 j f)) + arrB3 V c (ix2 0 f) := by
  rw [final3]
  rfl

end Final

end Cert.KernelIdeal.HandVal

end
-- ==== Proof.Bridge.Net.lean ====
/-
  The three-layer graph network over the reals, and the padded dense form that equals its cast.

  The network: three layers  out(n, f) = sum over the edges e into n of nrm e · (X·W)(row e, f) + b f, the first two followed by the
  positive part.  The dense form works on arrays padded from 10000 to 10240 rows (and the last layer's 8 columns to 128): with the padded
  adjacency AE (zero outside the 10000 x 10000 corner), h1 = max((AE·xp)·W1 + b1, 0), h2 = max((AE·h1)·W2 + b2, 0),
  out = AE·(h2·W3p + 0) + b3p.  On the rows below 10000 and the columns below 8 the dense form is the cast of the network: the padded
  rows of an operand meet only zero entries of AE.
-/
import proofs.«179401_j66675072303277_2_alg».proof.Proof.LibGcnDense

noncomputable section

namespace Cert.Bridge.Net

open Cert.Bridge.GcnDense
open scoped BigOperators

/-- The three-layer network over the reals, in edge-list form. -/
def netR {E : ℕ} (row col : Fin E → Fin 10000) (nrm : Fin E → ℝ) (x : Fin 10000 → Fin 256 → ℝ) (W1 : Fin 256 → Fin 512 → ℝ) (b1 : Fin 512 → ℝ)
    (W2 : Fin 512 → Fin 768 → ℝ) (b2 : Fin 768 → ℝ) (W3 : Fin 768 → Fin 8 → ℝ) (b3 : Fin 8 → ℝ) : Fin 10000 → Fin 8 → ℝ :=
  layerR row col nrm (reluLayerR row col nrm (reluLayerR row col nrm x W1 b1) W2 b2) W3 b3

/-- The padded dense form, on the rows and columns that are kept, is the cast of the network. -/
theorem dense_net {E : ℕ} (row col : Fin E → Fin 10000) (nrm : Fin E → ℝ) (AE : Fin 10240 → Fin 10240 → EReal)
    (hA : IsPaddedAdj row col nrm (by norm_num : 10000 ≤ 10240) AE)
    (xr : Fin 10000 → Fin 256 → ℝ) (W1 : Fin 256 → Fin 512 → ℝ) (b1 : Fin 512 → ℝ) (W2 : Fin 512 → Fin 768 → ℝ) (b2 : Fin 768 → ℝ)
    (W3 : Fin 768 → Fin 8 → ℝ) (b3 : Fin 8 → ℝ)
    (xp : Fin 10240 → Fin 256 → EReal) (hxp : ∀ (j : Fin 10240) (hj : j.val < 10000) (k : Fin 256), xp j k = ((xr ⟨j.val, hj⟩ k : ℝ) : EReal))
    (W1e : Fin 256 → Fin 512 → EReal) (hW1 : ∀ k f, W1e k f = ((W1 k f : ℝ) : EReal)) (b1e : Fin 512 → EReal) (hb1 : ∀ f, b1e f = ((b1 f : ℝ) : EReal))
    (h1 : Fin 10240 → Fin 512 → EReal) (hh1 : ∀ n f, h1 n f = max ((∑ k, (∑ j, AE n j * xp j k) * W1e k f) + b1e f) 0)
    (W2e : Fin 512 → Fin 768 → EReal) (hW2 : ∀ k f, W2e k f = ((W2 k f : ℝ) : EReal)) (b2e : Fin 768 → EReal) (hb2 : ∀ f, b2e f = ((b2 f : ℝ) : EReal))
    (h2 : Fin 10240 → Fin 768 → EReal) (hh2 : ∀ n f, h2 n f = max ((∑ k, (∑ j, AE n j * h1 j k) * W2e k f) + b2e f) 0)
    (W3p : Fin 768 → Fin 128 → EReal) (hW3 : ∀ k (f : Fin 128) (hf : f.val < 8), W3p k f = ((W3 k ⟨f.val, hf⟩ : ℝ) : EReal))
    (z : Fin 128 → EReal) (hz : ∀ f, z f = 0)
    (xw3 : Fin 10240 → Fin 128 → EReal) (hxw : ∀ n f, xw3 n f = (∑ k, h2 n k * W3p k f) + z f)
    (b3p : Fin 128 → EReal) (hb3 : ∀ (f : Fin 128) (hf : f.val < 8), b3p f = ((b3 ⟨f.val, hf⟩ : ℝ) : EReal))
    (out : Fin 10240 → Fin 128 → EReal) (hout : ∀ n f, out n f = (∑ j, AE n j * xw3 j f) + b3p f)
    (n : Fin 10000) (f : Fin 8) :
    out ⟨n.val, by omega⟩ ⟨f.val, by omega⟩ = ((netR row col nrm xr W1 b1 W2 b2 W3 b3 n f : ℝ) : EReal) := by
  have e1 : ∀ (j : Fin 10240) (hj : j.val < 10000) (f : Fin 512), h1 j f = ((reluLayerR row col nrm xr W1 b1 ⟨j.val, hj⟩ f : ℝ) : EReal) := by
    intro j hj f
    rw [hh1]; simp only [hW1, hb1]
    exact dense_relu_layer_agg_first hA xp xr hxp W1 b1 j hj f
  have e2 : ∀ (j : Fin 10240) (hj : j.val < 10000) (f : Fin 768),
      h2 j f = ((reluLayerR row col nrm (reluLayerR row col nrm xr W1 b1) W2 b2 ⟨j.val, hj⟩ f : ℝ) : EReal) := by
    intro j hj f
    rw [hh2]; simp only [hW2, hb2]
    exact dense_relu_layer_agg_first hA h1 (reluLayerR row col nrm xr W1 b1) e1 W2 b2 j hj f
  rw [hout]
  simp only [hxw, hz, add_zero]
  have hf : (⟨f.val, by omega⟩ : Fin 128).val < 8 := f.isLt
  simp only [hW3 _ _ hf, hb3 _ hf]
  exact dense_layer_transform_first hA h2 (reluLayerR row col nrm (reluLayerR row col nrm xr W1 b1) W2 b2) e2 W3 b3 ⟨n.val, by omega⟩ n.isLt f

end Cert.Bridge.Net

end
-- ==== Proof.Bridge.KernelNet.lean ====
/-
  The kernel program's result as the cast of the real-valued network.

  The contents the program ends with are read back region by region: the last stretch slices region 3's output; region 3's output is the dense
  adjacency times region 2's output plus the padded last bias; region 2's is the second hidden array times the padded last weights plus a zero
  row; regions 1 and 0 are the positive parts of (adjacency · previous) · weights + bias.  A region leaves every buffer but its output as it found
  it, so each operand is walked back to where it was written.  With the adjacency zero outside the 10000 x 10000 corner and the inputs real, the
  padded dense form is the cast of the three-layer network on the rows and columns that are kept.
-/
import proofs.«179401_j66675072303277_2_alg».proof.Proof.KI.Run
import proofs.«179401_j66675072303277_2_alg».proof.Proof.KI.Val0
import proofs.«179401_j66675072303277_2_alg».proof.Proof.KI.Val1
import proofs.«179401_j66675072303277_2_alg».proof.Proof.KI.Val2
import proofs.«179401_j66675072303277_2_alg».proof.Proof.KI.Val3
import proofs.«179401_j66675072303277_2_alg».proof.Proof.Bridge.Net

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem
open Idealize.ShloMosaic.ValueIdx
open Cert.Bridge.GcnDense Cert.Bridge.Net
open scoped BigOperators

variable (m : (ℓ : Loc nD τ sig) → Buf (Elt Ideal) ℓ) (c : Dev nD)

/-- The arrays the four regions read and write, as typed arrays of extended reals. -/
abbrev aA : Vec Ideal S10240x10240 .bf16 := V9 m c main_v47
abbrev aX : Vec Ideal S10240x256 .bf16 := V9 m c main_v49
abbrev aW1 : Vec Ideal S256x512 .bf16 := V9 m c main_v50
abbrev aW2 : Vec Ideal S512x768 .bf16 := V9 m c main_v51
abbrev aW3 : Vec Ideal S768x128 .bf16 := V9 m c main_v53
abbrev aB1 : Vec Ideal S1x512 .f32 := V9 m c main_v54
abbrev aB2 : Vec Ideal S1x768 .f32 := V9 m c main_v55
abbrev aB3 : Vec Ideal S1x128 .f32 := V9 m c main_v57
abbrev aZ : Vec Ideal S1x128 .f32 := W12 m c main_v60
abbrev aH1 : Vec Ideal S10240x512 .bf16 := W10 m c main_v58
abbrev aH2 : Vec Ideal S10240x768 .bf16 := W11 m c main_v59
abbrev aXW : Vec Ideal S10240x128 .bf16 := W13 m c main_v61
abbrev aOut : Vec Ideal S10240x128 .f32 := W14 m c main_v62
abbrev aRes : Vec Ideal S10000x8 .f32 := W15 m c main_v63

/-- Region 0's output. -/
theorem h1_eq (n : Fin 10240) (f : Fin 512) :
    aH1 m c (ix2 n f) = max ((∑ k : Fin 256, (∑ j : Fin 10240, aA m c (ix2 n j) * aX m c (ix2 j k)) * aW1 m c (ix2 k f)) + aB1 m c (ix2 0 f)) 0 := by
  show (W10 m c main_v58 : Vec Ideal S10240x512 .bf16) (ix2 n f) = _
  rw [W10_out]
  exact val0 (E9 m) c n f

/-- Region 1's output: its operands are region 0's output and buffers region 0 did not write. -/
theorem h2_eq (n : Fin 10240) (f : Fin 768) :
    aH2 m c (ix2 n f) = max ((∑ k : Fin 512, (∑ j : Fin 10240, aA m c (ix2 n j) * aH1 m c (ix2 j k)) * aW2 m c (ix2 k f)) + aB2 m c (ix2 0 f)) 0 := by
  show (W11 m c main_v59 : Vec Ideal S10240x768 .bf16) (ix2 n f) = _
  rw [W11_out]
  have e := val1 (E10 m) c n f
  have eA : arrA1 (E10 m) c = aA m c := W10_of m c main_v47 (by decide)
  have eW : arrW1 (E10 m) c = aW2 m c := W10_of m c main_v51 (by decide)
  have eB : arrB1 (E10 m) c = aB2 m c := W10_of m c main_v55 (by decide)
  rw [eA, eW, eB] at e
  exact e

/-- Region 2's output: the second hidden array times the padded weights, plus the zero row. -/
theorem xw_eq (n : Fin 10240) (f : Fin 128) :
    aXW m c (ix2 n f) = (∑ k : Fin 768, aH2 m c (ix2 n k) * aW3 m c (ix2 k f)) + aZ m c (ix2 0 f) := by
  show (W13 m c main_v61 : Vec Ideal S10240x128 .bf16) (ix2 n f) = _
  rw [W13_out]
  have e := val2 (E12 m) c n f
  have eX : arrX2 (E12 m) c = aH2 m c := W12_of m c main_v59 (by decide)
  have eW : arrW2 (E12 m) c = aW3 m c :=
    (W12_of m c main_v53 (by decide)).trans ((W11_of m c main_v53 (by decide)).trans (W10_of m c main_v53 (by decide)))
  rw [eX, eW] at e
  exact e

/-- Region 3's output: the adjacency times region 2's output, plus the padded bias row. -/
theorem out_eq (n : Fin 10240) (f : Fin 128) :
    aOut m c (ix2 n f) = (∑ j : Fin 10240, aA m c (ix2 n j) * aXW m c (ix2 j f)) + aB3 m c (ix2 0 f) := by
  show (W14 m c main_v62 : Vec Ideal S10240x128 .f32) (ix2 n f) = _
  rw [W14_out]
  have e := val3 (E13 m) c n f
  have eA : arrA3 (E13 m) c = aA m c :=
    (W13_of m c main_v47 (by decide)).trans ((W12_of m c main_v47 (by decide)).trans ((W11_of m c main_v47 (by decide)).trans (W10_of m c main_v47 (by decide))))
  have eB : arrB3 (E13 m) c = aB3 m c :=
    (W13_of m c main_v57 (by decide)).trans ((W12_of m c main_v57 (by decide)).trans ((W11_of m c main_v57 (by decide)).trans (W10_of m c main_v57 (by decide))))
  rw [eA, eB] at e
  exact e

/-- THE KERNEL'S RESULT. Given the adjacency as a padded dense adjacency of the edge list, the padded inputs as casts of real data, the zero row
    and the last stretch as a slice, the result at (n, f) is the cast of the three-layer network. -/
theorem kernel_value {E : ℕ} (row col : Fin E → Fin 10000) (nrm : Fin E → ℝ)
    (hA : IsPaddedAdj row col nrm (by norm_num : 10000 ≤ 10240) (fun n j => aA m c (ix2 n j)))
    (xr : Fin 10000 → Fin 256 → ℝ) (W1 : Fin 256 → Fin 512 → ℝ) (b1 : Fin 512 → ℝ) (W2 : Fin 512 → Fin 768 → ℝ) (b2 : Fin 768 → ℝ)
    (W3 : Fin 768 → Fin 8 → ℝ) (b3 : Fin 8 → ℝ)
    (hxp : ∀ (j : Fin 10240) (hj : j.val < 10000) (k : Fin 256), aX m c (ix2 j k) = ((xr ⟨j.val, hj⟩ k : ℝ) : EReal))
    (hW1 : ∀ k f, aW1 m c (ix2 k f) = ((W1 k f : ℝ) : EReal)) (hb1 : ∀ f, aB1 m c (ix2 0 f) = ((b1 f : ℝ) : EReal))
    (hW2 : ∀ k f, aW2 m c (ix2 k f) = ((W2 k f : ℝ) : EReal)) (hb2 : ∀ f, aB2 m c (ix2 0 f) = ((b2 f : ℝ) : EReal))
    (hW3 : ∀ k (f : Fin 128) (hf : f.val < 8), aW3 m c (ix2 k f) = ((W3 k ⟨f.val, hf⟩ : ℝ) : EReal))
    (hz : ∀ f : Fin 128, aZ m c (ix2 0 f) = 0)
    (hb3 : ∀ (f : Fin 128) (hf : f.val < 8), aB3 m c (ix2 0 f) = ((b3 ⟨f.val, hf⟩ : ℝ) : EReal))
    (hsl : ∀ (n : Fin 10000) (f : Fin 8), aRes m c (ix2 n f) = aOut m c (ix2 ⟨n.val, by omega⟩ ⟨f.val, by omega⟩))
    (n : Fin 10000) (f : Fin 8) :
    aRes m c (ix2 n f) = ((netR row col nrm xr W1 b1 W2 b2 W3 b3 n f : ℝ) : EReal) := by
  rw [hsl]
  exact dense_net row col nrm (fun n j => aA m c (ix2 n j)) hA xr W1 b1 W2 b2 W3 b3
    (fun j k => aX m c (ix2 j k)) hxp (fun k f => aW1 m c (ix2 k f)) hW1 (fun f => aB1 m c (ix2 0 f)) hb1
    (fun n f => aH1 m c (ix2 n f)) (h1_eq m c)
    (fun k f => aW2 m c (ix2 k f)) hW2 (fun f => aB2 m c (ix2 0 f)) hb2
    (fun n f => aH2 m c (ix2 n f)) (h2_eq m c)
    (fun k f => aW3 m c (ix2 k f)) hW3 (fun f => aZ m c (ix2 0 f)) hz
    (fun n f => aXW m c (ix2 n f)) (xw_eq m c)
    (fun f => aB3 m c (ix2 0 f)) hb3
    (fun n f => aOut m c (ix2 n f)) (out_eq m c) n f

end Cert.KernelIdeal.HandVal

end
-- ==== Proof.LibGraphOps.lean ====
/-
  Table lookups and accumulating scatters along one index column, read at an index.

  `E` index words sit in a column `idx : [E, 1]`.
  * A lookup of rows of a table `[N, C]` (or of entries of a vector `[N]`) at those words returns, at `(e, c)`, the
    table's row `min (idx[e,0] read signed, negatives to 0) (N - 1)`, column `c`.
  * An accumulating scatter of updates `[E, C]` (or `[E]`) into `[N, C]` (or `[N]`) adds, at `(n, c)`, the updates
    `(k, c)` of exactly those `k` whose word reads `n` signed; over the extended reals the result is the operand's
    element plus that sum, written here as a sum over all `k` of "the update if the word reads `n`, else zero".
  Stated for every `N`, `E` and `C`.
-/
import Idealize.ShloMosaic.PureOps.Ideal
import Idealize.ShloMosaic.PureOps.Contract
import Idealize.ShloMosaic.Lib.ValueIdx

noncomputable section

namespace Cert.Bridge.GraphOps

open Idealize.ShloMosaic Idealize.ShloMosaic.ValueIdx
open scoped BigOperators

variable {N E C : ℕ}

/-- The vector scatter's dimension numbers: no window axis, the one operand axis inserted and indexed. -/
abbrev scatFlat (wf : ScatterDims.WF ⟨1, ![N]⟩ ⟨2, ![E, 1]⟩ ⟨1, ![E]⟩ [] [0] [0] 1) :
    ScatterDims ⟨1, ![N]⟩ ⟨2, ![E, 1]⟩ ⟨1, ![E]⟩ := ⟨[], [0], [0], 1, wf⟩

/-- The row scatter's dimension numbers: the column axis a window axis, the row axis inserted and indexed. -/
abbrev scatRows (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ := ⟨[1], [0], [0], 1, wf⟩

/-- The vector lookup's dimension numbers. -/
abbrev gathFlat (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ := ⟨[], [0], [], [], [0], 1, ![1], wf⟩

/-- The row lookup's dimension numbers: whole rows of width `C`. -/
abbrev gathRows (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ := ⟨[1], [0], [], [], [0], 1, ![1, C], wf⟩

/-! ## A rank-1 index is its one coordinate -/

/-- A rank-1 index is its coordinate. -/
def idxEquiv1 {n : ℕ} : (⟨1, ![n]⟩ : Shape).Idx ≃ Fin n where
  toFun j := j 0
  invFun e := ix1 e
  left_inv j := (eq_ix1 j).symm
  right_inv _ := rfl

/-- … so a sum over rank-1 indices is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-! ## Where an update starts and which window coordinate it carries -/

theorem scatFlat_start (wf) {w : ℕ} (e : Fin E) (idx : IVec ⟨2, ![E, 1]⟩ w) (a : Fin 1) :
    (scatFlat (N := N) (E := E) wf).start (ix1 e) idx a = (idx (ix2 e (0 : Fin 1))).toInt := by
  match a with
  | ⟨0, h0⟩ =>
    unfold ScatterDims.start
    rw [dif_pos (show (⟨0, h0⟩ : Fin 1) ∈ (scatFlat (N := N) (E := E) wf).scatterDimsToOperandDims from
      List.mem_singleton.2 rfl)]
    refine congrArg (fun k => (idx k).toInt) (funext fun b => ?_)
    match b with
    | ⟨0, _⟩ => exact Fin.ext rfl
    | ⟨1, _⟩ => exact Fin.ext rfl

theorem scatFlat_window (wf) (e : Fin E) (a : Fin 1) :
    (scatFlat (N := N) (E := E) wf).window (ix1 e) a = 0 := by
  match a with
  | ⟨0, _⟩ => rfl

theorem scatRows_start_0 (wf) {w : ℕ} (e : Fin E) (z : Fin C) (idx : IVec ⟨2, ![E, 1]⟩ w) :
    (scatRows (N := N) (E := E) (C := C) wf).start (ix2 e z) idx (0 : Fin 2) = (idx (ix2 e (0 : Fin 1))).toInt := by
  unfold ScatterDims.start
  rw [dif_pos (show (0 : Fin 2) ∈ (scatRows (N := N) (E := E) (C := C) wf).scatterDimsToOperandDims from
    List.mem_singleton.2 rfl)]
  refine congrArg (fun k => (idx k).toInt) (funext fun b => ?_)
  match b with
  | ⟨0, _⟩ => exact Fin.ext rfl
  | ⟨1, _⟩ => exact Fin.ext rfl

theorem scatRows_start_1 (wf) {w : ℕ} (e : Fin E) (z : Fin C) (idx : IVec ⟨2, ![E, 1]⟩ w) :
    (scatRows (N := N) (E := E) (C := C) wf).start (ix2 e z) idx (1 : Fin 2) = 0 := by
  unfold ScatterDims.start
  rw [dif_neg (show ¬ (1 : Fin 2) ∈ (scatRows (N := N) (E := E) (C := C) wf).scatterDimsToOperandDims from by
    intro h; exact Nat.one_ne_zero (congrArg Fin.val (List.mem_singleton.1 h)))]

theorem scatRows_window_0 (wf) (e : Fin E) (z : Fin C) :
    (scatRows (N := N) (E := E) (C := C) wf).window (ix2 e z) (0 : Fin 2) = 0 := rfl
theorem scatRows_window_1 (wf) (e : Fin E) (z : Fin C) :
    (scatRows (N := N) (E := E) (C := C) wf).window (ix2 e z) (1 : Fin 2) = z.val := rfl

/-! ## Where an update lands -/

/-- The vector scatter lands update `e` on place `n` exactly when its index word reads `n`. -/
theorem scatFlat_lands (wf) {w : ℕ} (e : Fin E) (idx : IVec ⟨2, ![E, 1]⟩ w) (n : Fin N) :
    (scatFlat (N := N) (E := E) wf).resultIdx? (ix1 e) idx = some (ix1 n)
      ↔ (idx (ix2 e (0 : Fin 1))).toInt = (n.val : ℤ) := by
  unfold ScatterDims.resultIdx?
  constructor
  · intro h
    split at h
    · have hv := congrArg Fin.val (congrFun (Option.some.inj h) (0 : Fin 1))
      have hv' : ((scatFlat (N := N) (E := E) wf).start (ix1 e) idx 0
          + ((scatFlat (N := N) (E := E) wf).window (ix1 e) 0 : ℤ)).toNat = n.val := hv
      rename_i hc
      have h0 := (hc (0 : Fin 1)).1
      rw [scatFlat_start, scatFlat_window] at hv' h0
      omega
    · exact absurd h (by simp)
  · intro h
    have hc : ∀ a, 0 ≤ (scatFlat (N := N) (E := E) wf).start (ix1 e) idx a
          + ((scatFlat (N := N) (E := E) wf).window (ix1 e) a : ℤ) ∧
        (scatFlat (N := N) (E := E) wf).start (ix1 e) idx a
          + ((scatFlat (N := N) (E := E) wf).window (ix1 e) a : ℤ) < ((⟨1, ![N]⟩ : Shape).size a : ℤ) := by
      intro a
      rw [scatFlat_start, scatFlat_window, h]
      match a with
      | ⟨0, _⟩ =>
        have := n.isLt
        show (0 : ℤ) ≤ (n.val : ℤ) + ((0 : ℕ) : ℤ) ∧ (n.val : ℤ) + ((0 : ℕ) : ℤ) < (N : ℤ)
        omega
    rw [dif_pos hc]
    refine congrArg some (funext fun a => Fin.ext ?_)
    match a with
    | ⟨0, _⟩ =>
      show ((scatFlat (N := N) (E := E) wf).start (ix1 e) idx 0
        + ((scatFlat (N := N) (E := E) wf).window (ix1 e) 0 : ℤ)).toNat = n.val
      rw [scatFlat_start, scatFlat_window, h]
      omega

/-- The row scatter lands update `(e, z)` on place `(n, c)` exactly when the index word reads `n` and `z = c`. -/
theorem scatRows_lands (wf) {w : ℕ} (e : Fin E) (z : Fin C) (idx : IVec ⟨2, ![E, 1]⟩ w) (n : Fin N) (c : Fin C) :
    (scatRows (N := N) (E := E) (C := C) wf).resultIdx? (ix2 e z) idx = some (ix2 n c)
      ↔ (idx (ix2 e (0 : Fin 1))).toInt = (n.val : ℤ) ∧ z = c := by
  unfold ScatterDims.resultIdx?
  constructor
  · intro h
    split at h
    · have hv0 := congrArg Fin.val (congrFun (Option.some.inj h) (0 : Fin 2))
      have hv1 := congrArg Fin.val (congrFun (Option.some.inj h) (1 : Fin 2))
      have hv0' : ((scatRows (N := N) (E := E) (C := C) wf).start (ix2 e z) idx 0
          + ((scatRows (N := N) (E := E) (C := C) wf).window (ix2 e z) 0 : ℤ)).toNat = n.val := hv0
      have hv1' : ((scatRows (N := N) (E := E) (C := C) wf).start (ix2 e z) idx 1
          + ((scatRows (N := N) (E := E) (C := C) wf).window (ix2 e z) 1 : ℤ)).toNat = c.val := hv1
      rename_i hc
      have h0 := (hc (0 : Fin 2)).1
      rw [scatRows_start_0, scatRows_window_0] at hv0' h0
      rw [scatRows_start_1, scatRows_window_1] at hv1'
      refine ⟨by omega, Fin.ext (by omega)⟩
    · exact absurd h (by simp)
  · rintro ⟨h, rfl⟩
    have hc : ∀ a, 0 ≤ (scatRows (N := N) (E := E) (C := C) wf).start (ix2 e z) idx a
          + ((scatRows (N := N) (E := E) (C := C) wf).window (ix2 e z) a : ℤ) ∧
        (scatRows (N := N) (E := E) (C := C) wf).start (ix2 e z) idx a
          + ((scatRows (N := N) (E := E) (C := C) wf).window (ix2 e z) a : ℤ)
          < ((⟨2, ![N, C]⟩ : Shape).size a : ℤ) := by
      intro a
      match a with
      | ⟨0, _⟩ =>
        show 0 ≤ (scatRows (N := N) (E := E) (C := C) wf).start (ix2 e z) idx 0
            + ((scatRows (N := N) (E := E) (C := C) wf).window (ix2 e z) 0 : ℤ) ∧
          (scatRows (N := N) (E := E) (C := C) wf).start (ix2 e z) idx 0
            + ((scatRows (N := N) (E := E) (C := C) wf).window (ix2 e z) 0 : ℤ) < (N : ℤ)
        rw [scatRows_start_0, scatRows_window_0, h]
        have := n.isLt
        omega
      | ⟨1, _⟩ =>
        show 0 ≤ (scatRows (N := N) (E := E) (C := C) wf).start (ix2 e z) idx 1
            + ((scatRows (N := N) (E := E) (C := C) wf).window (ix2 e z) 1 : ℤ) ∧
          (scatRows (N := N) (E := E) (C := C) wf).start (ix2 e z) idx 1
            + ((scatRows (N := N) (E := E) (C := C) wf).window (ix2 e z) 1 : ℤ) < (C : ℤ)
        rw [scatRows_start_1, scatRows_window_1]
        have := z.isLt
        omega
    rw [dif_pos hc]
    refine congrArg some (funext fun a => Fin.ext ?_)
    match a with
    | ⟨0, _⟩ =>
      show ((scatRows (N := N) (E := E) (C := C) wf).start (ix2 e z) idx 0
        + ((scatRows (N := N) (E := E) (C := C) wf).window (ix2 e z) 0 : ℤ)).toNat = n.val
      rw [scatRows_start_0, scatRows_window_0, h]
      omega
    | ⟨1, _⟩ =>
      show ((scatRows (N := N) (E := E) (C := C) wf).start (ix2 e z) idx 1
        + ((scatRows (N := N) (E := E) (C := C) wf).window (ix2 e z) 1 : ℤ)).toNat = z.val
      rw [scatRows_start_1, scatRows_window_1]
      omega

/-! ## The scatters read at an index -/

/-- The vector scatter at `n`: the operand's entry plus the updates of the words that read `n`. -/
theorem scatterAdd_flat_apply (wf) {w : ℕ} (x : (⟨1, ![N]⟩ : Shape).Idx → EReal) (idx : IVec ⟨2, ![E, 1]⟩ w)
    (upd : (⟨1, ![E]⟩ : Shape).Idx → EReal) (n : Fin N) :
    Ideal.hostScatterAdd (scatFlat (N := N) (E := E) wf) x idx upd (ix1 n)
      = x (ix1 n) + ∑ k : Fin E, if (idx (ix2 k (0 : Fin 1))).toInt = (n.val : ℤ) then upd (ix1 k) else 0 := by
  unfold Ideal.hostScatterAdd
  rw [Finset.sum_filter, sum_idx1]
  refine congrArg (x (ix1 n) + ·) (Finset.sum_congr rfl fun k _ => ?_)
  exact if_congr (scatFlat_lands wf k idx n) rfl rfl

/-- The row scatter at `(n, c)`: the operand's entry plus the updates `(k, c)` of the words that read `n`. -/
theorem scatterAdd_rows_apply (wf) {w : ℕ} (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (scatRows (N := N) (E := E) (C := C) wf) x idx upd (ix2 n c)
      = x (ix2 n c) + ∑ k : Fin E, if (idx (ix2 k (0 : Fin 1))).toInt = (n.val : ℤ) then upd (ix2 k c) else 0 := by
  unfold Ideal.hostScatterAdd
  rw [Finset.sum_filter, sum_idx2]
  refine congrArg (x (ix2 n c) + ·) (Finset.sum_congr rfl fun k _ => ?_)
  by_cases hk : (idx (ix2 k (0 : Fin 1))).toInt = (n.val : ℤ)
  · rw [if_pos hk]
    have : ∀ z : Fin C, (if (scatRows (N := N) (E := E) (C := C) wf).resultIdx? (ix2 k z) idx = some (ix2 n c)
        then upd (ix2 k z) else 0) = if z = c then upd (ix2 k z) else 0 := fun z =>
      if_congr ((scatRows_lands wf k z idx n c).trans (and_iff_right hk)) rfl rfl
    rw [Finset.sum_congr rfl fun z _ => this z, Finset.sum_ite_eq' Finset.univ c, if_pos (Finset.mem_univ c)]
  · rw [if_neg hk]
    refine Finset.sum_eq_zero fun z _ => ?_
    exact if_neg fun h => hk ((scatRows_lands wf k z idx n c).1 h).1

/-! ## The lookups read at an index -/

/-- The vector lookup at `e`: the entry at the word read signed and clamped into `0 … N-1`. -/
theorem gather_flat_apply {α : Type} (hN : 0 < N) (wf) {w : ℕ} (x : (⟨1, ![N]⟩ : Shape).Idx → α)
    (idx : IVec ⟨2, ![E, 1]⟩ w) (e : Fin E) :
    Host.gather (gathFlat (N := N) (E := E) wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (gathFlat (N := N) (E := E) wf).start (ix1 e) idx 0 + (gathFlat (N := N) (E := E) wf).batchCoord (ix1 e) 0
    + (gathFlat (N := N) (E := E) wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gathFlat (N := N) (E := E) wf).startIndexMap from List.mem_singleton.mpr rfl)]
  have hsi : (gathFlat (N := N) (E := E) wf).siIdx (ix1 e)
      ⟨List.idxOf (0 : Fin 1) (gathFlat (N := N) (E := E) wf).startIndexMap,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The row lookup at `(e, c)`: column `c` of the row at the word read signed and clamped into `0 … N-1`. -/
theorem gather_rows_apply {α : Type} (hN : 0 < N) (wf) {w : ℕ} (x : (⟨2, ![N, C]⟩ : Shape).Idx → α)
    (idx : IVec ⟨2, ![E, 1]⟩ w) (e : Fin E) (c : Fin C) :
    Host.gather (gathRows (N := N) (E := E) (C := C) wf) x idx (ix2 e c)
      = x (ix2 ⟨min (idx (ix2 e (0 : Fin 1))).toInt.toNat (N - 1), by omega⟩ c) := by
  unfold Host.gather
  congr 1
  funext a
  refine Fin.ext ?_
  match a with
  | ⟨0, _⟩ =>
    show (gathRows (N := N) (E := E) (C := C) wf).start (ix2 e c) idx 0
      + (gathRows (N := N) (E := E) (C := C) wf).batchCoord (ix2 e c) 0
      + (gathRows (N := N) (E := E) (C := C) wf).offCoord (ix2 e c) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gathRows (N := N) (E := E) (C := C) wf).startIndexMap from
      List.mem_singleton.mpr rfl)]
    have hsi : (gathRows (N := N) (E := E) (C := C) wf).siIdx (ix2 e c)
        ⟨List.idxOf (0 : Fin 2) (gathRows (N := N) (E := E) (C := C) wf).startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gathRows (N := N) (E := E) (C := C) wf).start (ix2 e c) idx 1
      + (gathRows (N := N) (E := E) (C := C) wf).batchCoord (ix2 e c) 1
      + (gathRows (N := N) (E := E) (C := C) wf).offCoord (ix2 e c) 1 = c.val
    rw [GatherDims.batchCoord_eq_zero _ _ _ List.not_mem_nil]
    have hs : (gathRows (N := N) (E := E) (C := C) wf).start (ix2 e c) idx 1 = 0 := by
      unfold GatherDims.start
      rw [dif_neg (show ¬ (1 : Fin 2) ∈ (gathRows (N := N) (E := E) (C := C) wf).startIndexMap from by
        intro h; exact Nat.one_ne_zero (congrArg Fin.val (List.mem_singleton.1 h)))]
    have ho : (gathRows (N := N) (E := E) (C := C) wf).offCoord (ix2 e c) 1 = c.val := rfl
    rw [hs, ho]
    omega

/-- A finite sum of reals, seen in the extended reals, is the sum of the terms seen there. -/
theorem coe_sum {ι : Type} (s : Finset ι) (f : ι → ℝ) : ((∑ i ∈ s, f i : ℝ) : EReal) = ∑ i ∈ s, (f i : EReal) := by
  classical
  refine Finset.induction_on s ?_ ?_
  · simp
  · intro a t ha ih
    rw [Finset.sum_insert ha, Finset.sum_insert ha, EReal.coe_add, ih]

end Cert.Bridge.GraphOps

end
-- ==== Proof.Ref.Defs.lean ====
/-
  The reference program's three graph layers, read at an index.

  Each layer of the reference is: multiply the previous array by a weight matrix, look the product's rows up at the
  source node of every edge, scale each looked-up row by the edge's normalisation weight, add the scaled rows into the
  row of the edge's target node, and add the bias.  This module names the three pieces of the shared prefix that the
  layers use and never open (the target-node word of an edge, the source-node word after the negative-index
  selection, and the normalisation weight), and the value of one layer at a place `(n, f)` as a sum over the edges.
-/
import proofs.«179401_j66675072303277_2_alg».proof.Proof.Gen.ReferenceIdeal.Read
import proofs.«179401_j66675072303277_2_alg».proof.Proof.LibGraphOps

noncomputable section

namespace Cert.RefSide

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx Cert.Bridge.GraphOps
open scoped BigOperators

/-- The edge list argument: two rows of `320000` node words. -/
abbrev EdgeIndex := (⟨S2x320000, .i32⟩ : BufTy).Contents (Elt Ideal)
/-- The edge weight argument. -/
abbrev EdgeWeights := (⟨S320000, .f32⟩ : BufTy).Contents (Elt Ideal)

/-- The target-node word of edge `e` (the edge list's second row, then one self loop per node). -/
def colWord (x1 : EdgeIndex) (e : Fin 330000) : BitVec 32 := val_main_v6 (F := Ideal) x1 (ix1 e)

/-- The source-node word of edge `e` (first row, then the self loops) after the selection that adds the node count
    to a negative word. -/
def rowSel (x1 : EdgeIndex) (e : Fin 330000) : BitVec 32 := val_main_v38 (F := Ideal) x1 (ix1 e)

/-- The row a lookup at the source-node word of edge `e` reads: the word read signed, clamped into `0 … 9999`. -/
def rowClamp (x1 : EdgeIndex) (e : Fin 330000) : Fin 10000 :=
  ⟨min (rowSel x1 e).toInt.toNat (10000 - 1), by omega⟩

/-- The normalisation weight of edge `e`. -/
def norm (x1 : EdgeIndex) (x2 : EdgeWeights) (e : Fin 330000) : EReal := val_main_v31 (F := Ideal) x1 x2 (ix1 e)

/-- One layer at place `(n, f)`: zero plus, over the edges whose target word reads `n`, the edge's weight times
    the source row of `X · W` at column `f`; plus the bias. -/
def layer {Fi Fo : ℕ} (x1 : EdgeIndex) (x2 : EdgeWeights) (X : (⟨2, ![10000, Fi]⟩ : Shape).Idx → EReal)
    (W : (⟨2, ![Fi, Fo]⟩ : Shape).Idx → EReal) (b : (⟨1, ![Fo]⟩ : Shape).Idx → EReal) (n : Fin 10000) (f : Fin Fo) :
    EReal :=
  (0 + ∑ e : Fin 330000, if (colWord x1 e).toInt = (n.val : ℤ)
      then norm x1 x2 e * (∑ k : Fin Fi, X (ix2 (rowClamp x1 e) k) * W (ix2 k f)) else 0) + b (ix1 f)

theorem layer_def {Fi Fo : ℕ} (x1 : EdgeIndex) (x2 : EdgeWeights) (X : (⟨2, ![10000, Fi]⟩ : Shape).Idx → EReal)
    (W : (⟨2, ![Fi, Fo]⟩ : Shape).Idx → EReal) (b : (⟨1, ![Fo]⟩ : Shape).Idx → EReal) (n : Fin 10000) (f : Fin Fo) :
    layer x1 x2 X W b n f
      = (0 + ∑ e : Fin 330000, if (colWord x1 e).toInt = (n.val : ℤ)
          then norm x1 x2 e * (∑ k : Fin Fi, X (ix2 (rowClamp x1 e) k) * W (ix2 k f)) else 0) + b (ix1 f) := rfl

end Cert.RefSide

end
-- ==== Proof.Ref.Layer1.lean ====
/-
  The first layer of the reference, read at an index: the value before the bias-and-maximum step's maximum
  (`val_main_v48`) at place `(n, f)` is `layer` of the input array, the first weight matrix and the first bias;
  the step after it (`val_main_v49`) is its maximum with zero.
-/
import proofs.«179401_j66675072303277_2_alg».proof.Proof.Ref.Defs

noncomputable section

namespace Cert.RefSide

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx Cert.Bridge.GraphOps
open scoped BigOperators

/-- The printed row-scatter record of width 512 is the library's. -/
theorem scat512_eq : scatter_S10000x512_S330000x1_S330000x512_1_0_0_1
    = scatRows (N := 10000) (E := 330000) (C := 512) Facts₀.scatter_S10000x512_S330000x1_S330000x512_1_0_0_1_wf := rfl

/-- The printed row-lookup record of width 512 is the library's. -/
theorem gath512_eq : gather_S10000x512_S330000x1_S330000x512_1_0_n_n_0_1_1512
    = gathRows (N := 10000) (E := 330000) (C := 512) Facts₀.gather_S10000x512_S330000x1_S330000x512_1_0_n_n_0_1_1512_wf := rfl

/-- The first layer before its maximum, at place `(n, f)`. -/
theorem layer1_apply (x0 : (⟨S10000x256, .f32⟩ : BufTy).Contents (Elt Ideal)) (x1 : EdgeIndex) (x2 : EdgeWeights)
    (x3 : (⟨S256x512, .f32⟩ : BufTy).Contents (Elt Ideal)) (x4 : (⟨S512, .f32⟩ : BufTy).Contents (Elt Ideal))
    (n : Fin 10000) (f : Fin 512) :
    val_main_v48 (F := Ideal) x0 x1 x2 x3 x4 (ix2 n f) = layer (Fi := 256) (Fo := 512) x1 x2 x0 x3 x4 n f := by
  rw [layer_def, val_main_v48_apply]
  show val_main_v45 (F := Ideal) x0 x1 x2 x3 (ix2 n f) + val_main_v47 (F := Ideal) x4 (ix2 n f) = _
  have hb : val_main_v47 (F := Ideal) x4 (ix2 n f) = x4 (ix1 f) := by
    rw [val_main_v47_apply, val_main_v46_apply]
    exact congrArg x4 (funext fun a => match a with | ⟨0, _⟩ => rfl)
  rw [hb]
  refine congrArg (· + x4 (ix1 f)) ?_
  unfold val_main_v45
  show Ideal.hostScatterAdd scatter_S10000x512_S330000x1_S330000x512_1_0_0_1 (val_main_v43 (F := Ideal))
    (val_main_v44 (F := Ideal) x1) (val_main_v42 (F := Ideal) x0 x1 x2 x3) (ix2 n f) = _
  rw [scat512_eq, scatterAdd_rows_apply]
  have hz : val_main_v43 (F := Ideal) (ix2 n f) = 0 := by
    rw [val_main_v43_apply, val_main_cst_8_apply]
    exact Ideal.ofBits_zero_f32
  rw [hz]
  refine congrArg (0 + ·) (Finset.sum_congr rfl fun e _ => ?_)
  have hc : val_main_v44 (F := Ideal) x1 (ix2 e (0 : Fin 1)) = colWord x1 e := by
    rw [val_main_v44_apply]
    exact congrArg (val_main_v6 (F := Ideal) x1) (funext fun a => match a with | ⟨0, _⟩ => rfl)
  rw [hc]
  refine if_congr Iff.rfl ?_ rfl
  rw [val_main_v42_apply]
  show val_main_v41 (F := Ideal) x1 x2 (ix2 e f) * val_main_v40 (F := Ideal) x0 x1 x3 (ix2 e f) = _
  have hn : val_main_v41 (F := Ideal) x1 x2 (ix2 e f) = norm x1 x2 e := by
    rw [val_main_v41_apply, val_main_v33_apply]
    exact congrArg (val_main_v31 (F := Ideal) x1 x2) (funext fun a => match a with | ⟨0, _⟩ => rfl)
  rw [hn]
  refine congrArg (norm x1 x2 e * ·) ?_
  unfold val_main_v40
  rw [gath512_eq, gather_rows_apply (by decide)]
  have hr : val_main_v39 (F := Ideal) x1 (ix2 e (0 : Fin 1)) = rowSel x1 e := by
    rw [val_main_v39_apply]
    exact congrArg (val_main_v38 (F := Ideal) x1) (funext fun a => match a with | ⟨0, _⟩ => rfl)
  have hrow : (⟨min (val_main_v39 (F := Ideal) x1 (ix2 e (0 : Fin 1))).toInt.toNat (10000 - 1), by omega⟩ : Fin 10000)
      = rowClamp x1 e := Fin.ext (by show min _ _ = min _ _; rw [hr])
  rw [hrow, val_main_v32_apply]
  refine Finset.sum_congr rfl fun k _ => ?_
  have el : lidx_main_v32 (ix2 (rowClamp x1 e) f) k = ix2 (rowClamp x1 e) k :=
    funext fun a => match a with | ⟨0, _⟩ => rfl | ⟨1, _⟩ => rfl
  have er : ridx_main_v32 (ix2 (rowClamp x1 e) f) k = ix2 k f :=
    funext fun a => match a with | ⟨0, _⟩ => rfl | ⟨1, _⟩ => rfl
  rw [el, er]

/-- The first layer's result: the maximum of the layer's sum with zero. -/
theorem relu1_apply (x0 : (⟨S10000x256, .f32⟩ : BufTy).Contents (Elt Ideal)) (x1 : EdgeIndex) (x2 : EdgeWeights)
    (x3 : (⟨S256x512, .f32⟩ : BufTy).Contents (Elt Ideal)) (x4 : (⟨S512, .f32⟩ : BufTy).Contents (Elt Ideal))
    (i : S10000x512.Idx) :
    val_main_v49 (F := Ideal) x0 x1 x2 x3 x4 i = max (val_main_v48 (F := Ideal) x0 x1 x2 x3 x4 i) 0 := by
  rw [val_main_v49_apply, val_main_call1_v0_apply, val_main_call1_cst_apply]
  show max _ (Ideal.ofBits .f32 0x00000000#32) = _
  rw [Ideal.ofBits_zero_f32]

end Cert.RefSide

end
-- ==== Proof.Ref.Prefix.lean ====
/-
  The reference recomputes the shared prefix (the edge words with the self loops appended, the degrees, the
  normalisation weights) before each of its three layers.  The three copies are the same expressions of the same two
  arguments, so the second and third copies of the target words, of the selected source words and of the
  normalisation weights are the first copy's.
-/
import proofs.«179401_j66675072303277_2_alg».proof.Proof.Ref.Defs

noncomputable section

namespace Cert.RefSide

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx Cert.Bridge.GraphOps
open scoped BigOperators

/-- The second layer's target words are the first's. -/
theorem col2_eq (x1 : EdgeIndex) : val_main_v56 (F := Ideal) x1 = val_main_v6 (F := Ideal) x1 := rfl
/-- The second layer's selected source words are the first's. -/
theorem rowSel2_eq (x1 : EdgeIndex) : val_main_v88 (F := Ideal) x1 = val_main_v38 (F := Ideal) x1 := rfl
/-- The second layer's normalisation weights are the first's. -/
theorem norm2_eq (x1 : EdgeIndex) (x2 : EdgeWeights) :
    val_main_v81 (F := Ideal) x1 x2 = val_main_v31 (F := Ideal) x1 x2 := rfl
/-- The third layer's target words are the first's. -/
theorem col3_eq (x1 : EdgeIndex) : val_main_v106 (F := Ideal) x1 = val_main_v6 (F := Ideal) x1 := rfl
/-- The third layer's selected source words are the first's. -/
theorem rowSel3_eq (x1 : EdgeIndex) : val_main_v138 (F := Ideal) x1 = val_main_v38 (F := Ideal) x1 := rfl
/-- The third layer's normalisation weights are the first's. -/
theorem norm3_eq (x1 : EdgeIndex) (x2 : EdgeWeights) :
    val_main_v131 (F := Ideal) x1 x2 = val_main_v31 (F := Ideal) x1 x2 := rfl

end Cert.RefSide

end
-- ==== Proof.Ref.Layer2.lean ====
/-
  The second layer of the reference, read at an index: the value before the maximum (`val_main_v98`) at place
  `(n, f)` is `layer` of the first layer's result, the second weight matrix and the second bias; the step after it
  (`val_main_v99`) is its maximum with zero.
-/
import proofs.«179401_j66675072303277_2_alg».proof.Proof.Ref.Defs
import proofs.«179401_j66675072303277_2_alg».proof.Proof.Ref.Prefix

noncomputable section

namespace Cert.RefSide

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx Cert.Bridge.GraphOps
open scoped BigOperators

/-- The printed row-scatter record of width 768 is the library's. -/
theorem scat768_eq : scatter_S10000x768_S330000x1_S330000x768_1_0_0_1
    = scatRows (N := 10000) (E := 330000) (C := 768) Facts₀.scatter_S10000x768_S330000x1_S330000x768_1_0_0_1_wf := rfl

/-- The printed row-lookup record of width 768 is the library's. -/
theorem gath768_eq : gather_S10000x768_S330000x1_S330000x768_1_0_n_n_0_1_1768
    = gathRows (N := 10000) (E := 330000) (C := 768) Facts₀.gather_S10000x768_S330000x1_S330000x768_1_0_n_n_0_1_1768_wf := rfl

/-- The second layer before its maximum, at place `(n, f)`. -/
theorem layer2_apply (x0 : (⟨S10000x256, .f32⟩ : BufTy).Contents (Elt Ideal)) (x1 : EdgeIndex) (x2 : EdgeWeights)
    (x3 : (⟨S256x512, .f32⟩ : BufTy).Contents (Elt Ideal)) (x4 : (⟨S512, .f32⟩ : BufTy).Contents (Elt Ideal))
    (x5 : (⟨S512x768, .f32⟩ : BufTy).Contents (Elt Ideal)) (x6 : (⟨S768, .f32⟩ : BufTy).Contents (Elt Ideal))
    (n : Fin 10000) (f : Fin 768) :
    val_main_v98 (F := Ideal) x0 x1 x2 x3 x4 x5 x6 (ix2 n f)
      = layer (Fi := 512) (Fo := 768) x1 x2 (val_main_v49 (F := Ideal) x0 x1 x2 x3 x4) x5 x6 n f := by
  rw [layer_def, val_main_v98_apply]
  show val_main_v95 (F := Ideal) x0 x1 x2 x3 x4 x5 (ix2 n f) + val_main_v97 (F := Ideal) x6 (ix2 n f) = _
  have hb : val_main_v97 (F := Ideal) x6 (ix2 n f) = x6 (ix1 f) := by
    rw [val_main_v97_apply, val_main_v96_apply]
    exact congrArg x6 (funext fun a => match a with | ⟨0, _⟩ => rfl)
  rw [hb]
  refine congrArg (· + x6 (ix1 f)) ?_
  unfold val_main_v95
  show Ideal.hostScatterAdd scatter_S10000x768_S330000x1_S330000x768_1_0_0_1 (val_main_v93 (F := Ideal))
    (val_main_v94 (F := Ideal) x1) (val_main_v92 (F := Ideal) x0 x1 x2 x3 x4 x5) (ix2 n f) = _
  rw [scat768_eq, scatterAdd_rows_apply]
  have hz : val_main_v93 (F := Ideal) (ix2 n f) = 0 := by
    rw [val_main_v93_apply, val_main_cst_19_apply]
    exact Ideal.ofBits_zero_f32
  rw [hz]
  refine congrArg (0 + ·) (Finset.sum_congr rfl fun e _ => ?_)
  have hc : val_main_v94 (F := Ideal) x1 (ix2 e (0 : Fin 1)) = colWord x1 e := by
    rw [val_main_v94_apply, col2_eq]
    exact congrArg (val_main_v6 (F := Ideal) x1) (funext fun a => match a with | ⟨0, _⟩ => rfl)
  rw [hc]
  refine if_congr Iff.rfl ?_ rfl
  rw [val_main_v92_apply]
  show val_main_v91 (F := Ideal) x1 x2 (ix2 e f) * val_main_v90 (F := Ideal) x0 x1 x2 x3 x4 x5 (ix2 e f) = _
  have hn : val_main_v91 (F := Ideal) x1 x2 (ix2 e f) = norm x1 x2 e := by
    rw [val_main_v91_apply, val_main_v83_apply, norm2_eq]
    exact congrArg (val_main_v31 (F := Ideal) x1 x2) (funext fun a => match a with | ⟨0, _⟩ => rfl)
  rw [hn]
  refine congrArg (norm x1 x2 e * ·) ?_
  unfold val_main_v90
  rw [gath768_eq, gather_rows_apply (by decide)]
  have hr : val_main_v89 (F := Ideal) x1 (ix2 e (0 : Fin 1)) = rowSel x1 e := by
    rw [val_main_v89_apply, rowSel2_eq]
    exact congrArg (val_main_v38 (F := Ideal) x1) (funext fun a => match a with | ⟨0, _⟩ => rfl)
  have hrow : (⟨min (val_main_v89 (F := Ideal) x1 (ix2 e (0 : Fin 1))).toInt.toNat (10000 - 1), by omega⟩ : Fin 10000)
      = rowClamp x1 e := Fin.ext (by show min _ _ = min _ _; rw [hr])
  rw [hrow, val_main_v82_apply]
  refine Finset.sum_congr rfl fun k _ => ?_
  have el : lidx_main_v82 (ix2 (rowClamp x1 e) f) k = ix2 (rowClamp x1 e) k :=
    funext fun a => match a with | ⟨0, _⟩ => rfl | ⟨1, _⟩ => rfl
  have er : ridx_main_v82 (ix2 (rowClamp x1 e) f) k = ix2 k f :=
    funext fun a => match a with | ⟨0, _⟩ => rfl | ⟨1, _⟩ => rfl
  rw [el, er]

/-- The second layer's result: the maximum of the layer's sum with zero. -/
theorem relu2_apply (x0 : (⟨S10000x256, .f32⟩ : BufTy).Contents (Elt Ideal)) (x1 : EdgeIndex) (x2 : EdgeWeights)
    (x3 : (⟨S256x512, .f32⟩ : BufTy).Contents (Elt Ideal)) (x4 : (⟨S512, .f32⟩ : BufTy).Contents (Elt Ideal))
    (x5 : (⟨S512x768, .f32⟩ : BufTy).Contents (Elt Ideal)) (x6 : (⟨S768, .f32⟩ : BufTy).Contents (Elt Ideal))
    (i : S10000x768.Idx) :
    val_main_v99 (F := Ideal) x0 x1 x2 x3 x4 x5 x6 i = max (val_main_v98 (F := Ideal) x0 x1 x2 x3 x4 x5 x6 i) 0 := by
  rw [val_main_v99_apply, val_main_call3_v0_apply, val_main_call3_cst_apply]
  show max _ (Ideal.ofBits .f32 0x00000000#32) = _
  rw [Ideal.ofBits_zero_f32]

end Cert.RefSide

end
-- ==== Proof.Ref.Layer3.lean ====
/-
  The third layer of the reference, read at an index: the program's result (`val_main_v148`) at place `(n, f)` is
  `layer` of the second layer's result, the third weight matrix and the third bias.
-/
import proofs.«179401_j66675072303277_2_alg».proof.Proof.Ref.Defs
import proofs.«179401_j66675072303277_2_alg».proof.Proof.Ref.Prefix

noncomputable section

namespace Cert.RefSide

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx Cert.Bridge.GraphOps
open scoped BigOperators

/-- The printed row-scatter record of width 8 is the library's. -/
theorem scat8_eq : scatter_S10000x8_S330000x1_S330000x8_1_0_0_1
    = scatRows (N := 10000) (E := 330000) (C := 8) Facts₀.scatter_S10000x8_S330000x1_S330000x8_1_0_0_1_wf := rfl

/-- The printed row-lookup record of width 8 is the library's. -/
theorem gath8_eq : gather_S10000x8_S330000x1_S330000x8_1_0_n_n_0_1_18
    = gathRows (N := 10000) (E := 330000) (C := 8) Facts₀.gather_S10000x8_S330000x1_S330000x8_1_0_n_n_0_1_18_wf := rfl

/-- The third layer, the program's result, at place `(n, f)`. -/
theorem layer3_apply (x0 : (⟨S10000x256, .f32⟩ : BufTy).Contents (Elt Ideal)) (x1 : EdgeIndex) (x2 : EdgeWeights)
    (x3 : (⟨S256x512, .f32⟩ : BufTy).Contents (Elt Ideal)) (x4 : (⟨S512, .f32⟩ : BufTy).Contents (Elt Ideal))
    (x5 : (⟨S512x768, .f32⟩ : BufTy).Contents (Elt Ideal)) (x6 : (⟨S768, .f32⟩ : BufTy).Contents (Elt Ideal))
    (x7 : (⟨S768x8, .f32⟩ : BufTy).Contents (Elt Ideal)) (x8 : (⟨S8, .f32⟩ : BufTy).Contents (Elt Ideal))
    (n : Fin 10000) (f : Fin 8) :
    val_main_v148 (F := Ideal) x0 x1 x2 x3 x4 x5 x6 x7 x8 (ix2 n f)
      = layer (Fi := 768) (Fo := 8) x1 x2 (val_main_v99 (F := Ideal) x0 x1 x2 x3 x4 x5 x6) x7 x8 n f := by
  rw [layer_def, val_main_v148_apply]
  show val_main_v145 (F := Ideal) x0 x1 x2 x3 x4 x5 x6 x7 (ix2 n f) + val_main_v147 (F := Ideal) x8 (ix2 n f) = _
  have hb : val_main_v147 (F := Ideal) x8 (ix2 n f) = x8 (ix1 f) := by
    rw [val_main_v147_apply, val_main_v146_apply]
    exact congrArg x8 (funext fun a => match a with | ⟨0, _⟩ => rfl)
  rw [hb]
  refine congrArg (· + x8 (ix1 f)) ?_
  unfold val_main_v145
  show Ideal.hostScatterAdd scatter_S10000x8_S330000x1_S330000x8_1_0_0_1 (val_main_v143 (F := Ideal))
    (val_main_v144 (F := Ideal) x1) (val_main_v142 (F := Ideal) x0 x1 x2 x3 x4 x5 x6 x7) (ix2 n f) = _
  rw [scat8_eq, scatterAdd_rows_apply]
  have hz : val_main_v143 (F := Ideal) (ix2 n f) = 0 := by
    rw [val_main_v143_apply, val_main_cst_30_apply]
    exact Ideal.ofBits_zero_f32
  rw [hz]
  refine congrArg (0 + ·) (Finset.sum_congr rfl fun e _ => ?_)
  have hc : val_main_v144 (F := Ideal) x1 (ix2 e (0 : Fin 1)) = colWord x1 e := by
    rw [val_main_v144_apply, col3_eq]
    exact congrArg (val_main_v6 (F := Ideal) x1) (funext fun a => match a with | ⟨0, _⟩ => rfl)
  rw [hc]
  refine if_congr Iff.rfl ?_ rfl
  rw [val_main_v142_apply]
  show val_main_v141 (F := Ideal) x1 x2 (ix2 e f) * val_main_v140 (F := Ideal) x0 x1 x2 x3 x4 x5 x6 x7 (ix2 e f) = _
  have hn : val_main_v141 (F := Ideal) x1 x2 (ix2 e f) = norm x1 x2 e := by
    rw [val_main_v141_apply, val_main_v133_apply, norm3_eq]
    exact congrArg (val_main_v31 (F := Ideal) x1 x2) (funext fun a => match a with | ⟨0, _⟩ => rfl)
  rw [hn]
  refine congrArg (norm x1 x2 e * ·) ?_
  unfold val_main_v140
  rw [gath8_eq, gather_rows_apply (by decide)]
  have hr : val_main_v139 (F := Ideal) x1 (ix2 e (0 : Fin 1)) = rowSel x1 e := by
    rw [val_main_v139_apply, rowSel3_eq]
    exact congrArg (val_main_v38 (F := Ideal) x1) (funext fun a => match a with | ⟨0, _⟩ => rfl)
  have hrow : (⟨min (val_main_v139 (F := Ideal) x1 (ix2 e (0 : Fin 1))).toInt.toNat (10000 - 1), by omega⟩ : Fin 10000)
      = rowClamp x1 e := Fin.ext (by show min _ _ = min _ _; rw [hr])
  rw [hrow, val_main_v132_apply]
  refine Finset.sum_congr rfl fun k _ => ?_
  have el : lidx_main_v132 (ix2 (rowClamp x1 e) f) k = ix2 (rowClamp x1 e) k :=
    funext fun a => match a with | ⟨0, _⟩ => rfl | ⟨1, _⟩ => rfl
  have er : ridx_main_v132 (ix2 (rowClamp x1 e) f) k = ix2 k f :=
    funext fun a => match a with | ⟨0, _⟩ => rfl | ⟨1, _⟩ => rfl
  rw [el, er]

end Cert.RefSide

end
-- ==== Proof.Ref.Idx.lean ====
/-
  The edge words of the reference, read as node numbers.

  The source and target words of edge `e` are the edge list's entry for `e < 320000` and the self loop's node
  `e - 320000` afterwards.  When every entry of the edge list reads, signed, as a number in `0 … 9999`, every word
  does; the selection that adds the node count to a negative word leaves the source words alone; the clamp of a row
  lookup leaves them alone; and a scatter's test "the word reads `n`" says that the word's node number is `n`.
-/
import proofs.«179401_j66675072303277_2_alg».proof.Proof.Ref.Defs

noncomputable section

namespace Cert.RefSide

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx Cert.Bridge.GraphOps
open scoped BigOperators

/-- The source-node word of edge `e` (the edge list's first row, then one self loop per node), before the selection
    that adds the node count to a negative word. -/
def rowWord (x1 : EdgeIndex) (e : Fin 330000) : BitVec 32 := val_main_v5 (F := Ideal) x1 (ix1 e)

/-- Every entry of the edge list reads, signed, as a number in `0 … 9999`. -/
def InRange (x1 : EdgeIndex) : Prop := ∀ i : S2x320000.Idx, 0 ≤ (x1 i).toInt ∧ (x1 i).toInt < 10000

/-- The target node of edge `e`: its word read signed, clamped into `0 … 9999`. -/
def colNode (x1 : EdgeIndex) (e : Fin 330000) : Fin 10000 := ⟨min (colWord x1 e).toInt.toNat (10000 - 1), by omega⟩

/-- The source node of edge `e`: its word read signed, clamped into `0 … 9999`. -/
def rowNode (x1 : EdgeIndex) (e : Fin 330000) : Fin 10000 := ⟨min (rowWord x1 e).toInt.toNat (10000 - 1), by omega⟩

/-! ## The words in terms of the edge list -/

theorem colWord_edge (x1 : EdgeIndex) (e : Fin 330000) (h : e.val < 320000) :
    colWord x1 e = x1 (ix2 (1 : Fin 2) (⟨e.val, h⟩ : Fin 320000)) := by
  unfold colWord val_main_v6
  rw [concatenate_pair_apply_left (0 : Fin S330000.rank) (val_main_v3 (F := Ideal) x1) (val_main_v4 (F := Ideal))
    concatenates_S320000_S10000_S330000_d0 (ix1 e) rfl (ix1 (⟨e.val, h⟩ : Fin 320000))
    (fun b => match b with | ⟨0, _⟩ => rfl)]
  rw [val_main_v3_apply, val_main_v2_apply]
  refine congrArg x1 (funext fun a => Fin.ext ?_)
  match a with
  | ⟨0, _⟩ => rfl
  | ⟨1, _⟩ => exact Nat.mod_eq_of_lt h

theorem rowWord_edge (x1 : EdgeIndex) (e : Fin 330000) (h : e.val < 320000) :
    rowWord x1 e = x1 (ix2 (0 : Fin 2) (⟨e.val, h⟩ : Fin 320000)) := by
  unfold rowWord val_main_v5
  rw [concatenate_pair_apply_left (0 : Fin S330000.rank) (val_main_v1 (F := Ideal) x1) (val_main_v4 (F := Ideal))
    concatenates_S320000_S10000_S330000_d0 (ix1 e) rfl (ix1 (⟨e.val, h⟩ : Fin 320000))
    (fun b => match b with | ⟨0, _⟩ => rfl)]
  rw [val_main_v1_apply, val_main_v0_apply]
  refine congrArg x1 (funext fun a => Fin.ext ?_)
  match a with
  | ⟨0, _⟩ => rfl
  | ⟨1, _⟩ => exact Nat.mod_eq_of_lt h

theorem colWord_loop (x1 : EdgeIndex) (e : Fin 330000) (h : 320000 ≤ e.val) :
    colWord x1 e = BitVec.ofNat 32 (e.val - 320000) := by
  unfold colWord val_main_v6
  rw [concatenate_pair_apply_right (0 : Fin S330000.rank) (val_main_v3 (F := Ideal) x1) (val_main_v4 (F := Ideal))
    concatenates_S320000_S10000_S330000_d0 (ix1 e) rfl rfl (ix1 (⟨e.val - 320000, by omega⟩ : Fin 10000))
    (fun b hb => absurd (Subsingleton.elim _ _) hb)
    (by show (e.val - 320000) + 320000 = e.val; omega)]
  rfl

theorem rowWord_loop (x1 : EdgeIndex) (e : Fin 330000) (h : 320000 ≤ e.val) :
    rowWord x1 e = BitVec.ofNat 32 (e.val - 320000) := by
  unfold rowWord val_main_v5
  rw [concatenate_pair_apply_right (0 : Fin S330000.rank) (val_main_v1 (F := Ideal) x1) (val_main_v4 (F := Ideal))
    concatenates_S320000_S10000_S330000_d0 (ix1 e) rfl rfl (ix1 (⟨e.val - 320000, by omega⟩ : Fin 10000))
    (fun b hb => absurd (Subsingleton.elim _ _) hb)
    (by show (e.val - 320000) + 320000 = e.val; omega)]
  rfl

/-- A self loop's word reads as its node number. -/
theorem toInt_ofNat_small (k : ℕ) (hk : k < 10000) : (BitVec.ofNat 32 k).toInt = (k : ℤ) := by
  have h1 : (BitVec.ofNat 32 k).toNat = k := by rw [BitVec.toNat_ofNat]; omega
  rw [BitVec.toInt_eq_toNat_of_lt (by omega), h1]

/-! ## In range -/

theorem colWord_range {x1 : EdgeIndex} (hx : InRange x1) (e : Fin 330000) :
    0 ≤ (colWord x1 e).toInt ∧ (colWord x1 e).toInt < 10000 := by
  by_cases h : e.val < 320000
  · rw [colWord_edge x1 e h]; exact hx _
  · have he := e.isLt
    rw [colWord_loop x1 e (by omega), toInt_ofNat_small _ (by omega)]
    omega

theorem rowWord_range {x1 : EdgeIndex} (hx : InRange x1) (e : Fin 330000) :
    0 ≤ (rowWord x1 e).toInt ∧ (rowWord x1 e).toInt < 10000 := by
  by_cases h : e.val < 320000
  · rw [rowWord_edge x1 e h]; exact hx _
  · have he := e.isLt
    rw [rowWord_loop x1 e (by omega), toInt_ofNat_small _ (by omega)]
    omega

/-- The selection that adds the node count to a negative source word is the identity on words in range. -/
theorem rowSel_eq {x1 : EdgeIndex} (hx : InRange x1) (e : Fin 330000) : rowSel x1 e = rowWord x1 e := by
  unfold rowSel
  rw [val_main_v38_apply, val_main_v35_apply, val_main_v34_apply, val_main_c_6_apply]
  have hn : ¬ IntOp.cmpi .slt (val_main_v5 (F := Ideal) x1 (ix1 e)) 0#32 = 1#1 := by
    rw [IntOp.cmpi_slt]
    have := (rowWord_range hx e).1
    have h0 : (0#32 : BitVec 32).toInt = 0 := by decide
    rw [h0]
    exact not_lt.2 this
  rw [eq_zero_of_ne_one hn, select_zero]
  rfl

/-- The clamp of the row lookup is the identity on words in range: the looked-up row is the source node. -/
theorem rowClamp_eq {x1 : EdgeIndex} (hx : InRange x1) (e : Fin 330000) : rowClamp x1 e = rowNode x1 e :=
  Fin.ext (by
    show min (rowSel x1 e).toInt.toNat (10000 - 1) = min (rowWord x1 e).toInt.toNat (10000 - 1)
    rw [rowSel_eq hx e])

theorem rowNode_val {x1 : EdgeIndex} (hx : InRange x1) (e : Fin 330000) :
    ((rowNode x1 e).val : ℤ) = (rowWord x1 e).toInt := by
  have := rowWord_range hx e
  show ((min (rowWord x1 e).toInt.toNat (10000 - 1) : ℕ) : ℤ) = _
  omega

theorem colNode_val {x1 : EdgeIndex} (hx : InRange x1) (e : Fin 330000) :
    ((colNode x1 e).val : ℤ) = (colWord x1 e).toInt := by
  have := colWord_range hx e
  show ((min (colWord x1 e).toInt.toNat (10000 - 1) : ℕ) : ℤ) = _
  omega

/-- The scatter's test "the target word of `e` reads `n`" says that the target node of `e` is `n`. -/
theorem colWord_reads_iff {x1 : EdgeIndex} (hx : InRange x1) (e : Fin 330000) (n : Fin 10000) :
    (colWord x1 e).toInt = (n.val : ℤ) ↔ colNode x1 e = n := by
  rw [← colNode_val hx e]
  constructor
  · intro h; exact Fin.ext (by omega)
  · intro h; rw [h]

/-- A self loop's nodes: edge `320000 + v` goes from `v` to `v`. -/
theorem colNode_loop (x1 : EdgeIndex) (e : Fin 330000) (h : 320000 ≤ e.val) : (colNode x1 e).val = e.val - 320000 := by
  have he := e.isLt
  show min (colWord x1 e).toInt.toNat (10000 - 1) = _
  rw [colWord_loop x1 e h, toInt_ofNat_small _ (by omega)]
  omega

theorem rowNode_loop (x1 : EdgeIndex) (e : Fin 330000) (h : 320000 ≤ e.val) : (rowNode x1 e).val = e.val - 320000 := by
  have he := e.isLt
  show min (rowWord x1 e).toInt.toNat (10000 - 1) = _
  rw [rowWord_loop x1 e h, toInt_ofNat_small _ (by omega)]
  omega

/-- A listed edge's nodes are the edge list's entries read signed. -/
theorem colNode_edge {x1 : EdgeIndex} (hx : InRange x1) (e : Fin 330000) (h : e.val < 320000) :
    ((colNode x1 e).val : ℤ) = (x1 (ix2 (1 : Fin 2) (⟨e.val, h⟩ : Fin 320000))).toInt := by
  rw [colNode_val hx e, colWord_edge x1 e h]

theorem rowNode_edge {x1 : EdgeIndex} (hx : InRange x1) (e : Fin 330000) (h : e.val < 320000) :
    ((rowNode x1 e).val : ℤ) = (x1 (ix2 (0 : Fin 2) (⟨e.val, h⟩ : Fin 320000))).toInt := by
  rw [rowNode_val hx e, rowWord_edge x1 e h]

/-! ## A layer over node numbers -/

/-- With the edge list in range, a layer at place `(n, f)` is the sum, over the edges whose target node is `n`, of
    the edge's weight times the source node's row of `X · W` at column `f`, plus the bias. -/
theorem layer_nodes {Fi Fo : ℕ} {x1 : EdgeIndex} (hx : InRange x1) (x2 : EdgeWeights)
    (X : (⟨2, ![10000, Fi]⟩ : Shape).Idx → EReal) (W : (⟨2, ![Fi, Fo]⟩ : Shape).Idx → EReal)
    (b : (⟨1, ![Fo]⟩ : Shape).Idx → EReal) (n : Fin 10000) (f : Fin Fo) :
    layer x1 x2 X W b n f
      = (∑ e : Fin 330000, if colNode x1 e = n
          then norm x1 x2 e * (∑ k : Fin Fi, X (ix2 (rowNode x1 e) k) * W (ix2 k f)) else 0) + b (ix1 f) := by
  rw [layer_def, zero_add]
  refine congrArg (· + b (ix1 f)) (Finset.sum_congr rfl fun e _ => ?_)
  rw [rowClamp_eq hx e]
  exact if_congr (colWord_reads_iff hx e n) rfl rfl

end Cert.RefSide

end
-- ==== Proof.Bridge.RefNet.lean ====
/-
  The reference's result as the cast of a real-valued network.

  With every index word in range, every edge weight's normalisation a real and every float input a real, each layer of the
  reference at a place (n, f) is the cast of the real layer over the edge list (the sum over the edges into n of the edge's weight times
  the source row of X·W, plus the bias), the positive part of a cast is the cast of the positive part, and the three layers compose.
-/
import proofs.«179401_j66675072303277_2_alg».proof.Proof.Ref.Layer1
import proofs.«179401_j66675072303277_2_alg».proof.Proof.Ref.Layer2
import proofs.«179401_j66675072303277_2_alg».proof.Proof.Ref.Layer3
import proofs.«179401_j66675072303277_2_alg».proof.Proof.Ref.Idx
import proofs.«179401_j66675072303277_2_alg».proof.Proof.LibGcnDense
import proofs.«179401_j66675072303277_2_alg».proof.Proof.Bridge.Net

noncomputable section

namespace Cert.RefSide

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx Cert.Bridge.GcnDense Cert.Bridge.Net
open scoped BigOperators

/-- One reference layer on real data is the cast of the real layer. -/
theorem layer_real {Fi Fo : ℕ} {x1 : EdgeIndex} (hx : InRange x1) (x2 : EdgeWeights) (nrm : Fin 330000 → ℝ) (hn : ∀ e, norm x1 x2 e = ((nrm e : ℝ) : EReal))
    (X : (⟨2, ![10000, Fi]⟩ : Shape).Idx → EReal) (Xr : Fin 10000 → Fin Fi → ℝ) (hX : ∀ n k, X (ix2 n k) = ((Xr n k : ℝ) : EReal))
    (W : (⟨2, ![Fi, Fo]⟩ : Shape).Idx → EReal) (Wr : Fin Fi → Fin Fo → ℝ) (hW : ∀ k f, W (ix2 k f) = ((Wr k f : ℝ) : EReal))
    (b : (⟨1, ![Fo]⟩ : Shape).Idx → EReal) (br : Fin Fo → ℝ) (hb : ∀ f, b (ix1 f) = ((br f : ℝ) : EReal)) (n : Fin 10000) (f : Fin Fo) :
    layer x1 x2 X W b n f = ((layerR (rowNode x1) (colNode x1) nrm Xr Wr br n f : ℝ) : EReal) := by
  rw [layer_nodes hx]
  simp only [hn, hX, hW, hb]
  exact ref_layer_eq_of_sum (rowNode x1) (colNode x1) nrm Xr Wr br n f

/-- The reference's result at (n, f) is the cast of the real network. -/
theorem ref_value (x0 : (⟨S10000x256, .f32⟩ : BufTy).Contents (Elt Ideal)) (x1 : EdgeIndex) (x2 : EdgeWeights)
    (x3 : (⟨S256x512, .f32⟩ : BufTy).Contents (Elt Ideal)) (x4 : (⟨S512, .f32⟩ : BufTy).Contents (Elt Ideal))
    (x5 : (⟨S512x768, .f32⟩ : BufTy).Contents (Elt Ideal)) (x6 : (⟨S768, .f32⟩ : BufTy).Contents (Elt Ideal))
    (x7 : (⟨S768x8, .f32⟩ : BufTy).Contents (Elt Ideal)) (x8 : (⟨S8, .f32⟩ : BufTy).Contents (Elt Ideal))
    (hx : InRange x1) (nrm : Fin 330000 → ℝ) (hn : ∀ e, norm x1 x2 e = ((nrm e : ℝ) : EReal))
    (xr : Fin 10000 → Fin 256 → ℝ) (h0 : ∀ n k, x0 (ix2 n k) = ((xr n k : ℝ) : EReal))
    (W1 : Fin 256 → Fin 512 → ℝ) (h3 : ∀ k f, x3 (ix2 k f) = ((W1 k f : ℝ) : EReal)) (b1 : Fin 512 → ℝ) (h4 : ∀ f, x4 (ix1 f) = ((b1 f : ℝ) : EReal))
    (W2 : Fin 512 → Fin 768 → ℝ) (h5 : ∀ k f, x5 (ix2 k f) = ((W2 k f : ℝ) : EReal)) (b2 : Fin 768 → ℝ) (h6 : ∀ f, x6 (ix1 f) = ((b2 f : ℝ) : EReal))
    (W3 : Fin 768 → Fin 8 → ℝ) (h7 : ∀ k f, x7 (ix2 k f) = ((W3 k f : ℝ) : EReal)) (b3 : Fin 8 → ℝ) (h8 : ∀ f, x8 (ix1 f) = ((b3 f : ℝ) : EReal))
    (n : Fin 10000) (f : Fin 8) :
    val_main_v148 (F := Ideal) x0 x1 x2 x3 x4 x5 x6 x7 x8 (ix2 n f)
      = ((netR (rowNode x1) (colNode x1) nrm xr W1 b1 W2 b2 W3 b3 n f : ℝ) : EReal) := by
  have e1 : ∀ (n : Fin 10000) (f : Fin 512), val_main_v49 (F := Ideal) x0 x1 x2 x3 x4 (ix2 n f)
      = ((reluLayerR (rowNode x1) (colNode x1) nrm xr W1 b1 n f : ℝ) : EReal) := by
    intro n f
    rw [relu1_apply, layer1_apply, layer_real hx x2 nrm hn x0 xr h0 x3 W1 h3 x4 b1 h4 n f]
    exact max_coe_zero _
  have e2 : ∀ (n : Fin 10000) (f : Fin 768), val_main_v99 (F := Ideal) x0 x1 x2 x3 x4 x5 x6 (ix2 n f)
      = ((reluLayerR (rowNode x1) (colNode x1) nrm (reluLayerR (rowNode x1) (colNode x1) nrm xr W1 b1) W2 b2 n f : ℝ) : EReal) := by
    intro n f
    rw [relu2_apply, layer2_apply, layer_real hx x2 nrm hn _ _ e1 x5 W2 h5 x6 b2 h6 n f]
    exact max_coe_zero _
  rw [layer3_apply, layer_real hx x2 nrm hn _ _ e2 x7 W3 h7 x8 b3 h8 n f]
  rfl

end Cert.RefSide

end
-- ==== Proof.Ref.NormReal.lean ====
/-
  The normalisation weights of the reference are real numbers when the edge weights are.

  The weight of an edge is the inverse square root of its source node's degree, times the edge's own weight (one for
  a self loop), times the inverse square root of its target node's degree, where a node's degree is the sum of the
  weights of the edges that point to it and the inverse square root is replaced by zero at a degree that is not
  positive.  A finite sum of reals is a real, the inverse square root of a positive real is a real, and so is a
  product of reals.
-/
import proofs.«179401_j66675072303277_2_alg».proof.Proof.Ref.Defs

noncomputable section

namespace Cert.RefSide

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx Cert.Bridge.GraphOps
open scoped BigOperators

/-- Every edge weight is a real number. -/
def WeightsReal (x2 : EdgeWeights) : Prop := ∀ i : S320000.Idx, ∃ r : ℝ, x2 i = (r : EReal)

/-- The pattern of the float one denotes one. -/
theorem ofBits_one_f32 : Ideal.ofBits .f32 0x3F800000#32 = ((1 : ℝ) : EReal) := by
  simp [Ideal.ofBits, Ideal.ieee, -EReal.coe_mul]; norm_num

/-- A finite sum of extended reals that are all reals is a real. -/
theorem sum_real {ι : Type} (s : Finset ι) (g : ι → EReal) (hg : ∀ i, ∃ r : ℝ, g i = (r : EReal)) :
    ∃ r : ℝ, ∑ i ∈ s, g i = (r : EReal) := by
  choose r hr using hg
  exact ⟨∑ i ∈ s, r i, by rw [coe_sum]; exact Finset.sum_congr rfl fun i _ => hr i⟩

/-- The printed vector-scatter record is the library's. -/
theorem scatFlat_eq : scatter_S10000_S330000x1_S330000_n_0_0_1
    = scatFlat (N := 10000) (E := 330000) Facts₀.scatter_S10000_S330000x1_S330000_n_0_0_1_wf := rfl

/-- The printed vector-lookup record is the library's. -/
theorem gathFlat_eq : gather_S10000_S330000x1_S330000_n_0_n_n_0_1_1
    = gathFlat (N := 10000) (E := 330000) Facts₀.gather_S10000_S330000x1_S330000_n_0_n_n_0_1_1_wf := rfl

/-- The edge weights with a one appended per self loop: the listed weight, then one. -/
theorem ewf_edge (x2 : EdgeWeights) (e : Fin 330000) (h : e.val < 320000) :
    val_main_v8 (F := Ideal) x2 (ix1 e) = x2 (ix1 (⟨e.val, h⟩ : Fin 320000)) := by
  unfold val_main_v8
  exact concatenate_pair_apply_left (0 : Fin S330000.rank) x2 (val_main_v7 (F := Ideal))
    concatenates_S320000_S10000_S330000_d0 (ix1 e) rfl (ix1 (⟨e.val, h⟩ : Fin 320000))
    (fun b => match b with | ⟨0, _⟩ => rfl)

theorem ewf_loop (x2 : EdgeWeights) (e : Fin 330000) (h : 320000 ≤ e.val) :
    val_main_v8 (F := Ideal) x2 (ix1 e) = ((1 : ℝ) : EReal) := by
  unfold val_main_v8
  rw [concatenate_pair_apply_right (0 : Fin S330000.rank) x2 (val_main_v7 (F := Ideal))
    concatenates_S320000_S10000_S330000_d0 (ix1 e) rfl rfl (ix1 (⟨e.val - 320000, by omega⟩ : Fin 10000))
    (fun b hb => absurd (Subsingleton.elim _ _) hb)
    (by show (e.val - 320000) + 320000 = e.val; omega)]
  rw [val_main_v7_apply, val_main_cst_apply]
  exact ofBits_one_f32

theorem ewf_real {x2 : EdgeWeights} (hw : WeightsReal x2) (e : Fin 330000) :
    ∃ r : ℝ, val_main_v8 (F := Ideal) x2 (ix1 e) = (r : EReal) := by
  by_cases h : e.val < 320000
  · rw [ewf_edge x2 e h]; exact hw _
  · exact ⟨1, ewf_loop x2 e (by omega)⟩

/-- A node's degree: the sum of the weights of the edges whose target word reads the node. -/
theorem deg_apply (x1 : EdgeIndex) (x2 : EdgeWeights) (n : Fin 10000) :
    val_main_v11 (F := Ideal) x1 x2 (ix1 n)
      = 0 + ∑ e : Fin 330000, if (colWord x1 e).toInt = (n.val : ℤ) then val_main_v8 (F := Ideal) x2 (ix1 e) else 0 := by
  unfold val_main_v11
  show Ideal.hostScatterAdd scatter_S10000_S330000x1_S330000_n_0_0_1 (val_main_v9 (F := Ideal))
    (val_main_v10 (F := Ideal) x1) (val_main_v8 (F := Ideal) x2) (ix1 n) = _
  rw [scatFlat_eq, scatterAdd_flat_apply]
  have hz : val_main_v9 (F := Ideal) (ix1 n) = 0 := by
    rw [val_main_v9_apply, val_main_cst_0_apply]
    exact Ideal.ofBits_zero_f32
  rw [hz]
  refine congrArg (0 + ·) (Finset.sum_congr rfl fun e _ => ?_)
  have hc : val_main_v10 (F := Ideal) x1 (ix2 e (0 : Fin 1)) = colWord x1 e := by
    rw [val_main_v10_apply]
    exact congrArg (val_main_v6 (F := Ideal) x1) (funext fun a => match a with | ⟨0, _⟩ => rfl)
  rw [hc]

theorem deg_real (x1 : EdgeIndex) {x2 : EdgeWeights} (hw : WeightsReal x2) (n : Fin 10000) :
    ∃ r : ℝ, val_main_v11 (F := Ideal) x1 x2 (ix1 n) = (r : EReal) := by
  obtain ⟨r, hr⟩ := sum_real Finset.univ
    (fun e : Fin 330000 => if (colWord x1 e).toInt = (n.val : ℤ) then val_main_v8 (F := Ideal) x2 (ix1 e) else 0)
    (fun e => by
      by_cases hc : (colWord x1 e).toInt = (n.val : ℤ)
      · simp only [if_pos hc]; exact ewf_real hw e
      · simp only [if_neg hc]; exact ⟨0, rfl⟩)
  refine ⟨r, ?_⟩
  rw [deg_apply, hr, zero_add]

/-- The inverse square root of a node's degree, zero at a degree that is not positive, is a real. -/
theorem dinv_real (x1 : EdgeIndex) {x2 : EdgeWeights} (hw : WeightsReal x2) (n : Fin 10000) :
    ∃ r : ℝ, val_main_v15 (F := Ideal) x1 x2 (ix1 n) = (r : EReal) := by
  obtain ⟨d, hd⟩ := deg_real x1 hw n
  rw [val_main_v15_apply, val_main_v13_apply, val_main_v14_apply, hd, val_main_v12_apply, val_main_cst_1_apply,
    val_main_call0_v1_apply, val_main_call0_v0_apply, val_main_cst_2_apply]
  show ∃ r : ℝ, Scalar.select (Ideal.cmp .ogt (d : EReal) (Ideal.ofBits .f32 0x00000000#32)) (Ideal.rsqrt (d : EReal))
    (Ideal.ofBits .f32 0x00000000#32) = (r : EReal)
  rw [Ideal.ofBits_zero_f32]
  by_cases hc : Ideal.cmp .ogt (d : EReal) 0 = 1#1
  · rw [hc, select_one]
    have hpos : (0 : EReal) < (d : EReal) := by
      by_contra hne
      have : Ideal.cmp .ogt (d : EReal) 0 = 0#1 := by
        unfold Ideal.cmp
        simp only [hne, decide_false]
        rfl
      rw [this] at hc
      exact absurd hc (by decide)
    have hd0 : (0 : ℝ) < d := by exact_mod_cast hpos
    rw [Ideal.rsqrt_coe, if_neg (not_lt.2 hd0.le), if_neg hd0.ne']
    exact ⟨_, rfl⟩
  · rw [eq_zero_of_ne_one hc, select_zero]
    exact ⟨0, rfl⟩

/-- The normalisation weight of an edge is a real. -/
theorem norm_real (x1 : EdgeIndex) {x2 : EdgeWeights} (hw : WeightsReal x2) (e : Fin 330000) :
    ∃ r : ℝ, norm x1 x2 e = (r : EReal) := by
  unfold norm
  rw [val_main_v31_apply, val_main_v23_apply]
  show ∃ r : ℝ, (val_main_v22 (F := Ideal) x1 x2 (ix1 e) * val_main_v8 (F := Ideal) x2 (ix1 e))
    * val_main_v30 (F := Ideal) x1 x2 (ix1 e) = (r : EReal)
  obtain ⟨w, hw'⟩ := ewf_real hw e
  have h22 : ∃ r : ℝ, val_main_v22 (F := Ideal) x1 x2 (ix1 e) = (r : EReal) := by
    unfold val_main_v22
    rw [gathFlat_eq, gather_flat_apply (by decide)]
    exact dinv_real x1 hw _
  have h30 : ∃ r : ℝ, val_main_v30 (F := Ideal) x1 x2 (ix1 e) = (r : EReal) := by
    unfold val_main_v30
    rw [gathFlat_eq, gather_flat_apply (by decide)]
    exact dinv_real x1 hw _
  obtain ⟨a, ha⟩ := h22
  obtain ⟨b, hb⟩ := h30
  exact ⟨a * w * b, by rw [ha, hw', hb, EReal.coe_mul, EReal.coe_mul]⟩

/-- The normalisation weights as one real function of the edge. -/
theorem norm_fun (x1 : EdgeIndex) {x2 : EdgeWeights} (hw : WeightsReal x2) :
    ∃ nrm : Fin 330000 → ℝ, ∀ e, norm x1 x2 e = ((nrm e : ℝ) : EReal) :=
  ⟨fun e => (norm_real x1 hw e).choose, fun e => (norm_real x1 hw e).choose_spec⟩

end Cert.RefSide

end
-- ==== Proof.Ref.Pre.lean ====
/-
  The precondition, decoded.

  The precondition shared by the two programs says, of the nine arguments: the absolute value of every entry of each
  of the eight float arrays is below plus infinity, and every entry of the edge list is at least zero and below
  10000 as a signed word; each statement is an "and" over all entries, and the nine are joined by "and".  Over the
  extended reals an entry whose absolute value is below plus infinity is a real number.  This module reads the nine
  facts back from the statement that the precondition's word is one.
-/
import proofs.«179401_j66675072303277_2_alg».proof.Pre_finite_inputs
import Idealize.ShloMosaic.Lib.ReduceAll
import Idealize.ShloMosaic.Lib.ValueIdx
import Idealize.ShloMosaic.Lib.Pipeline.Value
import Idealize.ShloMosaic.PureOps.Ideal
import Idealize.ShloMosaic.PureOps.Ideal.Laws

noncomputable section

namespace Cert.PreDecode

open Idealize.ShloMosaic Idealize.ShloMosaic.ValueIdx Cert.Pre_finite_inputs

/-- A shape without axes has one index. -/
instance : Subsingleton (⟨0, ![]⟩ : Shape).Idx := ⟨fun _ _ => funext fun d => d.elim0⟩

/-- The pattern of plus infinity denotes the top element. -/
theorem ofBits_inf_f32 : Ideal.ofBits .f32 0x7F800000#32 = (⊤ : EReal) := by simp [Ideal.ofBits, Ideal.ieee]

/-- A strict comparison whose word is one holds. -/
theorem lt_of_cmp_olt {a b : EReal} (h : Ideal.cmp .olt a b = 1#1) : a < b := by
  by_contra hn
  have : Ideal.cmp .olt a b = 0#1 := by
    unfold Ideal.cmp
    simp only [hn, decide_false]
    rfl
  rw [this] at h
  exact absurd h (by decide)

/-- An extended real whose absolute value is below plus infinity is a real. -/
theorem real_of_abs_lt_inf (x : EReal)
    (h : FloatOps.cmpf (F := Ideal) .olt (FloatOps.hostAbsf (F := Ideal) (φ := .f32) x)
      (FloatOps.ofBits (F := Ideal) .f32 0x7F800000#32) = 1#1) : ∃ r : ℝ, x = (r : EReal) := by
  have h' : max x (-x) < Ideal.ofBits .f32 0x7F800000#32 := lt_of_cmp_olt h
  rw [ofBits_inf_f32] at h'
  induction x using EReal.rec with
  | bot => exact absurd h' (by simp)
  | coe r => exact ⟨r, rfl⟩
  | top => exact absurd h' (by simp)

/-- One float array's conjunct: "all entries have absolute value below plus infinity" gives that all are reals. -/
theorem all_real {s : Shape} {axes : List (Fin s.rank)} (a : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (init : IVec ⟨0, ![]⟩ 1)
    (h : Host.reduce IntOp.andi
      (cmpf .olt (Host.absf a) (broadcastInDim s ![] hb (constant (F := Ideal) ⟨0, ![]⟩ .f32 0x7F800000#32))) init hr hu ix0
        = 1#1) (i : s.Idx) : ∃ r : ℝ, a i = (r : EReal) := by
  have hi := Host.reduce_andi_all _ init hr hu ix0 h i
  refine real_of_abs_lt_inf (a i) ?_
  have hbc : broadcastInDim s ![] hb (constant (F := Ideal) ⟨0, ![]⟩ .f32 0x7F800000#32) i
      = FloatOps.ofBits (F := Ideal) .f32 0x7F800000#32 :=
    broadcastInDim_apply _ hb _ i ix0 (fun a => a.elim0)
  rw [← hbc]
  exact hi

/-- The edge list's conjunct: "all entries are at least zero and below 10000, signed". -/
theorem all_in_range {s : Shape} {axes : List (Fin s.rank)} (a : IVec s 32)
    (hb : (⟨0, ![]⟩ : Shape).BroadcastsInDim s (![] : Fin 0 → Fin s.rank)) (hr : s.ReducesTo axes ⟨0, ![]⟩)
    (hu : 0 < (⟨0, ![]⟩ : Shape).numel) (init : IVec ⟨0, ![]⟩ 1)
    (h : Host.reduce IntOp.andi
      (andi (cmpi .sge a (broadcastInDim s ![] hb (constantI ⟨0, ![]⟩ 32 0#32)))
        (cmpi .slt a (broadcastInDim s ![] hb (constantI ⟨0, ![]⟩ 32 10000#32)))) init hr hu ix0 = 1#1) (i : s.Idx) :
    0 ≤ (a i).toInt ∧ (a i).toInt < 10000 := by
  have hi := Host.reduce_andi_all _ init hr hu ix0 h i
  have hi' : IntOp.andi (IntOp.cmpi .sge (a i) (broadcastInDim s ![] hb (constantI ⟨0, ![]⟩ 32 0#32) i))
      (IntOp.cmpi .slt (a i) (broadcastInDim s ![] hb (constantI ⟨0, ![]⟩ 32 10000#32) i)) = 1#1 := hi
  have hb0 : broadcastInDim s ![] hb (constantI ⟨0, ![]⟩ 32 0#32) i = 0#32 :=
    broadcastInDim_apply _ hb _ i ix0 (fun a => a.elim0)
  have hb1 : broadcastInDim s ![] hb (constantI ⟨0, ![]⟩ 32 10000#32) i = 10000#32 :=
    broadcastInDim_apply _ hb _ i ix0 (fun a => a.elim0)
  rw [hb0, hb1] at hi'
  obtain ⟨h1, h2⟩ := IntOp.andi_eq_one.1 hi'
  have z0 : (0#32 : BitVec 32).toInt = 0 := by decide
  have z1 : (10000#32 : BitVec 32).toInt = 10000 := by decide
  have g1 := IntOp.cmpi_sge.1 h1
  have g2 := IntOp.cmpi_slt.1 h2
  rw [z0] at g1
  rw [z1] at g2
  exact ⟨g1, g2⟩

variable [Facts]
open Facts

/-- The precondition's word is one exactly when the nine conjuncts hold; here the direction the proof uses. -/
theorem decode (a0 : FVec Ideal S10000x256 .f32) (a1 : IVec S2x320000 32) (a2 : FVec Ideal S320000 .f32)
    (a3 : FVec Ideal S256x512 .f32) (a4 : FVec Ideal S512 .f32) (a5 : FVec Ideal S512x768 .f32)
    (a6 : FVec Ideal S768 .f32) (a7 : FVec Ideal S768x8 .f32) (a8 : FVec Ideal S8 .f32)
    (h : fn (F := Ideal) a0 a1 a2 a3 a4 a5 a6 a7 a8 = (fun _ => 1#1)) :
    (∀ i, ∃ r : ℝ, a0 i = (r : EReal)) ∧ (∀ i, 0 ≤ (a1 i).toInt ∧ (a1 i).toInt < 10000)
      ∧ (∀ i, ∃ r : ℝ, a2 i = (r : EReal)) ∧ (∀ i, ∃ r : ℝ, a3 i = (r : EReal)) ∧ (∀ i, ∃ r : ℝ, a4 i = (r : EReal))
      ∧ (∀ i, ∃ r : ℝ, a5 i = (r : EReal)) ∧ (∀ i, ∃ r : ℝ, a6 i = (r : EReal)) ∧ (∀ i, ∃ r : ℝ, a7 i = (r : EReal))
      ∧ (∀ i, ∃ r : ℝ, a8 i = (r : EReal)) := by
  have h0 := congrFun h ix0
  dsimp only [fn, fn_part1, fn_part2] at h0
  have e : ∀ (x y : IVec S_ 1), andi x y ix0 = IntOp.andi (x ix0) (y ix0) := fun _ _ => rfl
  rw [e] at h0; obtain ⟨h0, hI⟩ := IntOp.andi_eq_one.1 h0
  rw [e] at h0; obtain ⟨h0, h8⟩ := IntOp.andi_eq_one.1 h0
  rw [e] at h0; obtain ⟨h0, h7⟩ := IntOp.andi_eq_one.1 h0
  rw [e] at h0; obtain ⟨h0, h6⟩ := IntOp.andi_eq_one.1 h0
  rw [e] at h0; obtain ⟨h0, h5⟩ := IntOp.andi_eq_one.1 h0
  rw [e] at h0; obtain ⟨h0, h4⟩ := IntOp.andi_eq_one.1 h0
  rw [e] at h0; obtain ⟨h0, h3⟩ := IntOp.andi_eq_one.1 h0
  rw [e] at h0; obtain ⟨h0, h2⟩ := IntOp.andi_eq_one.1 h0
  exact ⟨all_real a0 _ _ _ _ h0, all_in_range a1 _ _ _ _ hI, all_real a2 _ _ _ _ h2, all_real a3 _ _ _ _ h3,
    all_real a4 _ _ _ _ h4, all_real a5 _ _ _ _ h5, all_real a6 _ _ _ _ h6, all_real a7 _ _ _ _ h7,
    all_real a8 _ _ _ _ h8⟩

/-- A matrix of reals, as a function of its two coordinates. -/
theorem fun2_of_real {n0 n1 : ℕ} (a : (⟨2, ![n0, n1]⟩ : Shape).Idx → EReal) (h : ∀ i, ∃ r : ℝ, a i = (r : EReal)) :
    ∃ g : Fin n0 → Fin n1 → ℝ, ∀ i j, a (ix2 i j) = ((g i j : ℝ) : EReal) :=
  ⟨fun i j => (h (ix2 i j)).choose, fun i j => (h (ix2 i j)).choose_spec⟩

/-- A vector of reals, as a function of its coordinate. -/
theorem fun1_of_real {n0 : ℕ} (a : (⟨1, ![n0]⟩ : Shape).Idx → EReal) (h : ∀ i, ∃ r : ℝ, a i = (r : EReal)) :
    ∃ g : Fin n0 → ℝ, ∀ i, a (ix1 i) = ((g i : ℝ) : EReal) :=
  ⟨fun i => (h (ix1 i)).choose, fun i => (h (ix1 i)).choose_spec⟩

end Cert.PreDecode

end
-- ==== Proof.Ref.PreRef.lean ====
/-
  The precondition's facts in the reference side's words: the edge list is in range, the edge weights are reals and
  so are the normalisation weights, and each float argument is a real function of its coordinates.
-/
import proofs.«179401_j66675072303277_2_alg».proof.Proof.Ref.Idx
import proofs.«179401_j66675072303277_2_alg».proof.Proof.Ref.NormReal
import proofs.«179401_j66675072303277_2_alg».proof.Proof.Ref.Pre

noncomputable section

namespace Cert.RefSide

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx Cert.Bridge.GraphOps
open scoped BigOperators

variable [Cert.Pre_finite_inputs.Facts]

/-- Everything the reference side assumes of the arguments follows from the precondition's word being one. -/
theorem hyps_of_pre (x0 : (⟨S10000x256, .f32⟩ : BufTy).Contents (Elt Ideal)) (x1 : EdgeIndex) (x2 : EdgeWeights)
    (x3 : (⟨S256x512, .f32⟩ : BufTy).Contents (Elt Ideal)) (x4 : (⟨S512, .f32⟩ : BufTy).Contents (Elt Ideal))
    (x5 : (⟨S512x768, .f32⟩ : BufTy).Contents (Elt Ideal)) (x6 : (⟨S768, .f32⟩ : BufTy).Contents (Elt Ideal))
    (x7 : (⟨S768x8, .f32⟩ : BufTy).Contents (Elt Ideal)) (x8 : (⟨S8, .f32⟩ : BufTy).Contents (Elt Ideal))
    (h : Cert.Pre_finite_inputs.fn (F := Ideal) x0 x1 x2 x3 x4 x5 x6 x7 x8 = (fun _ => 1#1)) :
    InRange x1 ∧ WeightsReal x2
      ∧ (∃ nrm : Fin 330000 → ℝ, ∀ e, norm x1 x2 e = ((nrm e : ℝ) : EReal))
      ∧ (∃ xr : Fin 10000 → Fin 256 → ℝ, ∀ n k, x0 (ix2 n k) = ((xr n k : ℝ) : EReal))
      ∧ (∃ W1 : Fin 256 → Fin 512 → ℝ, ∀ k f, x3 (ix2 k f) = ((W1 k f : ℝ) : EReal))
      ∧ (∃ b1 : Fin 512 → ℝ, ∀ f, x4 (ix1 f) = ((b1 f : ℝ) : EReal))
      ∧ (∃ W2 : Fin 512 → Fin 768 → ℝ, ∀ k f, x5 (ix2 k f) = ((W2 k f : ℝ) : EReal))
      ∧ (∃ b2 : Fin 768 → ℝ, ∀ f, x6 (ix1 f) = ((b2 f : ℝ) : EReal))
      ∧ (∃ W3 : Fin 768 → Fin 8 → ℝ, ∀ k f, x7 (ix2 k f) = ((W3 k f : ℝ) : EReal))
      ∧ (∃ b3 : Fin 8 → ℝ, ∀ f, x8 (ix1 f) = ((b3 f : ℝ) : EReal)) := by
  obtain ⟨r0, hI, r2, r3, r4, r5, r6, r7, r8⟩ := Cert.PreDecode.decode x0 x1 x2 x3 x4 x5 x6 x7 x8 h
  exact ⟨hI, r2, norm_fun x1 r2, Cert.PreDecode.fun2_of_real x0 r0, Cert.PreDecode.fun2_of_real x3 r3,
    Cert.PreDecode.fun1_of_real x4 r4, Cert.PreDecode.fun2_of_real x5 r5, Cert.PreDecode.fun1_of_real x6 r6,
    Cert.PreDecode.fun2_of_real x7 r7, Cert.PreDecode.fun1_of_real x8 r8⟩

end Cert.RefSide

end
-- ==== Proof.Bridge.FinalAux.lean ====
/-
  The two idealized programs end with the same result, given the kernel program's host operations read at an index.

  Under the precondition every float input is real and every index word reads in 0 … 9999.  The reference's result at (n, f) is then the cast
  of the three-layer network over the edge list; the kernel program's result is the cast of the same network: its dense adjacency is the
  padded adjacency of the same edge list with the same weights, its padded inputs are the casts of the same real data, and the padded dense
  form is the cast of the network on the rows and columns that are kept.  The witness is the kernel program's final result buffer.
-/
import proofs.«179401_j66675072303277_2_alg».proof.Defs
import proofs.«179401_j66675072303277_2_alg».proof.Proof.Gen.KernelIdeal
import proofs.«179401_j66675072303277_2_alg».proof.Proof.Gen.ReferenceIdeal
import proofs.«179401_j66675072303277_2_alg».proof.Proof.Gen.Pre_finite_inputs
import proofs.«179401_j66675072303277_2_alg».proof.Proof.Bridge.KernelNet
import proofs.«179401_j66675072303277_2_alg».proof.Proof.Bridge.RefNet
import proofs.«179401_j66675072303277_2_alg».proof.Proof.Ref.PreRef

set_option maxRecDepth 16384

noncomputable section

namespace Cert.Proof.Claims

open Idealize.ShloMosaic Idealize.ShloMosaic.TcCoe Idealize.SL.Sem
open Idealize.ShloMosaic.ValueIdx
open Cert.Bridge.GcnDense Cert.Bridge.Net
open Cert.KernelIdeal.Hand Cert.KernelIdeal.HandVal Cert.RefSide
open scoped BigOperators

attribute [local instance] Cert.KernelIdeal.Gen.facts Cert.ReferenceIdeal.Gen.facts Cert.Pre_finite_inputs.Gen.facts

section Kernel

variable (m : (ℓ : Loc Cert.KernelIdeal.nD Cert.KernelIdeal.τ Cert.KernelIdeal.sig) → Buf (Elt Ideal) ℓ) (c : Dev Cert.KernelIdeal.nD)

/-- The kernel program's nine arguments at launch, at the reference side's types. -/
abbrev kx0 : (⟨Cert.ReferenceIdeal.S10000x256, .f32⟩ : BufTy).Contents (Elt Ideal) := (m ((c.tc : Thread Cert.KernelIdeal.nD Cert.KernelIdeal.τ).loc Cert.KernelIdeal.main_arg0))
abbrev kx1 : EdgeIndex := (m ((c.tc : Thread Cert.KernelIdeal.nD Cert.KernelIdeal.τ).loc Cert.KernelIdeal.main_arg1))
abbrev kx2 : EdgeWeights := (m ((c.tc : Thread Cert.KernelIdeal.nD Cert.KernelIdeal.τ).loc Cert.KernelIdeal.main_arg2))
abbrev kx3 : (⟨Cert.ReferenceIdeal.S256x512, .f32⟩ : BufTy).Contents (Elt Ideal) := (m ((c.tc : Thread Cert.KernelIdeal.nD Cert.KernelIdeal.τ).loc Cert.KernelIdeal.main_arg3))
abbrev kx4 : (⟨Cert.ReferenceIdeal.S512, .f32⟩ : BufTy).Contents (Elt Ideal) := (m ((c.tc : Thread Cert.KernelIdeal.nD Cert.KernelIdeal.τ).loc Cert.KernelIdeal.main_arg4))
abbrev kx5 : (⟨Cert.ReferenceIdeal.S512x768, .f32⟩ : BufTy).Contents (Elt Ideal) := (m ((c.tc : Thread Cert.KernelIdeal.nD Cert.KernelIdeal.τ).loc Cert.KernelIdeal.main_arg5))
abbrev kx6 : (⟨Cert.ReferenceIdeal.S768, .f32⟩ : BufTy).Contents (Elt Ideal) := (m ((c.tc : Thread Cert.KernelIdeal.nD Cert.KernelIdeal.τ).loc Cert.KernelIdeal.main_arg6))
abbrev kx7 : (⟨Cert.ReferenceIdeal.S768x8, .f32⟩ : BufTy).Contents (Elt Ideal) := (m ((c.tc : Thread Cert.KernelIdeal.nD Cert.KernelIdeal.τ).loc Cert.KernelIdeal.main_arg7))
abbrev kx8 : (⟨Cert.ReferenceIdeal.S8, .f32⟩ : BufTy).Contents (Elt Ideal) := (m ((c.tc : Thread Cert.KernelIdeal.nD Cert.KernelIdeal.τ).loc Cert.KernelIdeal.main_arg8))

/-- What the kernel program's host operations leave in the buffers the regions read, in terms of the arguments: the dense adjacency
    entry by entry (for an edge list in range), the padded feature matrix, the weights and biases (the last ones padded), the zero row, and
    the final slice. -/
structure HostFacts : Prop where
  adj : InRange (kx1 m c) → ∀ n j : Fin 10240, aA m c (ix2 n j)
    = (0 : EReal) + ∑ e : Fin 330000,
        if (colNode (kx1 m c) e).val = n.val ∧ (rowNode (kx1 m c) e).val = j.val
        then norm (kx1 m c) (kx2 m c) e else 0
  xpad : ∀ (j : Fin 10240) (hj : j.val < 10000) (k : Fin 256), aX m c (ix2 j k) = kx0 m c (ix2 ⟨j.val, hj⟩ k)
  w1 : ∀ (k : Fin 256) (f : Fin 512), aW1 m c (ix2 k f) = kx3 m c (ix2 k f)
  b1 : ∀ f : Fin 512, aB1 m c (ix2 0 f) = kx4 m c (ix1 f)
  w2 : ∀ (k : Fin 512) (f : Fin 768), aW2 m c (ix2 k f) = kx5 m c (ix2 k f)
  b2 : ∀ f : Fin 768, aB2 m c (ix2 0 f) = kx6 m c (ix1 f)
  w3 : ∀ (k : Fin 768) (f : Fin 128) (hf : f.val < 8), aW3 m c (ix2 k f) = kx7 m c (ix2 k ⟨f.val, hf⟩)
  z : ∀ f : Fin 128, aZ m c (ix2 0 f) = 0
  b3 : ∀ (f : Fin 128) (hf : f.val < 8), aB3 m c (ix2 0 f) = kx8 m c (ix1 ⟨f.val, hf⟩)
  sl : ∀ (n : Fin 10000) (f : Fin 8), aRes m c (ix2 n f) = aOut m c (ix2 ⟨n.val, by omega⟩ ⟨f.val, by omega⟩)

variable {m c}

/-- The kernel program's dense adjacency is the padded dense adjacency of the reference's edge list with the reference's weights. -/
theorem adj_padded (H : HostFacts m c) (hx : InRange (kx1 m c)) (nrm : Fin 330000 → ℝ)
    (hn : ∀ e, norm (kx1 m c) (kx2 m c) e = ((nrm e : ℝ) : EReal)) :
    IsPaddedAdj (rowNode (kx1 m c)) (colNode (kx1 m c)) nrm (by norm_num : 10000 ≤ 10240) (fun n j => aA m c (ix2 n j)) := by
  refine isPaddedAdj_of_zero_add_sum (rowNode (kx1 m c)) (colNode (kx1 m c)) nrm (by norm_num) _ (fun n j => ?_)
  refine (H.adj hx n j).trans (congrArg ((0 : EReal) + ·) (Finset.sum_congr rfl fun e _ => ?_))
  rw [hn e]

/-- The kernel program's result at (n, f), under the precondition's consequences, is the cast of the network. -/
theorem kernel_result (H : HostFacts m c) (hx : InRange (kx1 m c))
    (nrm : Fin 330000 → ℝ) (hn : ∀ e, norm (kx1 m c) (kx2 m c) e = ((nrm e : ℝ) : EReal))
    (xr : Fin 10000 → Fin 256 → ℝ) (h0 : ∀ n k, kx0 m c (ix2 n k) = ((xr n k : ℝ) : EReal))
    (W1 : Fin 256 → Fin 512 → ℝ) (h3 : ∀ k f, kx3 m c (ix2 k f) = ((W1 k f : ℝ) : EReal))
    (b1 : Fin 512 → ℝ) (h4 : ∀ f, kx4 m c (ix1 f) = ((b1 f : ℝ) : EReal))
    (W2 : Fin 512 → Fin 768 → ℝ) (h5 : ∀ k f, kx5 m c (ix2 k f) = ((W2 k f : ℝ) : EReal))
    (b2 : Fin 768 → ℝ) (h6 : ∀ f, kx6 m c (ix1 f) = ((b2 f : ℝ) : EReal))
    (W3 : Fin 768 → Fin 8 → ℝ) (h7 : ∀ k f, kx7 m c (ix2 k f) = ((W3 k f : ℝ) : EReal))
    (b3 : Fin 8 → ℝ) (h8 : ∀ f, kx8 m c (ix1 f) = ((b3 f : ℝ) : EReal))
    (n : Fin 10000) (f : Fin 8) :
    aRes m c (ix2 n f)
      = ((netR (rowNode (kx1 m c)) (colNode (kx1 m c)) nrm xr W1 b1 W2 b2 W3 b3 n f : ℝ) : EReal) :=
  kernel_value m c (rowNode (kx1 m c)) (colNode (kx1 m c)) nrm (adj_padded H hx nrm hn) xr W1 b1 W2 b2 W3 b3
    (fun j hj k => (H.xpad j hj k).trans (h0 _ _))
    (fun k f => (H.w1 k f).trans (h3 k f)) (fun f => (H.b1 f).trans (h4 f))
    (fun k f => (H.w2 k f).trans (h5 k f)) (fun f => (H.b2 f).trans (h6 f))
    (fun k f hf => (H.w3 k f hf).trans (h7 _ _)) H.z
    (fun f hf => (H.b3 f hf).trans (h8 _)) H.sl n f

end Kernel

/-- The claim, from the host operations' facts. -/
theorem algebraic_of (H : ∀ (m : (ℓ : Loc Cert.KernelIdeal.nD Cert.KernelIdeal.τ Cert.KernelIdeal.sig) → Buf (Elt Ideal) ℓ) (c : Dev Cert.KernelIdeal.nD), HostFacts m c) :
    @Cert.algebraic_KernelIdeal_ReferenceIdeal Cert.KernelIdeal.Gen.facts Cert.ReferenceIdeal.Gen.facts Cert.Pre_finite_inputs.Gen.facts := by
  intro m ρ m' ρ' hpre hagree
  refine ⟨fun c => W15 m c Cert.KernelIdeal.main_v63, result_hand (F := Ideal) m ρ, ?_⟩
  refine (θ_run (Cert.ReferenceIdeal.defs (F := Ideal)) _ _).mono (fun r h c => ⟨(h c).1.trans ?_, (h c).2⟩)
    (Cert.ReferenceIdeal.Value.run (F := Ideal) m' ρ')
  obtain ⟨a0, a1, a2, a3, a4, a5, a6, a7, a8⟩ := hagree c
  obtain ⟨hx, -, ⟨nrm, hn⟩, ⟨xr, h0⟩, ⟨W1, h3⟩, ⟨b1, h4⟩, ⟨W2, h5⟩, ⟨b2, h6⟩, ⟨W3, h7⟩, ⟨b3, h8⟩⟩ :=
    hyps_of_pre (kx0 m c) (kx1 m c) (kx2 m c) (kx3 m c) (kx4 m c) (kx5 m c) (kx6 m c) (kx7 m c) (kx8 m c) (hpre c)
  rw [Cert.ReferenceIdeal.Read.val_main_v148_eq, a0, a1, a2, a3, a4, a5, a6, a7, a8]
  funext idx
  have hi := eq_ix2 (n0 := 10000) (n1 := 8) idx
  refine (congrArg (Cert.ReferenceIdeal.Read.val_main_v148 (F := Ideal) (kx0 m c) (kx1 m c) (kx2 m c) (kx3 m c) (kx4 m c) (kx5 m c) (kx6 m c) (kx7 m c) (kx8 m c)) hi).trans ?_
  refine (ref_value (kx0 m c) (kx1 m c) (kx2 m c) (kx3 m c) (kx4 m c) (kx5 m c) (kx6 m c) (kx7 m c) (kx8 m c)
    hx nrm hn xr h0 W1 h3 b1 h4 W2 h5 b2 h6 W3 h7 b3 h8 (idx 0) (idx 1)).trans ?_
  refine (kernel_result (H m c) hx nrm hn xr h0 W1 h3 b1 h4 W2 h5 b2 h6 W3 h7 b3 h8 (idx 0) (idx 1)).symm.trans ?_
  exact (congrArg (aRes m c) hi).symm

end Cert.Proof.Claims

end
-- ==== Proof.KI.Host2.lean ====
/-
  The kernel program's simple host operations, read at an index.

  Before its first kernel region the program pads the node features to 10240 rows and the last weight matrix and bias
  to 128 columns with zero, narrows the features and the weight matrices (the identity on the extended reals), and
  views each bias as a one-row matrix; between the regions it makes a one-row matrix of zeros; after the last region it
  cuts the result's first 10000 rows and 8 columns.  Each stage is first read off its host stretch over an arbitrary
  valuation of the buffers, then followed back to the launch memory, then read at an index.
-/
import proofs.«179401_j66675072303277_2_alg».proof.Proof.Gen.KernelIdeal.Regions
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Run
import Idealize.ShloMosaic.PureOps.Ideal.Laws

noncomputable section

namespace Cert.KernelIdeal.HandHost

open Cert.KernelIdeal Cert.KernelIdeal.Gen
open Idealize.ShloMosaic Idealize.ShloMosaic.TcCoe Idealize.SL.Sem Idealize.ShloMosaic.StableHlo
open Idealize.ShloMosaic.ValueIdx

/-! ## Each stretch over an arbitrary valuation -/

section Stretches
variable (W : Valuation τ sig (Elt Ideal))

/-- The last operation of the long stretch before the first padding writes the integer zero. -/
theorem after2_c11 : @Eq (IVec S_ 32) (StableHlo.after hostOps0_2 W main_c_11) (constantI S_ 32 0#32) := by
  after_results

theorem after3_v48 : @Eq (Vec Ideal S10240x256 .f32) (StableHlo.after hostOps0_3 W main_v48)
    (pad S10240x256 ![0, 0] ![240, 0] ![0, 0] (W main_arg0 : Vec Ideal S10000x256 .f32)
      (sitofp (F := Ideal) (s := S_) .f32 (W main_c_11 : IVec S_ 32)) pads_S10000x256_S10240x256_02400_000 h_S_) := by
  after_results
  rfl

theorem after4_v49 : @Eq (Vec Ideal S10240x256 .bf16) (StableHlo.after hostOps0_4 W main_v49)
    (truncf (F := Ideal) (s := S10240x256) (φ := .f32) .bf16 (W main_v48) bitsLt_bf16_f32) := by
  after_results

theorem after4_v50 : @Eq (Vec Ideal S256x512 .bf16) (StableHlo.after hostOps0_4 W main_v50)
    (truncf (F := Ideal) (s := S256x512) (φ := .f32) .bf16 (W main_arg3) bitsLt_bf16_f32) := by
  after_results

theorem after4_v51 : @Eq (Vec Ideal S512x768 .bf16) (StableHlo.after hostOps0_4 W main_v51)
    (truncf (F := Ideal) (s := S512x768) (φ := .f32) .bf16 (W main_arg5) bitsLt_bf16_f32) := by
  after_results

theorem after4_c12 : @Eq (IVec S_ 32) (StableHlo.after hostOps0_4 W main_c_12) (constantI S_ 32 0#32) := by
  after_results

theorem after5_v52 : @Eq (Vec Ideal S768x128 .f32) (StableHlo.after hostOps0_5 W main_v52)
    (pad S768x128 ![0, 0] ![0, 120] ![0, 0] (W main_arg7 : Vec Ideal S768x8 .f32)
      (sitofp (F := Ideal) (s := S_) .f32 (W main_c_12 : IVec S_ 32)) pads_S768x8_S768x128_000_01200 h_S_) := by
  after_results
  rfl

theorem after6_v53 : @Eq (Vec Ideal S768x128 .bf16) (StableHlo.after hostOps0_6 W main_v53)
    (truncf (F := Ideal) (s := S768x128) (φ := .f32) .bf16 (W main_v52) bitsLt_bf16_f32) := by
  after_results

theorem after6_v54 : @Eq (Vec Ideal S1x512 .f32) (StableHlo.after hostOps0_6 W main_v54)
    (shapeCast S1x512 (W main_arg4 : Vec Ideal S512 .f32) shapeCasts_S512_S1x512) := by
  after_results
  rfl

theorem after6_v55 : @Eq (Vec Ideal S1x768 .f32) (StableHlo.after hostOps0_6 W main_v55)
    (shapeCast S1x768 (W main_arg6 : Vec Ideal S768 .f32) shapeCasts_S768_S1x768) := by
  after_results
  rfl

theorem after6_c13 : @Eq (IVec S_ 32) (StableHlo.after hostOps0_6 W main_c_13) (constantI S_ 32 0#32) := by
  after_results

theorem after7_v56 : @Eq (Vec Ideal S128 .f32) (StableHlo.after hostOps0_7 W main_v56)
    (pad S128 ![0] ![120] ![0] (W main_arg8 : Vec Ideal S8 .f32)
      (sitofp (F := Ideal) (s := S_) .f32 (W main_c_13 : IVec S_ 32)) pads_S8_S128_01200 h_S_) := by
  after_results
  rfl

theorem after8_v57 : @Eq (Vec Ideal S1x128 .f32) (StableHlo.after hostOps0_8 W main_v57)
    (shapeCast S1x128 (W main_v56 : Vec Ideal S128 .f32) shapeCasts_S128_S1x128) := by
  after_results
  rfl

theorem after2h_v60 : @Eq (Vec Ideal S1x128 .f32) (StableHlo.after hostOps2 W main_v60)
    (broadcastInDim S1x128 ![] bcast_S_S1x128 (constant (F := Ideal) S_ .f32 0x00000000#32)) := by
  after_results

theorem after4h_v63 : @Eq (Vec Ideal S10000x8 .f32) (StableHlo.after hostOps4 W main_v63)
    (extractStridedSlice S10000x8 ![0, 0] (W main_v62 : Vec Ideal S10240x128 .f32) slices_S10240x128_S10000x8_0_0) := by
  after_results

end Stretches

/-! ## The arguments keep their launch contents -/

section Values
variable (m : (ℓ : Loc nD τ sig) → Buf (Elt Ideal) ℓ) (c : Dev nD)

theorem V3_arg0 : @Eq (Vec Ideal S10000x256 .f32) (V3 m c main_arg0) (m ((c.tc : Thread nD τ).loc main_arg0)) :=
  (V3_of m c main_arg0 (by decide)).trans ((V2_of m c main_arg0 (by decide)).trans (V1_of m c main_arg0 (by decide)))

theorem V4_arg3 : @Eq (Vec Ideal S256x512 .f32) (V4 m c main_arg3) (m ((c.tc : Thread nD τ).loc main_arg3)) :=
  (V4_of m c main_arg3 (by decide)).trans ((V3_of m c main_arg3 (by decide)).trans
    ((V2_of m c main_arg3 (by decide)).trans (V1_of m c main_arg3 (by decide))))

theorem V4_arg5 : @Eq (Vec Ideal S512x768 .f32) (V4 m c main_arg5) (m ((c.tc : Thread nD τ).loc main_arg5)) :=
  (V4_of m c main_arg5 (by decide)).trans ((V3_of m c main_arg5 (by decide)).trans
    ((V2_of m c main_arg5 (by decide)).trans (V1_of m c main_arg5 (by decide))))

theorem V5_arg7 : @Eq (Vec Ideal S768x8 .f32) (V5 m c main_arg7) (m ((c.tc : Thread nD τ).loc main_arg7)) :=
  (V5_of m c main_arg7 (by decide)).trans ((V4_of m c main_arg7 (by decide)).trans ((V3_of m c main_arg7 (by decide)).trans
    ((V2_of m c main_arg7 (by decide)).trans (V1_of m c main_arg7 (by decide)))))

theorem V6_arg4 : @Eq (Vec Ideal S512 .f32) (V6 m c main_arg4) (m ((c.tc : Thread nD τ).loc main_arg4)) :=
  (V6_of m c main_arg4 (by decide)).trans ((V5_of m c main_arg4 (by decide)).trans ((V4_of m c main_arg4 (by decide)).trans
    ((V3_of m c main_arg4 (by decide)).trans ((V2_of m c main_arg4 (by decide)).trans (V1_of m c main_arg4 (by decide))))))

theorem V6_arg6 : @Eq (Vec Ideal S768 .f32) (V6 m c main_arg6) (m ((c.tc : Thread nD τ).loc main_arg6)) :=
  (V6_of m c main_arg6 (by decide)).trans ((V5_of m c main_arg6 (by decide)).trans ((V4_of m c main_arg6 (by decide)).trans
    ((V3_of m c main_arg6 (by decide)).trans ((V2_of m c main_arg6 (by decide)).trans (V1_of m c main_arg6 (by decide))))))

theorem V7_arg8 : @Eq (Vec Ideal S8 .f32) (V7 m c main_arg8) (m ((c.tc : Thread nD τ).loc main_arg8)) :=
  (V7_of m c main_arg8 (by decide)).trans ((V6_of m c main_arg8 (by decide)).trans ((V5_of m c main_arg8 (by decide)).trans
    ((V4_of m c main_arg8 (by decide)).trans ((V3_of m c main_arg8 (by decide)).trans
      ((V2_of m c main_arg8 (by decide)).trans (V1_of m c main_arg8 (by decide)))))))

/-! ## The padding value -/

/-- The padding value, the integer zero read as a float, is the extended real zero. -/
theorem sitofp_zero (x : IVec S_ 32) (hx : x = constantI S_ 32 0#32) (i : S_.Idx) :
    sitofp (F := Ideal) (s := S_) .f32 x i = (0 : EReal) := by
  subst hx
  show ((((0#32 : BitVec 32).toInt : ℤ) : ℝ) : EReal) = 0
  rw [show (0#32 : BitVec 32).toInt = 0 by decide]
  simp

/-! ## The stages at an index -/

/-- The narrowed first weight matrix is the argument. -/
theorem v50_apply (k : Fin 256) (f : Fin 512) :
    @Eq EReal ((V9 m c main_v50 : Vec Ideal S256x512 .bf16) (ix2 k f))
      ((m ((c.tc : Thread nD τ).loc main_arg3) : Vec Ideal S256x512 .f32) (ix2 k f)) := by
  have e : @Eq (Vec Ideal S256x512 .bf16) (V9 m c main_v50) (V5 m c main_v50) :=
    (V9_of m c main_v50 (by decide)).trans ((V8_of m c main_v50 (by decide)).trans
      ((V7_of m c main_v50 (by decide)).trans (V6_of m c main_v50 (by decide))))
  refine (congrFun e _).trans ((congrFun (after4_v50 (V4 m c)) _).trans ?_)
  exact congrFun (V4_arg3 m c) (ix2 k f)

/-- The narrowed second weight matrix is the argument. -/
theorem v51_apply (k : Fin 512) (f : Fin 768) :
    @Eq EReal ((V9 m c main_v51 : Vec Ideal S512x768 .bf16) (ix2 k f))
      ((m ((c.tc : Thread nD τ).loc main_arg5) : Vec Ideal S512x768 .f32) (ix2 k f)) := by
  have e : @Eq (Vec Ideal S512x768 .bf16) (V9 m c main_v51) (V5 m c main_v51) :=
    (V9_of m c main_v51 (by decide)).trans ((V8_of m c main_v51 (by decide)).trans
      ((V7_of m c main_v51 (by decide)).trans (V6_of m c main_v51 (by decide))))
  refine (congrFun e _).trans ((congrFun (after4_v51 (V4 m c)) _).trans ?_)
  exact congrFun (V4_arg5 m c) (ix2 k f)

/-- The first bias as a one-row matrix. -/
theorem v54_apply (f : Fin 512) :
    @Eq EReal ((V9 m c main_v54 : Vec Ideal S1x512 .f32) (ix2 (0 : Fin 1) f))
      ((m ((c.tc : Thread nD τ).loc main_arg4) : Vec Ideal S512 .f32) (ix1 f)) := by
  have e : @Eq (Vec Ideal S1x512 .f32) (V9 m c main_v54) (V7 m c main_v54) :=
    (V9_of m c main_v54 (by decide)).trans (V8_of m c main_v54 (by decide))
  refine (congrFun e _).trans ((congrFun (after6_v54 (V6 m c)) _).trans ?_)
  refine (shapeCast_apply _ shapeCasts_S512_S1x512 (ix2 (0 : Fin 1) f) (ix1 f) (by
    rewrite [Shape.rowMajor_val_two, Shape.rowMajor_val_one]
    show f.val = 0 * 512 + f.val
    omega)).trans ?_
  exact congrFun (V6_arg4 m c) (ix1 f)

/-- The second bias as a one-row matrix. -/
theorem v55_apply (f : Fin 768) :
    @Eq EReal ((V9 m c main_v55 : Vec Ideal S1x768 .f32) (ix2 (0 : Fin 1) f))
      ((m ((c.tc : Thread nD τ).loc main_arg6) : Vec Ideal S768 .f32) (ix1 f)) := by
  have e : @Eq (Vec Ideal S1x768 .f32) (V9 m c main_v55) (V7 m c main_v55) :=
    (V9_of m c main_v55 (by decide)).trans (V8_of m c main_v55 (by decide))
  refine (congrFun e _).trans ((congrFun (after6_v55 (V6 m c)) _).trans ?_)
  refine (shapeCast_apply _ shapeCasts_S768_S1x768 (ix2 (0 : Fin 1) f) (ix1 f) (by
    rewrite [Shape.rowMajor_val_two, Shape.rowMajor_val_one]
    show f.val = 0 * 768 + f.val
    omega)).trans ?_
  exact congrFun (V6_arg6 m c) (ix1 f)

/-- The one-row matrix of zeros made between the regions. -/
theorem v60_apply (W : Valuation τ sig (Elt Ideal)) (f : Fin 128) :
    @Eq EReal ((StableHlo.after hostOps2 W main_v60 : Vec Ideal S1x128 .f32) (ix2 (0 : Fin 1) f)) 0 := by
  refine (congrFun (after2h_v60 W) _).trans ?_
  refine (broadcastInDim_apply _ bcast_S_S1x128 _ (ix2 (0 : Fin 1) f) ix0 (fun a => a.elim0)).trans ?_
  exact Ideal.ofBits_zero_f32

/-- The result: the first 10000 rows and 8 columns of the last region's output. -/
theorem v63_apply (W : Valuation τ sig (Elt Ideal)) (n : Fin 10000) (f : Fin 8) :
    @Eq EReal ((StableHlo.after hostOps4 W main_v63 : Vec Ideal S10000x8 .f32) (ix2 n f))
      ((W main_v62 : Vec Ideal S10240x128 .f32)
        (ix2 (⟨n.val, by have := n.isLt; omega⟩ : Fin 10240) (⟨f.val, by have := f.isLt; omega⟩ : Fin 128))) := by
  refine (congrFun (after4h_v63 W) _).trans ?_
  exact extractStridedSlice_apply (s := S10240x128) (t := S10000x8) (![0, 0] : Fin 2 → Nat)
    (W main_v62 : Vec Ideal S10240x128 .f32) slices_S10240x128_S10000x8_0_0 (ix2 n f)
    (ix2 (⟨n.val, by have := n.isLt; omega⟩ : Fin 10240) (⟨f.val, by have := f.isLt; omega⟩ : Fin 128))
    (fun a => match a with
      | ⟨0, _⟩ => by show n.val = 0 + n.val; omega
      | ⟨1, _⟩ => by show f.val = 0 + f.val; omega)

/-- The node features padded to 10240 rows and narrowed: the argument's row below row 10000, zero from there on. -/
theorem v49_apply (j : Fin 10240) (k : Fin 256) :
    @Eq EReal ((V9 m c main_v49 : Vec Ideal S10240x256 .bf16) (ix2 j k))
      (if h : j.val < 10000 then (m ((c.tc : Thread nD τ).loc main_arg0) : Vec Ideal S10000x256 .f32) (ix2 ⟨j.val, h⟩ k)
        else 0) := by
  have e : @Eq (Vec Ideal S10240x256 .bf16) (V9 m c main_v49) (V5 m c main_v49) :=
    (V9_of m c main_v49 (by decide)).trans ((V8_of m c main_v49 (by decide)).trans
      ((V7_of m c main_v49 (by decide)).trans (V6_of m c main_v49 (by decide))))
  refine (congrFun e _).trans ((congrFun (after4_v49 (V4 m c)) _).trans ?_)
  show (V4 m c main_v48 : Vec Ideal S10240x256 .f32) (ix2 j k) = _
  refine (congrFun (after3_v48 (V3 m c)) _).trans ?_
  by_cases h : j.val < 10000
  · rw [dif_pos h]
    refine (pad_apply_of_inside (s := S10000x256) (t := S10240x256) (![0, 0] : Fin 2 → Nat) ![240, 0] ![0, 0]
      (V3 m c main_arg0 : Vec Ideal S10000x256 .f32) _ pads_S10000x256_S10240x256_02400_000 h_S_ (ix2 j k)
      (ix2 (⟨j.val, h⟩ : Fin 10000) k) (fun a => match a with
        | ⟨0, _⟩ => by show j.val = 0 + j.val * (0 + 1); omega
        | ⟨1, _⟩ => by show k.val = 0 + k.val * (0 + 1); omega)).trans ?_
    exact congrFun (V3_arg0 m c) _
  · rw [dif_neg h]
    refine (pad_apply_of_not_inside (s := S10000x256) (t := S10240x256) (![0, 0] : Fin 2 → Nat) ![240, 0] ![0, 0]
      (V3 m c main_arg0 : Vec Ideal S10000x256 .f32) _ pads_S10000x256_S10240x256_02400_000 h_S_ (ix2 j k)
      (0 : Fin 2) (fun hh => h (by
        have h3 : (j.val - 0) / (0 + 1) < 10000 := hh.2.2
        omega))).trans ?_
    exact sitofp_zero _ (after2_c11 (V2 m c)) _

/-- The last weight matrix padded to 128 columns and narrowed: the argument's column below column 8, zero from there on. -/
theorem v53_apply (k : Fin 768) (f : Fin 128) :
    @Eq EReal ((V9 m c main_v53 : Vec Ideal S768x128 .bf16) (ix2 k f))
      (if h : f.val < 8 then (m ((c.tc : Thread nD τ).loc main_arg7) : Vec Ideal S768x8 .f32) (ix2 k ⟨f.val, h⟩)
        else 0) := by
  have e : @Eq (Vec Ideal S768x128 .bf16) (V9 m c main_v53) (V7 m c main_v53) :=
    (V9_of m c main_v53 (by decide)).trans (V8_of m c main_v53 (by decide))
  refine (congrFun e _).trans ((congrFun (after6_v53 (V6 m c)) _).trans ?_)
  show (V6 m c main_v52 : Vec Ideal S768x128 .f32) (ix2 k f) = _
  refine (congrFun (after5_v52 (V5 m c)) _).trans ?_
  by_cases h : f.val < 8
  · rw [dif_pos h]
    refine (pad_apply_of_inside (s := S768x8) (t := S768x128) (![0, 0] : Fin 2 → Nat) ![0, 120] ![0, 0]
      (V5 m c main_arg7 : Vec Ideal S768x8 .f32) _ pads_S768x8_S768x128_000_01200 h_S_ (ix2 k f)
      (ix2 k (⟨f.val, h⟩ : Fin 8)) (fun a => match a with
        | ⟨0, _⟩ => by show k.val = 0 + k.val * (0 + 1); omega
        | ⟨1, _⟩ => by show f.val = 0 + f.val * (0 + 1); omega)).trans ?_
    exact congrFun (V5_arg7 m c) _
  · rw [dif_neg h]
    refine (pad_apply_of_not_inside (s := S768x8) (t := S768x128) (![0, 0] : Fin 2 → Nat) ![0, 120] ![0, 0]
      (V5 m c main_arg7 : Vec Ideal S768x8 .f32) _ pads_S768x8_S768x128_000_01200 h_S_ (ix2 k f)
      (1 : Fin 2) (fun hh => h (by
        have h3 : (f.val - 0) / (0 + 1) < 8 := hh.2.2
        omega))).trans ?_
    exact sitofp_zero _ (after4_c12 (V4 m c)) _

/-- The last bias padded to 128 entries, as a one-row matrix: the argument's entry below entry 8, zero from there on. -/
theorem v57_apply (f : Fin 128) :
    @Eq EReal ((V9 m c main_v57 : Vec Ideal S1x128 .f32) (ix2 (0 : Fin 1) f))
      (if h : f.val < 8 then (m ((c.tc : Thread nD τ).loc main_arg8) : Vec Ideal S8 .f32) (ix1 ⟨f.val, h⟩) else 0) := by
  refine (congrFun (after8_v57 (V8 m c)) _).trans ?_
  refine (shapeCast_apply _ shapeCasts_S128_S1x128 (ix2 (0 : Fin 1) f) (ix1 f) (by
    rewrite [Shape.rowMajor_val_two, Shape.rowMajor_val_one]
    show f.val = 0 * 128 + f.val
    omega)).trans ?_
  show (V8 m c main_v56 : Vec Ideal S128 .f32) (ix1 f) = _
  refine (congrFun (after7_v56 (V7 m c)) _).trans ?_
  by_cases h : f.val < 8
  · rw [dif_pos h]
    refine (pad_apply_of_inside (s := S8) (t := S128) (![0] : Fin 1 → Nat) ![120] ![0]
      (V7 m c main_arg8 : Vec Ideal S8 .f32) _ pads_S8_S128_01200 h_S_ (ix1 f)
      (ix1 (⟨f.val, h⟩ : Fin 8)) (fun a => match a with
        | ⟨0, _⟩ => by show f.val = 0 + f.val * (0 + 1); omega)).trans ?_
    exact congrFun (V7_arg8 m c) _
  · rw [dif_neg h]
    refine (pad_apply_of_not_inside (s := S8) (t := S128) (![0] : Fin 1 → Nat) ![120] ![0]
      (V7 m c main_arg8 : Vec Ideal S8 .f32) _ pads_S8_S128_01200 h_S_ (ix1 f)
      (0 : Fin 1) (fun hh => h (by
        have h3 : (f.val - 0) / (0 + 1) < 8 := hh.2.2
        omega))).trans ?_
    exact sitofp_zero _ (after6_c13 (V6 m c)) _

end Values

end Cert.KernelIdeal.HandHost

end
-- ==== Proof.LibScatter2.lean ====
/-
  An accumulating scatter into a matrix along TWO index columns, read at an index.

  `E` pairs of index words sit in the rows of `idx : [E, 2]`: the first word of a row names a row of the matrix,
  the second a column. The accumulating scatter of updates `[E]` into a matrix `[N1, N2]` adds, at `(n, j)`, the
  updates `k` of exactly those pairs whose first word reads `n` and whose second word reads `j`, both signed; a pair
  that names a place outside the matrix contributes nothing. Over the extended reals the result is the operand's entry
  plus that sum, written here as a sum over all `k` of "the update if the pair reads `(n, j)`, else zero".
  Stated for every `N1`, `N2` and `E`.
-/
import Idealize.ShloMosaic.PureOps.Ideal
import Idealize.ShloMosaic.PureOps.Contract
import Idealize.ShloMosaic.Lib.ValueIdx
import proofs.«179401_j66675072303277_2_alg».proof.Proof.LibGraphOps

noncomputable section

namespace Cert.Bridge.Scatter2

open Idealize.ShloMosaic Idealize.ShloMosaic.ValueIdx
open scoped BigOperators

variable {N1 N2 E : ℕ}

/-- The matrix scatter's dimension numbers: no window axis, both operand axes inserted and indexed, the pair of
    words along the second axis of the index array. -/
abbrev scat2 (wf : ScatterDims.WF ⟨2, ![N1, N2]⟩ ⟨2, ![E, 2]⟩ ⟨1, ![E]⟩ [] [0, 1] [0, 1] 1) :
    ScatterDims ⟨2, ![N1, N2]⟩ ⟨2, ![E, 2]⟩ ⟨1, ![E]⟩ := ⟨[], [0, 1], [0, 1], 1, wf⟩

/-! ## Where an update starts and which window coordinate it carries -/

/-- On the row axis the window of update `e` starts at the first word of its pair. -/
theorem scat2_start_0 (wf) {w : ℕ} (e : Fin E) (idx : IVec ⟨2, ![E, 2]⟩ w) :
    (scat2 (N1 := N1) (N2 := N2) (E := E) wf).start (ix1 e) idx (0 : Fin 2) = (idx (ix2 e (0 : Fin 2))).toInt := by
  unfold ScatterDims.start
  rw [dif_pos (show (0 : Fin 2) ∈ (scat2 (N1 := N1) (N2 := N2) (E := E) wf).scatterDimsToOperandDims from
    List.mem_cons_self ..)]
  refine congrArg (fun k => (idx k).toInt) (funext fun b => ?_)
  match b with
  | ⟨0, _⟩ => exact Fin.ext rfl
  | ⟨1, _⟩ => exact Fin.ext rfl

/-- On the column axis it starts at the second word. -/
theorem scat2_start_1 (wf) {w : ℕ} (e : Fin E) (idx : IVec ⟨2, ![E, 2]⟩ w) :
    (scat2 (N1 := N1) (N2 := N2) (E := E) wf).start (ix1 e) idx (1 : Fin 2) = (idx (ix2 e (1 : Fin 2))).toInt := by
  unfold ScatterDims.start
  rw [dif_pos (show (1 : Fin 2) ∈ (scat2 (N1 := N1) (N2 := N2) (E := E) wf).scatterDimsToOperandDims from
    List.mem_cons_of_mem _ (List.mem_singleton.2 rfl))]
  refine congrArg (fun k => (idx k).toInt) (funext fun b => ?_)
  match b with
  | ⟨0, _⟩ => exact Fin.ext rfl
  | ⟨1, _⟩ => exact Fin.ext rfl

/-- There is no window: both axes are inserted. -/
theorem scat2_window (wf) (e : Fin E) (a : Fin 2) :
    (scat2 (N1 := N1) (N2 := N2) (E := E) wf).window (ix1 e) a = 0 := by
  match a with
  | ⟨0, _⟩ => rfl
  | ⟨1, _⟩ => rfl

/-! ## Where an update lands -/

/-- Update `e` lands on place `(n, j)` exactly when its first word reads `n` and its second word reads `j`. -/
theorem scat2_lands (wf) {w : ℕ} (e : Fin E) (idx : IVec ⟨2, ![E, 2]⟩ w) (n : Fin N1) (j : Fin N2) :
    (scat2 (N1 := N1) (N2 := N2) (E := E) wf).resultIdx? (ix1 e) idx = some (ix2 n j)
      ↔ (idx (ix2 e (0 : Fin 2))).toInt = (n.val : ℤ) ∧ (idx (ix2 e (1 : Fin 2))).toInt = (j.val : ℤ) := by
  unfold ScatterDims.resultIdx?
  constructor
  · intro h
    split at h
    · have hv0 := congrArg Fin.val (congrFun (Option.some.inj h) (0 : Fin 2))
      have hv1 := congrArg Fin.val (congrFun (Option.some.inj h) (1 : Fin 2))
      have hv0' : ((scat2 (N1 := N1) (N2 := N2) (E := E) wf).start (ix1 e) idx 0
          + ((scat2 (N1 := N1) (N2 := N2) (E := E) wf).window (ix1 e) 0 : ℤ)).toNat = n.val := hv0
      have hv1' : ((scat2 (N1 := N1) (N2 := N2) (E := E) wf).start (ix1 e) idx 1
          + ((scat2 (N1 := N1) (N2 := N2) (E := E) wf).window (ix1 e) 1 : ℤ)).toNat = j.val := hv1
      rename_i hc
      have h0 := (hc (0 : Fin 2)).1
      have h1 := (hc (1 : Fin 2)).1
      rw [scat2_start_0, scat2_window] at hv0' h0
      rw [scat2_start_1, scat2_window] at hv1' h1
      exact ⟨by omega, by omega⟩
    · exact absurd h (by simp)
  · rintro ⟨h0, h1⟩
    have hc : ∀ a, 0 ≤ (scat2 (N1 := N1) (N2 := N2) (E := E) wf).start (ix1 e) idx a
          + ((scat2 (N1 := N1) (N2 := N2) (E := E) wf).window (ix1 e) a : ℤ) ∧
        (scat2 (N1 := N1) (N2 := N2) (E := E) wf).start (ix1 e) idx a
          + ((scat2 (N1 := N1) (N2 := N2) (E := E) wf).window (ix1 e) a : ℤ)
          < ((⟨2, ![N1, N2]⟩ : Shape).size a : ℤ) := by
      intro a
      match a with
      | ⟨0, _⟩ =>
        show 0 ≤ (scat2 (N1 := N1) (N2 := N2) (E := E) wf).start (ix1 e) idx 0
            + ((scat2 (N1 := N1) (N2 := N2) (E := E) wf).window (ix1 e) 0 : ℤ) ∧
          (scat2 (N1 := N1) (N2 := N2) (E := E) wf).start (ix1 e) idx 0
            + ((scat2 (N1 := N1) (N2 := N2) (E := E) wf).window (ix1 e) 0 : ℤ) < (N1 : ℤ)
        rw [scat2_start_0, scat2_window, h0]
        have := n.isLt
        omega
      | ⟨1, _⟩ =>
        show 0 ≤ (scat2 (N1 := N1) (N2 := N2) (E := E) wf).start (ix1 e) idx 1
            + ((scat2 (N1 := N1) (N2 := N2) (E := E) wf).window (ix1 e) 1 : ℤ) ∧
          (scat2 (N1 := N1) (N2 := N2) (E := E) wf).start (ix1 e) idx 1
            + ((scat2 (N1 := N1) (N2 := N2) (E := E) wf).window (ix1 e) 1 : ℤ) < (N2 : ℤ)
        rw [scat2_start_1, scat2_window, h1]
        have := j.isLt
        omega
    rw [dif_pos hc]
    refine congrArg some (funext fun a => Fin.ext ?_)
    match a with
    | ⟨0, _⟩ =>
      show ((scat2 (N1 := N1) (N2 := N2) (E := E) wf).start (ix1 e) idx 0
        + ((scat2 (N1 := N1) (N2 := N2) (E := E) wf).window (ix1 e) 0 : ℤ)).toNat = n.val
      rw [scat2_start_0, scat2_window, h0]
      omega
    | ⟨1, _⟩ =>
      show ((scat2 (N1 := N1) (N2 := N2) (E := E) wf).start (ix1 e) idx 1
        + ((scat2 (N1 := N1) (N2 := N2) (E := E) wf).window (ix1 e) 1 : ℤ)).toNat = j.val
      rw [scat2_start_1, scat2_window, h1]
      omega

/-! ## The scatter read at an index -/

/-- The matrix scatter at `(n, j)`: the operand's entry plus the updates of the pairs that read `(n, j)`. -/
theorem scatterAdd2_apply (wf) {w : ℕ} (x : (⟨2, ![N1, N2]⟩ : Shape).Idx → EReal) (idx : IVec ⟨2, ![E, 2]⟩ w)
    (upd : (⟨1, ![E]⟩ : Shape).Idx → EReal) (n : Fin N1) (j : Fin N2) :
    Ideal.hostScatterAdd (scat2 (N1 := N1) (N2 := N2) (E := E) wf) x idx upd (ix2 n j)
      = x (ix2 n j) + ∑ k : Fin E,
          if (idx (ix2 k (0 : Fin 2))).toInt = (n.val : ℤ) ∧ (idx (ix2 k (1 : Fin 2))).toInt = (j.val : ℤ)
          then upd (ix1 k) else 0 := by
  unfold Ideal.hostScatterAdd
  rw [Finset.sum_filter, Cert.Bridge.GraphOps.sum_idx1]
  refine congrArg (x (ix2 n j) + ·) (Finset.sum_congr rfl fun k _ => ?_)
  exact if_congr (scat2_lands wf k idx n j) rfl rfl

end Cert.Bridge.Scatter2

end
-- ==== Proof.KI.Host1.lean ====
/-
  The kernel program's host operations before its first region, read at an index: the dense adjacency matrix.

  The program builds a `10240 × 10240` matrix by an accumulating scatter of the edges' normalisation weights at the
  index pairs (target word, source word), each word first moved into range by adding `10240` when it reads negative,
  and converts the matrix's format (the identity over the extended reals).  Read at place `(n, j)` the matrix is zero
  plus the sum of the weights of the edges whose pair reads `(n, j)`.
-/
import proofs.«179401_j66675072303277_2_alg».proof.Proof.Gen.KernelIdeal.Regions
import proofs.«179401_j66675072303277_2_alg».proof.Proof.LibScatter2
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws
import Idealize.ShloMosaic.Lib.StableHlo.Run

noncomputable section

namespace Cert.KernelIdeal.HandHost

open Cert.KernelIdeal Cert.KernelIdeal.Gen
open Idealize.ShloMosaic Idealize.ShloMosaic.TcCoe Idealize.SL.Sem Idealize.ShloMosaic.StableHlo
open Idealize.ShloMosaic.ValueIdx
open scoped BigOperators

/-! # The host operations before the first region, read at an index: the dense adjacency

The 42 operations that build the normalisation weights, the two index columns and the dense matrix are read in three
pieces; each piece is stated from arbitrary buffer contents, and the pieces are chained. -/

/-- Running a list of operations is running a front part and then the rest. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih (op.result V)

/-- The first 20 operations: the normalisation weight of every edge. -/
abbrev opsA : List (HloOp τ sig (Elt Ideal)) := (hostOps0_2 (F := Ideal)).take 20
/-- The next 16: the zero matrix and the two index words of every edge, each moved into range when negative. -/
abbrev opsB1 : List (HloOp τ sig (Elt Ideal)) := ((hostOps0_2 (F := Ideal)).drop 20).take 16
/-- The last 6: the index pairs, the accumulating scatter into the matrix, its conversion. -/
abbrev opsB2 : List (HloOp τ sig (Elt Ideal)) := (hostOps0_2 (F := Ideal)).drop 36

theorem ops_split : (hostOps0_2 (F := Ideal)) = opsA ++ (opsB1 ++ opsB2) := rfl

theorem after_split (W : Valuation τ sig (Elt Ideal)) :
    StableHlo.after (hostOps0_2 (F := Ideal)) W = StableHlo.after opsB2 (StableHlo.after opsB1 (StableHlo.after opsA W)) := by
  rw [ops_split, after_append, after_append]

variable (W : Valuation τ sig (Elt Ideal))

/-- The last piece: the matrix is the scatter of the weights at the pairs (target word, source word). -/
theorem B2_v47 :
    (StableHlo.after opsB2 W (Proc.devRef .tc main_v47) : S10240x10240.Idx → EReal)
      = Host.scatterAdd (F := Ideal) (φ := .f32) scatter_S10240x10240_S330000x2_S330000_n_01_01_1
          (W (Proc.devRef .tc main_v32))
          (concatenate S330000x2 1
            [⟨S330000x1, broadcastInDim S330000x1 ![0] bcast_S330000_S330000x1_0 (W (Proc.devRef .tc main_v37))⟩,
             ⟨S330000x1, broadcastInDim S330000x1 ![0] bcast_S330000_S330000x1_0 (W (Proc.devRef .tc main_v42))⟩]
            concatenates_S330000x1_S330000x1_S330000x2_d1)
          (W (Proc.devRef .tc main_v31)) := by
  simp only [opsB2, hostOps0_2, List.drop_succ_cons, List.drop_zero]
  after_results
  rfl

theorem B2_v31 : StableHlo.after opsB2 W (Proc.devRef .tc main_v31) = W (Proc.devRef .tc main_v31) := by
  simp only [opsB2, hostOps0_2, List.drop_succ_cons, List.drop_zero]
  after_results

/-- The middle piece: the zero matrix. -/
theorem B1_v32 :
    (StableHlo.after opsB1 W (Proc.devRef .tc main_v32) : S10240x10240.Idx → EReal)
      = broadcastInDim S10240x10240 ![] bcast_S_S10240x10240 (constant (F := Ideal) S_ .f32 0x00000000#32) := by
  simp only [opsB1, hostOps0_2, List.drop_succ_cons, List.drop_zero, List.take_succ_cons, List.take_zero]
  after_results

/-- The middle piece: the target words, the matrix's side added to a negative one. -/
theorem B1_v37 :
    (StableHlo.after opsB1 W (Proc.devRef .tc main_v37) : S330000.Idx → BitVec 32)
      = select (cmpi .slt (W (Proc.devRef .tc main_v6) : S330000.Idx → BitVec 32)
            (broadcastInDim S330000 ![] bcast_S_S330000 (constantI S_ 32 0#32)))
          (addi (W (Proc.devRef .tc main_v6) : S330000.Idx → BitVec 32)
            (broadcastInDim S330000 ![] bcast_S_S330000 (constantI S_ 32 10240#32)))
          (W (Proc.devRef .tc main_v6)) := by
  simp only [opsB1, hostOps0_2, List.drop_succ_cons, List.drop_zero, List.take_succ_cons, List.take_zero]
  after_results

/-- The middle piece: the source words, likewise. -/
theorem B1_v42 :
    (StableHlo.after opsB1 W (Proc.devRef .tc main_v42) : S330000.Idx → BitVec 32)
      = select (cmpi .slt (W (Proc.devRef .tc main_v5) : S330000.Idx → BitVec 32)
            (broadcastInDim S330000 ![] bcast_S_S330000 (constantI S_ 32 0#32)))
          (addi (W (Proc.devRef .tc main_v5) : S330000.Idx → BitVec 32)
            (broadcastInDim S330000 ![] bcast_S_S330000 (constantI S_ 32 10240#32)))
          (W (Proc.devRef .tc main_v5)) := by
  simp only [opsB1, hostOps0_2, List.drop_succ_cons, List.drop_zero, List.take_succ_cons, List.take_zero]
  after_results

theorem B1_v31 : StableHlo.after opsB1 W (Proc.devRef .tc main_v31) = W (Proc.devRef .tc main_v31) := by
  simp only [opsB1, hostOps0_2, List.drop_succ_cons, List.drop_zero, List.take_succ_cons, List.take_zero]
  after_results

theorem A_v5 : StableHlo.after opsA W (Proc.devRef .tc main_v5) = W (Proc.devRef .tc main_v5) := by
  simp only [opsA, hostOps0_2, List.take_succ_cons, List.take_zero]
  after_results

theorem A_v6 : StableHlo.after opsA W (Proc.devRef .tc main_v6) = W (Proc.devRef .tc main_v6) := by
  simp only [opsA, hostOps0_2, List.take_succ_cons, List.take_zero]
  after_results

/-- The whole stretch: the matrix from the words and the weights as the stretch itself leaves them. -/
theorem stretch_v47 :
    (StableHlo.after (hostOps0_2 (F := Ideal)) W (Proc.devRef .tc main_v47) : S10240x10240.Idx → EReal)
      = Host.scatterAdd (F := Ideal) (φ := .f32) scatter_S10240x10240_S330000x2_S330000_n_01_01_1
          (broadcastInDim S10240x10240 ![] bcast_S_S10240x10240 (constant (F := Ideal) S_ .f32 0x00000000#32))
          (concatenate S330000x2 1
            [⟨S330000x1, broadcastInDim S330000x1 ![0] bcast_S330000_S330000x1_0
                (select (cmpi .slt (W (Proc.devRef .tc main_v6) : S330000.Idx → BitVec 32)
                    (broadcastInDim S330000 ![] bcast_S_S330000 (constantI S_ 32 0#32)))
                  (addi (W (Proc.devRef .tc main_v6) : S330000.Idx → BitVec 32)
                    (broadcastInDim S330000 ![] bcast_S_S330000 (constantI S_ 32 10240#32)))
                  (W (Proc.devRef .tc main_v6)))⟩,
             ⟨S330000x1, broadcastInDim S330000x1 ![0] bcast_S330000_S330000x1_0
                (select (cmpi .slt (W (Proc.devRef .tc main_v5) : S330000.Idx → BitVec 32)
                    (broadcastInDim S330000 ![] bcast_S_S330000 (constantI S_ 32 0#32)))
                  (addi (W (Proc.devRef .tc main_v5) : S330000.Idx → BitVec 32)
                    (broadcastInDim S330000 ![] bcast_S_S330000 (constantI S_ 32 10240#32)))
                  (W (Proc.devRef .tc main_v5)))⟩]
            concatenates_S330000x1_S330000x1_S330000x2_d1)
          (StableHlo.after (hostOps0_2 (F := Ideal)) W (Proc.devRef .tc main_v31)) := by
  rw [after_split, B2_v47, B2_v31, B1_v32, B1_v37, B1_v42, B1_v31, A_v5, A_v6]

/-! ## The matrix read at a place -/

/-- An index word moved into range: the matrix's side `10240` added when it reads negative. -/
def selWord (w : BitVec 32) : BitVec 32 := Scalar.select (IntOp.cmpi .slt w 0#32) (IntOp.addi w 10240#32) w

/-- The index pairs: the first word of pair `k` is the first column's word `k`. -/
theorem pairs_left (a b : S330000x1.Idx → BitVec 32) (k : Fin 330000) :
    concatenate S330000x2 1 [⟨S330000x1, a⟩, ⟨S330000x1, b⟩] concatenates_S330000x1_S330000x1_S330000x2_d1
      (ix2 k (0 : Fin 2)) = a (ix2 k (0 : Fin 1)) :=
  concatenate_pair_apply_left (1 : Fin S330000x2.rank) a b concatenates_S330000x1_S330000x1_S330000x2_d1
    (ix2 k (0 : Fin 2)) rfl (ix2 k (0 : Fin 1)) (fun bb => match bb with | ⟨0, _⟩ => rfl | ⟨1, _⟩ => rfl)

/-- … and the second word is the second column's word `k`. -/
theorem pairs_right (a b : S330000x1.Idx → BitVec 32) (k : Fin 330000) :
    concatenate S330000x2 1 [⟨S330000x1, a⟩, ⟨S330000x1, b⟩] concatenates_S330000x1_S330000x1_S330000x2_d1
      (ix2 k (1 : Fin 2)) = b (ix2 k (0 : Fin 1)) :=
  concatenate_pair_apply_right (1 : Fin S330000x2.rank) a b concatenates_S330000x1_S330000x1_S330000x2_d1
    (ix2 k (1 : Fin 2)) rfl rfl (ix2 k (0 : Fin 1))
    (fun bb hb => match bb, hb with
      | ⟨0, _⟩, _ => rfl
      | ⟨1, _⟩, hb => absurd rfl hb)
    rfl

/-- A vector as a one-column array, read at `(k, 0)`. -/
theorem column_apply {α : Type} (y : S330000.Idx → α) (k : Fin 330000) :
    broadcastInDim S330000x1 ![0] bcast_S330000_S330000x1_0 y (ix2 k (0 : Fin 1)) = y (ix1 k) :=
  broadcastInDim_apply _ bcast_S330000_S330000x1_0 y (ix2 k (0 : Fin 1)) (ix1 k) (fun a => match a with
    | ⟨0, _⟩ => by show k.val = if (330000 : Nat) = 1 then 0 else k.val; rw [if_neg (by decide)])

/-- A word vector moved into range, read at an index. -/
theorem selVec_apply (x : S330000.Idx → BitVec 32) (i : S330000.Idx) :
    select (cmpi .slt x (broadcastInDim S330000 ![] bcast_S_S330000 (constantI S_ 32 0#32)))
      (addi x (broadcastInDim S330000 ![] bcast_S_S330000 (constantI S_ 32 10240#32))) x i = selWord (x i) := by
  have h0 : broadcastInDim S330000 ![] bcast_S_S330000 (constantI S_ 32 0#32) i = 0#32 :=
    broadcastInDim_apply _ bcast_S_S330000 (constantI S_ 32 0#32) i (fun a => a.elim0) (fun a => a.elim0)
  have h1 : broadcastInDim S330000 ![] bcast_S_S330000 (constantI S_ 32 10240#32) i = 10240#32 :=
    broadcastInDim_apply _ bcast_S_S330000 (constantI S_ 32 10240#32) i (fun a => a.elim0) (fun a => a.elim0)
  show Scalar.select (IntOp.cmpi .slt (x i) (broadcastInDim S330000 ![] bcast_S_S330000 (constantI S_ 32 0#32) i))
    (IntOp.addi (x i) (broadcastInDim S330000 ![] bcast_S_S330000 (constantI S_ 32 10240#32) i)) (x i) = _
  rw [h0, h1]
  rfl

/-- The zero matrix read at a place. -/
theorem zeros_apply (i : S10240x10240.Idx) :
    broadcastInDim S10240x10240 ![] bcast_S_S10240x10240 (constant (F := Ideal) S_ .f32 0x00000000#32) i = (0 : EReal) := by
  rw [broadcastInDim_apply _ bcast_S_S10240x10240 (constant (F := Ideal) S_ .f32 0x00000000#32) i (fun a => a.elim0)
    (fun a => a.elim0)]
  exact Ideal.ofBits_zero_f32

/-- The accumulating scatter of weights `u` at the pairs (`x6` word, `x5` word), each word moved into range, read at
    place `(n, j)`: the weights of the pairs that read `(n, j)`. -/
theorem dense_apply (x6 x5 : S330000.Idx → BitVec 32) (u : S330000.Idx → EReal) (n j : Fin 10240) :
    Host.scatterAdd (F := Ideal) (φ := .f32) scatter_S10240x10240_S330000x2_S330000_n_01_01_1
        (broadcastInDim S10240x10240 ![] bcast_S_S10240x10240 (constant (F := Ideal) S_ .f32 0x00000000#32))
        (concatenate S330000x2 1
          [⟨S330000x1, broadcastInDim S330000x1 ![0] bcast_S330000_S330000x1_0
              (select (cmpi .slt x6 (broadcastInDim S330000 ![] bcast_S_S330000 (constantI S_ 32 0#32)))
                (addi x6 (broadcastInDim S330000 ![] bcast_S_S330000 (constantI S_ 32 10240#32))) x6)⟩,
           ⟨S330000x1, broadcastInDim S330000x1 ![0] bcast_S330000_S330000x1_0
              (select (cmpi .slt x5 (broadcastInDim S330000 ![] bcast_S_S330000 (constantI S_ 32 0#32)))
                (addi x5 (broadcastInDim S330000 ![] bcast_S_S330000 (constantI S_ 32 10240#32))) x5)⟩]
          concatenates_S330000x1_S330000x1_S330000x2_d1)
        u (ix2 n j)
      = (0 : EReal) + ∑ e : Fin 330000,
          if (selWord (x6 (ix1 e))).toInt = (n.val : ℤ) ∧ (selWord (x5 (ix1 e))).toInt = (j.val : ℤ)
          then u (ix1 e) else 0 := by
  refine (Cert.Bridge.Scatter2.scatterAdd2_apply (N1 := 10240) (N2 := 10240) (E := 330000)
    scatter_S10240x10240_S330000x2_S330000_n_01_01_1.wf _ _ u n j).trans ?_
  rw [zeros_apply]
  refine congrArg ((0 : EReal) + ·) (Finset.sum_congr rfl fun e _ => ?_)
  rw [pairs_left, pairs_right, column_apply, column_apply, selVec_apply, selVec_apply]

/-! ## The matrix the first region finds -/

section AtLaunch

variable (m : (ℓ : Loc nD τ sig) → Buf (Elt Ideal) ℓ) (c : Dev nD)

/-- The normalisation weight of edge `e` as the kernel program's host operations leave it. -/
def normK (e : Fin 330000) : EReal := (V3 (F := Ideal) m c main_v31 : S330000.Idx → EReal) (ix1 e)
/-- The target-node word of edge `e` in the kernel program (the edge list's second row, then the self loops). -/
def colWordK (e : Fin 330000) : BitVec 32 := (V1 (F := Ideal) m c main_v6 : S330000.Idx → BitVec 32) (ix1 e)
/-- The source-node word of edge `e` in the kernel program (first row, then the self loops). -/
def rowWordK (e : Fin 330000) : BitVec 32 := (V1 (F := Ideal) m c main_v5 : S330000.Idx → BitVec 32) (ix1 e)

/-- The matrix's buffer is not written again before the first region. -/
theorem V9_v47_eq : V9 (F := Ideal) m c main_v47 = V3 (F := Ideal) m c main_v47 :=
  (V9_of m c main_v47 (by decide)).trans ((V8_of m c main_v47 (by decide)).trans ((V7_of m c main_v47 (by decide)).trans
    ((V6_of m c main_v47 (by decide)).trans ((V5_of m c main_v47 (by decide)).trans (V4_of m c main_v47 (by decide))))))

/-- THE DENSE ADJACENCY, read at place `(n, j)`: zero plus the weights of the edges whose target word, moved into
    range, reads `n` and whose source word, moved into range, reads `j`. -/
theorem V9_v47_apply (n j : Fin 10240) :
    (V9 (F := Ideal) m c main_v47 : S10240x10240.Idx → EReal) (ix2 n j)
      = (0 : EReal) + ∑ e : Fin 330000,
          if (selWord (colWordK m c e)).toInt = (n.val : ℤ) ∧ (selWord (rowWordK m c e)).toInt = (j.val : ℤ)
          then normK m c e else 0 := by
  rw [V9_v47_eq]
  show (StableHlo.after (hostOps0_2 (F := Ideal)) (V2 (F := Ideal) m c) (Proc.devRef .tc main_v47) : S10240x10240.Idx → EReal)
    (ix2 n j) = _
  rw [stretch_v47, dense_apply]
  unfold normK colWordK rowWordK
  rw [← V2_of m c main_v6 (by decide), ← V2_of m c main_v5 (by decide)]

/-- A word that reads non-negative is left alone. -/
theorem selWord_of_nonneg (w : BitVec 32) (h : 0 ≤ w.toInt) : selWord w = w := by
  unfold selWord
  have hn : ¬ IntOp.cmpi .slt w 0#32 = 1#1 := by
    rw [IntOp.cmpi_slt]
    have h0 : (0#32 : BitVec 32).toInt = 0 := by decide
    rw [h0]
    exact not_lt.2 h
  rw [eq_zero_of_ne_one hn, select_zero]

/-- With every word reading in `0 … 9999`, the matrix at `(n, j)` is zero plus the weights of the edges from `j` to `n`. -/
theorem V9_v47_apply_inRange
    (hcol : ∀ e, 0 ≤ (colWordK m c e).toInt ∧ (colWordK m c e).toInt < 10000)
    (hrow : ∀ e, 0 ≤ (rowWordK m c e).toInt ∧ (rowWordK m c e).toInt < 10000) (n j : Fin 10240) :
    (V9 (F := Ideal) m c main_v47 : S10240x10240.Idx → EReal) (ix2 n j)
      = (0 : EReal) + ∑ e : Fin 330000,
          if (colWordK m c e).toInt = (n.val : ℤ) ∧ (rowWordK m c e).toInt = (j.val : ℤ)
          then normK m c e else 0 := by
  rw [V9_v47_apply]
  refine congrArg ((0 : EReal) + ·) (Finset.sum_congr rfl fun e _ => ?_)
  rw [selWord_of_nonneg _ (hcol e).1, selWord_of_nonneg _ (hrow e).1]

end AtLaunch

end Cert.KernelIdeal.HandHost

end
-- ==== Proof.KI.Host3.lean ====
/-
  The kernel program's shared host prefix identified with the reference's, and the dense adjacency in its final form.

  The first host operations of the kernel program are, operation for operation, the reference's: the source and target
  words of every edge (the edge list's rows, then one self loop per node), the edge weights followed by ones, the
  degrees by an accumulating scatter, their inverse square roots where positive, and the normalisation weight of
  every edge.  Each stage of the kernel program is the reference's stage function of the launched edge list and edge
  weights; hence the matrix the first region finds is, at place `(n, j)`, zero plus the sum of the reference's
  normalisation weights of the edges whose target node is `n` and whose source node is `j`.
-/
import proofs.«179401_j66675072303277_2_alg».proof.Proof.KI.Host1
import proofs.«179401_j66675072303277_2_alg».proof.Proof.Ref.Idx

noncomputable section

namespace Cert.KernelIdeal.HandHost

open Cert.KernelIdeal Cert.KernelIdeal.Gen
open Idealize.ShloMosaic Idealize.ShloMosaic.TcCoe Idealize.SL.Sem Idealize.ShloMosaic.StableHlo
open Idealize.ShloMosaic.ValueIdx
open scoped BigOperators

/-! ## The stages from arbitrary buffer contents -/

section Stages

variable (W : Valuation τ sig (Elt Ideal))

/-- The source words are the reference's, of the edge list found in the first argument's buffer. -/
theorem S0_v5 :
    (StableHlo.after (hostOps0 (F := Ideal)) W (Proc.devRef .tc main_v5) : S330000.Idx → BitVec 32)
      = Cert.ReferenceIdeal.Read.val_main_v5 (F := Ideal) (W (Proc.devRef .tc main_arg1)) := by
  after_results
  rfl

/-- The target words, likewise. -/
theorem S0_v6 :
    (StableHlo.after (hostOps0 (F := Ideal)) W (Proc.devRef .tc main_v6) : S330000.Idx → BitVec 32)
      = Cert.ReferenceIdeal.Read.val_main_v6 (F := Ideal) (W (Proc.devRef .tc main_arg1)) := by
  after_results
  rfl

/-- The edge weights followed by the self loops' ones. -/
theorem S0_v8 :
    (StableHlo.after (hostOps0 (F := Ideal)) W (Proc.devRef .tc main_v8) : S330000.Idx → EReal)
      = Cert.ReferenceIdeal.Read.val_main_v8 (F := Ideal) (W (Proc.devRef .tc main_arg2)) := by
  after_results
  rfl

/-- The test "the degree is positive". -/
theorem S0_v13 :
    (StableHlo.after (hostOps0 (F := Ideal)) W (Proc.devRef .tc main_v13) : S10000.Idx → BitVec 1)
      = Cert.ReferenceIdeal.Read.val_main_v13 (F := Ideal) (W (Proc.devRef .tc main_arg1)) (W (Proc.devRef .tc main_arg2)) := by
  after_results
  rfl

/-- The inverse square root of the degree. -/
theorem S0_v14 :
    (StableHlo.after (hostOps0 (F := Ideal)) W (Proc.devRef .tc main_v14) : S10000.Idx → EReal)
      = Cert.ReferenceIdeal.Read.val_main_v14 (F := Ideal) (W (Proc.devRef .tc main_arg1)) (W (Proc.devRef .tc main_arg2)) := by
  after_results
  rfl

/-- The zero the selection falls back to. -/
theorem S0_cst_2 :
    (StableHlo.after (hostOps0 (F := Ideal)) W (Proc.devRef .tc main_cst_2) : S_.Idx → EReal)
      = Cert.ReferenceIdeal.Read.val_main_cst_2 (F := Ideal) := by
  after_results
  rfl

/-- The outlined selection: the inverse square root where the degree is positive, zero elsewhere. -/
theorem S1_v15 :
    (StableHlo.after (hostOps0_1 (F := Ideal)) W (Proc.devRef .tc main_v15) : S10000.Idx → EReal)
      = select (W (Proc.devRef .tc main_v13) : S10000.Idx → BitVec 1) (W (Proc.devRef .tc main_v14) : S10000.Idx → EReal)
          (broadcastInDim S10000 ![] bcast_S_S10000 (id (W (Proc.devRef .tc main_cst_2) : S_.Idx → EReal))) := by
  after_results
  rfl

/-- The normalisation weights: the looked-up value at the source word, times the edge weight, times the looked-up
    value at the target word (each word moved into range by adding `10000` when it reads negative). -/
theorem S2_v31 :
    (StableHlo.after opsA W (Proc.devRef .tc main_v31) : S330000.Idx → EReal)
      = mulf (F := Ideal) (s := S330000) (φ := .f32)
          (mulf (F := Ideal) (s := S330000) (φ := .f32)
            (Host.gather gather_S10000_S330000x1_S330000_n_0_n_n_0_1_1 (W (Proc.devRef .tc main_v15) : S10000.Idx → EReal)
              (broadcastInDim S330000x1 ![0] bcast_S330000_S330000x1_0
                (select (cmpi .slt (W (Proc.devRef .tc main_v5) : S330000.Idx → BitVec 32)
                    (broadcastInDim S330000 ![] bcast_S_S330000 (constantI S_ 32 0#32)))
                  (addi (W (Proc.devRef .tc main_v5) : S330000.Idx → BitVec 32)
                    (broadcastInDim S330000 ![] bcast_S_S330000 (constantI S_ 32 10000#32)))
                  (W (Proc.devRef .tc main_v5)))))
            (W (Proc.devRef .tc main_v8) : S330000.Idx → EReal))
          (Host.gather gather_S10000_S330000x1_S330000_n_0_n_n_0_1_1 (W (Proc.devRef .tc main_v15) : S10000.Idx → EReal)
            (broadcastInDim S330000x1 ![0] bcast_S330000_S330000x1_0
              (select (cmpi .slt (W (Proc.devRef .tc main_v6) : S330000.Idx → BitVec 32)
                  (broadcastInDim S330000 ![] bcast_S_S330000 (constantI S_ 32 0#32)))
                (addi (W (Proc.devRef .tc main_v6) : S330000.Idx → BitVec 32)
                  (broadcastInDim S330000 ![] bcast_S_S330000 (constantI S_ 32 10000#32)))
                (W (Proc.devRef .tc main_v6))))) := by
  simp only [opsA, hostOps0_2, List.take_succ_cons, List.take_zero]
  after_results_simp

end Stages

/-! ## The stages at the launched memory -/

section AtLaunch

variable (m : (ℓ : Loc nD τ sig) → Buf (Elt Ideal) ℓ) (c : Dev nD)

/-- The edge list as launched. -/
abbrev x1K : Cert.RefSide.EdgeIndex := m ((c : Thread nD τ).loc main_arg1)
/-- The edge weights as launched. -/
abbrev x2K : Cert.RefSide.EdgeWeights := m ((c : Thread nD τ).loc main_arg2)

theorem V1_v5 : (V1 (F := Ideal) m c main_v5 : S330000.Idx → BitVec 32)
    = Cert.ReferenceIdeal.Read.val_main_v5 (F := Ideal) (x1K m c) := S0_v5 (V0 m c)
theorem V1_v6 : (V1 (F := Ideal) m c main_v6 : S330000.Idx → BitVec 32)
    = Cert.ReferenceIdeal.Read.val_main_v6 (F := Ideal) (x1K m c) := S0_v6 (V0 m c)
theorem V1_v8 : (V1 (F := Ideal) m c main_v8 : S330000.Idx → EReal)
    = Cert.ReferenceIdeal.Read.val_main_v8 (F := Ideal) (x2K m c) := S0_v8 (V0 m c)
theorem V1_v13 : (V1 (F := Ideal) m c main_v13 : S10000.Idx → BitVec 1)
    = Cert.ReferenceIdeal.Read.val_main_v13 (F := Ideal) (x1K m c) (x2K m c) := S0_v13 (V0 m c)
theorem V1_v14 : (V1 (F := Ideal) m c main_v14 : S10000.Idx → EReal)
    = Cert.ReferenceIdeal.Read.val_main_v14 (F := Ideal) (x1K m c) (x2K m c) := S0_v14 (V0 m c)
theorem V1_cst_2 : (V1 (F := Ideal) m c main_cst_2 : S_.Idx → EReal)
    = Cert.ReferenceIdeal.Read.val_main_cst_2 (F := Ideal) := S0_cst_2 (V0 m c)

/-- The selected inverse square roots are the reference's. -/
theorem V2_v15 : (V2 (F := Ideal) m c main_v15 : S10000.Idx → EReal)
    = Cert.ReferenceIdeal.Read.val_main_v15 (F := Ideal) (x1K m c) (x2K m c) := by
  show (StableHlo.after (hostOps0_1 (F := Ideal)) (V1 (F := Ideal) m c) (Proc.devRef .tc main_v15) : S10000.Idx → EReal) = _
  rw [S1_v15, V1_v13, V1_v14, V1_cst_2]
  rfl

/-- The normalisation weights are the reference's. -/
theorem V3_v31 : (V3 (F := Ideal) m c main_v31 : S330000.Idx → EReal)
    = Cert.ReferenceIdeal.Read.val_main_v31 (F := Ideal) (x1K m c) (x2K m c) := by
  show (StableHlo.after (hostOps0_2 (F := Ideal)) (V2 (F := Ideal) m c) (Proc.devRef .tc main_v31) : S330000.Idx → EReal) = _
  rw [after_split, B2_v31, B1_v31, S2_v31, V2_v15, V2_of m c main_v5 (by decide), V2_of m c main_v6 (by decide),
    V2_of m c main_v8 (by decide), V1_v5, V1_v6, V1_v8]
  rfl

/-- The kernel program's normalisation weight of edge `e` is the reference's. -/
theorem normK_eq (e : Fin 330000) : normK m c e = Cert.RefSide.norm (x1K m c) (x2K m c) e :=
  congrFun (V3_v31 m c) (ix1 e)

/-- The kernel program's target word of edge `e` is the reference's. -/
theorem colWordK_eq (e : Fin 330000) : colWordK m c e = Cert.RefSide.colWord (x1K m c) e :=
  congrFun (V1_v6 m c) (ix1 e)

/-- The kernel program's source word of edge `e` is the reference's (before any selection). -/
theorem rowWordK_eq (e : Fin 330000) : rowWordK m c e = Cert.RefSide.rowWord (x1K m c) e :=
  congrFun (V1_v5 m c) (ix1 e)

/-- THE DENSE ADJACENCY in its final form.  With every entry of the launched edge list reading in `0 … 9999`, the
    matrix the first region finds is, at place `(n, j)`, zero plus the sum of the reference's normalisation weights of
    the edges whose target node is `n` and whose source node is `j`. -/
theorem adjacency_apply (hx : Cert.RefSide.InRange (x1K m c)) (n j : Fin 10240) :
    (V9 (F := Ideal) m c main_v47 : S10240x10240.Idx → EReal) (ix2 n j)
      = (0 : EReal) + ∑ e : Fin 330000,
          if (Cert.RefSide.colNode (x1K m c) e).val = n.val ∧ (Cert.RefSide.rowNode (x1K m c) e).val = j.val
          then Cert.RefSide.norm (x1K m c) (x2K m c) e else 0 := by
  rw [V9_v47_apply_inRange m c
    (fun e => by rw [colWordK_eq]; exact Cert.RefSide.colWord_range hx e)
    (fun e => by rw [rowWordK_eq]; exact Cert.RefSide.rowWord_range hx e)]
  refine congrArg ((0 : EReal) + ·) (Finset.sum_congr rfl fun e _ => ?_)
  rw [normK_eq, colWordK_eq, rowWordK_eq, ← Cert.RefSide.colNode_val hx e, ← Cert.RefSide.rowNode_val hx e]
  exact if_congr (and_congr Nat.cast_inj Nat.cast_inj) rfl rfl

end AtLaunch

end Cert.KernelIdeal.HandHost

end
-- ==== Proof.Bridge.Final.lean ====
/-
  The two idealized programs end with the same result.

  The kernel program's host operations, read at an index, give the facts the comparison rests on: the dense adjacency is the padded
  adjacency of the reference's edge list with the reference's normalisation weights, the feature matrix, the weights and the biases are the
  arguments (padded with zeros where the kernel pads them), the row added by the third region is zero, and the result is the slice of the
  last region's output.
-/
import proofs.«179401_j66675072303277_2_alg».proof.Proof.Bridge.FinalAux
import proofs.«179401_j66675072303277_2_alg».proof.Proof.KI.Host2
import proofs.«179401_j66675072303277_2_alg».proof.Proof.KI.Host3

set_option maxRecDepth 16384

noncomputable section

namespace Cert.Proof.Claims

open Idealize.ShloMosaic Idealize.ShloMosaic.TcCoe Idealize.SL.Sem
open Idealize.ShloMosaic.ValueIdx
open Cert.KernelIdeal.Hand Cert.KernelIdeal.HandVal Cert.KernelIdeal.HandHost Cert.RefSide

/-- The host operations' facts, for every launch memory and core. -/
theorem hostFacts (m : (ℓ : Loc Cert.KernelIdeal.nD Cert.KernelIdeal.τ Cert.KernelIdeal.sig) → Buf (Elt Ideal) ℓ) (c : Dev Cert.KernelIdeal.nD) : HostFacts m c where
  adj := fun hx n j => adjacency_apply m c hx n j
  xpad := fun j hj k => (v49_apply m c j k).trans (dif_pos hj)
  w1 := fun k f => v50_apply m c k f
  b1 := fun f => v54_apply m c f
  w2 := fun k f => v51_apply m c k f
  b2 := fun f => v55_apply m c f
  w3 := fun k f hf => (v53_apply m c k f).trans (dif_pos hf)
  z := fun f => v60_apply (W11 m c) f
  b3 := fun f hf => (v57_apply m c f).trans (dif_pos hf)
  sl := fun n f => v63_apply (W14 m c) n f

/-- THE CLAIM: from memories agreeing on the arguments, under the precondition, both idealized programs run and end with equal results
    and unchanged arguments. -/
theorem algebraic :
    @Cert.algebraic_KernelIdeal_ReferenceIdeal Cert.KernelIdeal.Gen.facts Cert.ReferenceIdeal.Gen.facts Cert.Pre_finite_inputs.Gen.facts :=
  algebraic_of hostFacts

end Cert.Proof.Claims

end
-- ==== Proof.lean ====
/- The claim: a three-layer graph convolution. The kernel builds the dense normalised adjacency A (10240 x 10240, zero outside
   the 10000 x 10000 corner) by a scatter-add of the edge norms d(row)·w·d(col) at (col, row), and computes
   relu((A·x)·W1 + b1), relu((A·h1)·W2 + b2), A·(h2·W3) + b3 in four tiled matrix products, each accumulating A's column blocks
   into a scratch over the second grid axis; the reference gathers the rows (x·W)(row e), scales them by the same norms and
   scatter-adds them at col e. With every index in 0 … 9999 (the added conjunct of the precondition) and finite inputs all
   intermediate values are real, A(n, j) is the sum of the norms of the edges e with col e = n and row e = j, and
   sum_j A(n, j)·(x·W)(j, f) = sum over e with col e = n of norm e · (x·W)(row e, f) by exchanging the two finite sums; the padded rows
   and columns of A are zero, so the padding contributes nothing.
   The two kernel programs' frames come from their run over the four kernel regions (each region's accumulator carried in its
   invariant from grid point to grid point); the reference's frame is its run with the result dropped; the idealization rewrote nothing;
   the equality of the results reads each region's output array back as a function of its operands and joins the dense form with the
   reference's edge-list form over the reals. -/
import proofs.«179401_j66675072303277_2_alg».proof.Defs
import proofs.«179401_j66675072303277_2_alg».proof.Proof.Gen.Kernel
import proofs.«179401_j66675072303277_2_alg».proof.Proof.Gen.KernelIdeal
import proofs.«179401_j66675072303277_2_alg».proof.Proof.Gen.ReferenceIdeal
import proofs.«179401_j66675072303277_2_alg».proof.Proof.Gen.ReferenceIdeal.Run
import proofs.«179401_j66675072303277_2_alg».proof.Proof.Gen.ReferenceIdeal.Read
import proofs.«179401_j66675072303277_2_alg».proof.Proof.Gen.Pre_finite_inputs
import proofs.«179401_j66675072303277_2_alg».proof.Proof.Bridge.FrameClaims
import proofs.«179401_j66675072303277_2_alg».proof.Proof.Bridge.Final
import Idealize.ShloMosaic.Adequacy
import Idealize.ShloMosaic.Init

noncomputable section

namespace Cert.Proof

open Idealize.ShloMosaic Idealize.SL.Sem

/-- The reference is host operations only: its generated run ends with every argument as launched. -/
theorem frame_ri : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Value.run (F := Ideal) m ρ)

/-- The ideal pass rewrote nothing in this kernel. -/
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  Claims.frame_k, Claims.frame_ki, frame_ri, preserves, Claims.algebraic⟩

end Cert.Proof

end
